-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18_0) = v0 c
          ∧ r.2.mem ((c.tc : Thread Cert.ReferenceIdeal.nD Cert.ReferenceIdeal.τ).loc Cert.ReferenceIdeal.main_v18_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x6x10178 : Shape := ⟨4, ![128, 1, 6, 10178]⟩
abbrev S3x384x240 : Shape := ⟨3, ![3, 384, 240]⟩
abbrev S384x1 : Shape := ⟨2, ![384, 1]⟩
abbrev S64x64 : Shape := ⟨2, ![64, 64]⟩
abbrev S64x1 : Shape := ⟨2, ![64, 1]⟩
abbrev S32x32 : Shape := ⟨2, ![32, 32]⟩
abbrev S32x1 : Shape := ⟨2, ![32, 1]⟩
abbrev S81x27 : Shape := ⟨2, ![81, 27]⟩
abbrev S2592x32 : Shape := ⟨2, ![2592, 32]⟩
abbrev S1x32 : Shape := ⟨2, ![1, 32]⟩
abbrev S128x10 : Shape := ⟨2, ![128, 10]⟩
abbrev S1x10 : Shape := ⟨2, ![1, 10]⟩
abbrev S_ : Shape := ⟨0, ![]⟩

class Facts : Prop where
  bcast_S_S128x1x6x10178 : S_.BroadcastsInDim S128x1x6x10178 (![] : Fin 0 → Fin S128x1x6x10178.rank)
  reducesTo_S128x1x6x10178_S_d0_1_2_3 : S128x1x6x10178.ReducesTo [0, 1, 2, 3] S_
  h_S_ : 0 < S_.numel
  bcast_S_S3x384x240 : S_.BroadcastsInDim S3x384x240 (![] : Fin 0 → Fin S3x384x240.rank)
  reducesTo_S3x384x240_S_d0_1_2 : S3x384x240.ReducesTo [0, 1, 2] S_
  bcast_S_S384x1 : S_.BroadcastsInDim S384x1 (![] : Fin 0 → Fin S384x1.rank)
  reducesTo_S384x1_S_d0_1 : S384x1.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S81x27 : S_.BroadcastsInDim S81x27 (![] : Fin 0 → Fin S81x27.rank)
  reducesTo_S81x27_S_d0_1 : S81x27.ReducesTo [0, 1] S_
  bcast_S_S2592x32 : S_.BroadcastsInDim S2592x32 (![] : Fin 0 → Fin S2592x32.rank)
  reducesTo_S2592x32_S_d0_1 : S2592x32.ReducesTo [0, 1] S_
  bcast_S_S1x32 : S_.BroadcastsInDim S1x32 (![] : Fin 0 → Fin S1x32.rank)
  reducesTo_S1x32_S_d0_1 : S1x32.ReducesTo [0, 1] S_
  bcast_S_S128x10 : S_.BroadcastsInDim S128x10 (![] : Fin 0 → Fin S128x10.rank)
  reducesTo_S128x10_S_d0_1 : S128x10.ReducesTo [0, 1] S_
  bcast_S_S1x10 : S_.BroadcastsInDim S1x10 (![] : Fin 0 → Fin S1x10.rank)
  reducesTo_S1x10_S_d0_1 : S1x10.ReducesTo [0, 1] S_

variable [Facts]

def fn_part4 {F : FTy → Type} [FloatOps F] (main_arg14 : FVec F S128x10 .f32) (main_arg15 : FVec F S1x10 .f32) (main_v63 : IVec S_ 1) (main_v67 : IVec S_ 1) : IVec S_ 1 :=
  let main_v68 : IVec S_ 1 := andi main_v63 main_v67
  let main_v69 : FVec F S128x10 .f32 := Host.absf main_arg14
  let main_cst_26 : FVec F S_ .f32 := constant S_ .f32 0x7F800000#32
  let main_v70 : FVec F S128x10 .f32 := broadcastInDim S128x10 ![] bcast_S_S128x10 main_cst_26
  let main_v71 : IVec S128x10 1 := cmpf .olt main_v69 main_v70
  let main_c_27 : IVec S_ 1 := constantI S_ 1 1#1
  let main_v72 : IVec S_ 1 := (fun x v => Host.reduce IntOp.andi x v reducesTo_S128x10_S_d0_1 h_S_) main_v71 main_c_27
  let main_v73 : IVec S_ 1 := andi main_v68 main_v72
  let main_v74 : FVec F S1x10 .f32 := Host.absf main_arg15
  let main_cst_28 : FVec F S_ .f32 := constant S_ .f32 0x7F800000#32
  let main_v75 : FVec F S1x10 .f32 := broadcastInDim S1x10 ![] bcast_S_S1x10 main_cst_28
  let main_v76 : IVec S1x10 1 := cmpf .olt main_v74 main_v75
  let main_c_29 : IVec S_ 1 := constantI S_ 1 1#1
  let main_v77 : IVec S_ 1 := (fun x v => Host.reduce IntOp.andi x v reducesTo_S1x10_S_d0_1 h_S_) main_v76 main_c_29
  let main_v78 : IVec S_ 1 := andi main_v73 main_v77
  main_v78

def fn_part3 {F : FTy → Type} [FloatOps F] (main_arg11 : FVec F S1x32 .f32) (main_arg12 : FVec F S2592x32 .f32) (main_arg13 : FVec F S1x32 .f32) (main_arg14 : FVec F S128x10 .f32) (main_arg15 : FVec F S1x10 .f32) (main_v48 : IVec S_ 1) (main_v49 : FVec F S2592x32 .f32) (main_v50 : FVec F S2592x32 .f32) : IVec S_ 1 :=
  let main_v51 : IVec S2592x32 1 := cmpf .olt main_v49 main_v50
  let main_c_19 : IVec S_ 1 := constantI S_ 1 1#1
  let main_v52 : IVec S_ 1 := (fun x v => Host.reduce IntOp.andi x v reducesTo_S2592x32_S_d0_1 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S2592x32 .f32 := Host.absf main_arg12
  let main_cst_22 : FVec F S_ .f32 := constant S_ .f32 0x7F800000#32
  let main_v60 : FVec F S2592x32 .f32 := broadcastInDim S2592x32 ![] bcast_S_S2592x32 main_cst_22
  let main_v61 : IVec S2592x32 1 := cmpf .olt main_v59 main_v60
  let main_c_23 : IVec S_ 1 := constantI S_ 1 1#1
  let main_v62 : IVec S_ 1 := (fun x v => Host.reduce IntOp.andi x v reducesTo_S2592x32_S_d0_1 h_S_) main_v61 main_c_23
  let main_v63 : IVec S_ 1 := andi main_v58 main_v62
  let main_v64 : FVec F S1x32 .f32 := Host.absf main_arg13
  let main_cst_24 : FVec F S_ .f32 := constant S_ .f32 0x7F800000#32
  let main_v65 : FVec F S1x32 .f32 := broadcastInDim S1x32 ![] bcast_S_S1x32 main_cst_24
  let main_v66 : IVec S1x32 1 := cmpf .olt main_v64 main_v65
  let main_c_25 : IVec S_ 1 := constantI S_ 1 1#1
  let main_v67 : IVec S_ 1 := (fun x v => Host.reduce IntOp.andi x v reducesTo_S1x32_S_d0_1 h_S_) main_v66 main_c_25
  fn_part4 (F := F) main_arg14 main_arg15 main_v63 main_v67

def fn_part2 {F : FTy → Type} [FloatOps F] (main_arg7 : FVec F S32x1 .f32) (main_arg8 : FVec F S81x27 .f32) (main_arg9 : FVec F S81x27 .f32) (main_arg10 : FVec F S2592x32 .f32) (main_arg11 : FVec F S1x32 .f32) (main_arg12 : FVec F S2592x32 .f32) (main_arg13 : FVec F S1x32 .f32) (main_arg14 : FVec F S128x10 .f32) (main_arg15 : FVec F S1x10 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S81x27 .f32 := Host.absf main_arg8
  let main_cst_14 : FVec F S_ .f32 := constant S_ .f32 0x7F800000#32
  let main_v40 : FVec F S81x27 .f32 := broadcastInDim S81x27 ![] bcast_S_S81x27 main_cst_14
  let main_v41 : IVec S81x27 1 := cmpf .olt main_v39 main_v40
  let main_c_15 : IVec S_ 1 := constantI S_ 1 1#1
  let main_v42 : IVec S_ 1 := (fun x v => Host.reduce IntOp.andi x v reducesTo_S81x27_S_d0_1 h_S_) main_v41 main_c_15
  let main_v43 : IVec S_ 1 := andi main_v38 main_v42
  let main_v44 : FVec F S81x27 .f32 := Host.absf main_arg9
  let main_cst_16 : FVec F S_ .f32 := constant S_ .f32 0x7F800000#32
  let main_v45 : FVec F S81x27 .f32 := broadcastInDim S81x27 ![] bcast_S_S81x27 main_cst_16
  let main_v46 : IVec S81x27 1 := cmpf .olt main_v44 main_v45
  let main_c_17 : IVec S_ 1 := constantI S_ 1 1#1
  let main_v47 : IVec S_ 1 := (fun x v => Host.reduce IntOp.andi x v reducesTo_S81x27_S_d0_1 h_S_) main_v46 main_c_17
  let main_v48 : IVec S_ 1 := andi main_v43 main_v47
  let main_v49 : FVec F S2592x32 .f32 := Host.absf main_arg10
  let main_cst_18 : FVec F S_ .f32 := constant S_ .f32 0x7F800000#32
  let main_v50 : FVec F S2592x32 .f32 := broadcastInDim S2592x32 ![] bcast_S_S2592x32 main_cst_18
  fn_part3 (F := F) main_arg11 main_arg12 main_arg13 main_arg14 main_arg15 main_v48 main_v49 main_v50

def fn_part1 {F : FTy → Type} [FloatOps F] (main_arg4 : FVec F S64x1 .f32) (main_arg5 : FVec F S32x32 .f32) (main_arg6 : FVec F S32x32 .f32) (main_arg7 : FVec F S32x1 .f32) (main_arg8 : FVec F S81x27 .f32) (main_arg9 : FVec F S81x27 .f32) (main_arg10 : FVec F S2592x32 .f32) (main_arg11 : FVec F S1x32 .f32) (main_arg12 : FVec F S2592x32 .f32) (main_arg13 : FVec F S1x32 .f32) (main_arg14 : FVec F S128x10 .f32) (main_arg15 : FVec F S1x10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S128x1x6x10178 .f32) (main_arg1 : FVec F S3x384x240 .f32) (main_arg2 : FVec F S384x1 .f32) (main_arg3 : FVec F S64x64 .f32) (main_arg4 : FVec F S64x1 .f32) (main_arg5 : FVec F S32x32 .f32) (main_arg6 : FVec F S32x32 .f32) (main_arg7 : FVec F S32x1 .f32) (main_arg8 : FVec F S81x27 .f32) (main_arg9 : FVec F S81x27 .f32) (main_arg10 : FVec F S2592x32 .f32) (main_arg11 : FVec F S1x32 .f32) (main_arg12 : FVec F S2592x32 .f32) (main_arg13 : FVec F S1x32 .f32) (main_arg14 : FVec F S128x10 .f32) (main_arg15 : FVec F S1x10 .f32) : IVec S_ 1 :=
  let main_v0 : FVec F S128x1x6x10178 .f32 := Host.absf main_arg0
  let main_cst : FVec F S_ .f32 := constant S_ .f32 0x7F800000#32
  let main_v1 : FVec F S128x1x6x10178 .f32 := broadcastInDim S128x1x6x10178 ![] bcast_S_S128x1x6x10178 main_cst
  let main_v2 : IVec S128x1x6x10178 1 := cmpf .olt main_v0 main_v1
  let main_c : IVec S_ 1 := constantI S_ 1 1#1
  let main_v3 : IVec S_ 1 := (fun x v => Host.reduce IntOp.andi x v reducesTo_S128x1x6x10178_S_d0_1_2_3 h_S_) main_v2 main_c
  let main_v4 : FVec F S3x384x240 .f32 := Host.absf main_arg1
  let main_cst_0 : FVec F S_ .f32 := constant S_ .f32 0x7F800000#32
  let main_v5 : FVec F S3x384x240 .f32 := broadcastInDim S3x384x240 ![] bcast_S_S3x384x240 main_cst_0
  let main_v6 : IVec S3x384x240 1 := cmpf .olt main_v4 main_v5
  let main_c_1 : IVec S_ 1 := constantI S_ 1 1#1
  let main_v7 : IVec S_ 1 := (fun x v => Host.reduce IntOp.andi x v reducesTo_S3x384x240_S_d0_1_2 h_S_) main_v6 main_c_1
  let main_v8 : IVec S_ 1 := andi main_v3 main_v7
  let main_v9 : FVec F S384x1 .f32 := Host.absf main_arg2
  let main_cst_2 : FVec F S_ .f32 := constant S_ .f32 0x7F800000#32
  let main_v10 : FVec F S384x1 .f32 := broadcastInDim S384x1 ![] bcast_S_S384x1 main_cst_2
  let main_v11 : IVec S384x1 1 := cmpf .olt main_v9 main_v10
  let main_c_3 : IVec S_ 1 := constantI S_ 1 1#1
  let main_v12 : IVec S_ 1 := (fun x v => Host.reduce IntOp.andi x v reducesTo_S384x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S128x1x6x10178 : Shape := ⟨4, ![128, 1, 6, 10178]⟩
abbrev S3x384x240 : Shape := ⟨3, ![3, 384, 240]⟩
abbrev S384x1 : Shape := ⟨2, ![384, 1]⟩
abbrev S64x64 : Shape := ⟨2, ![64, 64]⟩
abbrev S64x1 : Shape := ⟨2, ![64, 1]⟩
abbrev S32x32 : Shape := ⟨2, ![32, 32]⟩
abbrev S32x1 : Shape := ⟨2, ![32, 1]⟩
abbrev S81x27 : Shape := ⟨2, ![81, 27]⟩
abbrev S2592x32 : Shape := ⟨2, ![2592, 32]⟩
abbrev S1x32 : Shape := ⟨2, ![1, 32]⟩
abbrev S128x10 : Shape := ⟨2, ![128, 10]⟩
abbrev S1x10 : Shape := ⟨2, ![1, 10]⟩
abbrev S128x6x10178 : Shape := ⟨3, ![128, 6, 10178]⟩
abbrev S_ : Shape := ⟨0, ![]⟩
abbrev S128x6x10920 : Shape := ⟨3, ![128, 6, 10920]⟩
abbrev S128x6x91x120 : Shape := ⟨4, ![128, 6, 91, 120]⟩
abbrev S1x384x240 : Shape := ⟨3, ![1, 384, 240]⟩
abbrev S384x240 : Shape := ⟨2, ![384, 240]⟩
abbrev S384x120 : Shape := ⟨2, ![384, 120]⟩
abbrev S384x720 : Shape := ⟨2, ![384, 720]⟩
abbrev S720x384 : Shape := ⟨2, ![720, 384]⟩
abbrev S1x384 : Shape := ⟨2, ![1, 384]⟩
abbrev S1x64 : Shape := ⟨2, ![1, 64]⟩
abbrev S27x81 : Shape := ⟨2, ![27, 81]⟩
abbrev S384x81x32 : Shape := ⟨3, ![384, 81, 32]⟩
abbrev S384x27x32 : Shape := ⟨3, ![384, 27, 32]⟩
abbrev S4x2x91x120 : Shape := ⟨4, ![4, 2, 91, 120]⟩
abbrev S4x81x32 : Shape := ⟨3, ![4, 81, 32]⟩
abbrev S4x27x32 : Shape := ⟨3, ![4, 27, 32]⟩
abbrev S1x2x91x120 : Shape := ⟨4, ![1, 2, 91, 120]⟩
abbrev S2x91x120 : Shape := ⟨3, ![2, 91, 120]⟩
abbrev S1x91x120 : Shape := ⟨3, ![1, 91, 120]⟩
abbrev S91x120 : Shape := ⟨2, ![91, 120]⟩
abbrev S89x120 : Shape := ⟨2, ![89, 120]⟩
abbrev S89x720 : Shape := ⟨2, ![89, 720]⟩
abbrev S89x384 : Shape := ⟨2, ![89, 384]⟩
abbrev S88x368 : Shape := ⟨2, ![88, 368]⟩
abbrev S88x16 : Shape := ⟨2, ![88, 16]⟩
abbrev S88x384 : Shape := ⟨2, ![88, 384]⟩
abbrev S87x352 : Shape := ⟨2, ![87, 352]⟩
abbrev S87x32 : Shape := ⟨2, ![87, 32]⟩
abbrev S87x384 : Shape := ⟨2, ![87, 384]⟩
abbrev S86x320 : Shape := ⟨2, ![86, 320]⟩
abbrev S86x64 : Shape := ⟨2, ![86, 64]⟩
abbrev S86x384 : Shape := ⟨2, ![86, 384]⟩
abbrev S85x256 : Shape := ⟨2, ![85, 256]⟩
abbrev S85x128 : Shape := ⟨2, ![85, 128]⟩
abbrev S85x384 : Shape := ⟨2, ![85, 384]⟩
abbrev S84x128 : Shape := ⟨2, ![84, 128]⟩
abbrev S84x256 : Shape := ⟨2, ![84, 256]⟩
abbrev S84x384 : Shape := ⟨2, ![84, 384]⟩
abbrev S82x256 : Shape := ⟨2, ![82, 256]⟩
abbrev S82x128 : Shape := ⟨2, ![82, 128]⟩
abbrev S82x384 : Shape := ⟨2, ![82, 384]⟩
abbrev S82x16 : Shape := ⟨2, ![82, 16]⟩
abbrev S82x64 : Shape := ⟨2, ![82, 64]⟩
abbrev S81x32 : Shape := ⟨2, ![81, 32]⟩
abbrev S1x81x32 : Shape := ⟨3, ![1, 81, 32]⟩
abbrev S27x32 : Shape := ⟨2, ![27, 32]⟩
abbrev S1x27x32 : Shape := ⟨3, ![1, 27, 32]⟩
abbrev S384x2592 : Shape := ⟨2, ![384, 2592]⟩
abbrev S3x128x864 : Shape := ⟨3, ![3, 128, 864]⟩
abbrev S128x3x864 : Shape := ⟨3, ![128, 3, 864]⟩
abbrev S128x2592 : Shape := ⟨2, ![128, 2592]⟩
abbrev S32x81x32 : Shape := ⟨3, ![32, 81, 32]⟩
abbrev S81x32x32 : Shape := ⟨3, ![81, 32, 32]⟩
abbrev S32x3x27x32 : Shape := ⟨4, ![32, 3, 27, 32]⟩
abbrev S3x27x32x32 : Shape := ⟨4, ![3, 27, 32, 32]⟩
abbrev S128x128 : Shape := ⟨2, ![128, 128]⟩
abbrev S384x32 : Shape := ⟨2, ![384, 32]⟩
abbrev S128x32 : Shape := ⟨2, ![128, 32]⟩

abbrev nBuf : Space → Nat
  | .hbm => 73
  | .vmem => 25
  | .smem => 0
  | _ => 0

abbrev bufTy : (tb : Table) → Fin (tcTables nBuf tb) → BufTy
  | .hbm, ⟨0, _⟩ => ⟨S128x1x6x10178, .f32⟩
  | .hbm, ⟨1, _⟩ => ⟨S3x384x240, .f32⟩
  | .hbm, ⟨2, _⟩ => ⟨S384x1, .f32⟩
  | .hbm, ⟨3, _⟩ => ⟨S64x64, .f32⟩
  | .hbm, ⟨4, _⟩ => ⟨S64x1, .f32⟩
  | .hbm, ⟨5, _⟩ => ⟨S32x32, .f32⟩
  | .hbm, ⟨6, _⟩ => ⟨S32x32, .f32⟩
  | .hbm, ⟨7, _⟩ => ⟨S32x1, .f32⟩
  | .hbm, ⟨8, _⟩ => ⟨S81x27, .f32⟩
  | .hbm, ⟨9, _⟩ => ⟨S81x27, .f32⟩
  | .hbm, ⟨10, _⟩ => ⟨S2592x32, .f32⟩
  | .hbm, ⟨11, _⟩ => ⟨S1x32, .f32⟩
  | .hbm, ⟨12, _⟩ => ⟨S2592x32, .f32⟩
  | .hbm, ⟨13, _⟩ => ⟨S1x32, .f32⟩
  | .hbm, ⟨14, _⟩ => ⟨S128x10, .f32⟩
  | .hbm, ⟨15, _⟩ => ⟨S1x10, .f32⟩
  | .hbm, ⟨16, _⟩ => ⟨S128x6x10178, .f32⟩
  | .hbm, ⟨17, _⟩ => ⟨S128x6x10178, .bf16⟩
  | .hbm, ⟨18, _⟩ => ⟨S_, .i32⟩
  | .hbm, ⟨19, _⟩ => ⟨S_, .bf16⟩
  | .hbm, ⟨20, _⟩ => ⟨S128x6x10920, .bf16⟩
  | .hbm, ⟨21, _⟩ => ⟨S128x6x91x120, .bf16⟩
  | .hbm, ⟨22, _⟩ => ⟨S1x384x240, .f32⟩
  | .hbm, ⟨23, _⟩ => ⟨S384x240, .f32⟩
  | .hbm, ⟨24, _⟩ => ⟨S384x120, .f32⟩
  | .hbm, ⟨25, _⟩ => ⟨S1x384x240, .f32⟩
  | .hbm, ⟨26, _⟩ => ⟨S384x240, .f32⟩
  | .hbm, ⟨27, _⟩ => ⟨S384x120, .f32⟩
  | .hbm, ⟨28, _⟩ => ⟨S1x384x240, .f32⟩
  | .hbm, ⟨29, _⟩ => ⟨S384x240, .f32⟩
  | .hbm, ⟨30, _⟩ => ⟨S384x120, .f32⟩
  | .hbm, ⟨31, _⟩ => ⟨S1x384x240, .f32⟩
  | .hbm, ⟨32, _⟩ => ⟨S384x240, .f32⟩
  | .hbm, ⟨33, _⟩ => ⟨S384x120, .f32⟩
  | .hbm, ⟨34, _⟩ => ⟨S1x384x240, .f32⟩
  | .hbm, ⟨35, _⟩ => ⟨S384x240, .f32⟩
  | .hbm, ⟨36, _⟩ => ⟨S384x120, .f32⟩
  | .hbm, ⟨37, _⟩ => ⟨S1x384x240, .f32⟩
  | .hbm, ⟨38, _⟩ => ⟨S384x240, .f32⟩
  | .hbm, ⟨39, _⟩ => ⟨S384x120, .f32⟩
  | .hbm, ⟨40, _⟩ => ⟨S384x720, .f32⟩
  | .hbm, ⟨41, _⟩ => ⟨S720x384, .f32⟩
  | .hbm, ⟨42, _⟩ => ⟨S720x384, .bf16⟩
  | .hbm, ⟨43, _⟩ => ⟨S1x384, .f32⟩
  | .hbm, ⟨44, _⟩ => ⟨S64x64, .f32⟩
  | .hbm, ⟨45, _⟩ => ⟨S64x64, .bf16⟩
  | .hbm, ⟨46, _⟩ => ⟨S1x64, .f32⟩
  | .hbm, ⟨47, _⟩ => ⟨S32x32, .f32⟩
  | .hbm, ⟨48, _⟩ => ⟨S32x32, .bf16⟩
  | .hbm, ⟨49, _⟩ => ⟨S32x32, .f32⟩
  | .hbm, ⟨50, _⟩ => ⟨S32x32, .bf16⟩
  | .hbm, ⟨51, _⟩ => ⟨S27x81, .f32⟩
  | .hbm, ⟨52, _⟩ => ⟨S27x81, .bf16⟩
  | .hbm, ⟨53, _⟩ => ⟨S27x81, .f32⟩
  | .hbm, ⟨54, _⟩ => ⟨S27x81, .bf16⟩
  | .hbm, ⟨55, _⟩ => ⟨S1x32, .f32⟩
  | .hbm, ⟨56, _⟩ => ⟨S384x81x32, .bf16⟩
  | .hbm, ⟨57, _⟩ => ⟨S384x27x32, .bf16⟩
  | .hbm, ⟨58, _⟩ => ⟨S384x2592, .bf16⟩
  | .hbm, ⟨59, _⟩ => ⟨S3x128x864, .bf16⟩
  | .hbm, ⟨60, _⟩ => ⟨S128x3x864, .bf16⟩
  | .hbm, ⟨61, _⟩ => ⟨S128x2592, .bf16⟩
  | .hbm, ⟨62, _⟩ => ⟨S32x81x32, .f32⟩
  | .hbm, ⟨63, _⟩ => ⟨S81x32x32, .f32⟩
  | .hbm, ⟨64, _⟩ => ⟨S2592x32, .f32⟩
  | .hbm, ⟨65, _⟩ => ⟨S32x3x27x32, .f32⟩
  | .hbm, ⟨66, _⟩ => ⟨S3x27x32x32, .f32⟩
  | .hbm, ⟨67, _⟩ => ⟨S2592x32, .f32⟩
  | .hbm, ⟨68, _⟩ => ⟨S2592x32, .bf16⟩
  | .hbm, ⟨69, _⟩ => ⟨S2592x32, .bf16⟩
  | .hbm, ⟨70, _⟩ => ⟨S128x10, .bf16⟩
  | .hbm, ⟨71, _⟩ => ⟨S128x10, .f32⟩
  | .hbm, ⟨72, _⟩ => ⟨S128x128, .f32⟩
  | .local _ .vmem, ⟨0, _⟩ => ⟨S4x2x91x120, .bf16⟩
  | .local _ .vmem, ⟨1, _⟩ => ⟨S4x2x91x120, .bf16⟩
  | .local _ .vmem, ⟨2, _⟩ => ⟨S720x384, .bf16⟩
  | .local _ .vmem, ⟨3, _⟩ => ⟨S1x384, .f32⟩
  | .local _ .vmem, ⟨4, _⟩ => ⟨S64x64, .bf16⟩
  | .local _ .vmem, ⟨5, _⟩ => ⟨S1x64, .f32⟩
  | .local _ .vmem, ⟨6, _⟩ => ⟨S32x32, .bf16⟩
  | .local _ .vmem, ⟨7, _⟩ => ⟨S32x32, .bf16⟩
  | .local _ .vmem, ⟨8, _⟩ => ⟨S1x32, .f32⟩
  | .local _ .vmem, ⟨9, _⟩ => ⟨S27x81, .bf16⟩
  | .local _ .vmem, ⟨10, _⟩ => ⟨S27x81, .bf16⟩
  | .local _ .vmem, ⟨11, _⟩ => ⟨S4x81x32, .bf16⟩
  | .local _ .vmem, ⟨12, _⟩ => ⟨S4x81x32, .bf16⟩
  | .local _ .vmem, ⟨13, _⟩ => ⟨S4x27x32, .bf16⟩
  | .local _ .vmem, ⟨14, _⟩ => ⟨S4x27x32, .bf16⟩
  | .local _ .vmem, ⟨15, _⟩ => ⟨S384x2592, .bf16⟩
  | .local _ .vmem, ⟨16, _⟩ => ⟨S128x2592, .bf16⟩
  | .local _ .vmem, ⟨17, _⟩ => ⟨S2592x32, .bf16⟩
  | .local _ .vmem, ⟨18, _⟩ => ⟨S1x32, .f32⟩
  | .local _ .vmem, ⟨19, _⟩ => ⟨S2592x32, .bf16⟩
  | .local _ .vmem, ⟨20, _⟩ => ⟨S1x32, .f32⟩
  | .local _ .vmem, ⟨21, _⟩ => ⟨S128x10, .bf16⟩
  | .local _ .vmem, ⟨22, _⟩ => ⟨S1x10, .f32⟩
  | .local _ .vmem, ⟨23, _⟩ => ⟨S128x10, .f32⟩
  | .local _ .vmem, ⟨24, _⟩ => ⟨S128x128, .f32⟩
  | _, _ => ⟨S128x1x6x10178, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38_0 : Ref sig .tc := ⟨.hbm, 56, rfl⟩
abbrev main_v38_1 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52_0 : Ref sig .tc := ⟨.hbm, 71, rfl⟩
abbrev main_v52_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24

abbrev nD : Nat := 1
abbrev τ : Topo := Topo.v7x

variable {F : FTy → Type} [FloatOps F]

abbrev grid0 : Pipeline.Grid := ⟨1, ![96], ![false]⟩

def cc0_transform_0 (i : grid0.Coords) : Fin 4 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c32_i32_3 : BitVec 32 := 32#32
  let v10 : BitVec 32 := Scalar.divsi arg0 c32_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c32_i32_3 c0_i32_6
  let v17 : BitVec 32 := Scalar.extui v16
  let c0_i32_7 : BitVec 32 := 0#32
  let v18 : BitVec 1 := Scalar.cmpi .slt c32_i32_3 c0_i32_7
  let v19 : BitVec 32 := Scalar.extui v18
  let v20 : BitVec 32 := Scalar.subi v17 v19
  let v21 : BitVec 1 := Scalar.cmpi .ne v15 v20
  let v22 : BitVec 32 := Scalar.remsi arg0 c32_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2x91x120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S720x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S27x81 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S27x81 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x81x32 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x27x32 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S384x2592 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2592 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2592x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2592x32 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x10 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S128x1x6x10178_S128x6x10178 : S128x1x6x10178.ShapeCasts S128x6x10178
  bitsLt_bf16_f32 : FTy.bits .bf16 < FTy.bits .f32
  pads_S128x6x10178_S128x6x10920_000_000_07420 : S128x6x10178.Pads (![0, 0, 0] : Fin 3 → Nat) ![0, 0, 742] ![0, 0, 0] S128x6x10920
  h_S_ : 0 < S_.numel
  shapeCasts_S128x6x10920_S128x6x91x120 : S128x6x10920.ShapeCasts S128x6x91x120
  slices_S3x384x240_S1x384x240_0_0_0 : S3x384x240.Slices ![0, 0, 0] S1x384x240
  shapeCasts_S1x384x240_S384x240 : S1x384x240.ShapeCasts S384x240
  slices_S384x240_S384x120_0_0 : S384x240.Slices ![0, 0] S384x120
  slices_S3x384x240_S1x384x240_1_0_0 : S3x384x240.Slices ![1, 0, 0] S1x384x240
  slices_S3x384x240_S1x384x240_2_0_0 : S3x384x240.Slices ![2, 0, 0] S1x384x240
  slices_S384x240_S384x120_0_120 : S384x240.Slices ![0, 120] S384x120
  concatenates_S384x120_S384x120_S384x120_S384x120_S384x120_S384x120_S384x720_d1 : Shape.Concatenates [S384x120, S384x120, S384x120, S384x120, S384x120, S384x120] S384x720 1
  transposes_S384x720_S720x384_1_0 : S384x720.Transposes [1, 0] S720x384
  shapeCasts_S384x1_S1x384 : S384x1.ShapeCasts S1x384
  transposes_S64x64_S64x64_1_0 : S64x64.Transposes [1, 0] S64x64
  shapeCasts_S64x1_S1x64 : S64x1.ShapeCasts S1x64
  transposes_S32x32_S32x32_1_0 : S32x32.Transposes [1, 0] S32x32
  transposes_S81x27_S27x81_1_0 : S81x27.Transposes [1, 0] S27x81
  shapeCasts_S32x1_S1x32 : S32x1.ShapeCasts S1x32
  inb_S4x2x91x120_S1x2x91x120_0_0_0_0 : ∀ a, (![0, 0, 0, 0] : Fin 4 → Nat) a + S1x2x91x120.size a ≤ S4x2x91x120.size a
  h_S1x2x91x120 : 0 < S1x2x91x120.numel
  shapeCasts_S1x2x91x120_S2x91x120 : S1x2x91x120.ShapeCasts S2x91x120
  slices_S2x91x120_o0_0_0_S1x91x120 : S2x91x120.Slices ![0, 0, 0] S1x91x120
  shapeCasts_S1x91x120_S91x120 : S1x91x120.ShapeCasts S91x120
  slices_S2x91x120_o1_0_0_S1x91x120 : S2x91x120.Slices ![1, 0, 0] S1x91x120
  slices_S91x120_o0_0_S89x120 : S91x120.Slices ![0, 0] S89x120
  slices_S91x120_o1_0_S89x120 : S91x120.Slices ![1, 0] S89x120
  slices_S91x120_o2_0_S89x120 : S91x120.Slices ![2, 0] S89x120
  concatenates_S89x120_S89x120_S89x120_S89x120_S89x120_S89x120_S89x720_d1 : Shape.Concatenates [S89x120, S89x120, S89x120, S89x120, S89x120, S89x120] S89x720 1
  inb_S720x384_S720x384_0_0 : ∀ a, (![0, 0] : Fin 2 → Nat) a + S720x384.size a ≤ S720x384.size a
  h_S720x384 : 0 < S720x384.numel
  shapeCasts_S720x384_S720x384 : S720x384.ShapeCasts S720x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S89x384 : S1x384.Broadcasts S89x384
  slices_S89x384_o0_16_S88x368 : S89x384.Slices ![0, 16] S88x368
  slices_S89x384_o1_0_S88x16 : S89x384.Slices ![1, 0] S88x16
  concatenates_S88x368_S88x16_S88x384_d1 : Shape.Concatenates [S88x368, S88x16] S88x384 1
  slices_S89x384_o0_0_S88x384 : S89x384.Slices ![0, 0] S88x384
  slices_S88x384_o0_32_S87x352 : S88x384.Slices ![0, 32] S87x352
  slices_S88x384_o1_0_S87x32 : S88x384.Slices ![1, 0] S87x32
  concatenates_S87x352_S87x32_S87x384_d1 : Shape.Concatenates [S87x352, S87x32] S87x384 1
  slices_S88x384_o0_0_S87x384 : S88x384.Slices ![0, 0] S87x384
  slices_S87x384_o0_64_S86x320 : S87x384.Slices ![0, 64] S86x320
  slices_S87x384_o1_0_S86x64 : S87x384.Slices ![1, 0] S86x64
  concatenates_S86x320_S86x64_S86x384_d1 : Shape.Concatenates [S86x320, S86x64] S86x384 1
  slices_S87x384_o0_0_S86x384 : S87x384.Slices ![0, 0] S86x384
  slices_S86x384_o0_128_S85x256 : S86x384.Slices ![0, 128] S85x256
  slices_S86x384_o1_0_S85x128 : S86x384.Slices ![1, 0] S85x128
  concatenates_S85x256_S85x128_S85x384_d1 : Shape.Concatenates [S85x256, S85x128] S85x384 1
  slices_S86x384_o0_0_S85x384 : S86x384.Slices ![0, 0] S85x384
  slices_S85x384_o0_256_S84x128 : S85x384.Slices ![0, 256] S84x128
  slices_S85x384_o1_0_S84x256 : S85x384.Slices ![1, 0] S84x256
  concatenates_S84x128_S84x256_S84x384_d1 : Shape.Concatenates [S84x128, S84x256] S84x384 1
  slices_S85x384_o0_0_S84x384 : S85x384.Slices ![0, 0] S84x384
  slices_S84x384_o1_128_S82x256 : S84x384.Slices ![1, 128] S82x256
  slices_S84x384_o2_0_S82x128 : S84x384.Slices ![2, 0] S82x128
  concatenates_S82x256_S82x128_S82x384_d1 : Shape.Concatenates [S82x256, S82x128] S82x384 1
  slices_S84x384_o0_0_S82x384 : S84x384.Slices ![0, 0] S82x384
  slices_S82x384_o0_0_S82x16 : S82x384.Slices ![0, 0] S82x16
  slices_S82x384_o0_48_S82x16 : S82x384.Slices ![0, 48] S82x16
  slices_S82x384_o0_192_S82x16 : S82x384.Slices ![0, 192] S82x16
  slices_S82x384_o0_240_S82x16 : S82x384.Slices ![0, 240] S82x16
  concatenates_S82x16_S82x16_S82x16_S82x16_S82x64_d1 : Shape.Concatenates [S82x16, S82x16, S82x16, S82x16] S82x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S82x64 : S1x64.Broadcasts S82x64
  slices_S82x64_o0_0_S81x32 : S82x64.Slices ![0, 0] S81x32
  slices_S82x64_o0_32_S81x32 : S82x64.Slices ![0, 32] S81x32
  slices_S82x64_o1_0_S81x32 : S82x64.Slices ![1, 0] S81x32
  inb_S4x81x32_S1x81x32_0_0_0 : ∀ a, (![0, 0, 0] : Fin 3 → Nat) a + S1x81x32.size a ≤ S4x81x32.size a
  h_S1x81x32 : 0 < S1x81x32.numel
  shapeCasts_S1x81x32_S81x32 : S1x81x32.ShapeCasts S81x32
  shapeCasts_S81x32_S1x81x32 : S81x32.ShapeCasts S1x81x32
  packedbf16_S4x81x32_S1x81x32_0_0_0 : (Rect.unit (s := S4x81x32) ![0, 0, 0] S1x81x32.size inb_S4x81x32_S1x81x32_0_0_0).PackedRows (EltTy.packing .bf16)
  inb_S27x81_S27x81_0_0 : ∀ a, (![0, 0] : Fin 2 → Nat) a + S27x81.size a ≤ S27x81.size a
  h_S27x81 : 0 < S27x81.numel
  shapeCasts_S27x81_S27x81 : S27x81.ShapeCasts S27x81
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S27x32 : S1x32.Broadcasts S27x32
  inb_S4x27x32_S1x27x32_0_0_0 : ∀ a, (![0, 0, 0] : Fin 3 → Nat) a + S1x27x32.size a ≤ S4x27x32.size a
  h_S1x27x32 : 0 < S1x27x32.numel
  shapeCasts_S1x27x32_S27x32 : S1x27x32.ShapeCasts S27x32
  shapeCasts_S27x32_S1x27x32 : S27x32.ShapeCasts S1x27x32
  packedbf16_S4x27x32_S1x27x32_0_0_0 : (Rect.unit (s := S4x27x32) ![0, 0, 0] S1x27x32.size inb_S4x27x32_S1x27x32_0_0_0).PackedRows (EltTy.packing .bf16)
  inb_S4x2x91x120_S1x2x91x120_1_0_0_0 : ∀ a, (![1, 0, 0, 0] : Fin 4 → Nat) a + S1x2x91x120.size a ≤ S4x2x91x120.size a
  inb_S4x81x32_S1x81x32_1_0_0 : ∀ a, (![1, 0, 0] : Fin 3 → Nat) a + S1x81x32.size a ≤ S4x81x32.size a
  packedbf16_S4x81x32_S1x81x32_1_0_0 : (Rect.unit (s := S4x81x32) ![1, 0, 0] S1x81x32.size inb_S4x81x32_S1x81x32_1_0_0).PackedRows (EltTy.packing .bf16)
  inb_S4x27x32_S1x27x32_1_0_0 : ∀ a, (![1, 0, 0] : Fin 3 → Nat) a + S1x27x32.size a ≤ S4x27x32.size a
  packedbf16_S4x27x32_S1x27x32_1_0_0 : (Rect.unit (s := S4x27x32) ![1, 0, 0] S1x27x32.size inb_S4x27x32_S1x27x32_1_0_0).PackedRows (EltTy.packing .bf16)
  inb_S4x2x91x120_S1x2x91x120_2_0_0_0 : ∀ a, (![2, 0, 0, 0] : Fin 4 → Nat) a + S1x2x91x120.size a ≤ S4x2x91x120.size a
  inb_S4x81x32_S1x81x32_2_0_0 : ∀ a, (![2, 0, 0] : Fin 3 → Nat) a + S1x81x32.size a ≤ S4x81x32.size a
  packedbf16_S4x81x32_S1x81x32_2_0_0 : (Rect.unit (s := S4x81x32) ![2, 0, 0] S1x81x32.size inb_S4x81x32_S1x81x32_2_0_0).PackedRows (EltTy.packing .bf16)
  inb_S4x27x32_S1x27x32_2_0_0 : ∀ a, (![2, 0, 0] : Fin 3 → Nat) a + S1x27x32.size a ≤ S4x27x32.size a
  packedbf16_S4x27x32_S1x27x32_2_0_0 : (Rect.unit (s := S4x27x32) ![2, 0, 0] S1x27x32.size inb_S4x27x32_S1x27x32_2_0_0).PackedRows (EltTy.packing .bf16)
  inb_S4x2x91x120_S1x2x91x120_3_0_0_0 : ∀ a, (![3, 0, 0, 0] : Fin 4 → Nat) a + S1x2x91x120.size a ≤ S4x2x91x120.size a
  inb_S4x81x32_S1x81x32_3_0_0 : ∀ a, (![3, 0, 0] : Fin 3 → Nat) a + S1x81x32.size a ≤ S4x81x32.size a
  packedbf16_S4x81x32_S1x81x32_3_0_0 : (Rect.unit (s := S4x81x32) ![3, 0, 0] S1x81x32.size inb_S4x81x32_S1x81x32_3_0_0).PackedRows (EltTy.packing .bf16)
  inb_S4x27x32_S1x27x32_3_0_0 : ∀ a, (![3, 0, 0] : Fin 3 → Nat) a + S1x27x32.size a ≤ S4x27x32.size a
  packedbf16_S4x27x32_S1x27x32_3_0_0 : (Rect.unit (s := S4x27x32) ![3, 0, 0] S1x27x32.size inb_S4x27x32_S1x27x32_3_0_0).PackedRows (EltTy.packing .bf16)
  shapeCasts_S384x81x32_S384x2592 : S384x81x32.ShapeCasts S384x2592
  shapeCasts_S384x27x32_S3x128x864 : S384x27x32.ShapeCasts S3x128x864
  transposes_S3x128x864_S128x3x864_1_0_2 : S3x128x864.Transposes [1, 0, 2] S128x3x864
  shapeCasts_S128x3x864_S128x2592 : S128x3x864.ShapeCasts S128x2592
  shapeCasts_S2592x32_S32x81x32 : S2592x32.ShapeCasts S32x81x32
  transposes_S32x81x32_S81x32x32_1_0_2 : S32x81x32.Transposes [1, 0, 2] S81x32x32
  shapeCasts_S81x32x32_S2592x32 : S81x32x32.ShapeCasts S2592x32
  shapeCasts_S2592x32_S32x3x27x32 : S2592x32.ShapeCasts S32x3x27x32
  transposes_S32x3x27x32_S3x27x32x32_1_2_0_3 : S32x3x27x32.Transposes [1, 2, 0, 3] S3x27x32x32
  shapeCasts_S3x27x32x32_S2592x32 : S3x27x32x32.ShapeCasts S2592x32
  inb_S384x2592_S384x2592_0_0 : ∀ a, (![0, 0] : Fin 2 → Nat) a + S384x2592.size a ≤ S384x2592.size a
  h_S384x2592 : 0 < S384x2592.numel
  shapeCasts_S384x2592_S384x2592 : S384x2592.ShapeCasts S384x2592
  inb_S2592x32_S2592x32_0_0 : ∀ a, (![0, 0] : Fin 2 → Nat) a + S2592x32.size a ≤ S2592x32.size a
  h_S2592x32 : 0 < S2592x32.numel
  shapeCasts_S2592x32_S2592x32 : S2592x32.ShapeCasts S2592x32
  broadcasts_S1x32_S384x32 : S1x32.Broadcasts S384x32
  inb_S128x2592_S128x2592_0_0 : ∀ a, (![0, 0] : Fin 2 → Nat) a + S128x2592.size a ≤ S128x2592.size a
  h_S128x2592 : 0 < S128x2592.numel
  shapeCasts_S128x2592_S128x2592 : S128x2592.ShapeCasts S128x2592
  broadcasts_S1x32_S128x32 : S1x32.Broadcasts S128x32
  slices_S384x32_o0_0_S128x32 : S384x32.Slices ![0, 0] S128x32
  slices_S384x32_o128_0_S128x32 : S384x32.Slices ![128, 0] S128x32
  slices_S384x32_o256_0_S128x32 : S384x32.Slices ![256, 0] S128x32
  concatenates_S128x32_S128x32_S128x32_S128x32_S128x128_d1 : Shape.Concatenates [S128x32, S128x32, S128x32, S128x32] S128x128 1
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  broadcasts_S1x10_S128x10 : S1x10.Broadcasts S128x10
  dot_S89x720_S720x384_S89x384_1_0_0_1_n_n_wf : DotDims.WF S89x720 S720x384 S89x384 [1] [0] [0] [1] [] []
  dot_S82x64_S64x64_S82x64_1_0_0_1_n_n_wf : DotDims.WF S82x64 S64x64 S82x64 [1] [0] [0] [1] [] []
  dot_S27x81_S81x32_S27x32_1_0_0_1_n_n_wf : DotDims.WF S27x81 S81x32 S27x32 [1] [0] [0] [1] [] []
  dot_S27x32_S32x32_S27x32_1_0_0_1_n_n_wf : DotDims.WF S27x32 S32x32 S27x32 [1] [0] [0] [1] [] []
  dot_S384x2592_S2592x32_S384x32_1_0_0_1_n_n_wf : DotDims.WF S384x2592 S2592x32 S384x32 [1] [0] [0] [1] [] []
  dot_S128x2592_S2592x32_S128x32_1_0_0_1_n_n_wf : DotDims.WF S128x2592 S2592x32 S128x32 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x91x120.size a ≤ S128x6x91x120.size a
  hwx0_0 : ∀ i : grid0.Coords, EltTy.bits .bf16 = 32 ∨ (Rect.block (s := S128x6x91x120) S4x2x91x120.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S720x384.size a ≤ S720x384.size a
  hwx0_1 : ∀ i : grid0.Coords, EltTy.bits .bf16 = 32 ∨ (Rect.block (s := S720x384) S720x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S27x81.size a ≤ S27x81.size a
  hwx0_8 : ∀ i : grid0.Coords, EltTy.bits .bf16 = 32 ∨ (Rect.block (s := S27x81) S27x81.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S27x81.size a ≤ S27x81.size a
  hwx0_9 : ∀ i : grid0.Coords, EltTy.bits .bf16 = 32 ∨ (Rect.block (s := S27x81) S27x81.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x81x32.size a ≤ S384x81x32.size a
  hwx0_10 : ∀ i : grid0.Coords, EltTy.bits .bf16 = 32 ∨ (Rect.block (s := S384x81x32) S4x81x32.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x27x32.size a ≤ S384x27x32.size a
  hwx0_11 : ∀ i : grid0.Coords, EltTy.bits .bf16 = 32 ∨ (Rect.block (s := S384x27x32) S4x27x32.size (cc0_transform_11 i) (hinb0_11 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x2592.size a ≤ S384x2592.size a
  hwx1_0 : ∀ i : grid1.Coords, EltTy.bits .bf16 = 32 ∨ (Rect.block (s := S384x2592) S384x2592.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2592.size a ≤ S128x2592.size a
  hwx1_1 : ∀ i : grid1.Coords, EltTy.bits .bf16 = 32 ∨ (Rect.block (s := S128x2592) S128x2592.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2592x32.size a ≤ S2592x32.size a
  hwx1_2 : ∀ i : grid1.Coords, EltTy.bits .bf16 = 32 ∨ (Rect.block (s := S2592x32) S2592x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2592x32.size a ≤ S2592x32.size a
  hwx1_4 : ∀ i : grid1.Coords, EltTy.bits .bf16 = 32 ∨ (Rect.block (s := S2592x32) S2592x32.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x10.size a ≤ S128x10.size a
  hwx1_6 : ∀ i : grid1.Coords, EltTy.bits .bf16 = 32 ∨ (Rect.block (s := S128x10) S128x10.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x10.size a ≤ S128x10.size a
  hwx1_8 : ∀ i : grid1.Coords, EltTy.bits .f32 = 32 ∨ (Rect.block (s := S128x10) S128x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)

variable [Facts₀]

def dot_S89x720_S720x384_S89x384_1_0_0_1_n_n : DotDims S89x720 S720x384 S89x384 where
  lhsContracting := [1]
  rhsContracting := [0]
  lhsNonContracting := [0]
  rhsNonContracting := [1]
  lhsBatch := []
  rhsBatch := []
  wf := dot_S89x720_S720x384_S89x384_1_0_0_1_n_n_wf
def dot_S82x64_S64x64_S82x64_1_0_0_1_n_n : DotDims S82x64 S64x64 S82x64 where
  lhsContracting := [1]
  rhsContracting := [0]
  lhsNonContracting := [0]
  rhsNonContracting := [1]
  lhsBatch := []
  rhsBatch := []
  wf := dot_S82x64_S64x64_S82x64_1_0_0_1_n_n_wf
def dot_S27x81_S81x32_S27x32_1_0_0_1_n_n : DotDims S27x81 S81x32 S27x32 where
  lhsContracting := [1]
  rhsContracting := [0]
  lhsNonContracting := [0]
  rhsNonContracting := [1]
  lhsBatch := []
  rhsBatch := []
  wf := dot_S27x81_S81x32_S27x32_1_0_0_1_n_n_wf
def dot_S27x32_S32x32_S27x32_1_0_0_1_n_n : DotDims S27x32 S32x32 S27x32 where
  lhsContracting := [1]
  rhsContracting := [0]
  lhsNonContracting := [0]
  rhsNonContracting := [1]
  lhsBatch := []
  rhsBatch := []
  wf := dot_S27x32_S32x32_S27x32_1_0_0_1_n_n_wf
def dot_S384x2592_S2592x32_S384x32_1_0_0_1_n_n : DotDims S384x2592 S2592x32 S384x32 where
  lhsContracting := [1]
  rhsContracting := [0]
  lhsNonContracting := [0]
  rhsNonContracting := [1]
  lhsBatch := []
  rhsBatch := []
  wf := dot_S384x2592_S2592x32_S384x32_1_0_0_1_n_n_wf
def dot_S128x2592_S2592x32_S128x32_1_0_0_1_n_n : DotDims S128x2592 S2592x32 S128x32 where
  lhsContracting := [1]
  rhsContracting := [0]
  lhsNonContracting := [0]
  rhsNonContracting := [1]
  lhsBatch := []
  rhsBatch := []
  wf := dot_S128x2592_S2592x32_S128x32_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v3) S4x2x91x120.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S720x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S27x81.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S27x81.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38_0) S4x81x32.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38_1) S4x27x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v39) S384x2592.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v42) S128x2592.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2592x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2592x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S128x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52_0) S128x10.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52_1) S128x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S128x1x6x10178 : Shape := ⟨4, ![128, 1, 6, 10178]⟩
abbrev S3x384x240 : Shape := ⟨3, ![3, 384, 240]⟩
abbrev S384x1 : Shape := ⟨2, ![384, 1]⟩
abbrev S64x64 : Shape := ⟨2, ![64, 64]⟩
abbrev S64x1 : Shape := ⟨2, ![64, 1]⟩
abbrev S32x32 : Shape := ⟨2, ![32, 32]⟩
abbrev S32x1 : Shape := ⟨2, ![32, 1]⟩
abbrev S81x27 : Shape := ⟨2, ![81, 27]⟩
abbrev S2592x32 : Shape := ⟨2, ![2592, 32]⟩
abbrev S1x32 : Shape := ⟨2, ![1, 32]⟩
abbrev S128x10 : Shape := ⟨2, ![128, 10]⟩
abbrev S1x10 : Shape := ⟨2, ![1, 10]⟩
abbrev S128x6x10178 : Shape := ⟨3, ![128, 6, 10178]⟩
abbrev S128x2x10178 : Shape := ⟨3, ![128, 2, 10178]⟩
abbrev S1x128x2x10178 : Shape := ⟨4, ![1, 128, 2, 10178]⟩
abbrev S3x128x2x10178 : Shape := ⟨4, ![3, 128, 2, 10178]⟩
abbrev S384x2x10178 : Shape := ⟨3, ![384, 2, 10178]⟩
abbrev S_ : Shape := ⟨0, ![]⟩
abbrev S384x2x10440 : Shape := ⟨3, ![384, 2, 10440]⟩
abbrev S384x2x87x120 : Shape := ⟨4, ![384, 2, 87, 120]⟩
abbrev S384x2x120x87 : Shape := ⟨4, ![384, 2, 120, 87]⟩
abbrev S384x240x87 : Shape := ⟨3, ![384, 240, 87]⟩
abbrev S384x32x81 : Shape := ⟨3, ![384, 32, 81]⟩
abbrev S384x32x27 : Shape := ⟨3, ![384, 32, 27]⟩
abbrev S1x240x87 : Shape := ⟨3, ![1, 240, 87]⟩
abbrev S1x32x81 : Shape := ⟨3, ![1, 32, 81]⟩
abbrev S1x32x27 : Shape := ⟨3, ![1, 32, 27]⟩
abbrev S384x85 : Shape := ⟨2, ![384, 85]⟩
abbrev S64x82 : Shape := ⟨2, ![64, 82]⟩
abbrev S240x87 : Shape := ⟨2, ![240, 87]⟩
abbrev S1x384x240 : Shape := ⟨3, ![1, 384, 240]⟩
abbrev S384x240 : Shape := ⟨2, ![384, 240]⟩
abbrev S240x85 : Shape := ⟨2, ![240, 85]⟩
abbrev S16x82 : Shape := ⟨2, ![16, 82]⟩
abbrev S32x81 : Shape := ⟨2, ![32, 81]⟩
abbrev S32x27 : Shape := ⟨2, ![32, 27]⟩
abbrev S384x2592 : Shape := ⟨2, ![384, 2592]⟩
abbrev S3x128x32x27 : Shape := ⟨4, ![3, 128, 32, 27]⟩
abbrev S128x32x3x27 : Shape := ⟨4, ![128, 32, 3, 27]⟩
abbrev S128x2592 : Shape := ⟨2, ![128, 2592]⟩
abbrev S128x128 : Shape := ⟨2, ![128, 128]⟩
abbrev S384x32 : Shape := ⟨2, ![384, 32]⟩
abbrev S128x32 : Shape := ⟨2, ![128, 32]⟩

abbrev nBuf : Space → Nat
  | .hbm => 39
  | .vmem => 27
  | .smem => 0
  | _ => 0

abbrev bufTy : (tb : Table) → Fin (tcTables nBuf tb) → BufTy
  | .hbm, ⟨0, _⟩ => ⟨S128x1x6x10178, .f32⟩
  | .hbm, ⟨1, _⟩ => ⟨S3x384x240, .f32⟩
  | .hbm, ⟨2, _⟩ => ⟨S384x1, .f32⟩
  | .hbm, ⟨3, _⟩ => ⟨S64x64, .f32⟩
  | .hbm, ⟨4, _⟩ => ⟨S64x1, .f32⟩
  | .hbm, ⟨5, _⟩ => ⟨S32x32, .f32⟩
  | .hbm, ⟨6, _⟩ => ⟨S32x32, .f32⟩
  | .hbm, ⟨7, _⟩ => ⟨S32x1, .f32⟩
  | .hbm, ⟨8, _⟩ => ⟨S81x27, .f32⟩
  | .hbm, ⟨9, _⟩ => ⟨S81x27, .f32⟩
  | .hbm, ⟨10, _⟩ => ⟨S2592x32, .f32⟩
  | .hbm, ⟨11, _⟩ => ⟨S1x32, .f32⟩
  | .hbm, ⟨12, _⟩ => ⟨S2592x32, .f32⟩
  | .hbm, ⟨13, _⟩ => ⟨S1x32, .f32⟩
  | .hbm, ⟨14, _⟩ => ⟨S128x10, .f32⟩
  | .hbm, ⟨15, _⟩ => ⟨S1x10, .f32⟩
  | .hbm, ⟨16, _⟩ => ⟨S128x6x10178, .f32⟩
  | .hbm, ⟨17, _⟩ => ⟨S128x2x10178, .f32⟩
  | .hbm, ⟨18, _⟩ => ⟨S128x2x10178, .f32⟩
  | .hbm, ⟨19, _⟩ => ⟨S128x2x10178, .f32⟩
  | .hbm, ⟨20, _⟩ => ⟨S1x128x2x10178, .f32⟩
  | .hbm, ⟨21, _⟩ => ⟨S1x128x2x10178, .f32⟩
  | .hbm, ⟨22, _⟩ => ⟨S1x128x2x10178, .f32⟩
  | .hbm, ⟨23, _⟩ => ⟨S3x128x2x10178, .f32⟩
  | .hbm, ⟨24, _⟩ => ⟨S384x2x10178, .f32⟩
  | .hbm, ⟨25, _⟩ => ⟨S_, .i32⟩
  | .hbm, ⟨26, _⟩ => ⟨S_, .f32⟩
  | .hbm, ⟨27, _⟩ => ⟨S384x2x10440, .f32⟩
  | .hbm, ⟨28, _⟩ => ⟨S384x2x87x120, .f32⟩
  | .hbm, ⟨29, _⟩ => ⟨S384x2x120x87, .f32⟩
  | .hbm, ⟨30, _⟩ => ⟨S384x240x87, .f32⟩
  | .hbm, ⟨31, _⟩ => ⟨S384x32x81, .f32⟩
  | .hbm, ⟨32, _⟩ => ⟨S384x32x27, .f32⟩
  | .hbm, ⟨33, _⟩ => ⟨S384x2592, .f32⟩
  | .hbm, ⟨34, _⟩ => ⟨S3x128x32x27, .f32⟩
  | .hbm, ⟨35, _⟩ => ⟨S128x32x3x27, .f32⟩
  | .hbm, ⟨36, _⟩ => ⟨S128x2592, .f32⟩
  | .hbm, ⟨37, _⟩ => ⟨S128x10, .f32⟩
  | .hbm, ⟨38, _⟩ => ⟨S128x128, .f32⟩
  | .local _ .vmem, ⟨0, _⟩ => ⟨S1x240x87, .f32⟩
  | .local _ .vmem, ⟨1, _⟩ => ⟨S1x240x87, .f32⟩
  | .local _ .vmem, ⟨2, _⟩ => ⟨S3x384x240, .f32⟩
  | .local _ .vmem, ⟨3, _⟩ => ⟨S384x1, .f32⟩
  | .local _ .vmem, ⟨4, _⟩ => ⟨S64x64, .f32⟩
  | .local _ .vmem, ⟨5, _⟩ => ⟨S64x1, .f32⟩
  | .local _ .vmem, ⟨6, _⟩ => ⟨S32x32, .f32⟩
  | .local _ .vmem, ⟨7, _⟩ => ⟨S32x32, .f32⟩
  | .local _ .vmem, ⟨8, _⟩ => ⟨S32x1, .f32⟩
  | .local _ .vmem, ⟨9, _⟩ => ⟨S81x27, .f32⟩
  | .local _ .vmem, ⟨10, _⟩ => ⟨S81x27, .f32⟩
  | .local _ .vmem, ⟨11, _⟩ => ⟨S1x32x81, .f32⟩
  | .local _ .vmem, ⟨12, _⟩ => ⟨S1x32x81, .f32⟩
  | .local _ .vmem, ⟨13, _⟩ => ⟨S1x32x27, .f32⟩
  | .local _ .vmem, ⟨14, _⟩ => ⟨S1x32x27, .f32⟩
  | .local _ .vmem, ⟨15, _⟩ => ⟨S384x85, .f32⟩
  | .local _ .vmem, ⟨16, _⟩ => ⟨S64x82, .f32⟩
  | .local _ .vmem, ⟨17, _⟩ => ⟨S384x2592, .f32⟩
  | .local _ .vmem, ⟨18, _⟩ => ⟨S128x2592, .f32⟩
  | .local _ .vmem, ⟨19, _⟩ => ⟨S2592x32, .f32⟩
  | .local _ .vmem, ⟨20, _⟩ => ⟨S1x32, .f32⟩
  | .local _ .vmem, ⟨21, _⟩ => ⟨S2592x32, .f32⟩
  | .local _ .vmem, ⟨22, _⟩ => ⟨S1x32, .f32⟩
  | .local _ .vmem, ⟨23, _⟩ => ⟨S128x10, .f32⟩
  | .local _ .vmem, ⟨24, _⟩ => ⟨S1x10, .f32⟩
  | .local _ .vmem, ⟨25, _⟩ => ⟨S128x10, .f32⟩
  | .local _ .vmem, ⟨26, _⟩ => ⟨S128x128, .f32⟩
  | _, _ => ⟨S128x1x6x10178, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24

abbrev nD : Nat := 1
abbrev τ : Topo := Topo.v7x

variable {F : FTy → Type} [FloatOps F]

abbrev grid0 : Pipeline.Grid := ⟨1, ![384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x240x87 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x384x240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S81x27 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S81x27 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x32x81 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x27 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S384x2592 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x2592 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2592x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2592x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  shapeCasts_S128x1x6x10178_S128x6x10178 : S128x1x6x10178.ShapeCasts S128x6x10178
  slices_S128x6x10178_S128x2x10178_0_0_0 : S128x6x10178.Slices ![0, 0, 0] S128x2x10178
  slices_S128x6x10178_S128x2x10178_0_2_0 : S128x6x10178.Slices ![0, 2, 0] S128x2x10178
  slices_S128x6x10178_S128x2x10178_0_4_0 : S128x6x10178.Slices ![0, 4, 0] S128x2x10178
  bcast_S128x2x10178_S1x128x2x10178_1_2_3 : S128x2x10178.BroadcastsInDim S1x128x2x10178 (![1, 2, 3] : Fin 3 → Fin S1x128x2x10178.rank)
  concatenates_S1x128x2x10178_S1x128x2x10178_S1x128x2x10178_S3x128x2x10178_d0 : Shape.Concatenates [S1x128x2x10178, S1x128x2x10178, S1x128x2x10178] S3x128x2x10178 0
  shapeCasts_S3x128x2x10178_S384x2x10178 : S3x128x2x10178.ShapeCasts S384x2x10178
  pads_S384x2x10178_S384x2x10440_000_000_02620 : S384x2x10178.Pads (![0, 0, 0] : Fin 3 → Nat) ![0, 0, 262] ![0, 0, 0] S384x2x10440
  h_S_ : 0 < S_.numel
  shapeCasts_S384x2x10440_S384x2x87x120 : S384x2x10440.ShapeCasts S384x2x87x120
  transposes_S384x2x87x120_S384x2x120x87_0_1_3_2 : S384x2x87x120.Transposes [0, 1, 3, 2] S384x2x120x87
  shapeCasts_S384x2x120x87_S384x240x87 : S384x2x120x87.ShapeCasts S384x240x87
  inb_S1x240x87_S1x240x87_0_0_0 : ∀ a, (![0, 0, 0] : Fin 3 → Nat) a + S1x240x87.size a ≤ S1x240x87.size a
  h_S1x240x87 : 0 < S1x240x87.numel
  shapeCasts_S1x240x87_S240x87 : S1x240x87.ShapeCasts S240x87
  inb_S3x384x240_S1x384x240_0_0_0 : ∀ a, (![0, 0, 0] : Fin 3 → Nat) a + S1x384x240.size a ≤ S3x384x240.size a
  h_S1x384x240 : 0 < S1x384x240.numel
  shapeCasts_S1x384x240_S384x240 : S1x384x240.ShapeCasts S384x240
  slices_S240x87_o0_0_S240x85 : S240x87.Slices ![0, 0] S240x85
  inb_S3x384x240_S1x384x240_1_0_0 : ∀ a, (![1, 0, 0] : Fin 3 → Nat) a + S1x384x240.size a ≤ S3x384x240.size a
  slices_S240x87_o0_1_S240x85 : S240x87.Slices ![0, 1] S240x85
  inb_S3x384x240_S1x384x240_2_0_0 : ∀ a, (![2, 0, 0] : Fin 3 → Nat) a + S1x384x240.size a ≤ S3x384x240.size a
  slices_S240x87_o0_2_S240x85 : S240x87.Slices ![0, 2] S240x85
  inb_S384x1_S384x1_0_0 : ∀ a, (![0, 0] : Fin 2 → Nat) a + S384x1.size a ≤ S384x1.size a
  h_S384x1 : 0 < S384x1.numel
  broadcasts_S384x1_S384x85 : S384x1.Broadcasts S384x85
  inb_S384x85_S384x85_0_0 : ∀ a, (![0, 0] : Fin 2 → Nat) a + S384x85.size a ≤ S384x85.size a
  h_S384x85 : 0 < S384x85.numel
  shapeCasts_S384x85_S384x85 : S384x85.ShapeCasts S384x85
  inb_S384x85_S16x82_0_0 : ∀ a, (![0, 0] : Fin 2 → Nat) a + S16x82.size a ≤ S384x85.size a
  h_S16x82 : 0 < S16x82.numel
  inb_S384x85_S16x82_16_0 : ∀ a, (![16, 0] : Fin 2 → Nat) a + S16x82.size a ≤ S384x85.size a
  inb_S384x85_S16x82_32_0 : ∀ a, (![32, 0] : Fin 2 → Nat) a + S16x82.size a ≤ S384x85.size a
  inb_S384x85_S16x82_48_0 : ∀ a, (![48, 0] : Fin 2 → Nat) a + S16x82.size a ≤ S384x85.size a
  inb_S384x85_S16x82_64_0 : ∀ a, (![64, 0] : Fin 2 → Nat) a + S16x82.size a ≤ S384x85.size a
  inb_S384x85_S16x82_80_0 : ∀ a, (![80, 0] : Fin 2 → Nat) a + S16x82.size a ≤ S384x85.size a
  inb_S384x85_S16x82_96_0 : ∀ a, (![96, 0] : Fin 2 → Nat) a + S16x82.size a ≤ S384x85.size a
  inb_S384x85_S16x82_112_0 : ∀ a, (![112, 0] : Fin 2 → Nat) a + S16x82.size a ≤ S384x85.size a
  inb_S384x85_S16x82_128_0 : ∀ a, (![128, 0] : Fin 2 → Nat) a + S16x82.size a ≤ S384x85.size a
  inb_S384x85_S16x82_144_0 : ∀ a, (![144, 0] : Fin 2 → Nat) a + S16x82.size a ≤ S384x85.size a
  inb_S384x85_S16x82_160_0 : ∀ a, (![160, 0] : Fin 2 → Nat) a + S16x82.size a ≤ S384x85.size a
  inb_S384x85_S16x82_176_0 : ∀ a, (![176, 0] : Fin 2 → Nat) a + S16x82.size a ≤ S384x85.size a
  inb_S384x85_S16x82_192_0 : ∀ a, (![192, 0] : Fin 2 → Nat) a + S16x82.size a ≤ S384x85.size a
  inb_S384x85_S16x82_208_0 : ∀ a, (![208, 0] : Fin 2 → Nat) a + S16x82.size a ≤ S384x85.size a
  inb_S384x85_S16x82_224_0 : ∀ a, (![224, 0] : Fin 2 → Nat) a + S16x82.size a ≤ S384x85.size a
  inb_S384x85_S16x82_240_0 : ∀ a, (![240, 0] : Fin 2 → Nat) a + S16x82.size a ≤ S384x85.size a
  inb_S384x85_S16x82_256_0 : ∀ a, (![256, 0] : Fin 2 → Nat) a + S16x82.size a ≤ S384x85.size a
  inb_S384x85_S16x82_272_0 : ∀ a, (![272, 0] : Fin 2 → Nat) a + S16x82.size a ≤ S384x85.size a
  inb_S384x85_S16x82_288_0 : ∀ a, (![288, 0] : Fin 2 → Nat) a + S16x82.size a ≤ S384x85.size a
  inb_S384x85_S16x82_304_0 : ∀ a, (![304, 0] : Fin 2 → Nat) a + S16x82.size a ≤ S384x85.size a
  inb_S384x85_S16x82_320_0 : ∀ a, (![320, 0] : Fin 2 → Nat) a + S16x82.size a ≤ S384x85.size a
  inb_S384x85_S16x82_336_0 : ∀ a, (![336, 0] : Fin 2 → Nat) a + S16x82.size a ≤ S384x85.size a
  inb_S384x85_S16x82_352_0 : ∀ a, (![352, 0] : Fin 2 → Nat) a + S16x82.size a ≤ S384x85.size a
  inb_S384x85_S16x82_368_0 : ∀ a, (![368, 0] : Fin 2 → Nat) a + S16x82.size a ≤ S384x85.size a
  inb_S384x85_S16x82_0_1 : ∀ a, (![0, 1] : Fin 2 → Nat) a + S16x82.size a ≤ S384x85.size a
  inb_S384x85_S16x82_16_1 : ∀ a, (![16, 1] : Fin 2 → Nat) a + S16x82.size a ≤ S384x85.size a
  inb_S384x85_S16x82_32_1 : ∀ a, (![32, 1] : Fin 2 → Nat) a + S16x82.size a ≤ S384x85.size a
  inb_S384x85_S16x82_48_1 : ∀ a, (![48, 1] : Fin 2 → Nat) a + S16x82.size a ≤ S384x85.size a
  inb_S384x85_S16x82_64_1 : ∀ a, (![64, 1] : Fin 2 → Nat) a + S16x82.size a ≤ S384x85.size a
  inb_S384x85_S16x82_80_1 : ∀ a, (![80, 1] : Fin 2 → Nat) a + S16x82.size a ≤ S384x85.size a
  inb_S384x85_S16x82_96_1 : ∀ a, (![96, 1] : Fin 2 → Nat) a + S16x82.size a ≤ S384x85.size a
  inb_S384x85_S16x82_112_1 : ∀ a, (![112, 1] : Fin 2 → Nat) a + S16x82.size a ≤ S384x85.size a
  inb_S384x85_S16x82_128_1 : ∀ a, (![128, 1] : Fin 2 → Nat) a + S16x82.size a ≤ S384x85.size a
  inb_S384x85_S16x82_144_1 : ∀ a, (![144, 1] : Fin 2 → Nat) a + S16x82.size a ≤ S384x85.size a
  inb_S384x85_S16x82_160_1 : ∀ a, (![160, 1] : Fin 2 → Nat) a + S16x82.size a ≤ S384x85.size a
  inb_S384x85_S16x82_176_1 : ∀ a, (![176, 1] : Fin 2 → Nat) a + S16x82.size a ≤ S384x85.size a
  inb_S384x85_S16x82_192_1 : ∀ a, (![192, 1] : Fin 2 → Nat) a + S16x82.size a ≤ S384x85.size a
  inb_S384x85_S16x82_208_1 : ∀ a, (![208, 1] : Fin 2 → Nat) a + S16x82.size a ≤ S384x85.size a
  inb_S384x85_S16x82_224_1 : ∀ a, (![224, 1] : Fin 2 → Nat) a + S16x82.size a ≤ S384x85.size a
  inb_S384x85_S16x82_240_1 : ∀ a, (![240, 1] : Fin 2 → Nat) a + S16x82.size a ≤ S384x85.size a
  inb_S384x85_S16x82_256_1 : ∀ a, (![256, 1] : Fin 2 → Nat) a + S16x82.size a ≤ S384x85.size a
  inb_S384x85_S16x82_272_1 : ∀ a, (![272, 1] : Fin 2 → Nat) a + S16x82.size a ≤ S384x85.size a
  inb_S384x85_S16x82_288_1 : ∀ a, (![288, 1] : Fin 2 → Nat) a + S16x82.size a ≤ S384x85.size a
  inb_S384x85_S16x82_304_1 : ∀ a, (![304, 1] : Fin 2 → Nat) a + S16x82.size a ≤ S384x85.size a
  inb_S384x85_S16x82_320_1 : ∀ a, (![320, 1] : Fin 2 → Nat) a + S16x82.size a ≤ S384x85.size a
  inb_S384x85_S16x82_336_1 : ∀ a, (![336, 1] : Fin 2 → Nat) a + S16x82.size a ≤ S384x85.size a
  inb_S384x85_S16x82_352_1 : ∀ a, (![352, 1] : Fin 2 → Nat) a + S16x82.size a ≤ S384x85.size a
  inb_S384x85_S16x82_368_1 : ∀ a, (![368, 1] : Fin 2 → Nat) a + S16x82.size a ≤ S384x85.size a
  inb_S384x85_S16x82_0_2 : ∀ a, (![0, 2] : Fin 2 → Nat) a + S16x82.size a ≤ S384x85.size a
  inb_S384x85_S16x82_16_2 : ∀ a, (![16, 2] : Fin 2 → Nat) a + S16x82.size a ≤ S384x85.size a
  inb_S384x85_S16x82_32_2 : ∀ a, (![32, 2] : Fin 2 → Nat) a + S16x82.size a ≤ S384x85.size a
  inb_S384x85_S16x82_48_2 : ∀ a, (![48, 2] : Fin 2 → Nat) a + S16x82.size a ≤ S384x85.size a
  inb_S384x85_S16x82_64_2 : ∀ a, (![64, 2] : Fin 2 → Nat) a + S16x82.size a ≤ S384x85.size a
  inb_S384x85_S16x82_80_2 : ∀ a, (![80, 2] : Fin 2 → Nat) a + S16x82.size a ≤ S384x85.size a
  inb_S384x85_S16x82_96_2 : ∀ a, (![96, 2] : Fin 2 → Nat) a + S16x82.size a ≤ S384x85.size a
  inb_S384x85_S16x82_112_2 : ∀ a, (![112, 2] : Fin 2 → Nat) a + S16x82.size a ≤ S384x85.size a
  inb_S384x85_S16x82_128_2 : ∀ a, (![128, 2] : Fin 2 → Nat) a + S16x82.size a ≤ S384x85.size a
  inb_S384x85_S16x82_144_2 : ∀ a, (![144, 2] : Fin 2 → Nat) a + S16x82.size a ≤ S384x85.size a
  inb_S384x85_S16x82_160_2 : ∀ a, (![160, 2] : Fin 2 → Nat) a + S16x82.size a ≤ S384x85.size a
  inb_S384x85_S16x82_176_2 : ∀ a, (![176, 2] : Fin 2 → Nat) a + S16x82.size a ≤ S384x85.size a
  inb_S384x85_S16x82_192_2 : ∀ a, (![192, 2] : Fin 2 → Nat) a + S16x82.size a ≤ S384x85.size a
  inb_S384x85_S16x82_208_2 : ∀ a, (![208, 2] : Fin 2 → Nat) a + S16x82.size a ≤ S384x85.size a
  inb_S384x85_S16x82_224_2 : ∀ a, (![224, 2] : Fin 2 → Nat) a + S16x82.size a ≤ S384x85.size a
  inb_S384x85_S16x82_240_2 : ∀ a, (![240, 2] : Fin 2 → Nat) a + S16x82.size a ≤ S384x85.size a
  inb_S64x82_S16x82_0_0 : ∀ a, (![0, 0] : Fin 2 → Nat) a + S16x82.size a ≤ S64x82.size a
  shapeCasts_S16x82_S16x82 : S16x82.ShapeCasts S16x82
  inb_S384x85_S16x82_256_2 : ∀ a, (![256, 2] : Fin 2 → Nat) a + S16x82.size a ≤ S384x85.size a
  inb_S384x85_S16x82_272_2 : ∀ a, (![272, 2] : Fin 2 → Nat) a + S16x82.size a ≤ S384x85.size a
  inb_S384x85_S16x82_288_2 : ∀ a, (![288, 2] : Fin 2 → Nat) a + S16x82.size a ≤ S384x85.size a
  inb_S64x82_S16x82_16_0 : ∀ a, (![16, 0] : Fin 2 → Nat) a + S16x82.size a ≤ S64x82.size a
  inb_S384x85_S16x82_304_2 : ∀ a, (![304, 2] : Fin 2 → Nat) a + S16x82.size a ≤ S384x85.size a
  inb_S384x85_S16x82_320_2 : ∀ a, (![320, 2] : Fin 2 → Nat) a + S16x82.size a ≤ S384x85.size a
  inb_S384x85_S16x82_336_2 : ∀ a, (![336, 2] : Fin 2 → Nat) a + S16x82.size a ≤ S384x85.size a
  inb_S384x85_S16x82_352_2 : ∀ a, (![352, 2] : Fin 2 → Nat) a + S16x82.size a ≤ S384x85.size a
  inb_S384x85_S16x82_368_2 : ∀ a, (![368, 2] : Fin 2 → Nat) a + S16x82.size a ≤ S384x85.size a
  inb_S384x85_S16x82_0_3 : ∀ a, (![0, 3] : Fin 2 → Nat) a + S16x82.size a ≤ S384x85.size a
  inb_S384x85_S16x82_16_3 : ∀ a, (![16, 3] : Fin 2 → Nat) a + S16x82.size a ≤ S384x85.size a
  inb_S384x85_S16x82_32_3 : ∀ a, (![32, 3] : Fin 2 → Nat) a + S16x82.size a ≤ S384x85.size a
  inb_S384x85_S16x82_48_3 : ∀ a, (![48, 3] : Fin 2 → Nat) a + S16x82.size a ≤ S384x85.size a
  inb_S64x82_S16x82_32_0 : ∀ a, (![32, 0] : Fin 2 → Nat) a + S16x82.size a ≤ S64x82.size a
  inb_S384x85_S16x82_64_3 : ∀ a, (![64, 3] : Fin 2 → Nat) a + S16x82.size a ≤ S384x85.size a
  inb_S384x85_S16x82_80_3 : ∀ a, (![80, 3] : Fin 2 → Nat) a + S16x82.size a ≤ S384x85.size a
  inb_S384x85_S16x82_96_3 : ∀ a, (![96, 3] : Fin 2 → Nat) a + S16x82.size a ≤ S384x85.size a
  inb_S64x82_S16x82_48_0 : ∀ a, (![48, 0] : Fin 2 → Nat) a + S16x82.size a ≤ S64x82.size a
  inb_S64x64_S64x64_0_0 : ∀ a, (![0, 0] : Fin 2 → Nat) a + S64x64.size a ≤ S64x64.size a
  h_S64x64 : 0 < S64x64.numel
  inb_S64x82_S64x82_0_0 : ∀ a, (![0, 0] : Fin 2 → Nat) a + S64x82.size a ≤ S64x82.size a
  h_S64x82 : 0 < S64x82.numel
  inb_S64x1_S64x1_0_0 : ∀ a, (![0, 0] : Fin 2 → Nat) a + S64x1.size a ≤ S64x1.size a
  h_S64x1 : 0 < S64x1.numel
  broadcasts_S64x1_S64x82 : S64x1.Broadcasts S64x82
  slices_S64x82_o0_0_S32x81 : S64x82.Slices ![0, 0] S32x81
  slices_S64x82_o32_0_S32x81 : S64x82.Slices ![32, 0] S32x81
  slices_S64x82_o0_1_S32x81 : S64x82.Slices ![0, 1] S32x81
  inb_S1x32x81_S1x32x81_0_0_0 : ∀ a, (![0, 0, 0] : Fin 3 → Nat) a + S1x32x81.size a ≤ S1x32x81.size a
  h_S1x32x81 : 0 < S1x32x81.numel
  shapeCasts_S1x32x81_S32x81 : S1x32x81.ShapeCasts S32x81
  shapeCasts_S32x81_S1x32x81 : S32x81.ShapeCasts S1x32x81
  inb_S81x27_S81x27_0_0 : ∀ a, (![0, 0] : Fin 2 → Nat) a + S81x27.size a ≤ S81x27.size a
  h_S81x27 : 0 < S81x27.numel
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  broadcasts_S32x1_S32x27 : S32x1.Broadcasts S32x27
  inb_S1x32x27_S1x32x27_0_0_0 : ∀ a, (![0, 0, 0] : Fin 3 → Nat) a + S1x32x27.size a ≤ S1x32x27.size a
  h_S1x32x27 : 0 < S1x32x27.numel
  shapeCasts_S1x32x27_S32x27 : S1x32x27.ShapeCasts S32x27
  shapeCasts_S32x27_S1x32x27 : S32x27.ShapeCasts S1x32x27
  shapeCasts_S384x32x81_S384x2592 : S384x32x81.ShapeCasts S384x2592
  shapeCasts_S384x32x27_S3x128x32x27 : S384x32x27.ShapeCasts S3x128x32x27
  transposes_S3x128x32x27_S128x32x3x27_1_2_0_3 : S3x128x32x27.Transposes [1, 2, 0, 3] S128x32x3x27
  shapeCasts_S128x32x3x27_S128x2592 : S128x32x3x27.ShapeCasts S128x2592
  inb_S384x2592_S384x2592_0_0 : ∀ a, (![0, 0] : Fin 2 → Nat) a + S384x2592.size a ≤ S384x2592.size a
  h_S384x2592 : 0 < S384x2592.numel
  shapeCasts_S384x2592_S384x2592 : S384x2592.ShapeCasts S384x2592
  inb_S2592x32_S2592x32_0_0 : ∀ a, (![0, 0] : Fin 2 → Nat) a + S2592x32.size a ≤ S2592x32.size a
  h_S2592x32 : 0 < S2592x32.numel
  inb_S1x32_S1x32_0_0 : ∀ a, (![0, 0] : Fin 2 → Nat) a + S1x32.size a ≤ S1x32.size a
  h_S1x32 : 0 < S1x32.numel
  broadcasts_S1x32_S384x32 : S1x32.Broadcasts S384x32
  inb_S128x2592_S128x2592_0_0 : ∀ a, (![0, 0] : Fin 2 → Nat) a + S128x2592.size a ≤ S128x2592.size a
  h_S128x2592 : 0 < S128x2592.numel
  shapeCasts_S128x2592_S128x2592 : S128x2592.ShapeCasts S128x2592
  broadcasts_S1x32_S128x32 : S1x32.Broadcasts S128x32
  slices_S384x32_o0_0_S128x32 : S384x32.Slices ![0, 0] S128x32
  slices_S384x32_o128_0_S128x32 : S384x32.Slices ![128, 0] S128x32
  slices_S384x32_o256_0_S128x32 : S384x32.Slices ![256, 0] S128x32
  concatenates_S128x32_S128x32_S128x32_S128x32_S128x128_d1 : Shape.Concatenates [S128x32, S128x32, S128x32, S128x32] S128x128 1
  inb_S128x128_S128x128_0_0 : ∀ a, (![0, 0] : Fin 2 → Nat) a + S128x128.size a ≤ S128x128.size a
  h_S128x128 : 0 < S128x128.numel
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S128x10 : S1x10.Broadcasts S128x10
  dot_S384x240_S240x85_S384x85_1_0_0_1_n_n_wf : DotDims.WF S384x240 S240x85 S384x85 [1] [0] [0] [1] [] []
  dot_S64x64_S64x82_S64x82_1_0_0_1_n_n_wf : DotDims.WF S64x64 S64x82 S64x82 [1] [0] [0] [1] [] []
  dot_S32x81_S81x27_S32x27_1_0_0_1_n_n_wf : DotDims.WF S32x81 S81x27 S32x27 [1] [0] [0] [1] [] []
  dot_S32x32_S32x27_S32x27_1_0_0_1_n_n_wf : DotDims.WF S32x32 S32x27 S32x27 [1] [0] [0] [1] [] []
  dot_S384x2592_S2592x32_S384x32_1_0_0_1_n_n_wf : DotDims.WF S384x2592 S2592x32 S384x32 [1] [0] [0] [1] [] []
  dot_S128x2592_S2592x32_S128x32_1_0_0_1_n_n_wf : DotDims.WF S128x2592 S2592x32 S128x32 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x240x87.size a ≤ S384x240x87.size a
  hwx0_0 : ∀ i : grid0.Coords, EltTy.bits .f32 = 32 ∨ (Rect.block (s := S384x240x87) S1x240x87.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x384x240.size a ≤ S3x384x240.size a
  hwx0_1 : ∀ i : grid0.Coords, EltTy.bits .f32 = 32 ∨ (Rect.block (s := S3x384x240) S3x384x240.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x1.size a ≤ S384x1.size a
  hwx0_2 : ∀ i : grid0.Coords, EltTy.bits .f32 = 32 ∨ (Rect.block (s := S384x1) S384x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S81x27.size a ≤ S81x27.size a
  hwx0_8 : ∀ i : grid0.Coords, EltTy.bits .f32 = 32 ∨ (Rect.block (s := S81x27) S81x27.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S81x27.size a ≤ S81x27.size a
  hwx0_9 : ∀ i : grid0.Coords, EltTy.bits .f32 = 32 ∨ (Rect.block (s := S81x27) S81x27.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x32x81.size a ≤ S384x32x81.size a
  hwx0_10 : ∀ i : grid0.Coords, EltTy.bits .f32 = 32 ∨ (Rect.block (s := S384x32x81) S1x32x81.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x32x27.size a ≤ S384x32x27.size a
  hwx0_11 : ∀ i : grid0.Coords, EltTy.bits .f32 = 32 ∨ (Rect.block (s := S384x32x27) S1x32x27.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x2592.size a ≤ S384x2592.size a
  hwx1_0 : ∀ i : grid1.Coords, EltTy.bits .f32 = 32 ∨ (Rect.block (s := S384x2592) S384x2592.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x2592.size a ≤ S128x2592.size a
  hwx1_1 : ∀ i : grid1.Coords, EltTy.bits .f32 = 32 ∨ (Rect.block (s := S128x2592) S128x2592.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2592x32.size a ≤ S2592x32.size a
  hwx1_2 : ∀ i : grid1.Coords, EltTy.bits .f32 = 32 ∨ (Rect.block (s := S2592x32) S2592x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2592x32.size a ≤ S2592x32.size a
  hwx1_4 : ∀ i : grid1.Coords, EltTy.bits .f32 = 32 ∨ (Rect.block (s := S2592x32) S2592x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x10.size a ≤ S128x10.size a
  hwx1_6 : ∀ i : grid1.Coords, EltTy.bits .f32 = 32 ∨ (Rect.block (s := S128x10) S128x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x10.size a ≤ S1x10.size a
  hwx1_7 : ∀ i : grid1.Coords, EltTy.bits .f32 = 32 ∨ (Rect.block (s := S1x10) S1x10.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x10.size a ≤ S128x10.size a
  hwx1_8 : ∀ i : grid1.Coords, EltTy.bits .f32 = 32 ∨ (Rect.block (s := S128x10) S128x10.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)

variable [Facts₀]

def dot_S384x240_S240x85_S384x85_1_0_0_1_n_n : DotDims S384x240 S240x85 S384x85 where
  lhsContracting := [1]
  rhsContracting := [0]
  lhsNonContracting := [0]
  rhsNonContracting := [1]
  lhsBatch := []
  rhsBatch := []
  wf := dot_S384x240_S240x85_S384x85_1_0_0_1_n_n_wf
def dot_S64x64_S64x82_S64x82_1_0_0_1_n_n : DotDims S64x64 S64x82 S64x82 where
  lhsContracting := [1]
  rhsContracting := [0]
  lhsNonContracting := [0]
  rhsNonContracting := [1]
  lhsBatch := []
  rhsBatch := []
  wf := dot_S64x64_S64x82_S64x82_1_0_0_1_n_n_wf
def dot_S32x81_S81x27_S32x27_1_0_0_1_n_n : DotDims S32x81 S81x27 S32x27 where
  lhsContracting := [1]
  rhsContracting := [0]
  lhsNonContracting := [0]
  rhsNonContracting := [1]
  lhsBatch := []
  rhsBatch := []
  wf := dot_S32x81_S81x27_S32x27_1_0_0_1_n_n_wf
def dot_S32x32_S32x27_S32x27_1_0_0_1_n_n : DotDims S32x32 S32x27 S32x27 where
  lhsContracting := [1]
  rhsContracting := [0]
  lhsNonContracting := [0]
  rhsNonContracting := [1]
  lhsBatch := []
  rhsBatch := []
  wf := dot_S32x32_S32x27_S32x27_1_0_0_1_n_n_wf
def dot_S384x2592_S2592x32_S384x32_1_0_0_1_n_n : DotDims S384x2592 S2592x32 S384x32 where
  lhsContracting := [1]
  rhsContracting := [0]
  lhsNonContracting := [0]
  rhsNonContracting := [1]
  lhsBatch := []
  rhsBatch := []
  wf := dot_S384x2592_S2592x32_S384x32_1_0_0_1_n_n_wf
def dot_S128x2592_S2592x32_S128x32_1_0_0_1_n_n : DotDims S128x2592 S2592x32 S128x32 where
  lhsContracting := [1]
  rhsContracting := [0]
  lhsNonContracting := [0]
  rhsNonContracting := [1]
  lhsBatch := []
  rhsBatch := []
  wf := dot_S128x2592_S2592x32_S128x32_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v12) S1x240x87.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x384x240.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S81x27.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S81x27.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13_0) S1x32x81.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v13_1) S1x32x27.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v14) S384x2592.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S128x2592.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S2592x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S2592x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S1x10.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18_0) S128x10.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18_1) S128x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.K.Region0.lean ====
/- The frame half of the per-stream convolution kernel (region 0 of the word-level kernel program): the blocks its
   windows hold at a grid point, what its body leaves in the two output windows as a function of those blocks, and the
   body's triple at every point. -/
import proofs.«116650_g2000303023666169_pallasbulk_55_22_alg».proof.Proof.Gen.Kernel.Launch
import proofs.«116650_g2000303023666169_pallasbulk_55_22_alg».proof.Proof.Gen.Kernel.Skeleton
import proofs.«116650_g2000303023666169_pallasbulk_55_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the per-stream kernel, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over (the block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or carried over (the block index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or carried over (the block index has not moved). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or carried over (the block index has not moved). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or carried over (the block index has not moved). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or carried over (the block index has not moved). -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or carried over (the block index has not moved). -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or carried over (the block index has not moved). -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or carried over (the block index has not moved). -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or carried over (the block index has not moved). -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rx_0 : Rect S4x2x91x120 := Rect.unit (s := S4x2x91x120) ![0, 0, 0, 0] S1x2x91x120.size inb_S4x2x91x120_S1x2x91x120_0_0_0_0
abbrev rx_1 : Rect S4x2x91x120 := Rect.unit (s := S4x2x91x120) ![1, 0, 0, 0] S1x2x91x120.size inb_S4x2x91x120_S1x2x91x120_1_0_0_0
abbrev rx_2 : Rect S4x2x91x120 := Rect.unit (s := S4x2x91x120) ![2, 0, 0, 0] S1x2x91x120.size inb_S4x2x91x120_S1x2x91x120_2_0_0_0
abbrev rx_3 : Rect S4x2x91x120 := Rect.unit (s := S4x2x91x120) ![3, 0, 0, 0] S1x2x91x120.size inb_S4x2x91x120_S1x2x91x120_3_0_0_0
abbrev rw0_1 : Rect S720x384 := Rect.unit (s := S720x384) ![0, 0] S720x384.size inb_S720x384_S720x384_0_0
abbrev rw0_2 : Rect S1x384 := Rect.unit (s := S1x384) ![0, 0] S1x384.size inb_S1x384_S1x384_0_0
abbrev rw0_3 : Rect S64x64 := Rect.unit (s := S64x64) ![0, 0] S64x64.size inb_S64x64_S64x64_0_0
abbrev rw0_4 : Rect S1x64 := Rect.unit (s := S1x64) ![0, 0] S1x64.size inb_S1x64_S1x64_0_0
abbrev rw0_5 : Rect S32x32 := Rect.unit (s := S32x32) ![0, 0] S32x32.size inb_S32x32_S32x32_0_0
abbrev rw0_6 : Rect S32x32 := Rect.unit (s := S32x32) ![0, 0] S32x32.size inb_S32x32_S32x32_0_0
abbrev rw0_7 : Rect S1x32 := Rect.unit (s := S1x32) ![0, 0] S1x32.size inb_S1x32_S1x32_0_0
abbrev rw0_8 : Rect S27x81 := Rect.unit (s := S27x81) ![0, 0] S27x81.size inb_S27x81_S27x81_0_0
abbrev rw0_9 : Rect S27x81 := Rect.unit (s := S27x81) ![0, 0] S27x81.size inb_S27x81_S27x81_0_0
abbrev rz_0 : Rect S4x81x32 := Rect.unit (s := S4x81x32) ![0, 0, 0] S1x81x32.size inb_S4x81x32_S1x81x32_0_0_0
abbrev rz_1 : Rect S4x81x32 := Rect.unit (s := S4x81x32) ![1, 0, 0] S1x81x32.size inb_S4x81x32_S1x81x32_1_0_0
abbrev rz_2 : Rect S4x81x32 := Rect.unit (s := S4x81x32) ![2, 0, 0] S1x81x32.size inb_S4x81x32_S1x81x32_2_0_0
abbrev rz_3 : Rect S4x81x32 := Rect.unit (s := S4x81x32) ![3, 0, 0] S1x81x32.size inb_S4x81x32_S1x81x32_3_0_0
abbrev ry_0 : Rect S4x27x32 := Rect.unit (s := S4x27x32) ![0, 0, 0] S1x27x32.size inb_S4x27x32_S1x27x32_0_0_0
abbrev ry_1 : Rect S4x27x32 := Rect.unit (s := S4x27x32) ![1, 0, 0] S1x27x32.size inb_S4x27x32_S1x27x32_1_0_0
abbrev ry_2 : Rect S4x27x32 := Rect.unit (s := S4x27x32) ![2, 0, 0] S1x27x32.size inb_S4x27x32_S1x27x32_2_0_0
abbrev ry_3 : Rect S4x27x32 := Rect.unit (s := S4x27x32) ![3, 0, 0] S1x27x32.size inb_S4x27x32_S1x27x32_3_0_0

/-! ## What the body leaves in each output window's buffer -/

/-- Output window 10 (the pooled features, four streams of 81×32) after the body: one piece per stream, the last store first. -/
def out0_10 (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) : Vec F S4x81x32 .bf16 :=
  View.canon [⟨rz_3, k0_pay20 (k0_pay18 (View.ld x0 rx_3) (View.ld x1 rw0_1) (View.ld x2 rw0_2)) (View.ld x3 rw0_3) (View.ld x4 rw0_4)⟩,
    ⟨rz_2, k0_pay16 (k0_pay13 (k0_pay12 (View.ld x0 rx_2)) (View.ld x1 rw0_1) (View.ld x2 rw0_2) (View.ld x3 rw0_3)) (k0_pay14 (View.ld x4 rw0_4))⟩,
    ⟨rz_1, k0_pay10 (k0_pay8 (View.ld x0 rx_1) (View.ld x1 rw0_1) (View.ld x2 rw0_2)) (View.ld x3 rw0_3) (View.ld x4 rw0_4)⟩,
    ⟨rz_0, k0_pay4 (k0_pay2 (View.ld x0 rx_0) (View.ld x1 rw0_1) (View.ld x2 rw0_2)) (View.ld x3 rw0_3) (View.ld x4 rw0_4)⟩]

/-- Output window 11 (the fusion slab, four streams of 27×32) after the body: one piece per stream, the last store first. -/
def out0_11 (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) : Vec F S4x27x32 .bf16 :=
  View.canon [⟨ry_3, k0_pay1 (k0_pay21 (k0_pay18 (View.ld x0 rx_3) (View.ld x1 rw0_1) (View.ld x2 rw0_2)) (View.ld x3 rw0_3) (View.ld x4 rw0_4) (View.ld x8 rw0_8) (View.ld x5 rw0_5)) (k0_pay22 (k0_pay18 (View.ld x0 rx_3) (View.ld x1 rw0_1) (View.ld x2 rw0_2)) (View.ld x3 rw0_3) (View.ld x4 rw0_4) (View.ld x9 rw0_9)) (View.ld x6 rw0_6) (View.ld x7 rw0_7)⟩,
    ⟨ry_2, k0_pay17 (k0_pay13 (k0_pay12 (View.ld x0 rx_2)) (View.ld x1 rw0_1) (View.ld x2 rw0_2) (View.ld x3 rw0_3)) (k0_pay14 (View.ld x4 rw0_4)) (View.ld x8 rw0_8) (View.ld x9 rw0_9) (View.ld x5 rw0_5) (View.ld x6 rw0_6) (View.ld x7 rw0_7)⟩,
    ⟨ry_1, k0_pay11 (k0_pay9 (k0_pay8 (View.ld x0 rx_1) (View.ld x1 rw0_1) (View.ld x2 rw0_2)) (View.ld x3 rw0_3) (View.ld x4 rw0_4)) (View.ld x8 rw0_8) (View.ld x9 rw0_9) (View.ld x5 rw0_5) (View.ld x6 rw0_6) (View.ld x7 rw0_7)⟩,
    ⟨ry_0, k0_pay7 (k0_pay5 (k0_pay2 (View.ld x0 rx_0) (View.ld x1 rw0_1) (View.ld x2 rw0_2)) (View.ld x3 rw0_3) (View.ld x4 rw0_4) (View.ld x8 rw0_8) (View.ld x5 rw0_5)) (k0_pay6 (k0_pay2 (View.ld x0 rx_0) (View.ld x1 rw0_1) (View.ld x2 rw0_2)) (View.ld x3 rw0_3) (View.ld x4 rw0_4) (View.ld x9 rw0_9)) (View.ld x6 rw0_6) (View.ld x7 rw0_7)⟩]

/-- The four stream slabs tile window 10. -/
theorem cover0_10 (p0 p1 p2 p3 : Vec F S1x81x32 .bf16) (y : S4x81x32.Idx) :
    ∃ pc ∈ ([⟨rz_3, p0⟩, ⟨rz_2, p1⟩, ⟨rz_1, p2⟩, ⟨rz_0, p3⟩] : List (View.Piece (Elt F) S4x81x32 .bf16)), y ∈ pc.1.set :=
  View.cover_of_tiled [⟨rz_3, p0⟩, ⟨rz_2, p1⟩, ⟨rz_1, p2⟩, ⟨rz_0, p3⟩] S1x81x32.size (by rfl) y

/-- The four stream slabs tile window 11. -/
theorem cover0_11 (p0 p1 p2 p3 : Vec F S1x27x32 .bf16) (y : S4x27x32.Idx) :
    ∃ pc ∈ ([⟨ry_3, p0⟩, ⟨ry_2, p1⟩, ⟨ry_1, p2⟩, ⟨ry_0, p3⟩] : List (View.Piece (Elt F) S4x27x32 .bf16)), y ∈ pc.1.set :=
  View.cover_of_tiled [⟨ry_3, p0⟩, ⟨ry_2, p1⟩, ⟨ry_1, p2⟩, ⟨ry_0, p3⟩] S1x27x32.size (by rfl) y

/-! ## The body's triple -/

set_option maxHeartbeats 8000000 in
/-- The kernel body on whole staging memrefs — the inputs' at contents `xW`, the outputs' at anything — runs to the
    continuation holding the inputs' as they were and each output's at `out0_W` of the inputs'. -/
theorem sound_kernel0 (c : Dev nD) (E : Set ℕ) (i : grid0.Coords) (arg1 : Memref sig .tc .vmem S4x2x91x120 .bf16) (harg1 : arg1.IsWhole) (arg2 : Memref sig .tc .vmem S720x384 .bf16) (harg2 : arg2.IsWhole) (arg3 : Memref sig .tc .vmem S1x384 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S32x32 .bf16) (harg6 : arg6.IsWhole) (arg7 : Memref sig .tc .vmem S32x32 .bf16) (harg7 : arg7.IsWhole) (arg8 : Memref sig .tc .vmem S1x32 .f32) (harg8 : arg8.IsWhole) (arg9 : Memref sig .tc .vmem S27x81 .bf16) (harg9 : arg9.IsWhole) (arg10 : Memref sig .tc .vmem S27x81 .bf16) (harg10 : arg10.IsWhole) (arg11 : Memref sig .tc .vmem S4x81x32 .bf16) (harg11 : arg11.IsWhole) (arg12 : Memref sig .tc .vmem S4x27x32 .bf16) (harg12 : arg12.IsWhole)
    (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__ae_kernel i arg1 harg1 arg2 harg2 arg3 harg3 arg4 harg4 arg5 harg5 arg6 harg6 arg7 harg7 arg8 harg8 arg9 harg9 arg10 harg10 arg11 harg11 arg12 harg12) K := by
  simp only [cc0__ae_kernel_eq_skeleton]; unfold cc0__ae_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover0_10 _ _ _ _)
  iexists _; isplitr
  swap; · iexact H11
  ipureintro
  try dsimp only
  exact View.read_writes_eq_canon _ _ _ (cover0_11 _ _ _ _)

/-! ## The pipeline's proof data -/

/-- Pipeline 0's proof data on core `c`: the arrays as the region finds them; after the body at point `t` each input's
    buffer still at its block and each output's at `out0_W` of the input blocks; the scoped rest and the generator
    register ride along untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/- Region 1 of @main: the head kernel, launched at the single point of its grid. Every one of its eight input windows
   is the whole of its array, so the block the body reads is the array itself; the body computes two dense layers with a
   rectified output, lays the four 128x32 results side by side as one 128x128 array (written whole to window 9), and
   applies a last dense layer to that array (written whole to window 8). Each output's buffer after the body is therefore
   one whole-buffer store of a pure function of the input blocks. Everything is stated at a parameter `V`, the buffer
   contents when the region is entered, and at any float instance. -/
import proofs.«116650_g2000303023666169_pallasbulk_55_22_alg».proof.Proof.Gen.Kernel.Launch
import proofs.«116650_g2000303023666169_pallasbulk_55_22_alg».proof.Proof.Gen.Kernel.Skeleton
import proofs.«116650_g2000303023666169_pallasbulk_55_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data whose array is
    the entry contents and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data whose array is
    the entry contents and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data whose array is
    the entry contents and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for any proof data whose array is
    the entry contents and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for any proof data whose array is
    the entry contents and whose body leaves the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, for any proof data whose array is
    the entry contents and whose body leaves the block in place. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, for any proof data whose array is
    the entry contents and whose body leaves the block in place. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_a : Rect S384x2592 := Rect.unit (s := S384x2592) ![0, 0] S384x2592.size inb_S384x2592_S384x2592_0_0
abbrev r1_b : Rect S128x2592 := Rect.unit (s := S128x2592) ![0, 0] S128x2592.size inb_S128x2592_S128x2592_0_0
abbrev r1_c : Rect S2592x32 := Rect.unit (s := S2592x32) ![0, 0] S2592x32.size inb_S2592x32_S2592x32_0_0
abbrev r1_d : Rect S1x32 := Rect.unit (s := S1x32) ![0, 0] S1x32.size inb_S1x32_S1x32_0_0
abbrev r1_e : Rect S128x10 := Rect.unit (s := S128x10) ![0, 0] S128x10.size inb_S128x10_S128x10_0_0
abbrev r1_f : Rect S1x10 := Rect.unit (s := S1x10) ![0, 0] S1x10.size inb_S1x10_S1x10_0_0
abbrev r1_g : Rect S128x128 := Rect.unit (s := S128x128) ![0, 0] S128x128.size inb_S128x128_S128x128_0_0

/-! ## What the body leaves in each output window's buffer -/

/-- Window 9's buffer after the body: its one whole-buffer store, the four rectified 128x32 layers side by side, as a
    function of the first six input blocks. -/
def out1_9 (x0 : Vec F S384x2592 .bf16) (x1 : Vec F S128x2592 .bf16) (x2 : Vec F S2592x32 .bf16) (x3 : Vec F S1x32 .f32) (x4 : Vec F S2592x32 .bf16) (x5 : Vec F S1x32 .f32) : Vec F S128x128 .f32 :=
  View.canon [⟨r1_g, k1_pay1 (View.ld x0 r1_a) (View.ld x2 r1_c) (View.ld x3 r1_d) (View.ld x1 r1_b) (View.ld x4 r1_c) (View.ld x5 r1_d)⟩]

/-- Window 8's buffer after the body: its one whole-buffer store, the last dense layer applied to window 9's value, as a
    function of the eight input blocks. -/
def out1_8 (x0 : Vec F S384x2592 .bf16) (x1 : Vec F S128x2592 .bf16) (x2 : Vec F S2592x32 .bf16) (x3 : Vec F S1x32 .f32) (x4 : Vec F S2592x32 .bf16) (x5 : Vec F S1x32 .f32) (x6 : Vec F S128x10 .bf16) (x7 : Vec F S1x10 .f32) : Vec F S128x10 .f32 :=
  View.canon [⟨r1_e, k1_pay2 (View.ld x0 r1_a) (View.ld x2 r1_c) (View.ld x3 r1_d) (View.ld x1 r1_b) (View.ld x4 r1_c) (View.ld x5 r1_d) (View.ld x6 r1_e) (View.ld x7 r1_f)⟩]

/-- A single whole-buffer store covers the buffer. -/
theorem cover1_9 (p0 : Vec F S128x128 .f32) (y : S128x128.Idx) :
    ∃ pc ∈ ([⟨r1_g, p0⟩] : List (View.Piece (Elt F) S128x128 .f32)), y ∈ pc.1.set :=
  View.cover_of_tiled [⟨r1_g, p0⟩] S128x128.size (by rfl) y
theorem cover1_8 (p0 : Vec F S128x10 .f32) (y : S128x10.Idx) :
    ∃ pc ∈ ([⟨r1_e, p0⟩] : List (View.Piece (Elt F) S128x10 .f32)), y ∈ pc.1.set :=
  View.cover_of_tiled [⟨r1_e, p0⟩] S128x10.size (by rfl) y

/-! ## The body's triple -/

set_option maxHeartbeats 1000000 in
/-- The body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S384x2592 .bf16) (harg1 : arg1.IsWhole) (arg2 : Memref sig .tc .vmem S128x2592 .bf16) (harg2 : arg2.IsWhole) (arg3 : Memref sig .tc .vmem S2592x32 .bf16) (harg3 : arg3.IsWhole) (arg4 : Memref sig .tc .vmem S1x32 .f32) (harg4 : arg4.IsWhole) (arg5 : Memref sig .tc .vmem S2592x32 .bf16) (harg5 : arg5.IsWhole) (arg6 : Memref sig .tc .vmem S1x32 .f32) (harg6 : arg6.IsWhole) (arg7 : Memref sig .tc .vmem S128x10 .bf16) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (x0 : Vec F S384x2592 .bf16) (x1 : Vec F S128x2592 .bf16) (x2 : Vec F S2592x32 .bf16) (x3 : Vec F S1x32 .f32) (x4 : Vec F S2592x32 .bf16) (x5 : Vec F S1x32 .f32) (x6 : Vec F S128x10 .bf16) (x7 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-! ## The pipeline's proof data -/

/-- The proof data of pipeline 1 on core `c`: the arrays at the entry contents; after the body each input's buffer at its
    block and each output's at `out1_W` of the input blocks; the invariant the scoped rest and the generator register,
    untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Frame.lean ====
/- The frame of the program: @main is three stretches of host operations, the per-stream kernel's region (region 0), one
   more stretch, and the head kernel's region (region 1). Between two items core `c` holds every unscoped buffer whole at a
   known valuation. A region reads its input windows' arrays and writes its two output arrays, so it changes the
   valuation at exactly those two references: region 0 leaves there what its pipeline's write-backs fold to from the
   entry contents, and region 1 likewise from ITS entry contents, which are the host stretch between them applied to what
   region 0 left. No item writes an argument array, so each reaches the end as launched; and the two results of @main are
   what region 1's write-backs leave in its output arrays. -/
import proofs.«116650_g2000303023666169_pallasbulk_55_22_alg».proof.Proof.K.Region0
import proofs.«116650_g2000303023666169_pallasbulk_55_22_alg».proof.Proof.K.Region1
import proofs.«116650_g2000303023666169_pallasbulk_55_22_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at the regions' boundaries -/

/-- Region 0's entry contents: the launch memory after the three host stretches before it. -/
abbrev Vin0 : (c : Dev nD) → (b : Ref sig .tc) → Buf (Elt F) ((c : Thread nD τ).loc b) := fun c b => Gen.V3 m c b

/-- What region 0 leaves on core `c`: its arrays at what the pipeline's write-backs fold to, every other buffer as entered. -/
def W4 (c : Dev nD) : Valuation τ sig (Elt F) :=
  Pipeline.withArrays spec0 c (Gen.V3 m c) fun w => (dat0 (Vin0 m) c).arrAt w cfg0.N
/-- The same read at a reference: the contents region 0 leaves there. -/
def outs4 (r : Ref sig .tc) (c : Dev nD) : Buf (Elt F) ((c : Thread nD τ).loc r) := W4 m c r
theorem outs4_0 (c : Dev nD) : outs4 m main_v38_0 c = (dat0 (Vin0 m) c).arrAt 10 cfg0.N := by
  unfold outs4 W4; exact Pipeline.withArrays_arr spec0 launch0.win.arr_inj c _ _ 10
theorem outs4_1 (c : Dev nD) : outs4 m main_v38_1 c = (dat0 (Vin0 m) c).arrAt 11 cfg0.N := by
  unfold outs4 W4; exact Pipeline.withArrays_arr spec0 launch0.win.arr_inj c _ _ 11

/-- The family of contents the regions leave, region 0's part only (read at every number). -/
def outsA : Gen.Outs (F := F) := fun _ r c => outs4 m r c

/-- Region 1's entry contents: the host stretch between the regions applied to what region 0 left. -/
abbrev Vin1 : (c : Dev nD) → (b : Ref sig .tc) → Buf (Elt F) ((c : Thread nD τ).loc b) := fun c b => Gen.V5 m (outsA m) c b

/-- What region 1 leaves on core `c`. -/
def W6 (c : Dev nD) : Valuation τ sig (Elt F) :=
  Pipeline.withArrays spec1 c (Gen.V5 m (outsA m) c) fun w => (dat1 (Vin1 m) c).arrAt w cfg1.N
def outs6 (r : Ref sig .tc) (c : Dev nD) : Buf (Elt F) ((c : Thread nD τ).loc r) := W6 m c r
theorem outs6_0 (c : Dev nD) : outs6 m main_v52_0 c = (dat1 (Vin1 m) c).arrAt 8 cfg1.N := by
  unfold outs6 W6; exact Pipeline.withArrays_arr spec1 launch1.win.arr_inj c _ _ 8
theorem outs6_1 (c : Dev nD) : outs6 m main_v52_1 c = (dat1 (Vin1 m) c).arrAt 9 cfg1.N := by
  unfold outs6 W6; exact Pipeline.withArrays_arr spec1 launch1.win.arr_inj c _ _ 9

/-- The contents the regions leave: after item 5 (region 1) region 1's, otherwise region 0's. -/
def outsH : Gen.Outs (F := F) := fun n r c =>
  match n with
  | 6 => outs6 m r c
  | _ => outs4 m r c
theorem outsH_4 (r : Ref sig .tc) (c : Dev nD) : outsH m 4 r c = outs4 m r c := rfl
theorem outsH_6 (r : Ref sig .tc) (c : Dev nD) : outsH m 6 r c = outs6 m r c := rfl
/-- The valuations after items 3 and 4 read region 0's part only. -/
theorem V4_H (c : Dev nD) : Gen.V4 m (outsH m) c = Gen.V4 m (outsA m) c := rfl
theorem V5_H (c : Dev nD) : Gen.V5 m (outsH m) c = Gen.V5 m (outsA m) c := rfl
theorem Vin1_eq (c : Dev nD) (b : Ref sig .tc) : Vin1 m c b = Gen.V5 m (outsH m) c b := rfl

/-- The exit contents of the two regions, read at the TensorCore's references. -/
abbrev Vout0 : (c : Dev nD) → (b : Ref sig .tc) → Buf (Elt F) ((c : Thread nD τ).loc b) := fun c b => Gen.V4 m (outsH m) c b
abbrev Vout1 : (c : Dev nD) → (b : Ref sig .tc) → Buf (Elt F) ((c : Thread nD τ).loc b) := fun c b => Gen.V6 m (outsH m) c b

/-! ## An updated valuation read at the updated references -/

theorem V4_at0 (outs : Gen.Outs (F := F)) (c : Dev nD) : Gen.V4 m outs c main_v38_0 = outs 4 main_v38_0 c := by
  simp only [Gen.V4, Function.update_of_ne (StableHlo.devRef_ne_of_ne (by decide : (main_v38_0 : Ref sig .tc) ≠ main_v38_1) : (Proc.devRef .tc main_v38_0 : DevRef τ sig) ≠ Proc.devRef .tc main_v38_1), Function.update_self]
theorem V4_at1 (outs : Gen.Outs (F := F)) (c : Dev nD) : Gen.V4 m outs c main_v38_1 = outs 4 main_v38_1 c := by
  simp only [Gen.V4, Function.update_self]
theorem V6_at0 (outs : Gen.Outs (F := F)) (c : Dev nD) : Gen.V6 m outs c main_v52_0 = outs 6 main_v52_0 c := by
  simp only [Gen.V6, Function.update_of_ne (StableHlo.devRef_ne_of_ne (by decide : (main_v52_0 : Ref sig .tc) ≠ main_v52_1) : (Proc.devRef .tc main_v52_0 : DevRef τ sig) ≠ Proc.devRef .tc main_v52_1), Function.update_self]
theorem V6_at1 (outs : Gen.Outs (F := F)) (c : Dev nD) : Gen.V6 m outs c main_v52_1 = outs 6 main_v52_1 c := by
  simp only [Gen.V6, Function.update_self]

/-! ## Each region's arrays at its exit, and the rest unchanged -/

/-- An input window's array is not among the two references region 0 may change: it holds at the exit what it held at
    the entry, which is what the pipeline leaves in an input's array. -/
theorem hF0_in (c : Dev nD) (w : Fin cfg0.W) (hin : (cfg0.win w).isOut = false)
    (hne : Pipeline.arrRef spec0 w ∉ ([main_v38_0, main_v38_1] : List (Ref sig .tc))) :
    (dat0 (Vin0 m) c).arrAt w cfg0.N = Vout0 m c (Pipeline.arrRef spec0 w) :=
  ((dat0 (Vin0 m) c).arrAt_in w hin _).trans ((A_eq0 (Vin0 m) c w).trans (Gen.V4_of m (outsH m) c _ hne).symm)
theorem hF0 (c : Dev nD) : ∀ w : Fin 12, (dat0 (Vin0 m) c).arrAt w cfg0.N = Vout0 m c (Pipeline.arrRef spec0 w)
  | 0 => hF0_in m c 0 rfl (by decide) | 1 => hF0_in m c 1 rfl (by decide) | 2 => hF0_in m c 2 rfl (by decide)
  | 3 => hF0_in m c 3 rfl (by decide) | 4 => hF0_in m c 4 rfl (by decide) | 5 => hF0_in m c 5 rfl (by decide)
  | 6 => hF0_in m c 6 rfl (by decide) | 7 => hF0_in m c 7 rfl (by decide) | 8 => hF0_in m c 8 rfl (by decide)
  | 9 => hF0_in m c 9 rfl (by decide)
  | 10 => ((V4_at0 m (outsH m) c).trans (outs4_0 m c)).symm
  | 11 => ((V4_at1 m (outsH m) c).trans (outs4_1 m c)).symm
  | ⟨_ + 12, h⟩ => absurd h (Nat.not_lt.2 (Nat.le_add_left _ _))
theorem hrest0 (c : Dev nD) : ∀ b, b ∉ Finset.univ.image (Pipeline.arrRef spec0) → Vout0 m c b = Vin0 m c b :=
  fun b hb => Gen.V4_of m (outsH m) c b (by
    intro hmem
    rcases List.mem_cons.mp hmem with rfl | hmem
    · exact hb (Finset.mem_image.mpr ⟨10, Finset.mem_univ _, rfl⟩)
    rcases List.mem_cons.mp hmem with rfl | hmem
    · exact hb (Finset.mem_image.mpr ⟨11, Finset.mem_univ _, rfl⟩)
    exact absurd hmem (List.not_mem_nil))

theorem hF1_in (c : Dev nD) (w : Fin cfg1.W) (hin : (cfg1.win w).isOut = false)
    (hne : Pipeline.arrRef spec1 w ∉ ([main_v52_0, main_v52_1] : List (Ref sig .tc))) :
    (dat1 (Vin1 m) c).arrAt w cfg1.N = Vout1 m c (Pipeline.arrRef spec1 w) :=
  ((dat1 (Vin1 m) c).arrAt_in w hin _).trans ((A_eq1 (Vin1 m) c w).trans (Gen.V6_of m (outsH m) c _ hne).symm)
theorem hF1 (c : Dev nD) : ∀ w : Fin 10, (dat1 (Vin1 m) c).arrAt w cfg1.N = Vout1 m c (Pipeline.arrRef spec1 w)
  | 0 => hF1_in m c 0 rfl (by decide) | 1 => hF1_in m c 1 rfl (by decide) | 2 => hF1_in m c 2 rfl (by decide)
  | 3 => hF1_in m c 3 rfl (by decide) | 4 => hF1_in m c 4 rfl (by decide) | 5 => hF1_in m c 5 rfl (by decide)
  | 6 => hF1_in m c 6 rfl (by decide) | 7 => hF1_in m c 7 rfl (by decide)
  | 8 => ((V6_at0 m (outsH m) c).trans (outs6_0 m c)).symm
  | 9 => ((V6_at1 m (outsH m) c).trans (outs6_1 m c)).symm
  | ⟨_ + 10, h⟩ => absurd h (Nat.not_lt.2 (Nat.le_add_left _ _))
theorem hrest1 (c : Dev nD) : ∀ b, b ∉ Finset.univ.image (Pipeline.arrRef spec1) → Vout1 m c b = Vin1 m c b :=
  fun b hb => Gen.V6_of m (outsH m) c b (by
    intro hmem
    rcases List.mem_cons.mp hmem with rfl | hmem
    · exact hb (Finset.mem_image.mpr ⟨8, Finset.mem_univ _, rfl⟩)
    rcases List.mem_cons.mp hmem with rfl | hmem
    · exact hb (Finset.mem_image.mpr ⟨9, Finset.mem_univ _, rfl⟩)
    exact absurd hmem (List.not_mem_nil))

/-! ## The proof data family and the thread state -/

/-- Every pipeline's proof data, each at its region's entry contents. -/
def pdats : (p : Fin 2) → (c : Dev nD) → Dat τ (Elt F) Unit ℕ (Pipeline.UD sig nD τ) ℕ (cfgs p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents after the third host stretch, left
    at those contents updated at its two output arrays. Its arrays are split out of the unscoped buffers and put back at
    the exit contents; the generator register goes into the invariant and comes out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the host stretch between
    the regions, left at those contents updated at its two output arrays. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the thread state the host stretch before it leaves. -/
theorem hpre1 (c : Dev nD) :
    iprop(StableHlo.held (c : Thread nD τ) (Pipeline.ucRefs τ sig) (Gen.V5 m (outsH m) c) ∗ R (F := F) c) ⊢ (reg1 m).pre c := by
  rw [V5_H]; exact .rfl

/-! ## The frame -/

set_option backward.isDefEq.respectTransparency.types false in
/-- At the compiled mesh, from any memory with zero counters, every weakly fair execution of @main on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (F := F) (m := m) (Ix := Unit) (U := Pipeline.UD sig nD τ) (Lvl := ℕ) (EP := embL) (ι := ()) (𝒱₀ := 𝒱₀) (L := L) (lv := lv)
    (hL := fun _ _ => rfl) (ρ := ρ) (outs := outsH m) (pdats := pdats m) (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := hpre1 m) (hpost1 := fun _ => .rfl)

/-! ## The run with the results named -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The same run, with @main's two results named: every final state has region 1's two output arrays at what its
    pipeline's write-backs fold to from its entry contents, and the argument arrays as launched. The last thread state
    holds every unscoped buffer at the last valuation, which is read against the final state. -/
theorem run_named : θ_run defs (onTc (τ := τ) (main (F := F))) ⟨m, fun _ => 0, ρ⟩ (fun r => ∀ c : Dev nD,
      r.2.mem ((c.tc : Thread nD τ).loc main_v52_0) = (dat1 (Vin1 m) c).arrAt 8 cfg1.N
      ∧ r.2.mem ((c.tc : Thread nD τ).loc main_v52_1) = (dat1 (Vin1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_dev (pcfgs (F := F)) adm (pdats m) () cellOf_inj embL defs₀ 𝒱₀ L lv m ρ main
    (Gen.segs m (outsH m) 𝒱₀ L lv (fun _ c => R c) () (pdats m) (reg0 m) (reg1 m))
    (fun c Q => by
      rewrite [main_chain c, Pipeline.Seg.run_eq_chain,
        show (Gen.segs m (outsH m) 𝒱₀ L lv (fun _ c => R c) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outsH m) c))
    (hch := fun c => ⟨.rfl, .rfl, .rfl, .rfl, .rfl, hpre1 m c,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outsH m) c b)
    (hfin := fun c s' => by
      iintro ⟨Hh, HSI⟩
      unfold StableHlo.held
      imodintro
      iapply (pointsTo_read_all (Pipeline.ucRefs τ sig) (fun b => (((c : Thread nD τ)).1, b)) (Gen.V6 m (outsH m) c) s')
      isplitl [Hh] <;> iassumption)
    (hQ := fun s h c =>
      ⟨(h c _ (mem_uc main_v52_0 (by decide))).trans ((V6_at0 m (outsH m) c).trans (outs6_0 m c)),
       (h c _ (mem_uc main_v52_1 (by decide))).trans ((V6_at1 m (outsH m) c).trans (outs6_1 m c)),
       (h c _ (mem_uc main_arg0 (by decide))).trans (Gen.V6_main_arg0 m (outsH m) c),
       (h c _ (mem_uc main_arg1 (by decide))).trans (Gen.V6_main_arg1 m (outsH m) c),
       (h c _ (mem_uc main_arg2 (by decide))).trans (Gen.V6_main_arg2 m (outsH m) c),
       (h c _ (mem_uc main_arg3 (by decide))).trans (Gen.V6_main_arg3 m (outsH m) c),
       (h c _ (mem_uc main_arg4 (by decide))).trans (Gen.V6_main_arg4 m (outsH m) c),
       (h c _ (mem_uc main_arg5 (by decide))).trans (Gen.V6_main_arg5 m (outsH m) c),
       (h c _ (mem_uc main_arg6 (by decide))).trans (Gen.V6_main_arg6 m (outsH m) c),
       (h c _ (mem_uc main_arg7 (by decide))).trans (Gen.V6_main_arg7 m (outsH m) c),
       (h c _ (mem_uc main_arg8 (by decide))).trans (Gen.V6_main_arg8 m (outsH m) c),
       (h c _ (mem_uc main_arg9 (by decide))).trans (Gen.V6_main_arg9 m (outsH m) c),
       (h c _ (mem_uc main_arg10 (by decide))).trans (Gen.V6_main_arg10 m (outsH m) c),
       (h c _ (mem_uc main_arg11 (by decide))).trans (Gen.V6_main_arg11 m (outsH m) c),
       (h c _ (mem_uc main_arg12 (by decide))).trans (Gen.V6_main_arg12 m (outsH m) c),
       (h c _ (mem_uc main_arg13 (by decide))).trans (Gen.V6_main_arg13 m (outsH m) c),
       (h c _ (mem_uc main_arg14 (by decide))).trans (Gen.V6_main_arg14 m (outsH m) c),
       (h c _ (mem_uc main_arg15 (by decide))).trans (Gen.V6_main_arg15 m (outsH m) c)⟩)

end Cert.Kernel.Hand

end
-- ==== Proof.KI.Region0.lean ====
/- The frame half of the per-stream convolution kernel (region 0 of the idealized kernel program): the blocks its
   windows hold at a grid point, what its body leaves in the two output windows as a function of those blocks, and the
   body's triple at every point. -/
import proofs.«116650_g2000303023666169_pallasbulk_55_22_alg».proof.Proof.Gen.KernelIdeal.Launch
import proofs.«116650_g2000303023666169_pallasbulk_55_22_alg».proof.Proof.Gen.KernelIdeal.Skeleton
import proofs.«116650_g2000303023666169_pallasbulk_55_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the per-stream kernel, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or carried over (the block index has not moved). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or carried over (the block index has not moved). -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or carried over (the block index has not moved). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or carried over (the block index has not moved). -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or carried over (the block index has not moved). -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or carried over (the block index has not moved). -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or carried over (the block index has not moved). -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or carried over (the block index has not moved). -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or carried over (the block index has not moved). -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or carried over (the block index has not moved). -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes -/

abbrev rx_0 : Rect S4x2x91x120 := Rect.unit (s := S4x2x91x120) ![0, 0, 0, 0] S1x2x91x120.size inb_S4x2x91x120_S1x2x91x120_0_0_0_0
abbrev rx_1 : Rect S4x2x91x120 := Rect.unit (s := S4x2x91x120) ![1, 0, 0, 0] S1x2x91x120.size inb_S4x2x91x120_S1x2x91x120_1_0_0_0
abbrev rx_2 : Rect S4x2x91x120 := Rect.unit (s := S4x2x91x120) ![2, 0, 0, 0] S1x2x91x120.size inb_S4x2x91x120_S1x2x91x120_2_0_0_0
abbrev rx_3 : Rect S4x2x91x120 := Rect.unit (s := S4x2x91x120) ![3, 0, 0, 0] S1x2x91x120.size inb_S4x2x91x120_S1x2x91x120_3_0_0_0
abbrev rw0_1 : Rect S720x384 := Rect.unit (s := S720x384) ![0, 0] S720x384.size inb_S720x384_S720x384_0_0
abbrev rw0_2 : Rect S1x384 := Rect.unit (s := S1x384) ![0, 0] S1x384.size inb_S1x384_S1x384_0_0
abbrev rw0_3 : Rect S64x64 := Rect.unit (s := S64x64) ![0, 0] S64x64.size inb_S64x64_S64x64_0_0
abbrev rw0_4 : Rect S1x64 := Rect.unit (s := S1x64) ![0, 0] S1x64.size inb_S1x64_S1x64_0_0
abbrev rw0_5 : Rect S32x32 := Rect.unit (s := S32x32) ![0, 0] S32x32.size inb_S32x32_S32x32_0_0
abbrev rw0_6 : Rect S32x32 := Rect.unit (s := S32x32) ![0, 0] S32x32.size inb_S32x32_S32x32_0_0
abbrev rw0_7 : Rect S1x32 := Rect.unit (s := S1x32) ![0, 0] S1x32.size inb_S1x32_S1x32_0_0
abbrev rw0_8 : Rect S27x81 := Rect.unit (s := S27x81) ![0, 0] S27x81.size inb_S27x81_S27x81_0_0
abbrev rw0_9 : Rect S27x81 := Rect.unit (s := S27x81) ![0, 0] S27x81.size inb_S27x81_S27x81_0_0
abbrev rz_0 : Rect S4x81x32 := Rect.unit (s := S4x81x32) ![0, 0, 0] S1x81x32.size inb_S4x81x32_S1x81x32_0_0_0
abbrev rz_1 : Rect S4x81x32 := Rect.unit (s := S4x81x32) ![1, 0, 0] S1x81x32.size inb_S4x81x32_S1x81x32_1_0_0
abbrev rz_2 : Rect S4x81x32 := Rect.unit (s := S4x81x32) ![2, 0, 0] S1x81x32.size inb_S4x81x32_S1x81x32_2_0_0
abbrev rz_3 : Rect S4x81x32 := Rect.unit (s := S4x81x32) ![3, 0, 0] S1x81x32.size inb_S4x81x32_S1x81x32_3_0_0
abbrev ry_0 : Rect S4x27x32 := Rect.unit (s := S4x27x32) ![0, 0, 0] S1x27x32.size inb_S4x27x32_S1x27x32_0_0_0
abbrev ry_1 : Rect S4x27x32 := Rect.unit (s := S4x27x32) ![1, 0, 0] S1x27x32.size inb_S4x27x32_S1x27x32_1_0_0
abbrev ry_2 : Rect S4x27x32 := Rect.unit (s := S4x27x32) ![2, 0, 0] S1x27x32.size inb_S4x27x32_S1x27x32_2_0_0
abbrev ry_3 : Rect S4x27x32 := Rect.unit (s := S4x27x32) ![3, 0, 0] S1x27x32.size inb_S4x27x32_S1x27x32_3_0_0

/-! ## What the body leaves in each output window's buffer -/

/-- Output window 10 (the pooled features, four streams of 81×32) after the body: one piece per stream, the last store first. -/
def out0_10 (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) : Vec F S4x81x32 .bf16 :=
  View.canon [⟨rz_3, k0_pay20 (k0_pay18 (View.ld x0 rx_3) (View.ld x1 rw0_1) (View.ld x2 rw0_2)) (View.ld x3 rw0_3) (View.ld x4 rw0_4)⟩,
    ⟨rz_2, k0_pay16 (k0_pay13 (k0_pay12 (View.ld x0 rx_2)) (View.ld x1 rw0_1) (View.ld x2 rw0_2) (View.ld x3 rw0_3)) (k0_pay14 (View.ld x4 rw0_4))⟩,
    ⟨rz_1, k0_pay10 (k0_pay8 (View.ld x0 rx_1) (View.ld x1 rw0_1) (View.ld x2 rw0_2)) (View.ld x3 rw0_3) (View.ld x4 rw0_4)⟩,
    ⟨rz_0, k0_pay4 (k0_pay2 (View.ld x0 rx_0) (View.ld x1 rw0_1) (View.ld x2 rw0_2)) (View.ld x3 rw0_3) (View.ld x4 rw0_4)⟩]

/-- Output window 11 (the fusion slab, four streams of 27×32) after the body: one piece per stream, the last store first. -/
def out0_11 (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) : Vec F S4x27x32 .bf16 :=
  View.canon [⟨ry_3, k0_pay1 (k0_pay21 (k0_pay18 (View.ld x0 rx_3) (View.ld x1 rw0_1) (View.ld x2 rw0_2)) (View.ld x3 rw0_3) (View.ld x4 rw0_4) (View.ld x8 rw0_8) (View.ld x5 rw0_5)) (k0_pay22 (k0_pay18 (View.ld x0 rx_3) (View.ld x1 rw0_1) (View.ld x2 rw0_2)) (View.ld x3 rw0_3) (View.ld x4 rw0_4) (View.ld x9 rw0_9)) (View.ld x6 rw0_6) (View.ld x7 rw0_7)⟩,
    ⟨ry_2, k0_pay17 (k0_pay13 (k0_pay12 (View.ld x0 rx_2)) (View.ld x1 rw0_1) (View.ld x2 rw0_2) (View.ld x3 rw0_3)) (k0_pay14 (View.ld x4 rw0_4)) (View.ld x8 rw0_8) (View.ld x9 rw0_9) (View.ld x5 rw0_5) (View.ld x6 rw0_6) (View.ld x7 rw0_7)⟩,
    ⟨ry_1, k0_pay11 (k0_pay9 (k0_pay8 (View.ld x0 rx_1) (View.ld x1 rw0_1) (View.ld x2 rw0_2)) (View.ld x3 rw0_3) (View.ld x4 rw0_4)) (View.ld x8 rw0_8) (View.ld x9 rw0_9) (View.ld x5 rw0_5) (View.ld x6 rw0_6) (View.ld x7 rw0_7)⟩,
    ⟨ry_0, k0_pay7 (k0_pay5 (k0_pay2 (View.ld x0 rx_0) (View.ld x1 rw0_1) (View.ld x2 rw0_2)) (View.ld x3 rw0_3) (View.ld x4 rw0_4) (View.ld x8 rw0_8) (View.ld x5 rw0_5)) (k0_pay6 (k0_pay2 (View.ld x0 rx_0) (View.ld x1 rw0_1) (View.ld x2 rw0_2)) (View.ld x3 rw0_3) (View.ld x4 rw0_4) (View.ld x9 rw0_9)) (View.ld x6 rw0_6) (View.ld x7 rw0_7)⟩]

/-- The four stream slabs tile window 10. -/
theorem cover0_10 (p0 p1 p2 p3 : Vec F S1x81x32 .bf16) (y : S4x81x32.Idx) :
    ∃ pc ∈ ([⟨rz_3, p0⟩, ⟨rz_2, p1⟩, ⟨rz_1, p2⟩, ⟨rz_0, p3⟩] : List (View.Piece (Elt F) S4x81x32 .bf16)), y ∈ pc.1.set :=
  View.cover_of_tiled [⟨rz_3, p0⟩, ⟨rz_2, p1⟩, ⟨rz_1, p2⟩, ⟨rz_0, p3⟩] S1x81x32.size (by rfl) y

/-- The four stream slabs tile window 11. -/
theorem cover0_11 (p0 p1 p2 p3 : Vec F S1x27x32 .bf16) (y : S4x27x32.Idx) :
    ∃ pc ∈ ([⟨ry_3, p0⟩, ⟨ry_2, p1⟩, ⟨ry_1, p2⟩, ⟨ry_0, p3⟩] : List (View.Piece (Elt F) S4x27x32 .bf16)), y ∈ pc.1.set :=
  View.cover_of_tiled [⟨ry_3, p0⟩, ⟨ry_2, p1⟩, ⟨ry_1, p2⟩, ⟨ry_0, p3⟩] S1x27x32.size (by rfl) y

/-! ## The body's triple -/

set_option maxHeartbeats 8000000 in
/-- The kernel body on whole staging memrefs — the inputs' at contents `xW`, the outputs' at anything — runs to the
    continuation holding the inputs' as they were and each output's at `out0_W` of the inputs'. -/
theorem sound_kernel0 (c : Dev nD) (E : Set ℕ) (i : grid0.Coords) (arg1 : Memref sig .tc .vmem S4x2x91x120 .bf16) (harg1 : arg1.IsWhole) (arg2 : Memref sig .tc .vmem S720x384 .bf16) (harg2 : arg2.IsWhole) (arg3 : Memref sig .tc .vmem S1x384 .f32) (harg3 : arg3.IsWhole) (arg4 : Memref sig .tc .vmem S64x64 .bf16) (harg4 : arg4.IsWhole) (arg5 : Memref sig .tc .vmem S1x64 .f32) (harg5 : arg5.IsWhole) (arg6 : Memref sig .tc .vmem S32x32 .bf16) (harg6 : arg6.IsWhole) (arg7 : Memref sig .tc .vmem S32x32 .bf16) (harg7 : arg7.IsWhole) (arg8 : Memref sig .tc .vmem S1x32 .f32) (harg8 : arg8.IsWhole) (arg9 : Memref sig .tc .vmem S27x81 .bf16) (harg9 : arg9.IsWhole) (arg10 : Memref sig .tc .vmem S27x81 .bf16) (harg10 : arg10.IsWhole) (arg11 : Memref sig .tc .vmem S4x81x32 .bf16) (harg11 : arg11.IsWhole) (arg12 : Memref sig .tc .vmem S4x27x32 .bf16) (harg12 : arg12.IsWhole)
    (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9) ∗ owns (c : Thread nD τ) arg12 fullShare (out0_11 x0 x1 x2 x3 x4 x5 x6 x7 x8 x9)) -∗ K ⟨⟩))
      ⊢ wp frame (wpE (defs₀ (F := F)) Variants.none c none) E (cc0__ae_kernel i arg1 harg1 arg2 harg2 arg3 harg3 arg4 harg4 arg5 harg5 arg6 harg6 arg7 harg7 arg8 harg8 arg9 harg9 arg10 harg10 arg11 harg11 arg12 harg12) K := by
  simp only [cc0__ae_kernel_eq_skeleton]; unfold cc0__ae_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover0_10 _ _ _ _)
  iexists _; isplitr
  swap; · iexact H11
  ipureintro
  try dsimp only
  exact View.read_writes_eq_canon _ _ _ (cover0_11 _ _ _ _)

/-! ## The pipeline's proof data -/

/-- Pipeline 0's proof data on core `c`: the arrays as the region finds them; after the body at point `t` each input's
    buffer still at its block and each output's at `out0_W` of the input blocks; the scoped rest and the generator
    register ride along untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/- Region 1 of @main: the head kernel, launched at the single point of its grid. Every one of its eight input windows
   is the whole of its array, so the block the body reads is the array itself; the body computes two dense layers with a
   rectified output, lays the four 128x32 results side by side as one 128x128 array (written whole to window 9), and
   applies a last dense layer to that array (written whole to window 8). Each output's buffer after the body is therefore
   one whole-buffer store of a pure function of the input blocks. Everything is stated at a parameter `V`, the buffer
   contents when the region is entered, and at any float instance. -/
import proofs.«116650_g2000303023666169_pallasbulk_55_22_alg».proof.Proof.Gen.KernelIdeal.Launch
import proofs.«116650_g2000303023666169_pallasbulk_55_22_alg».proof.Proof.Gen.KernelIdeal.Skeleton
import proofs.«116650_g2000303023666169_pallasbulk_55_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the buffer contents when the region is entered
variable (V : (c : Dev nD) → (b : Ref sig .tc) → Buf (Elt F) ((c : Thread nD τ).loc b))

/-! ## The windows' blocks -/

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    the entry contents and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, for any proof data whose array is
    the entry contents and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, for any proof data whose array is
    the entry contents and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, for any proof data whose array is
    the entry contents and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, for any proof data whose array is
    the entry contents and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, for any proof data whose array is
    the entry contents and whose body leaves the block in place. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, for any proof data whose array is
    the entry contents and whose body leaves the block in place. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, for any proof data whose array is
    the entry contents and whose body leaves the block in place. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its buffer -/

abbrev r1_a : Rect S384x2592 := Rect.unit (s := S384x2592) ![0, 0] S384x2592.size inb_S384x2592_S384x2592_0_0
abbrev r1_b : Rect S128x2592 := Rect.unit (s := S128x2592) ![0, 0] S128x2592.size inb_S128x2592_S128x2592_0_0
abbrev r1_c : Rect S2592x32 := Rect.unit (s := S2592x32) ![0, 0] S2592x32.size inb_S2592x32_S2592x32_0_0
abbrev r1_d : Rect S1x32 := Rect.unit (s := S1x32) ![0, 0] S1x32.size inb_S1x32_S1x32_0_0
abbrev r1_e : Rect S128x10 := Rect.unit (s := S128x10) ![0, 0] S128x10.size inb_S128x10_S128x10_0_0
abbrev r1_f : Rect S1x10 := Rect.unit (s := S1x10) ![0, 0] S1x10.size inb_S1x10_S1x10_0_0
abbrev r1_g : Rect S128x128 := Rect.unit (s := S128x128) ![0, 0] S128x128.size inb_S128x128_S128x128_0_0

/-! ## What the body leaves in each output window's buffer -/

/-- Window 9's buffer after the body: its one whole-buffer store, the four rectified 128x32 layers side by side, as a
    function of the first six input blocks. -/
def out1_9 (x0 : Vec F S384x2592 .bf16) (x1 : Vec F S128x2592 .bf16) (x2 : Vec F S2592x32 .bf16) (x3 : Vec F S1x32 .f32) (x4 : Vec F S2592x32 .bf16) (x5 : Vec F S1x32 .f32) : Vec F S128x128 .f32 :=
  View.canon [⟨r1_g, k1_pay1 (View.ld x0 r1_a) (View.ld x2 r1_c) (View.ld x3 r1_d) (View.ld x1 r1_b) (View.ld x4 r1_c) (View.ld x5 r1_d)⟩]

/-- Window 8's buffer after the body: its one whole-buffer store, the last dense layer applied to window 9's value, as a
    function of the eight input blocks. -/
def out1_8 (x0 : Vec F S384x2592 .bf16) (x1 : Vec F S128x2592 .bf16) (x2 : Vec F S2592x32 .bf16) (x3 : Vec F S1x32 .f32) (x4 : Vec F S2592x32 .bf16) (x5 : Vec F S1x32 .f32) (x6 : Vec F S128x10 .bf16) (x7 : Vec F S1x10 .f32) : Vec F S128x10 .f32 :=
  View.canon [⟨r1_e, k1_pay2 (View.ld x0 r1_a) (View.ld x2 r1_c) (View.ld x3 r1_d) (View.ld x1 r1_b) (View.ld x4 r1_c) (View.ld x5 r1_d) (View.ld x6 r1_e) (View.ld x7 r1_f)⟩]

/-- A single whole-buffer store covers the buffer. -/
theorem cover1_9 (p0 : Vec F S128x128 .f32) (y : S128x128.Idx) :
    ∃ pc ∈ ([⟨r1_g, p0⟩] : List (View.Piece (Elt F) S128x128 .f32)), y ∈ pc.1.set :=
  View.cover_of_tiled [⟨r1_g, p0⟩] S128x128.size (by rfl) y
theorem cover1_8 (p0 : Vec F S128x10 .f32) (y : S128x10.Idx) :
    ∃ pc ∈ ([⟨r1_e, p0⟩] : List (View.Piece (Elt F) S128x10 .f32)), y ∈ pc.1.set :=
  View.cover_of_tiled [⟨r1_e, p0⟩] S128x10.size (by rfl) y

/-! ## The body's triple -/

set_option maxHeartbeats 1000000 in
/-- The body on whole staging memrefs, the inputs' at contents `xW` and the outputs' at anything, runs to the
    continuation holding the inputs' as they were and each output's at `out1_W` of the inputs'. -/
theorem sound_kernel1 (c : Dev nD) (E : Set ℕ) (i : grid1.Coords) (arg1 : Memref sig .tc .vmem S384x2592 .bf16) (harg1 : arg1.IsWhole) (arg2 : Memref sig .tc .vmem S128x2592 .bf16) (harg2 : arg2.IsWhole) (arg3 : Memref sig .tc .vmem S2592x32 .bf16) (harg3 : arg3.IsWhole) (arg4 : Memref sig .tc .vmem S1x32 .f32) (harg4 : arg4.IsWhole) (arg5 : Memref sig .tc .vmem S2592x32 .bf16) (harg5 : arg5.IsWhole) (arg6 : Memref sig .tc .vmem S1x32 .f32) (harg6 : arg6.IsWhole) (arg7 : Memref sig .tc .vmem S128x10 .bf16) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (x0 : Vec F S384x2592 .bf16) (x1 : Vec F S128x2592 .bf16) (x2 : Vec F S2592x32 .bf16) (x3 : Vec F S1x32 .f32) (x4 : Vec F S2592x32 .bf16) (x5 : Vec F S1x32 .f32) (x6 : Vec F S128x10 .bf16) (x7 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10) K := by
  simp only [cc1__head_kernel_eq_skeleton]; unfold cc1__head_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover1_8 _)
  iexists _; isplitr
  swap; · iexact H9
  ipureintro
  try dsimp only
  exact View.read_writes_eq_canon _ _ _ (cover1_9 _)

/-! ## The pipeline's proof data -/

/-- The proof data of pipeline 1 on core `c`: the arrays at the entry contents; after the body each input's buffer at its
    block and each output's at `out1_W` of the input blocks; the invariant the scoped rest and the generator register,
    untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Frame.lean ====
/- The frame of the program: @main is three stretches of host operations, the per-stream kernel's region (region 0), one
   more stretch, and the head kernel's region (region 1). Between two items core `c` holds every unscoped buffer whole at a
   known valuation. A region reads its input windows' arrays and writes its two output arrays, so it changes the
   valuation at exactly those two references: region 0 leaves there what its pipeline's write-backs fold to from the
   entry contents, and region 1 likewise from ITS entry contents, which are the host stretch between them applied to what
   region 0 left. No item writes an argument array, so each reaches the end as launched; and the two results of @main are
   what region 1's write-backs leave in its output arrays. -/
import proofs.«116650_g2000303023666169_pallasbulk_55_22_alg».proof.Proof.KI.Region0
import proofs.«116650_g2000303023666169_pallasbulk_55_22_alg».proof.Proof.KI.Region1
import proofs.«116650_g2000303023666169_pallasbulk_55_22_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at the regions' boundaries -/

/-- Region 0's entry contents: the launch memory after the three host stretches before it. -/
abbrev Vin0 : (c : Dev nD) → (b : Ref sig .tc) → Buf (Elt F) ((c : Thread nD τ).loc b) := fun c b => Gen.V3 m c b

/-- What region 0 leaves on core `c`: its arrays at what the pipeline's write-backs fold to, every other buffer as entered. -/
def W4 (c : Dev nD) : Valuation τ sig (Elt F) :=
  Pipeline.withArrays spec0 c (Gen.V3 m c) fun w => (dat0 (Vin0 m) c).arrAt w cfg0.N
/-- The same read at a reference: the contents region 0 leaves there. -/
def outs4 (r : Ref sig .tc) (c : Dev nD) : Buf (Elt F) ((c : Thread nD τ).loc r) := W4 m c r
theorem outs4_0 (c : Dev nD) : outs4 m main_v38_0 c = (dat0 (Vin0 m) c).arrAt 10 cfg0.N := by
  unfold outs4 W4; exact Pipeline.withArrays_arr spec0 launch0.win.arr_inj c _ _ 10
theorem outs4_1 (c : Dev nD) : outs4 m main_v38_1 c = (dat0 (Vin0 m) c).arrAt 11 cfg0.N := by
  unfold outs4 W4; exact Pipeline.withArrays_arr spec0 launch0.win.arr_inj c _ _ 11

/-- The family of contents the regions leave, region 0's part only (read at every number). -/
def outsA : Gen.Outs (F := F) := fun _ r c => outs4 m r c

/-- Region 1's entry contents: the host stretch between the regions applied to what region 0 left. -/
abbrev Vin1 : (c : Dev nD) → (b : Ref sig .tc) → Buf (Elt F) ((c : Thread nD τ).loc b) := fun c b => Gen.V5 m (outsA m) c b

/-- What region 1 leaves on core `c`. -/
def W6 (c : Dev nD) : Valuation τ sig (Elt F) :=
  Pipeline.withArrays spec1 c (Gen.V5 m (outsA m) c) fun w => (dat1 (Vin1 m) c).arrAt w cfg1.N
def outs6 (r : Ref sig .tc) (c : Dev nD) : Buf (Elt F) ((c : Thread nD τ).loc r) := W6 m c r
theorem outs6_0 (c : Dev nD) : outs6 m main_v52_0 c = (dat1 (Vin1 m) c).arrAt 8 cfg1.N := by
  unfold outs6 W6; exact Pipeline.withArrays_arr spec1 launch1.win.arr_inj c _ _ 8
theorem outs6_1 (c : Dev nD) : outs6 m main_v52_1 c = (dat1 (Vin1 m) c).arrAt 9 cfg1.N := by
  unfold outs6 W6; exact Pipeline.withArrays_arr spec1 launch1.win.arr_inj c _ _ 9

/-- The contents the regions leave: after item 5 (region 1) region 1's, otherwise region 0's. -/
def outsH : Gen.Outs (F := F) := fun n r c =>
  match n with
  | 6 => outs6 m r c
  | _ => outs4 m r c
theorem outsH_4 (r : Ref sig .tc) (c : Dev nD) : outsH m 4 r c = outs4 m r c := rfl
theorem outsH_6 (r : Ref sig .tc) (c : Dev nD) : outsH m 6 r c = outs6 m r c := rfl
/-- The valuations after items 3 and 4 read region 0's part only. -/
theorem V4_H (c : Dev nD) : Gen.V4 m (outsH m) c = Gen.V4 m (outsA m) c := rfl
theorem V5_H (c : Dev nD) : Gen.V5 m (outsH m) c = Gen.V5 m (outsA m) c := rfl
theorem Vin1_eq (c : Dev nD) (b : Ref sig .tc) : Vin1 m c b = Gen.V5 m (outsH m) c b := rfl

/-- The exit contents of the two regions, read at the TensorCore's references. -/
abbrev Vout0 : (c : Dev nD) → (b : Ref sig .tc) → Buf (Elt F) ((c : Thread nD τ).loc b) := fun c b => Gen.V4 m (outsH m) c b
abbrev Vout1 : (c : Dev nD) → (b : Ref sig .tc) → Buf (Elt F) ((c : Thread nD τ).loc b) := fun c b => Gen.V6 m (outsH m) c b

/-! ## An updated valuation read at the updated references -/

theorem V4_at0 (outs : Gen.Outs (F := F)) (c : Dev nD) : Gen.V4 m outs c main_v38_0 = outs 4 main_v38_0 c := by
  simp only [Gen.V4, Function.update_of_ne (StableHlo.devRef_ne_of_ne (by decide : (main_v38_0 : Ref sig .tc) ≠ main_v38_1) : (Proc.devRef .tc main_v38_0 : DevRef τ sig) ≠ Proc.devRef .tc main_v38_1), Function.update_self]
theorem V4_at1 (outs : Gen.Outs (F := F)) (c : Dev nD) : Gen.V4 m outs c main_v38_1 = outs 4 main_v38_1 c := by
  simp only [Gen.V4, Function.update_self]
theorem V6_at0 (outs : Gen.Outs (F := F)) (c : Dev nD) : Gen.V6 m outs c main_v52_0 = outs 6 main_v52_0 c := by
  simp only [Gen.V6, Function.update_of_ne (StableHlo.devRef_ne_of_ne (by decide : (main_v52_0 : Ref sig .tc) ≠ main_v52_1) : (Proc.devRef .tc main_v52_0 : DevRef τ sig) ≠ Proc.devRef .tc main_v52_1), Function.update_self]
theorem V6_at1 (outs : Gen.Outs (F := F)) (c : Dev nD) : Gen.V6 m outs c main_v52_1 = outs 6 main_v52_1 c := by
  simp only [Gen.V6, Function.update_self]

/-! ## Each region's arrays at its exit, and the rest unchanged -/

/-- An input window's array is not among the two references region 0 may change: it holds at the exit what it held at
    the entry, which is what the pipeline leaves in an input's array. -/
theorem hF0_in (c : Dev nD) (w : Fin cfg0.W) (hin : (cfg0.win w).isOut = false)
    (hne : Pipeline.arrRef spec0 w ∉ ([main_v38_0, main_v38_1] : List (Ref sig .tc))) :
    (dat0 (Vin0 m) c).arrAt w cfg0.N = Vout0 m c (Pipeline.arrRef spec0 w) :=
  ((dat0 (Vin0 m) c).arrAt_in w hin _).trans ((A_eq0 (Vin0 m) c w).trans (Gen.V4_of m (outsH m) c _ hne).symm)
theorem hF0 (c : Dev nD) : ∀ w : Fin 12, (dat0 (Vin0 m) c).arrAt w cfg0.N = Vout0 m c (Pipeline.arrRef spec0 w)
  | 0 => hF0_in m c 0 rfl (by decide) | 1 => hF0_in m c 1 rfl (by decide) | 2 => hF0_in m c 2 rfl (by decide)
  | 3 => hF0_in m c 3 rfl (by decide) | 4 => hF0_in m c 4 rfl (by decide) | 5 => hF0_in m c 5 rfl (by decide)
  | 6 => hF0_in m c 6 rfl (by decide) | 7 => hF0_in m c 7 rfl (by decide) | 8 => hF0_in m c 8 rfl (by decide)
  | 9 => hF0_in m c 9 rfl (by decide)
  | 10 => ((V4_at0 m (outsH m) c).trans (outs4_0 m c)).symm
  | 11 => ((V4_at1 m (outsH m) c).trans (outs4_1 m c)).symm
  | ⟨_ + 12, h⟩ => absurd h (Nat.not_lt.2 (Nat.le_add_left _ _))
theorem hrest0 (c : Dev nD) : ∀ b, b ∉ Finset.univ.image (Pipeline.arrRef spec0) → Vout0 m c b = Vin0 m c b :=
  fun b hb => Gen.V4_of m (outsH m) c b (by
    intro hmem
    rcases List.mem_cons.mp hmem with rfl | hmem
    · exact hb (Finset.mem_image.mpr ⟨10, Finset.mem_univ _, rfl⟩)
    rcases List.mem_cons.mp hmem with rfl | hmem
    · exact hb (Finset.mem_image.mpr ⟨11, Finset.mem_univ _, rfl⟩)
    exact absurd hmem (List.not_mem_nil))

theorem hF1_in (c : Dev nD) (w : Fin cfg1.W) (hin : (cfg1.win w).isOut = false)
    (hne : Pipeline.arrRef spec1 w ∉ ([main_v52_0, main_v52_1] : List (Ref sig .tc))) :
    (dat1 (Vin1 m) c).arrAt w cfg1.N = Vout1 m c (Pipeline.arrRef spec1 w) :=
  ((dat1 (Vin1 m) c).arrAt_in w hin _).trans ((A_eq1 (Vin1 m) c w).trans (Gen.V6_of m (outsH m) c _ hne).symm)
theorem hF1 (c : Dev nD) : ∀ w : Fin 10, (dat1 (Vin1 m) c).arrAt w cfg1.N = Vout1 m c (Pipeline.arrRef spec1 w)
  | 0 => hF1_in m c 0 rfl (by decide) | 1 => hF1_in m c 1 rfl (by decide) | 2 => hF1_in m c 2 rfl (by decide)
  | 3 => hF1_in m c 3 rfl (by decide) | 4 => hF1_in m c 4 rfl (by decide) | 5 => hF1_in m c 5 rfl (by decide)
  | 6 => hF1_in m c 6 rfl (by decide) | 7 => hF1_in m c 7 rfl (by decide)
  | 8 => ((V6_at0 m (outsH m) c).trans (outs6_0 m c)).symm
  | 9 => ((V6_at1 m (outsH m) c).trans (outs6_1 m c)).symm
  | ⟨_ + 10, h⟩ => absurd h (Nat.not_lt.2 (Nat.le_add_left _ _))
theorem hrest1 (c : Dev nD) : ∀ b, b ∉ Finset.univ.image (Pipeline.arrRef spec1) → Vout1 m c b = Vin1 m c b :=
  fun b hb => Gen.V6_of m (outsH m) c b (by
    intro hmem
    rcases List.mem_cons.mp hmem with rfl | hmem
    · exact hb (Finset.mem_image.mpr ⟨8, Finset.mem_univ _, rfl⟩)
    rcases List.mem_cons.mp hmem with rfl | hmem
    · exact hb (Finset.mem_image.mpr ⟨9, Finset.mem_univ _, rfl⟩)
    exact absurd hmem (List.not_mem_nil))

/-! ## The proof data family and the thread state -/

/-- Every pipeline's proof data, each at its region's entry contents. -/
def pdats : (p : Fin 2) → (c : Dev nD) → Dat τ (Elt F) Unit ℕ (Pipeline.UD sig nD τ) ℕ (cfgs p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents after the third host stretch, left
    at those contents updated at its two output arrays. Its arrays are split out of the unscoped buffers and put back at
    the exit contents; the generator register goes into the invariant and comes out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents after the host stretch between
    the regions, left at those contents updated at its two output arrays. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V5 m (outsA m) c) ∗ R c)
  post c := iprop(StableHlo.held (c : Thread nD τ) (Pipeline.ucRefs τ sig) (Gen.V6 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1 is entered from the thread state the host stretch before it leaves. -/
theorem hpre1 (c : Dev nD) :
    iprop(StableHlo.held (c : Thread nD τ) (Pipeline.ucRefs τ sig) (Gen.V5 m (outsH m) c) ∗ R (F := F) c) ⊢ (reg1 m).pre c := by
  rw [V5_H]; exact .rfl

/-! ## The frame -/

set_option backward.isDefEq.respectTransparency.types false in
/-- At the compiled mesh, from any memory with zero counters, every weakly fair execution of @main on the TensorCores
    terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond (F := F) (m := m) (Ix := Unit) (U := Pipeline.UD sig nD τ) (Lvl := ℕ) (EP := embL) (ι := ()) (𝒱₀ := 𝒱₀) (L := L) (lv := lv)
    (hL := fun _ _ => rfl) (ρ := ρ) (outs := outsH m) (pdats := pdats m) (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE2 := fun c => by
      iintro ⟨-, HO⟩
      iexact HO)
    (R0 := reg0 m) (hpre0 := fun _ => .rfl) (hpost0 := fun _ => .rfl)
    (R1 := reg1 m) (hpre1 := hpre1 m) (hpost1 := fun _ => .rfl)

/-! ## The run with the results named -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The same run, with @main's two results named: every final state has region 1's two output arrays at what its
    pipeline's write-backs fold to from its entry contents, and the argument arrays as launched. The last thread state
    holds every unscoped buffer at the last valuation, which is read against the final state. -/
theorem run_named : θ_run defs (onTc (τ := τ) (main (F := F))) ⟨m, fun _ => 0, ρ⟩ (fun r => ∀ c : Dev nD,
      r.2.mem ((c.tc : Thread nD τ).loc main_v52_0) = (dat1 (Vin1 m) c).arrAt 8 cfg1.N
      ∧ r.2.mem ((c.tc : Thread nD τ).loc main_v52_1) = (dat1 (Vin1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_dev (pcfgs (F := F)) adm (pdats m) () cellOf_inj embL defs₀ 𝒱₀ L lv m ρ main
    (Gen.segs m (outsH m) 𝒱₀ L lv (fun _ c => R c) () (pdats m) (reg0 m) (reg1 m))
    (fun c Q => by
      rewrite [main_chain c, Pipeline.Seg.run_eq_chain,
        show (Gen.segs m (outsH m) 𝒱₀ L lv (fun _ c => R c) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outsH m) c))
    (hch := fun c => ⟨.rfl, .rfl, .rfl, .rfl, .rfl, hpre1 m c,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outsH m) c b)
    (hfin := fun c s' => by
      iintro ⟨Hh, HSI⟩
      unfold StableHlo.held
      imodintro
      iapply (pointsTo_read_all (Pipeline.ucRefs τ sig) (fun b => (((c : Thread nD τ)).1, b)) (Gen.V6 m (outsH m) c) s')
      isplitl [Hh] <;> iassumption)
    (hQ := fun s h c =>
      ⟨(h c _ (mem_uc main_v52_0 (by decide))).trans ((V6_at0 m (outsH m) c).trans (outs6_0 m c)),
       (h c _ (mem_uc main_v52_1 (by decide))).trans ((V6_at1 m (outsH m) c).trans (outs6_1 m c)),
       (h c _ (mem_uc main_arg0 (by decide))).trans (Gen.V6_main_arg0 m (outsH m) c),
       (h c _ (mem_uc main_arg1 (by decide))).trans (Gen.V6_main_arg1 m (outsH m) c),
       (h c _ (mem_uc main_arg2 (by decide))).trans (Gen.V6_main_arg2 m (outsH m) c),
       (h c _ (mem_uc main_arg3 (by decide))).trans (Gen.V6_main_arg3 m (outsH m) c),
       (h c _ (mem_uc main_arg4 (by decide))).trans (Gen.V6_main_arg4 m (outsH m) c),
       (h c _ (mem_uc main_arg5 (by decide))).trans (Gen.V6_main_arg5 m (outsH m) c),
       (h c _ (mem_uc main_arg6 (by decide))).trans (Gen.V6_main_arg6 m (outsH m) c),
       (h c _ (mem_uc main_arg7 (by decide))).trans (Gen.V6_main_arg7 m (outsH m) c),
       (h c _ (mem_uc main_arg8 (by decide))).trans (Gen.V6_main_arg8 m (outsH m) c),
       (h c _ (mem_uc main_arg9 (by decide))).trans (Gen.V6_main_arg9 m (outsH m) c),
       (h c _ (mem_uc main_arg10 (by decide))).trans (Gen.V6_main_arg10 m (outsH m) c),
       (h c _ (mem_uc main_arg11 (by decide))).trans (Gen.V6_main_arg11 m (outsH m) c),
       (h c _ (mem_uc main_arg12 (by decide))).trans (Gen.V6_main_arg12 m (outsH m) c),
       (h c _ (mem_uc main_arg13 (by decide))).trans (Gen.V6_main_arg13 m (outsH m) c),
       (h c _ (mem_uc main_arg14 (by decide))).trans (Gen.V6_main_arg14 m (outsH m) c),
       (h c _ (mem_uc main_arg15 (by decide))).trans (Gen.V6_main_arg15 m (outsH m) c)⟩)

end Cert.KernelIdeal.Hand

end
-- ==== Proof.RI.Region0.lean ====
/-
  The per-stream kernel of the reference program (its first launch, a grid of 384 points, one per stream and
  batch row). At each point the body forms a 384x85 intermediate from the stream's block and the first weight
  array and keeps it whole in its first scratch buffer; it then reads 256 shifted 16x82 windows of that
  intermediate, combines them into four 16-row bands of its second scratch buffer, reads that buffer back whole,
  and from it computes the two blocks it writes out: a 32x81 feature block and a 32x27 pooled block. Both scratch
  buffers are written in full before anything is read from them, so nothing is carried from one grid point to the
  next and each output block is a function of the ten input blocks at the point alone. This module runs the body
  once on arbitrary staging buffers, reads off what it leaves in each output buffer, and packages that as the
  launch's proof data with its obligation at every grid point.
-/
import proofs.«116650_g2000303023666169_pallasbulk_55_22_alg».proof.Proof.Gen.ReferenceIdeal.Launch
import proofs.«116650_g2000303023666169_pallasbulk_55_22_alg».proof.Proof.Gen.ReferenceIdeal.Skeleton
import proofs.«116650_g2000303023666169_pallasbulk_55_22_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: an unfetched point has
    the block index of the point before, so the buffer still holds this point's block. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not: an unfetched point has
    the block index of the point before, so the buffer still holds this point's block. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not: an unfetched point has
    the block index of the point before, so the buffer still holds this point's block. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not: an unfetched point has
    the block index of the point before, so the buffer still holds this point's block. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not: an unfetched point has
    the block index of the point before, so the buffer still holds this point's block. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not: an unfetched point has
    the block index of the point before, so the buffer still holds this point's block. -/
theorem before0_5_of {c : Dev nD} (dat : Dat τ (Elt F) Unit ℕ (Pipeline.UD sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not: an unfetched point has
    the block index of the point before, so the buffer still holds this point's block. -/
theorem before0_6_of {c : Dev nD} (dat : Dat τ (Elt F) Unit ℕ (Pipeline.UD sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not: an unfetched point has
    the block index of the point before, so the buffer still holds this point's block. -/
theorem before0_7_of {c : Dev nD} (dat : Dat τ (Elt F) Unit ℕ (Pipeline.UD sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not: an unfetched point has
    the block index of the point before, so the buffer still holds this point's block. -/
theorem before0_8_of {c : Dev nD} (dat : Dat τ (Elt F) Unit ℕ (Pipeline.UD sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not: an unfetched point has
    the block index of the point before, so the buffer still holds this point's block. -/
theorem before0_9_of {c : Dev nD} (dat : Dat τ (Elt F) Unit ℕ (Pipeline.UD sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body on any staging buffers: its triple, and the pieces it leaves, found by running it -/

/-- One staging buffer of each output window, through which its contents are stated (the choice does not matter:
    the stores cover the block). -/
abbrev VO0_10 : View sig .tc .vmem S1x32x81 .f32 := (Memref.whole cc0_stg10_0 : Memref sig .tc .vmem S1x32x81 .f32).view
abbrev VO0_11 : View sig .tc .vmem S1x32x27 .f32 := (Memref.whole cc0_stg11_0 : Memref sig .tc .vmem S1x32x27 .f32).view
/-- Each window's current staging buffer at point `t`, and its wholeness. -/
abbrev ms0_0 (t : Fin cfg0.N) : Memref sig .tc .vmem S1x240x87 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x384x240 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x32 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x32 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S81x27 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S81x27 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x81 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x32x27 .f32 := win0_11.stage (cfg0.slots t 11)
abbrev hs0_11 (t : Fin cfg0.N) : (ms0_11 t).IsWhole := hstage0_11 ((cfg0.slots t 11).cast nbuf0_11)
/-- The two scratch operands: whole scoped buffers of the kernel's own, passed beside the windows. -/
abbrev scM0_0 : Memref sig .tc .vmem S384x85 .f32 := Memref.whole cc0_scratch0
abbrev scM0_1 : Memref sig .tc .vmem S64x82 .f32 := Memref.whole cc0_scratch1

/-- The launch's invariant with the two scratch operands as buffers owned at some contents: the core's scoped
    memory that is no staging buffer of this launch, each buffer whole at anything, and its generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f)) ∗ (∃ r, prngReg c r)) := by
  unfold Pipeline.ΦA; rw [scopedRest0_eq]; simp only [scM0_0, scM0_1, owns_whole]; try rfl

set_option maxHeartbeats 4000000 in
/-- What the body's stores leave in each output's staging buffer, as pieces (last first), with the proof that on
    whole staging buffers — the inputs' reading `xW`, the outputs' and the two scratch buffers holding anything —
    the body runs to the continuation with the inputs' as they were, each output's buffer with its pieces written
    and the scratch buffers at some contents. -/
noncomputable def kernelRun0_A (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
    (x0 : Vec F S1x240x87 .f32) (x1 : Vec F S3x384x240 .f32) (x2 : Vec F S384x1 .f32) (x3 : Vec F S64x64 .f32) (x4 : Vec F S64x1 .f32) (x5 : Vec F S32x32 .f32) (x6 : Vec F S32x32 .f32) (x7 : Vec F S32x1 .f32) (x8 : Vec F S81x27 .f32) (x9 : Vec F S81x27 .f32) :
    Σ' (L10 : List (View.Piece (Elt F) S1x32x81 .f32)), { L11 : List (View.Piece (Elt F) S1x32x27 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d)) -∗ K ⟨⟩))
          ⊢ wp frame (wpE (defs₀ (F := F)) Variants.none c none) E (cc0__stream_kernel i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0__stream_kernel_eq_skeleton]; unfold cc0__stream_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [HS0]
    · iexists _, _; isplitr; swap; · iexact HS0
      ipureintro; rfl
    iexists _, _; isplitr; swap; · iexact HS1
    ipureintro; rfl

/-- The run's one piece for output window 10 is a store of the whole block, so its pieces cover the block. -/
theorem cover0_A_10 (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
    (x0 : Vec F S1x240x87 .f32) (x1 : Vec F S3x384x240 .f32) (x2 : Vec F S384x1 .f32) (x3 : Vec F S64x64 .f32) (x4 : Vec F S64x1 .f32) (x5 : Vec F S32x32 .f32) (x6 : Vec F S32x32 .f32) (x7 : Vec F S32x1 .f32) (x8 : Vec F S81x27 .f32) (x9 : Vec F S81x27 .f32) (y : S1x32x81.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1 S1x32x81.size (by sl_kernel_rfl) y

/-- The run's one piece for output window 11 is a store of the whole block, so its pieces cover the block. -/
theorem cover0_A_11 (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
    (x0 : Vec F S1x240x87 .f32) (x1 : Vec F S3x384x240 .f32) (x2 : Vec F S384x1 .f32) (x3 : Vec F S64x64 .f32) (x4 : Vec F S64x1 .f32) (x5 : Vec F S32x32 .f32) (x6 : Vec F S32x32 .f32) (x7 : Vec F S32x1 .f32) (x8 : Vec F S81x27 .f32) (x9 : Vec F S81x27 .f32) (y : S1x32x27.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1 S1x32x27.size (by sl_kernel_rfl) y

/-- What the run leaves in output window 10's staging buffer: its pieces read back over junk. -/
def out0_A_10 (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
    (x0 : Vec F S1x240x87 .f32) (x1 : Vec F S3x384x240 .f32) (x2 : Vec F S384x1 .f32) (x3 : Vec F S64x64 .f32) (x4 : Vec F S64x1 .f32) (x5 : Vec F S32x32 .f32) (x6 : Vec F S32x32 .f32) (x7 : Vec F S32x1 .f32) (x8 : Vec F S81x27 .f32) (x9 : Vec F S81x27 .f32) : Vec F S1x32x81 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).1)

/-- What the run leaves in output window 11's staging buffer: its pieces read back over junk. -/
def out0_A_11 (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
    (x0 : Vec F S1x240x87 .f32) (x1 : Vec F S3x384x240 .f32) (x2 : Vec F S384x1 .f32) (x3 : Vec F S64x64 .f32) (x4 : Vec F S64x1 .f32) (x5 : Vec F S32x32 .f32) (x6 : Vec F S32x32 .f32) (x7 : Vec F S32x1 .f32) (x8 : Vec F S81x27 .f32) (x9 : Vec F S81x27 .f32) : Vec F S1x32x27 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9).2.1)

/-! ## What the outputs hold after each point -/

/-- What output window 10's staging buffer holds after the body at point `t`: the run's contents at the point's
    buffers and input blocks. -/
def outsAt0_10 (c : Dev nD) (t : Fin cfg0.N) : Vec F S1x32x81 .f32 :=
  out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-- What output window 11's staging buffer holds after the body at point `t`. -/
def outsAt0_11 (c : Dev nD) (t : Fin cfg0.N) : Vec F S1x32x27 .f32 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-! ## The launch's proof data -/

/-- The proof data of this launch on core `c`: the arrays as the launch finds them (`V`); after the body at
    point `t` each input's buffer at its block and each output's at what the run leaves there; the invariant is
    the rest of the core's scoped memory (the two scratch buffers among it, at anything) and its generator
    register; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => outsAt0_10 V c t
    | ⟨11, _⟩ => outsAt0_11 V c t
  Φ _ := Pipeline.ΦA spec0 c
  q _ := fullShare
  owed _ := 0

/-- The proof data's arrays are the launch-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = outsAt0_10 V c t := by dsimp only [dat0]
theorem after0_11 (c : Dev nD) (t : Fin cfg0.N) : (dat0 V c).after 11 t = outsAt0_11 V c t := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

set_option maxHeartbeats 1000000 in
/-- The body at any point: the inputs' buffers hold their blocks, so the run applies; the invariant hands the body
    its two scratch buffers at anything and takes them back at whatever the body left; the generator register and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  rw [show (dat0 V c).Φ t.castSucc = Pipeline.ΦA spec0 c from rfl, PhiA0_eq]
  unfold outsAt0_10 outsAt0_11
  unfold out0_A_10 out0_A_11
  iintro ⟨⟨⟨HS0, HS1, HR0, HR1, HR2, HR3, HR4, HR5, HR6, HR7, HR8, HR9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, ⟨%e10, H10⟩, ⟨%e11, H11⟩, HS0, HS1⟩
  isplitl [HS0 HS1 HR0 HR1 HR2 HR3 HR4 HR5 HR6 HR7 HR8 HR9 Hg]
  · isplitl [HS0 HS1 HR0 HR1 HR2 HR3 HR4 HR5 HR6 HR7 HR8 HR9]
    · isplitl [HS0]; · iexact HS0
      isplitl [HS1]; · iexact HS1
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      iexact HR9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _)

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Hand

end
-- ==== Proof.RI.Region1.lean ====
/-
  The head kernel of the reference program (its second launch, a grid of one point): the body reads its eight
  input blocks whole, forms two matrix products followed by a bias and a rectifier, lays the pieces side by side
  into a 128x128 block, multiplies that by the last weight matrix and adds the last bias. Each of its two outputs
  is therefore one whole-block store of a pure function of the input blocks. This module states what each output
  block holds after the body, proves the body's triple, and packages it as the launch's proof data with its
  obligation at the one grid point.
-/
import proofs.«116650_g2000303023666169_pallasbulk_55_22_alg».proof.Proof.Gen.ReferenceIdeal.Launch
import proofs.«116650_g2000303023666169_pallasbulk_55_22_alg».proof.Proof.Gen.ReferenceIdeal.Skeleton
import proofs.«116650_g2000303023666169_pallasbulk_55_22_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not: an unfetched point has
    the block index of the point before, so the buffer still holds this point's block. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not: an unfetched point has
    the block index of the point before, so the buffer still holds this point's block. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not: an unfetched point has
    the block index of the point before, so the buffer still holds this point's block. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not: an unfetched point has
    the block index of the point before, so the buffer still holds this point's block. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not: an unfetched point has
    the block index of the point before, so the buffer still holds this point's block. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not: an unfetched point has
    the block index of the point before, so the buffer still holds this point's block. -/
theorem before1_5_of {c : Dev nD} (dat : Dat τ (Elt F) Unit ℕ (Pipeline.UD sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not: an unfetched point has
    the block index of the point before, so the buffer still holds this point's block. -/
theorem before1_6_of {c : Dev nD} (dat : Dat τ (Elt F) Unit ℕ (Pipeline.UD sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not: an unfetched point has
    the block index of the point before, so the buffer still holds this point's block. -/
theorem before1_7_of {c : Dev nD} (dat : Dat τ (Elt F) Unit ℕ (Pipeline.UD sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole block -/

abbrev r1_0 : Rect S384x2592 := Rect.unit (s := S384x2592) ![0, 0] S384x2592.size inb_S384x2592_S384x2592_0_0
abbrev r1_1 : Rect S128x2592 := Rect.unit (s := S128x2592) ![0, 0] S128x2592.size inb_S128x2592_S128x2592_0_0
abbrev r1_2 : Rect S2592x32 := Rect.unit (s := S2592x32) ![0, 0] S2592x32.size inb_S2592x32_S2592x32_0_0
abbrev r1_3 : Rect S1x32 := Rect.unit (s := S1x32) ![0, 0] S1x32.size inb_S1x32_S1x32_0_0
abbrev r1_6 : Rect S128x10 := Rect.unit (s := S128x10) ![0, 0] S128x10.size inb_S128x10_S128x10_0_0
abbrev r1_7 : Rect S1x10 := Rect.unit (s := S1x10) ![0, 0] S1x10.size inb_S1x10_S1x10_0_0
abbrev r1_9 : Rect S128x128 := Rect.unit (s := S128x128) ![0, 0] S128x128.size inb_S128x128_S128x128_0_0

/-! ## What the body leaves in each output window's buffer -/

/-- Window 9's buffer after the body: the two rectified affine images of the input rows, the first cut into three
    row bands, laid side by side. -/
def out1_9 (x0 : Vec F S384x2592 .f32) (x1 : Vec F S128x2592 .f32) (x2 : Vec F S2592x32 .f32) (x3 : Vec F S1x32 .f32) (x4 : Vec F S2592x32 .f32) (x5 : Vec F S1x32 .f32) : Vec F S128x128 .f32 :=
  View.canon [⟨r1_9, k1_pay1 (View.ld x0 r1_0) (View.ld x2 r1_2) (View.ld x3 r1_3) (View.ld x1 r1_1) (View.ld x4 r1_2) (View.ld x5 r1_3)⟩]

/-- Window 8's buffer after the body: that 128x128 block times the last weight matrix, plus the last bias. -/
def out1_8 (x0 : Vec F S384x2592 .f32) (x1 : Vec F S128x2592 .f32) (x2 : Vec F S2592x32 .f32) (x3 : Vec F S1x32 .f32) (x4 : Vec F S2592x32 .f32) (x5 : Vec F S1x32 .f32) (x6 : Vec F S128x10 .f32) (x7 : Vec F S1x10 .f32) : Vec F S128x10 .f32 :=
  View.canon [⟨r1_6, k1_pay2 (View.ld x0 r1_0) (View.ld x2 r1_2) (View.ld x3 r1_3) (View.ld x1 r1_1) (View.ld x4 r1_2) (View.ld x5 r1_3) (View.ld x6 r1_6) (View.ld x7 r1_7)⟩]

/-- The one store into window 9's buffer is of the whole block, so it covers it. -/
theorem cover1_9 (p0 : Vec F S128x128 .f32) (y : S128x128.Idx) :
    ∃ pc ∈ ([⟨r1_9, p0⟩] : List (View.Piece (Elt F) S128x128 .f32)), y ∈ pc.1.set :=
  View.cover_of_tiled [⟨r1_9, p0⟩] S128x128.size (by rfl) y

/-- The one store into window 8's buffer is of the whole block, so it covers it. -/
theorem cover1_8 (p0 : Vec F S128x10 .f32) (y : S128x10.Idx) :
    ∃ pc ∈ ([⟨r1_6, p0⟩] : List (View.Piece (Elt F) S128x10 .f32)), y ∈ pc.1.set :=
  View.cover_of_tiled [⟨r1_6, p0⟩] S128x10.size (by rfl) y

/-! ## The body's triple -/

set_option maxHeartbeats 1000000 in
/-- The body on whole staging buffers, the inputs' reading `xW` and the outputs' holding anything, runs to the
    continuation with the inputs' as they were and each output's at `out1_W` of the inputs: the two loads of the
    outputs' old contents are never used, and each store overwrites its whole buffer. -/
theorem sound_kernel1 (c : Dev nD) (E : Set ℕ) (i : grid1.Coords) (arg1 : Memref sig .tc .vmem S384x2592 .f32) (harg1 : arg1.IsWhole) (arg2 : Memref sig .tc .vmem S128x2592 .f32) (harg2 : arg2.IsWhole) (arg3 : Memref sig .tc .vmem S2592x32 .f32) (harg3 : arg3.IsWhole) (arg4 : Memref sig .tc .vmem S1x32 .f32) (harg4 : arg4.IsWhole) (arg5 : Memref sig .tc .vmem S2592x32 .f32) (harg5 : arg5.IsWhole) (arg6 : Memref sig .tc .vmem S1x32 .f32) (harg6 : arg6.IsWhole) (arg7 : Memref sig .tc .vmem S128x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x128 .f32) (harg10 : arg10.IsWhole)
    (x0 : Vec F S384x2592 .f32) (x1 : Vec F S128x2592 .f32) (x2 : Vec F S2592x32 .f32) (x3 : Vec F S1x32 .f32) (x4 : Vec F S2592x32 .f32) (x5 : Vec F S1x32 .f32) (x6 : Vec F S128x10 .f32) (x7 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7) ∗ owns (c : Thread nD τ) arg10 fullShare (out1_9 x0 x1 x2 x3 x4 x5)) -∗ K ⟨⟩))
      ⊢ wp frame (wpE (defs₀ (F := F)) Variants.none c none) E (cc1__head_kernel i arg1 harg1 arg2 harg2 arg3 harg3 arg4 harg4 arg5 harg5 arg6 harg6 arg7 harg7 arg8 harg8 arg9 harg9 arg10 harg10) K := by
  simp only [cc1__head_kernel_eq_skeleton]; unfold cc1__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

/-! ## The launch's proof data -/

/-- The proof data of this launch on core `c`: the arrays as the launch finds them (`V`); after the body each
    input's buffer at its block and each output's at `out1_W` of the input blocks; the invariant is the untouched
    rest of the core's scoped memory and its generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the launch-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.ReferenceIdeal.Hand

end
-- ==== Proof.RI.Frame.lean ====
/-
  The frame of the reference program: its main function is three stretches of host operations (a reshape, three
  slices stacked into one array, a pad, a transpose), the per-stream launch, one more stretch (reshapes and a
  transpose of the two launch results), and the head launch. Between two items every unscoped buffer of a core holds
  a known valuation: the launch memory pushed through the host stretches, with the four buffers the two launches
  write replaced by what the write-backs of each launch leave. No item writes an argument array, so each argument
  ends as launched; and the two results of the program are the head launch's output arrays.
-/
import proofs.«116650_g2000303023666169_pallasbulk_55_22_alg».proof.Proof.Gen.ReferenceIdeal.Launch
import proofs.«116650_g2000303023666169_pallasbulk_55_22_alg».proof.Proof.Gen.ReferenceIdeal.Skeleton
import proofs.«116650_g2000303023666169_pallasbulk_55_22_alg».proof.Proof.Gen.ReferenceIdeal.Points
import proofs.«116650_g2000303023666169_pallasbulk_55_22_alg».proof.Proof.RI.Region0
import proofs.«116650_g2000303023666169_pallasbulk_55_22_alg».proof.Proof.RI.Region1
import proofs.«116650_g2000303023666169_pallasbulk_55_22_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Mathlib.Tactic.IrreducibleDef

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at the two launches -/

/-- Core `c`'s TensorCore buffers when the first launch is entered: the launch memory after the three host
    stretches before it. -/
abbrev Vin0 : (c : Dev nD) → (b : Ref sig .tc) → Buf (Elt F) ((c : Thread nD τ).loc b) := fun c b => Gen.V3 m c b

/-- The first launch's two output arrays after all its write-backs, named. -/
irreducible_def res10 (c : Dev nD) : Buf (Elt F) ((c : Thread nD τ).loc main_v13_0) := (dat0 (Vin0 m) c).arrAt 10 cfg0.N
irreducible_def res11 (c : Dev nD) : Buf (Elt F) ((c : Thread nD τ).loc main_v13_1) := (dat0 (Vin0 m) c).arrAt 11 cfg0.N

/-- What the first launch leaves in the buffers of core `c`: its two output arrays at what the write-backs of all
    its grid points leave, anything else as it was entered. -/
def outs4 (c : Dev nD) : (r : Ref sig .tc) → Buf (Elt F) ((c : Thread nD τ).loc r) :=
  Function.update (Function.update (fun r => Vin0 m c r) main_v13_0 (res10 m c)) main_v13_1 (res11 m c)

/-- The first launch's results as a family over every item number (a first choice of the results, used only to
    state the second launch's entry contents before the second launch's own results are chosen). -/
def outsA : Gen.Outs (F := F) := fun _ r c => outs4 m c r

/-- Core `c`'s TensorCore buffers when the second launch is entered, over that first choice: the first launch's exit
    contents after the host stretch between the two. -/
abbrev Vin1A : (c : Dev nD) → (b : Ref sig .tc) → Buf (Elt F) ((c : Thread nD τ).loc b) := fun c b => Gen.V5 m (outsA m) c b

/-- The second launch's two output arrays after its write-backs, named. -/
irreducible_def res18 (c : Dev nD) : Buf (Elt F) ((c : Thread nD τ).loc main_v18_0) := (dat1 (Vin1A m) c).arrAt 8 cfg1.N
irreducible_def res19 (c : Dev nD) : Buf (Elt F) ((c : Thread nD τ).loc main_v18_1) := (dat1 (Vin1A m) c).arrAt 9 cfg1.N

/-- What the second launch leaves in the buffers of core `c`. -/
def outs6 (c : Dev nD) : (r : Ref sig .tc) → Buf (Elt F) ((c : Thread nD τ).loc r) :=
  Function.update (Function.update (fun r => Vin1A m c r) main_v18_0 (res18 m c)) main_v18_1 (res19 m c)

/-- The contents the two launches leave, indexed by the item after which they are read: after item 5 the second
    launch's, otherwise the first launch's. -/
def outsH : Gen.Outs (F := F) := fun n r c => if n = 6 then outs6 m c r else outs4 m c r

theorem outsH_4 (r : Ref sig .tc) (c : Dev nD) : outsH m 4 r c = outs4 m c r := rfl
theorem outsH_6 (r : Ref sig .tc) (c : Dev nD) : outsH m 6 r c = outs6 m c r := rfl
theorem outsA_4 (r : Ref sig .tc) (c : Dev nD) : outsA m 4 r c = outs4 m c r := rfl

/-- Core `c`'s TensorCore buffers when the second launch is entered: the valuation after item 4 at the chosen
    results. -/
abbrev Vin1 : (c : Dev nD) → (b : Ref sig .tc) → Buf (Elt F) ((c : Thread nD τ).loc b) := fun c b => Gen.V5 m (outsH m) c b

/-- The valuation after the first launch reads the results at item 4 only. -/
theorem V4_congr (o o' : Gen.Outs (F := F)) (c : Dev nD) (h0 : o 4 main_v13_0 c = o' 4 main_v13_0 c) (h1 : o 4 main_v13_1 c = o' 4 main_v13_1 c) :
    Gen.V4 m o c = Gen.V4 m o' c := by
  simp only [Gen.V4, h0, h1]

/-- There the two choices agree, -/
theorem V4_outsH (c : Dev nD) : Gen.V4 m (outsH m) c = Gen.V4 m (outsA m) c :=
  V4_congr m _ _ c ((outsH_4 m _ c).trans (outsA_4 m _ c).symm) ((outsH_4 m _ c).trans (outsA_4 m _ c).symm)

/-- so the two spellings of the second launch's entry contents are one function. -/
theorem Vin1_eq : Vin1 m = Vin1A m := by
  funext c b
  show StableHlo.after hostOps1 (Gen.V4 m (outsH m) c) _ = StableHlo.after hostOps1 (Gen.V4 m (outsA m) c) _
  rw [V4_outsH]

/-- The four reads of the launches' results. -/
theorem outsH_4_0 (c : Dev nD) : outsH m 4 main_v13_0 c = (dat0 (Vin0 m) c).arrAt 10 cfg0.N := by
  rw [outsH_4]; unfold outs4
  rw [Function.update_of_ne (by decide : (main_v13_0 : Ref sig .tc) ≠ main_v13_1), Function.update_self, res10_def]
theorem outsH_4_1 (c : Dev nD) : outsH m 4 main_v13_1 c = (dat0 (Vin0 m) c).arrAt 11 cfg0.N := by
  rw [outsH_4]; unfold outs4
  rw [Function.update_self, res11_def]
theorem outsH_6_0 (c : Dev nD) : outsH m 6 main_v18_0 c = (dat1 (Vin1 m) c).arrAt 8 cfg1.N := by
  rw [Vin1_eq, outsH_6]; unfold outs6
  rw [Function.update_of_ne (by decide : (main_v18_0 : Ref sig .tc) ≠ main_v18_1), Function.update_self, res18_def]
theorem outsH_6_1 (c : Dev nD) : outsH m 6 main_v18_1 c = (dat1 (Vin1 m) c).arrAt 9 cfg1.N := by
  rw [Vin1_eq, outsH_6]; unfold outs6
  rw [Function.update_self, res19_def]

/-- The exit contents of the two launches, read at the TensorCore's references. -/
abbrev Vout0 : (c : Dev nD) → (b : Ref sig .tc) → Buf (Elt F) ((c : Thread nD τ).loc b) := fun c b => Gen.V4 m (outsH m) c b
abbrev Vout1 : (c : Dev nD) → (b : Ref sig .tc) → Buf (Elt F) ((c : Thread nD τ).loc b) := fun c b => Gen.V6 m (outsH m) c b

/-- The valuation after the first launch at its two results. -/
theorem V4_res0 (c : Dev nD) : Gen.V4 m (outsH m) c (Proc.devRef .tc main_v13_0) = (dat0 (Vin0 m) c).arrAt 10 cfg0.N := by
  simp only [Gen.V4, Function.update_of_ne (StableHlo.devRef_ne_of_ne (by decide : (main_v13_0 : Ref sig .tc) ≠ main_v13_1) : (Proc.devRef .tc main_v13_0 : DevRef τ sig) ≠ Proc.devRef .tc main_v13_1), Function.update_self]
  exact outsH_4_0 m c
theorem V4_res1 (c : Dev nD) : Gen.V4 m (outsH m) c (Proc.devRef .tc main_v13_1) = (dat0 (Vin0 m) c).arrAt 11 cfg0.N := by
  simp only [Gen.V4, Function.update_self]
  exact outsH_4_1 m c
/-- The valuation after the second launch at its two results. -/
theorem V6_res0 (c : Dev nD) : Gen.V6 m (outsH m) c (Proc.devRef .tc main_v18_0) = (dat1 (Vin1 m) c).arrAt 8 cfg1.N := by
  simp only [Gen.V6, Function.update_of_ne (StableHlo.devRef_ne_of_ne (by decide : (main_v18_0 : Ref sig .tc) ≠ main_v18_1) : (Proc.devRef .tc main_v18_0 : DevRef τ sig) ≠ Proc.devRef .tc main_v18_1), Function.update_self]
  exact outsH_6_0 m c
theorem V6_res1 (c : Dev nD) : Gen.V6 m (outsH m) c (Proc.devRef .tc main_v18_1) = (dat1 (Vin1 m) c).arrAt 9 cfg1.N := by
  simp only [Gen.V6, Function.update_self]
  exact outsH_6_1 m c

/-- Which windows of the two launches are outputs, and that no input window's array is one of the results. -/
theorem in_not_res0 : ∀ w : Fin 12, (cfg0.win w).isOut = false → Pipeline.arrRef spec0 w ∉ ([main_v13_0, main_v13_1] : List (Ref sig .tc)) := by decide +kernel
theorem out_cases0 : ∀ w : Fin 12, (cfg0.win w).isOut ≠ false → w = 10 ∨ w = 11 := by decide +kernel
theorem in_not_res1 : ∀ w : Fin 10, (cfg1.win w).isOut = false → Pipeline.arrRef spec1 w ∉ ([main_v18_0, main_v18_1] : List (Ref sig .tc)) := by decide +kernel
theorem out_cases1 : ∀ w : Fin 10, (cfg1.win w).isOut ≠ false → w = 8 ∨ w = 9 := by decide +kernel

/-- At the first launch's exit each of its arrays holds what the launch leaves: an input array is as entered (no
    write-back touches it), an output array is the valuation's updated value. -/
theorem hF0 (c : Dev nD) (w : Fin cfg0.W) : (dat0 (Vin0 m) c).arrAt w cfg0.N = Vout0 m c (Pipeline.arrRef spec0 w) := by
  by_cases hw : (cfg0.win w).isOut = false
  · exact (((dat0 (Vin0 m) c).arrAt_in w hw _).trans (A_eq0 (Vin0 m) c w)).trans (Gen.V4_of m (outsH m) c (Pipeline.arrRef spec0 w) (in_not_res0 w hw)).symm
  · rcases out_cases0 w hw with rfl | rfl
    · exact (V4_res0 m c).symm
    · exact (V4_res1 m c).symm
/-- and every other buffer what it held at entry. -/
theorem hrest0 (c : Dev nD) : ∀ b, b ∉ Finset.univ.image (Pipeline.arrRef spec0) → Vout0 m c b = Vin0 m c b :=
  fun b hb => Gen.V4_of m (outsH m) c b fun hmem => by
    rcases List.mem_cons.mp hmem with h | hmem
    · exact hb (Finset.mem_image.mpr ⟨10, Finset.mem_univ _, h.symm⟩)
    · rcases List.mem_cons.mp hmem with h | hmem
      · exact hb (Finset.mem_image.mpr ⟨11, Finset.mem_univ _, h.symm⟩)
      · exact absurd hmem List.not_mem_nil

/-- The same of the second launch. -/
theorem hF1 (c : Dev nD) (w : Fin cfg1.W) : (dat1 (Vin1 m) c).arrAt w cfg1.N = Vout1 m c (Pipeline.arrRef spec1 w) := by
  by_cases hw : (cfg1.win w).isOut = false
  · exact (((dat1 (Vin1 m) c).arrAt_in w hw _).trans (A_eq1 (Vin1 m) c w)).trans (Gen.V6_of m (outsH m) c (Pipeline.arrRef spec1 w) (in_not_res1 w hw)).symm
  · rcases out_cases1 w hw with rfl | rfl
    · exact (V6_res0 m c).symm
    · exact (V6_res1 m c).symm
theorem hrest1 (c : Dev nD) : ∀ b, b ∉ Finset.univ.image (Pipeline.arrRef spec1) → Vout1 m c b = Vin1 m c b :=
  fun b hb => Gen.V6_of m (outsH m) c b fun hmem => by
    rcases List.mem_cons.mp hmem with h | hmem
    · exact hb (Finset.mem_image.mpr ⟨8, Finset.mem_univ _, h.symm⟩)
    · rcases List.mem_cons.mp hmem with h | hmem
      · exact hb (Finset.mem_image.mpr ⟨9, Finset.mem_univ _, h.symm⟩)
      · exact absurd hmem List.not_mem_nil

/-! ## The proof data family and the thread state -/

/-- Both launches' proof data, each at its launch's entry contents. -/
def pdats : (p : Fin 2) → (c : Dev nD) → Dat τ (Elt F) Unit ℕ (Pipeline.UD sig nD τ) ℕ (cfgs p) c
  | ⟨0, _⟩ => fun c => dat0 (Vin0 m) c
  | ⟨1, _⟩ => fun c => dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

set_option backward.isDefEq.respectTransparency.types false in
/-- Launch 0 over the thread state: entered with every unscoped buffer at the contents before it, left with them at
    the contents after it. Its arrays are split out of the unscoped buffers and put back at what the write-backs
    leave; the generator register goes into the launch's invariant and comes back; nothing is owed; the kernel has
    no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L lv 0 fun _ _ => rfl
  pre c := iprop(StableHlo.held (c : Thread nD τ) (Pipeline.ucRefs τ sig) (Gen.V3 m c) ∗ R c)
  post c := iprop(StableHlo.held (c : Thread nD τ) (Pipeline.ucRefs τ sig) (Gen.V4 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the contents before it, left with them at
    the contents after it. Its arrays are split out of the unscoped buffers and put back at what the write-backs
    leave; the generator register goes into the launch's invariant and comes back; nothing is owed; the kernel has
    no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L lv 1 fun _ _ => rfl
  pre c := iprop(StableHlo.held (c : Thread nD τ) (Pipeline.ucRefs τ sig) (Gen.V5 m (outsH m) c) ∗ R c)
  post c := iprop(StableHlo.held (c : Thread nD τ) (Pipeline.ucRefs τ sig) (Gen.V6 m (outsH m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME of the reference program at any `F`: from any memory with zero counters every weakly fair execution of
    the main function terminates, nothing faulting, and every final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Gen.frame_cond m (EP := embL) (ι := ()) (𝒱₀ := 𝒱₀) (L := L) (lv := lv) (hL := fun _ _ => rfl) (ρ := ρ) (outs := outsH m) (pdats := pdats m)
    (O₀ := 0) (G := fun _ => iprop(emp))
    (u₀ := (initOf (Pipeline.cells cfgs cellOf_inj) (Pipeline.launchToks cfgs cellOf_inj), 1))
    (hu₀ := (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro))
    (E := fun _ c => R c)
    (hE0 := (by
      refine Pipeline.initEach L lv fun c => ?_
      iintro ⟨⟨-, HO, -, Hp, -⟩, -⟩
      imodintro
      isplitl [Hp]; · iexists _; iexact Hp
      iexists ∅; iexact HO))
    (hE2 := (fun c => by
      iintro ⟨-, HO⟩
      iexact HO))
    (R0 := reg0 m) (hpre0 := fun _ => .rfl) (hpost0 := fun _ => .rfl)
    (R1 := reg1 m) (hpre1 := fun _ => .rfl) (hpost1 := fun _ => .rfl)

end Cert.ReferenceIdeal.Hand

end
-- ==== Proof.KV.HostMid.lean ====
/- What the arrays hold when the head region is entered. The pooled features `[384, 81, 32]` are flattened row by row
   (width-major: column `w·32 + ch`); the fusion slabs `[384, 27, 32]` of the three streams of one batch element are laid
   side by side (column `s·864 + wl·32 + co` of row `b` is stream `s·128 + b`); the two big linear tables have their rows
   permuted to match (channel-major rows `ch·81 + w` become width-major rows `w·32 + ch`); the output table only
   changes float format. At the extended reals a change of float format is the identity. -/
import proofs.«116650_g2000303023666169_pallasbulk_55_22_alg».proof.Proof.Gen.KernelIdeal.Regions
import Idealize.ShloMosaic.Lib.Pipeline.Value
import Idealize.ShloMosaic.Lib.ValueIdx
import Idealize.ShloMosaic.Lib.ValueLayout

noncomputable section

namespace Cert.KernelIdeal.KV

open Idealize.ShloMosaic Idealize.ShloMosaic.TcCoe Idealize.ShloMosaic.ValueIdx
open Cert.KernelIdeal Cert.KernelIdeal.Gen

/-! ## Layout operations read at an index -/

section LayoutMid
variable {α : Type}

/-- Rows of `[81, 32]` flattened: column `w·32 + ch`. -/
theorem flat_z_apply (x : S384x81x32.Idx → α) (g : Fin 384) (w : Fin 81) (ch : Fin 32) (k : Fin 2592) (hk : k.val = w.val * 32 + ch.val) :
    shapeCast S384x2592 x shapeCasts_S384x81x32_S384x2592 (ix2 g k) = x (ix3 g w ch) :=
  shapeCast_apply x _ _ _ (by
    rw [Shape.rowMajor_val_three, Shape.rowMajor_val_two]
    show (g.val * 81 + w.val) * 32 + ch.val = g.val * 2592 + k.val
    omega)

/-- The three streams' slabs of one batch element side by side: column `s·864 + wl·32 + co` of row `b` is stream `s·128 + b`. -/
theorem flat_y_apply (x : S384x27x32.Idx → α) (b : Fin 128) (s : Fin 3) (wl : Fin 27) (co : Fin 32)
    (k : Fin 2592) (hk : k.val = s.val * 864 + wl.val * 32 + co.val) (g : Fin 384) (hg : g.val = s.val * 128 + b.val) :
    shapeCast S128x2592 (transpose S128x3x864 [1, 0, 2] (shapeCast S3x128x864 x shapeCasts_S384x27x32_S3x128x864) transposes_S3x128x864_S128x3x864_1_0_2)
        shapeCasts_S128x3x864_S128x2592 (ix2 b k) = x (ix3 g wl co) := by
  have he : wl.val * 32 + co.val < 864 := by have := wl.isLt; have := co.isLt; omega
  refine (shapeCast_apply _ _ (ix2 b k) (ix3 b s ⟨wl.val * 32 + co.val, he⟩) ?_).trans ?_
  · rw [Shape.rowMajor_val_two, Shape.rowMajor_val_three]
    show (b.val * 3 + s.val) * 864 + (wl.val * 32 + co.val) = b.val * 2592 + k.val
    omega
  refine (transpose_apply _ _ _ (ix3 b s ⟨wl.val * 32 + co.val, he⟩) (ix3 s b ⟨wl.val * 32 + co.val, he⟩)
    (fun a => match a with | ⟨0, _⟩ => rfl | ⟨1, _⟩ => rfl | ⟨2, _⟩ => rfl)).trans ?_
  refine shapeCast_apply _ _ _ (ix3 g wl co) ?_
  rw [Shape.rowMajor_val_three, Shape.rowMajor_val_three]
  show (g.val * 27 + wl.val) * 32 + co.val = (s.val * 128 + b.val) * 864 + (wl.val * 32 + co.val)
  omega

/-- The shared linear table's rows, channel-major `ch·81 + w`, re-laid width-major `w·32 + ch`. -/
theorem perm_con_apply (x : S2592x32.Idx → α) (w : Fin 81) (ch : Fin 32) (o : Fin 32)
    (k : Fin 2592) (hk : k.val = w.val * 32 + ch.val) (r : Fin 2592) (hr : r.val = ch.val * 81 + w.val) :
    shapeCast S2592x32 (transpose S81x32x32 [1, 0, 2] (shapeCast S32x81x32 x shapeCasts_S2592x32_S32x81x32) transposes_S32x81x32_S81x32x32_1_0_2)
        shapeCasts_S81x32x32_S2592x32 (ix2 k o) = x (ix2 r o) := by
  refine (shapeCast_apply _ _ (ix2 k o) (ix3 w ch o) ?_).trans ?_
  · rw [Shape.rowMajor_val_two, Shape.rowMajor_val_three]
    show (w.val * 32 + ch.val) * 32 + o.val = k.val * 32 + o.val
    omega
  refine (transpose_apply _ _ _ (ix3 w ch o) (ix3 ch w o)
    (fun a => match a with | ⟨0, _⟩ => rfl | ⟨1, _⟩ => rfl | ⟨2, _⟩ => rfl)).trans ?_
  refine shapeCast_apply _ _ _ (ix2 r o) ?_
  rw [Shape.rowMajor_val_two, Shape.rowMajor_val_three]
  show r.val * 32 + o.val = (ch.val * 81 + w.val) * 32 + o.val
  omega

/-- The fusion linear table's rows, channel-major `co·81 + s·27 + wl`, re-laid stream-, width-, channel-major `s·864 + wl·32 + co`. -/
theorem perm_fl_apply (x : S2592x32.Idx → α) (s : Fin 3) (wl : Fin 27) (co : Fin 32) (o : Fin 32)
    (k : Fin 2592) (hk : k.val = s.val * 864 + wl.val * 32 + co.val) (r : Fin 2592) (hr : r.val = co.val * 81 + s.val * 27 + wl.val) :
    shapeCast S2592x32 (transpose S3x27x32x32 [1, 2, 0, 3] (shapeCast S32x3x27x32 x shapeCasts_S2592x32_S32x3x27x32) transposes_S32x3x27x32_S3x27x32x32_1_2_0_3)
        shapeCasts_S3x27x32x32_S2592x32 (ix2 k o) = x (ix2 r o) := by
  refine (shapeCast_apply _ _ (ix2 k o) (ix4 s wl co o) ?_).trans ?_
  · rw [Shape.rowMajor_val_two, Shape.rowMajor_val_four]
    show ((s.val * 27 + wl.val) * 32 + co.val) * 32 + o.val = k.val * 32 + o.val
    omega
  refine (transpose_apply _ _ _ (ix4 s wl co o) (ix4 co s wl o)
    (fun a => match a with | ⟨0, _⟩ => rfl | ⟨1, _⟩ => rfl | ⟨2, _⟩ => rfl | ⟨3, _⟩ => rfl)).trans ?_
  refine shapeCast_apply _ _ _ (ix2 r o) ?_
  rw [Shape.rowMajor_val_two, Shape.rowMajor_val_four]
  show r.val * 32 + o.val = ((co.val * 3 + s.val) * 27 + wl.val) * 32 + o.val
  omega

end LayoutMid

/-! ## The host stretch between the regions, one result at a time -/

variable {F : FTy → Type} [FloatOps F]

section Stages
variable (W : Valuation τ sig (Elt F))

theorem a1_v39 : (StableHlo.after hostOps1 W (Proc.devRef .tc main_v39) : S384x2592.Idx → Elt F .bf16)
      = shapeCast S384x2592 (W (Proc.devRef .tc main_v38_0)) shapeCasts_S384x81x32_S384x2592 := by
  after_results
  try rfl

theorem a1_v42 : (StableHlo.after hostOps1 W (Proc.devRef .tc main_v42) : S128x2592.Idx → Elt F .bf16)
      = shapeCast S128x2592 (transpose S128x3x864 [1, 0, 2] (shapeCast S3x128x864 (W (Proc.devRef .tc main_v38_1)) shapeCasts_S384x27x32_S3x128x864) transposes_S3x128x864_S128x3x864_1_0_2)
        shapeCasts_S128x3x864_S128x2592 := by
  after_results
  try rfl

theorem a1_v49 : (StableHlo.after hostOps1 W (Proc.devRef .tc main_v49) : S2592x32.Idx → Elt F .bf16)
      = truncf .bf16 (shapeCast S2592x32 (transpose S81x32x32 [1, 0, 2] (shapeCast S32x81x32 (W (Proc.devRef .tc main_arg10)) shapeCasts_S2592x32_S32x81x32) transposes_S32x81x32_S81x32x32_1_0_2)
        shapeCasts_S81x32x32_S2592x32) bitsLt_bf16_f32 := by
  after_results
  try rfl

theorem a1_v50 : (StableHlo.after hostOps1 W (Proc.devRef .tc main_v50) : S2592x32.Idx → Elt F .bf16)
      = truncf .bf16 (shapeCast S2592x32 (transpose S3x27x32x32 [1, 2, 0, 3] (shapeCast S32x3x27x32 (W (Proc.devRef .tc main_arg12)) shapeCasts_S2592x32_S32x3x27x32) transposes_S32x3x27x32_S3x27x32x32_1_2_0_3)
        shapeCasts_S3x27x32x32_S2592x32) bitsLt_bf16_f32 := by
  after_results
  try rfl

theorem a1_v51 : (StableHlo.after hostOps1 W (Proc.devRef .tc main_v51) : S128x10.Idx → Elt F .bf16)
      = truncf .bf16 (W (Proc.devRef .tc main_arg14)) bitsLt_bf16_f32 := by
  after_results
  try rfl

end Stages

/-! ## The head region's input arrays -/

variable (m : (ℓ : Loc nD τ sig) → Buf (Elt F) ℓ) (outs : Outs (F := F))

theorem V4_arg10 (c : Dev nD) : V4 m outs c (Proc.devRef .tc main_arg10) = m ((c : Thread nD τ).loc main_arg10) :=
  (V4_of m outs c main_arg10 (by decide)).trans ((V3_of m c main_arg10 (by decide)).trans ((V2_of m c main_arg10 (by decide)).trans ((V1_of m c main_arg10 (by decide)).trans rfl)))
theorem V4_arg11 (c : Dev nD) : V4 m outs c (Proc.devRef .tc main_arg11) = m ((c : Thread nD τ).loc main_arg11) :=
  (V4_of m outs c main_arg11 (by decide)).trans ((V3_of m c main_arg11 (by decide)).trans ((V2_of m c main_arg11 (by decide)).trans ((V1_of m c main_arg11 (by decide)).trans rfl)))
theorem V4_arg12 (c : Dev nD) : V4 m outs c (Proc.devRef .tc main_arg12) = m ((c : Thread nD τ).loc main_arg12) :=
  (V4_of m outs c main_arg12 (by decide)).trans ((V3_of m c main_arg12 (by decide)).trans ((V2_of m c main_arg12 (by decide)).trans ((V1_of m c main_arg12 (by decide)).trans rfl)))
theorem V4_arg13 (c : Dev nD) : V4 m outs c (Proc.devRef .tc main_arg13) = m ((c : Thread nD τ).loc main_arg13) :=
  (V4_of m outs c main_arg13 (by decide)).trans ((V3_of m c main_arg13 (by decide)).trans ((V2_of m c main_arg13 (by decide)).trans ((V1_of m c main_arg13 (by decide)).trans rfl)))
theorem V4_arg14 (c : Dev nD) : V4 m outs c (Proc.devRef .tc main_arg14) = m ((c : Thread nD τ).loc main_arg14) :=
  (V4_of m outs c main_arg14 (by decide)).trans ((V3_of m c main_arg14 (by decide)).trans ((V2_of m c main_arg14 (by decide)).trans ((V1_of m c main_arg14 (by decide)).trans rfl)))
theorem V4_arg15 (c : Dev nD) : V4 m outs c (Proc.devRef .tc main_arg15) = m ((c : Thread nD τ).loc main_arg15) :=
  (V4_of m outs c main_arg15 (by decide)).trans ((V3_of m c main_arg15 (by decide)).trans ((V2_of m c main_arg15 (by decide)).trans ((V1_of m c main_arg15 (by decide)).trans rfl)))

theorem V5_arg11 (c : Dev nD) : V5 m outs c (Proc.devRef .tc main_arg11) = m ((c : Thread nD τ).loc main_arg11) :=
  (V5_of m outs c main_arg11 (by decide)).trans (V4_arg11 m outs c)
theorem V5_arg13 (c : Dev nD) : V5 m outs c (Proc.devRef .tc main_arg13) = m ((c : Thread nD τ).loc main_arg13) :=
  (V5_of m outs c main_arg13 (by decide)).trans (V4_arg13 m outs c)
theorem V5_arg15 (c : Dev nD) : V5 m outs c (Proc.devRef .tc main_arg15) = m ((c : Thread nD τ).loc main_arg15) :=
  (V5_of m outs c main_arg15 (by decide)).trans (V4_arg15 m outs c)

theorem V5_v39_eq (c : Dev nD) : (V5 m outs c (Proc.devRef .tc main_v39) : S384x2592.Idx → Elt F .bf16)
      = shapeCast S384x2592 (V4 m outs c (Proc.devRef .tc main_v38_0)) shapeCasts_S384x81x32_S384x2592 := by
  show StableHlo.after hostOps1 (V4 m outs c) (Proc.devRef .tc main_v39) = _
  rw [a1_v39]

theorem V5_v42_eq (c : Dev nD) : (V5 m outs c (Proc.devRef .tc main_v42) : S128x2592.Idx → Elt F .bf16)
      = shapeCast S128x2592 (transpose S128x3x864 [1, 0, 2] (shapeCast S3x128x864 (V4 m outs c (Proc.devRef .tc main_v38_1)) shapeCasts_S384x27x32_S3x128x864) transposes_S3x128x864_S128x3x864_1_0_2)
        shapeCasts_S128x3x864_S128x2592 := by
  show StableHlo.after hostOps1 (V4 m outs c) (Proc.devRef .tc main_v42) = _
  rw [a1_v42]

theorem V5_v49_eq (c : Dev nD) : (V5 m outs c (Proc.devRef .tc main_v49) : S2592x32.Idx → Elt F .bf16)
      = truncf .bf16 (shapeCast S2592x32 (transpose S81x32x32 [1, 0, 2] (shapeCast S32x81x32 (m ((c : Thread nD τ).loc main_arg10)) shapeCasts_S2592x32_S32x81x32) transposes_S32x81x32_S81x32x32_1_0_2)
        shapeCasts_S81x32x32_S2592x32) bitsLt_bf16_f32 := by
  show StableHlo.after hostOps1 (V4 m outs c) (Proc.devRef .tc main_v49) = _
  rw [a1_v49, V4_arg10]

theorem V5_v50_eq (c : Dev nD) : (V5 m outs c (Proc.devRef .tc main_v50) : S2592x32.Idx → Elt F .bf16)
      = truncf .bf16 (shapeCast S2592x32 (transpose S3x27x32x32 [1, 2, 0, 3] (shapeCast S32x3x27x32 (m ((c : Thread nD τ).loc main_arg12)) shapeCasts_S2592x32_S32x3x27x32) transposes_S32x3x27x32_S3x27x32x32_1_2_0_3)
        shapeCasts_S3x27x32x32_S2592x32) bitsLt_bf16_f32 := by
  show StableHlo.after hostOps1 (V4 m outs c) (Proc.devRef .tc main_v50) = _
  rw [a1_v50, V4_arg12]

theorem V5_v51_eq (c : Dev nD) : (V5 m outs c (Proc.devRef .tc main_v51) : S128x10.Idx → Elt F .bf16)
      = truncf .bf16 (m ((c : Thread nD τ).loc main_arg14)) bitsLt_bf16_f32 := by
  show StableHlo.after hostOps1 (V4 m outs c) (Proc.devRef .tc main_v51) = _
  rw [a1_v51, V4_arg14]

/-! ## The same, index by index, at the extended reals -/

section AtIdeal
variable (mI : (ℓ : Loc nD τ sig) → Buf (Elt Ideal) ℓ) (outsI : Outs (F := Ideal))

/-- The flattened pooled features: row `g`, column `w·32 + ch`. -/
theorem V5_v39_apply (c : Dev nD) (g : Fin 384) (w : Fin 81) (ch : Fin 32) (k : Fin 2592) (hk : k.val = w.val * 32 + ch.val) :
    (V5 (F := Ideal) mI outsI c (Proc.devRef .tc main_v39) : S384x2592.Idx → EReal) (ix2 g k)
      = (V4 (F := Ideal) mI outsI c (Proc.devRef .tc main_v38_0) : S384x81x32.Idx → EReal) (ix3 g w ch) := by
  rw [V5_v39_eq]
  exact flat_z_apply _ g w ch k hk

/-- The three streams' slabs of batch element `b` side by side. -/
theorem V5_v42_apply (c : Dev nD) (b : Fin 128) (s : Fin 3) (wl : Fin 27) (co : Fin 32)
    (k : Fin 2592) (hk : k.val = s.val * 864 + wl.val * 32 + co.val) (g : Fin 384) (hg : g.val = s.val * 128 + b.val) :
    (V5 (F := Ideal) mI outsI c (Proc.devRef .tc main_v42) : S128x2592.Idx → EReal) (ix2 b k)
      = (V4 (F := Ideal) mI outsI c (Proc.devRef .tc main_v38_1) : S384x27x32.Idx → EReal) (ix3 g wl co) := by
  rw [V5_v42_eq]
  exact flat_y_apply _ b s wl co k hk g hg

/-- The shared linear table with its rows re-laid width-major. -/
theorem V5_v49_apply (c : Dev nD) (w : Fin 81) (ch : Fin 32) (o : Fin 32)
    (k : Fin 2592) (hk : k.val = w.val * 32 + ch.val) (r : Fin 2592) (hr : r.val = ch.val * 81 + w.val) :
    (V5 (F := Ideal) mI outsI c (Proc.devRef .tc main_v49) : S2592x32.Idx → EReal) (ix2 k o)
      = (mI ((c : Thread nD τ).loc main_arg10) : S2592x32.Idx → EReal) (ix2 r o) := by
  rw [V5_v49_eq]
  refine (truncf_apply _ bitsLt_bf16_f32 (ix2 k o)).trans ?_
  exact perm_con_apply _ w ch o k hk r hr

/-- The fusion linear table with its rows re-laid stream-, width-, channel-major. -/
theorem V5_v50_apply (c : Dev nD) (s : Fin 3) (wl : Fin 27) (co : Fin 32) (o : Fin 32)
    (k : Fin 2592) (hk : k.val = s.val * 864 + wl.val * 32 + co.val) (r : Fin 2592) (hr : r.val = co.val * 81 + s.val * 27 + wl.val) :
    (V5 (F := Ideal) mI outsI c (Proc.devRef .tc main_v50) : S2592x32.Idx → EReal) (ix2 k o)
      = (mI ((c : Thread nD τ).loc main_arg12) : S2592x32.Idx → EReal) (ix2 r o) := by
  rw [V5_v50_eq]
  refine (truncf_apply _ bitsLt_bf16_f32 (ix2 k o)).trans ?_
  exact perm_fl_apply _ s wl co o k hk r hr

/-- The output table: a change of float format only. -/
theorem V5_v51_apply (c : Dev nD) (i : S128x10.Idx) :
    (V5 (F := Ideal) mI outsI c (Proc.devRef .tc main_v51) : S128x10.Idx → EReal) i
      = (mI ((c : Thread nD τ).loc main_arg14) : S128x10.Idx → EReal) i := by
  rw [V5_v51_eq]
  exact truncf_apply _ bitsLt_bf16_f32 i

end AtIdeal

end Cert.KernelIdeal.KV
end
-- ==== Proof.KV.Blocks.lean ====
/- From blocks to arrays for the per-stream region. Grid point `t` handles the four streams `4t … 4t + 3`: it reads
   rows `4·(t mod 32) …` of the signal array at sensors `2·(t div 32)`, `2·(t div 32) + 1` and the nine weight arrays whole,
   and writes rows `4t … 4t + 3` of the two output arrays. So row `g` of an output array is the per-stream function of
   batch row `g mod 128`, sensor pair `g div 128` of the signal array and of the whole weight arrays. -/
import proofs.«116650_g2000303023666169_pallasbulk_55_22_alg».proof.Proof.KI.Region0
import Idealize.ShloMosaic.Lib.Pipeline.Value
import Idealize.ShloMosaic.Lib.ValueIdx

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable {F : FTy → Type} [FloatOps F]

theorem hz2 : (![0, 0] : Fin 2 → Nat) = fun _ => 0 := funext fun a => by fin_cases a <;> rfl

/-! ## One stream of a block -/

/-- Stream `i` of a four-stream signal block: its two sensors' rows. -/
def strmOf (x0 : Vec F S4x2x91x120 .bf16) (i : Fin 4) : Vec F S1x2x91x120 .bf16 :=
  fun j => x0 (ix4 i (j 1) (j 2) (j 3))

theorem ld_rx_0 (x0 : Vec F S4x2x91x120 .bf16) : View.ld x0 rx_0 = strmOf x0 (0 : Fin 4) := by
  funext j
  have hj0 : (j 0).val < 1 := (j 0).isLt
  show x0 (rx_0.emb j) = x0 (ix4 (0 : Fin 4) (j 1) (j 2) (j 3))
  refine congrArg x0 (funext fun a => Fin.ext ?_)
  match a with
  | ⟨0, _⟩ => show 0 + 1 * (j 0).val = 0; omega
  | ⟨1, _⟩ => show 0 + 1 * (j 1).val = (j 1).val; omega
  | ⟨2, _⟩ => show 0 + 1 * (j 2).val = (j 2).val; omega
  | ⟨3, _⟩ => show 0 + 1 * (j 3).val = (j 3).val; omega
theorem ld_rx_1 (x0 : Vec F S4x2x91x120 .bf16) : View.ld x0 rx_1 = strmOf x0 (1 : Fin 4) := by
  funext j
  have hj0 : (j 0).val < 1 := (j 0).isLt
  show x0 (rx_1.emb j) = x0 (ix4 (1 : Fin 4) (j 1) (j 2) (j 3))
  refine congrArg x0 (funext fun a => Fin.ext ?_)
  match a with
  | ⟨0, _⟩ => show 1 + 1 * (j 0).val = 1; omega
  | ⟨1, _⟩ => show 0 + 1 * (j 1).val = (j 1).val; omega
  | ⟨2, _⟩ => show 0 + 1 * (j 2).val = (j 2).val; omega
  | ⟨3, _⟩ => show 0 + 1 * (j 3).val = (j 3).val; omega
theorem ld_rx_2 (x0 : Vec F S4x2x91x120 .bf16) : View.ld x0 rx_2 = strmOf x0 (2 : Fin 4) := by
  funext j
  have hj0 : (j 0).val < 1 := (j 0).isLt
  show x0 (rx_2.emb j) = x0 (ix4 (2 : Fin 4) (j 1) (j 2) (j 3))
  refine congrArg x0 (funext fun a => Fin.ext ?_)
  match a with
  | ⟨0, _⟩ => show 2 + 1 * (j 0).val = 2; omega
  | ⟨1, _⟩ => show 0 + 1 * (j 1).val = (j 1).val; omega
  | ⟨2, _⟩ => show 0 + 1 * (j 2).val = (j 2).val; omega
  | ⟨3, _⟩ => show 0 + 1 * (j 3).val = (j 3).val; omega
theorem ld_rx_3 (x0 : Vec F S4x2x91x120 .bf16) : View.ld x0 rx_3 = strmOf x0 (3 : Fin 4) := by
  funext j
  have hj0 : (j 0).val < 1 := (j 0).isLt
  show x0 (rx_3.emb j) = x0 (ix4 (3 : Fin 4) (j 1) (j 2) (j 3))
  refine congrArg x0 (funext fun a => Fin.ext ?_)
  match a with
  | ⟨0, _⟩ => show 3 + 1 * (j 0).val = 3; omega
  | ⟨1, _⟩ => show 0 + 1 * (j 1).val = (j 1).val; omega
  | ⟨2, _⟩ => show 0 + 1 * (j 2).val = (j 2).val; omega
  | ⟨3, _⟩ => show 0 + 1 * (j 3).val = (j 3).val; omega

/-- Row `i` of the pooled-features block is the per-stream function of stream `i` of the signal block. -/
theorem out0_10_apply (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) (i : Fin 4) (w : Fin 81) (ch : Fin 32) :
    out0_10 x0 x1 x2 x3 x4 x5 x6 x7 x8 x9 (ix3 i w ch) = k0_pay4 (k0_pay2 (strmOf x0 i) x1 x2) x3 x4 (ix3 (0 : Fin 1) w ch) := by
  unfold out0_10
  let Gz : S4x81x32.Idx → Elt F .bf16 := fun y => k0_pay4 (k0_pay2 (strmOf x0 (y 0)) x1 x2) x3 x4 (ix3 (0 : Fin 1) (y 1) (y 2))
  have h3 : ∀ x : S1x81x32.Idx, (k0_pay20 (k0_pay18 (View.ld x0 rx_3) (View.ld x1 rw0_1) (View.ld x2 rw0_2)) (View.ld x3 rw0_3) (View.ld x4 rw0_4)) x = Gz (rz_3.emb x) := fun x => by
    have hx0 : (x 0).val < 1 := (x 0).isLt
    have hemb : rz_3.emb x = ix3 (3 : Fin 4) (x 1) (x 2) := by
      funext a; apply Fin.ext
      match a with
      | ⟨0, _⟩ => show 3 + 1 * (x 0).val = 3; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_3]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay4 (k0_pay2 (strmOf x0 (3 : Fin 4)) x1 x2) x3 x4) ex
  have h2 : ∀ x : S1x81x32.Idx, (k0_pay16 (k0_pay13 (k0_pay12 (View.ld x0 rx_2)) (View.ld x1 rw0_1) (View.ld x2 rw0_2) (View.ld x3 rw0_3)) (k0_pay14 (View.ld x4 rw0_4))) x = Gz (rz_2.emb x) := fun x => by
    have hx0 : (x 0).val < 1 := (x 0).isLt
    have hemb : rz_2.emb x = ix3 (2 : Fin 4) (x 1) (x 2) := by
      funext a; apply Fin.ext
      match a with
      | ⟨0, _⟩ => show 2 + 1 * (x 0).val = 2; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_2]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay4 (k0_pay2 (strmOf x0 (2 : Fin 4)) x1 x2) x3 x4) ex
  have h1 : ∀ x : S1x81x32.Idx, (k0_pay10 (k0_pay8 (View.ld x0 rx_1) (View.ld x1 rw0_1) (View.ld x2 rw0_2)) (View.ld x3 rw0_3) (View.ld x4 rw0_4)) x = Gz (rz_1.emb x) := fun x => by
    have hx0 : (x 0).val < 1 := (x 0).isLt
    have hemb : rz_1.emb x = ix3 (1 : Fin 4) (x 1) (x 2) := by
      funext a; apply Fin.ext
      match a with
      | ⟨0, _⟩ => show 1 + 1 * (x 0).val = 1; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_1]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay4 (k0_pay2 (strmOf x0 (1 : Fin 4)) x1 x2) x3 x4) ex
  have h0 : ∀ x : S1x81x32.Idx, (k0_pay4 (k0_pay2 (View.ld x0 rx_0) (View.ld x1 rw0_1) (View.ld x2 rw0_2)) (View.ld x3 rw0_3) (View.ld x4 rw0_4)) x = Gz (rz_0.emb x) := fun x => by
    have hx0 : (x 0).val < 1 := (x 0).isLt
    have hemb : rz_0.emb x = ix3 (0 : Fin 4) (x 1) (x 2) := by
      funext a; apply Fin.ext
      match a with
      | ⟨0, _⟩ => show 0 + 1 * (x 0).val = 0; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_0]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay4 (k0_pay2 (strmOf x0 (0 : Fin 4)) x1 x2) x3 x4) ex
  refine View.canon_apply_of_pieces Gz _ ?_ (ix3 i w ch) (cover0_10 _ _ _ _ _)
  intro p hp
  simp only [List.mem_cons, List.mem_nil_iff, or_false] at hp
  rcases hp with rfl | rfl | rfl | rfl
  · exact h3
  · exact h2
  · exact h1
  · exact h0

/-- Row `i` of the fusion-slab block is the per-stream function of stream `i` of the signal block. -/
theorem out0_11_apply (x0 : Vec F S4x2x91x120 .bf16) (x1 : Vec F S720x384 .bf16) (x2 : Vec F S1x384 .f32) (x3 : Vec F S64x64 .bf16) (x4 : Vec F S1x64 .f32) (x5 : Vec F S32x32 .bf16) (x6 : Vec F S32x32 .bf16) (x7 : Vec F S1x32 .f32) (x8 : Vec F S27x81 .bf16) (x9 : Vec F S27x81 .bf16) (i : Fin 4) (wl : Fin 27) (co : Fin 32) :
    out0_11 x0 x1 x2 x3 x4 x5 x6 x7 x8 x9 (ix3 i wl co) = k0_pay7 (k0_pay5 (k0_pay2 (strmOf x0 i) x1 x2) x3 x4 x8 x5) (k0_pay6 (k0_pay2 (strmOf x0 i) x1 x2) x3 x4 x9) x6 x7 (ix3 (0 : Fin 1) wl co) := by
  unfold out0_11
  let Gy : S4x27x32.Idx → Elt F .bf16 := fun y => k0_pay7 (k0_pay5 (k0_pay2 (strmOf x0 (y 0)) x1 x2) x3 x4 x8 x5) (k0_pay6 (k0_pay2 (strmOf x0 (y 0)) x1 x2) x3 x4 x9) x6 x7 (ix3 (0 : Fin 1) (y 1) (y 2))
  have h3 : ∀ x : S1x27x32.Idx, (k0_pay1 (k0_pay21 (k0_pay18 (View.ld x0 rx_3) (View.ld x1 rw0_1) (View.ld x2 rw0_2)) (View.ld x3 rw0_3) (View.ld x4 rw0_4) (View.ld x8 rw0_8) (View.ld x5 rw0_5)) (k0_pay22 (k0_pay18 (View.ld x0 rx_3) (View.ld x1 rw0_1) (View.ld x2 rw0_2)) (View.ld x3 rw0_3) (View.ld x4 rw0_4) (View.ld x9 rw0_9)) (View.ld x6 rw0_6) (View.ld x7 rw0_7)) x = Gy (ry_3.emb x) := fun x => by
    have hx0 : (x 0).val < 1 := (x 0).isLt
    have hemb : ry_3.emb x = ix3 (3 : Fin 4) (x 1) (x 2) := by
      funext a; apply Fin.ext
      match a with
      | ⟨0, _⟩ => show 3 + 1 * (x 0).val = 3; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_3]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay7 (k0_pay5 (k0_pay2 (strmOf x0 (3 : Fin 4)) x1 x2) x3 x4 x8 x5) (k0_pay6 (k0_pay2 (strmOf x0 (3 : Fin 4)) x1 x2) x3 x4 x9) x6 x7) ex
  have h2 : ∀ x : S1x27x32.Idx, (k0_pay17 (k0_pay13 (k0_pay12 (View.ld x0 rx_2)) (View.ld x1 rw0_1) (View.ld x2 rw0_2) (View.ld x3 rw0_3)) (k0_pay14 (View.ld x4 rw0_4)) (View.ld x8 rw0_8) (View.ld x9 rw0_9) (View.ld x5 rw0_5) (View.ld x6 rw0_6) (View.ld x7 rw0_7)) x = Gy (ry_2.emb x) := fun x => by
    have hx0 : (x 0).val < 1 := (x 0).isLt
    have hemb : ry_2.emb x = ix3 (2 : Fin 4) (x 1) (x 2) := by
      funext a; apply Fin.ext
      match a with
      | ⟨0, _⟩ => show 2 + 1 * (x 0).val = 2; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_2]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay7 (k0_pay5 (k0_pay2 (strmOf x0 (2 : Fin 4)) x1 x2) x3 x4 x8 x5) (k0_pay6 (k0_pay2 (strmOf x0 (2 : Fin 4)) x1 x2) x3 x4 x9) x6 x7) ex
  have h1 : ∀ x : S1x27x32.Idx, (k0_pay11 (k0_pay9 (k0_pay8 (View.ld x0 rx_1) (View.ld x1 rw0_1) (View.ld x2 rw0_2)) (View.ld x3 rw0_3) (View.ld x4 rw0_4)) (View.ld x8 rw0_8) (View.ld x9 rw0_9) (View.ld x5 rw0_5) (View.ld x6 rw0_6) (View.ld x7 rw0_7)) x = Gy (ry_1.emb x) := fun x => by
    have hx0 : (x 0).val < 1 := (x 0).isLt
    have hemb : ry_1.emb x = ix3 (1 : Fin 4) (x 1) (x 2) := by
      funext a; apply Fin.ext
      match a with
      | ⟨0, _⟩ => show 1 + 1 * (x 0).val = 1; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_1]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay7 (k0_pay5 (k0_pay2 (strmOf x0 (1 : Fin 4)) x1 x2) x3 x4 x8 x5) (k0_pay6 (k0_pay2 (strmOf x0 (1 : Fin 4)) x1 x2) x3 x4 x9) x6 x7) ex
  have h0 : ∀ x : S1x27x32.Idx, (k0_pay7 (k0_pay5 (k0_pay2 (View.ld x0 rx_0) (View.ld x1 rw0_1) (View.ld x2 rw0_2)) (View.ld x3 rw0_3) (View.ld x4 rw0_4) (View.ld x8 rw0_8) (View.ld x5 rw0_5)) (k0_pay6 (k0_pay2 (View.ld x0 rx_0) (View.ld x1 rw0_1) (View.ld x2 rw0_2)) (View.ld x3 rw0_3) (View.ld x4 rw0_4) (View.ld x9 rw0_9)) (View.ld x6 rw0_6) (View.ld x7 rw0_7)) x = Gy (ry_0.emb x) := fun x => by
    have hx0 : (x 0).val < 1 := (x 0).isLt
    have hemb : ry_0.emb x = ix3 (0 : Fin 4) (x 1) (x 2) := by
      funext a; apply Fin.ext
      match a with
      | ⟨0, _⟩ => show 0 + 1 * (x 0).val = 0; omega
      | ⟨1, _⟩ => show 0 + 1 * (x 1).val = (x 1).val; omega
      | ⟨2, _⟩ => show 0 + 1 * (x 2).val = (x 2).val; omega
    have ex : x = ix3 (0 : Fin 1) (x 1) (x 2) := by
      funext a; match a with
      | ⟨0, _⟩ => exact Fin.ext (by show (x 0).val = 0; omega)
      | ⟨1, _⟩ => rfl
      | ⟨2, _⟩ => rfl
    rw [hemb, ld_rx_0]
    simp only [View.ld_unit_zero (S := S720x384) hz2, View.ld_unit_zero (S := S1x384) hz2, View.ld_unit_zero (S := S64x64) hz2, View.ld_unit_zero (S := S1x64) hz2, View.ld_unit_zero (S := S32x32) hz2, View.ld_unit_zero (S := S1x32) hz2, View.ld_unit_zero (S := S27x81) hz2]
    exact congrArg (k0_pay7 (k0_pay5 (k0_pay2 (strmOf x0 (0 : Fin 4)) x1 x2) x3 x4 x8 x5) (k0_pay6 (k0_pay2 (strmOf x0 (0 : Fin 4)) x1 x2) x3 x4 x9) x6 x7) ex
  refine View.canon_apply_of_pieces Gy _ ?_ (ix3 i wl co) (cover0_11 _ _ _ _ _)
  intro p hp
  simp only [List.mem_cons, List.mem_nil_iff, or_false] at hp
  rcases hp with rfl | rfl | rfl | rfl
  · exact h3
  · exact h2
  · exact h1
  · exact h0

/-! ## The index maps over the grid -/

/-- The signal window's block index at point `t` is `(t mod 32, t div 32, 0, 0)`, the outputs' `(t, 0, 0)`, every weight
    window's zero. -/
theorem idx_facts0 : ∀ t : Fin cfg0.N,
    win0_0.index t (0 : Fin 4) = t.val % 32 ∧ win0_0.index t (1 : Fin 4) = t.val / 32 ∧ win0_0.index t (2 : Fin 4) = 0 ∧ win0_0.index t (3 : Fin 4) = 0
    ∧ win0_10.index t (0 : Fin 3) = t.val ∧ win0_10.index t (1 : Fin 3) = 0 ∧ win0_10.index t (2 : Fin 3) = 0
    ∧ win0_11.index t (0 : Fin 3) = t.val ∧ win0_11.index t (1 : Fin 3) = 0 ∧ win0_11.index t (2 : Fin 3) = 0 :=
  (by decide +kernel : ∀ t : Fin grid0.N, _)

theorem idx_factsW : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

variable (V : (c : Dev nD) → (b : Ref sig .tc) → Buf (Elt F) ((c : Thread nD τ).loc b))

/-- The grid point that handles stream `g`. -/
def tOf (g : Fin 384) : Fin cfg0.N := ⟨g.val / 4, by rw [show cfg0.N = 96 from N_0]; omega⟩

/-- What point `t` leaves in the two output windows' buffers. -/
def blk10 (c : Dev nD) (t : Fin cfg0.N) : Vec F S4x81x32 .bf16 := out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
def blk11 (c : Dev nD) (t : Fin cfg0.N) : Vec F S4x27x32 .bf16 := out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-- The two output arrays after the region, row by row: row `g` is row `g mod 4` of what point `g div 4` left. -/
def G10 (c : Dev nD) : S384x81x32.Idx → Elt F .bf16 :=
  fun i => blk10 V c (tOf (i 0)) (ix3 ⟨(i 0).val % 4, Nat.mod_lt _ (by decide)⟩ (i 1) (i 2))
def G11 (c : Dev nD) : S384x27x32.Idx → Elt F .bf16 :=
  fun i => blk11 V c (tOf (i 0)) (ix3 ⟨(i 0).val % 4, Nat.mod_lt _ (by decide)⟩ (i 1) (i 2))

/-- What point `t` writes back to the pooled-features array is block `t` of `G10`. -/
theorem flushed10_eq (c : Dev nD) (t : Fin cfg0.N) :
    (dat0 V c).flushed 10 t = ((cfg0.win 10).blk t).view.read (Elt F) (G10 V c) := by
  show (cfg0.win 10).cut (grid0.coords t) ((dat0 V c).after 10 t) = _
  rw [after0_10]
  funext y
  obtain ⟨-, -, -, -, e0, e1, e2, -, -, -⟩ := idx_facts0 t
  have ht : t.val < 96 := Nat.lt_of_lt_of_eq t.isLt N_0
  have hy0 : (y 0).val < 4 := (y 0).isLt
  have hy1 : (y 1).val < 81 := (y 1).isLt
  have hy2 : (y 2).val < 32 := (y 2).isLt
  have hemb : ((cfg0.win 10).blk t).view.emb y = ix3 ⟨4 * t.val + (y 0).val, by omega⟩ ⟨(y 1).val, hy1⟩ ⟨(y 2).val, hy2⟩ := by
    funext a; apply Fin.ext
    match a with
    | ⟨0, _⟩ => show win0_10.index t (0 : Fin 3) * 4 + 1 * (y 0).val = 4 * t.val + (y 0).val; rw [e0]; omega
    | ⟨1, _⟩ => show win0_10.index t (1 : Fin 3) * 81 + 1 * (y 1).val = (y 1).val; rw [e1]; omega
    | ⟨2, _⟩ => show win0_10.index t (2 : Fin 3) * 32 + 1 * (y 2).val = (y 2).val; rw [e2]; omega
  show blk10 V c t y = G10 V c (((cfg0.win 10).blk t).view.emb y)
  rw [hemb]
  have htof : tOf ⟨4 * t.val + (y 0).val, by omega⟩ = t := Fin.ext (by show (4 * t.val + (y 0).val) / 4 = t.val; omega)
  show blk10 V c t y = blk10 V c (tOf ⟨4 * t.val + (y 0).val, by omega⟩) (ix3 ⟨(4 * t.val + (y 0).val) % 4, _⟩ ⟨(y 1).val, hy1⟩ ⟨(y 2).val, hy2⟩)
  rw [htof]
  refine congrArg (blk10 V c t) (funext fun a => Fin.ext ?_)
  match a with
  | ⟨0, _⟩ => show (y 0).val = (4 * t.val + (y 0).val) % 4; omega
  | ⟨1, _⟩ => rfl
  | ⟨2, _⟩ => rfl

/-- Every row of the pooled-features array is in some point's block. -/
theorem cover10 (c : Dev nD) (i : S384x81x32.Idx) :
    ∃ t : Fin cfg0.N, (cfg0.win 10).flush t = true ∧ i ∈ ((cfg0.win 10).blk t).view.set := by
  refine ⟨tOf (i 0), flush0_10 _, ?_⟩
  show i ∈ ((View.whole main_v38_0).slice (win0_10.rect (tOf (i 0)))).set
  rw [View.set_slice_whole, Rect.mem_set_unit]
  obtain ⟨-, -, -, -, e0, e1, e2, -, -, -⟩ := idx_facts0 (tOf (i 0))
  have h0 : (i 0).val < 384 := (i 0).isLt
  have h1 : (i 1).val < 81 := (i 1).isLt
  have h2 : (i 2).val < 32 := (i 2).isLt
  have et : (tOf (i 0)).val = (i 0).val / 4 := rfl
  intro a
  match a with
  | ⟨0, _⟩ => show win0_10.index (tOf (i 0)) (0 : Fin 3) * 4 ≤ (i 0).val ∧ (i 0).val < win0_10.index (tOf (i 0)) (0 : Fin 3) * 4 + 4; rw [e0, et]; omega
  | ⟨1, _⟩ => show win0_10.index (tOf (i 0)) (1 : Fin 3) * 81 ≤ (i 1).val ∧ (i 1).val < win0_10.index (tOf (i 0)) (1 : Fin 3) * 81 + 81; rw [e1]; omega
  | ⟨2, _⟩ => show win0_10.index (tOf (i 0)) (2 : Fin 3) * 32 ≤ (i 2).val ∧ (i 2).val < win0_10.index (tOf (i 0)) (2 : Fin 3) * 32 + 32; rw [e2]; omega

/-- The pooled-features array after the region. -/
theorem final10 (c : Dev nD) : (dat0 V c).arrAt 10 cfg0.N = G10 V c :=
  (dat0 V c).arrAt_eq_of_cover 10 (G10 V c) (fun t _ => flushed10_eq V c t) (cover10 c)

/-- What point `t` writes back to the fusion-slab array is block `t` of `G11`. -/
theorem flushed11_eq (c : Dev nD) (t : Fin cfg0.N) :
    (dat0 V c).flushed 11 t = ((cfg0.win 11).blk t).view.read (Elt F) (G11 V c) := by
  show (cfg0.win 11).cut (grid0.coords t) ((dat0 V c).after 11 t) = _
  rw [after0_11]
  funext y
  obtain ⟨-, -, -, -, -, -, -, e0, e1, e2⟩ := idx_facts0 t
  have ht : t.val < 96 := Nat.lt_of_lt_of_eq t.isLt N_0
  have hy0 : (y 0).val < 4 := (y 0).isLt
  have hy1 : (y 1).val < 27 := (y 1).isLt
  have hy2 : (y 2).val < 32 := (y 2).isLt
  have hemb : ((cfg0.win 11).blk t).view.emb y = ix3 ⟨4 * t.val + (y 0).val, by omega⟩ ⟨(y 1).val, hy1⟩ ⟨(y 2).val, hy2⟩ := by
    funext a; apply Fin.ext
    match a with
    | ⟨0, _⟩ => show win0_11.index t (0 : Fin 3) * 4 + 1 * (y 0).val = 4 * t.val + (y 0).val; rw [e0]; omega
    | ⟨1, _⟩ => show win0_11.index t (1 : Fin 3) * 27 + 1 * (y 1).val = (y 1).val; rw [e1]; omega
    | ⟨2, _⟩ => show win0_11.index t (2 : Fin 3) * 32 + 1 * (y 2).val = (y 2).val; rw [e2]; omega
  show blk11 V c t y = G11 V c (((cfg0.win 11).blk t).view.emb y)
  rw [hemb]
  have htof : tOf ⟨4 * t.val + (y 0).val, by omega⟩ = t := Fin.ext (by show (4 * t.val + (y 0).val) / 4 = t.val; omega)
  show blk11 V c t y = blk11 V c (tOf ⟨4 * t.val + (y 0).val, by omega⟩) (ix3 ⟨(4 * t.val + (y 0).val) % 4, _⟩ ⟨(y 1).val, hy1⟩ ⟨(y 2).val, hy2⟩)
  rw [htof]
  refine congrArg (blk11 V c t) (funext fun a => Fin.ext ?_)
  match a with
  | ⟨0, _⟩ => show (y 0).val = (4 * t.val + (y 0).val) % 4; omega
  | ⟨1, _⟩ => rfl
  | ⟨2, _⟩ => rfl

/-- Every row of the fusion-slab array is in some point's block. -/
theorem cover11 (c : Dev nD) (i : S384x27x32.Idx) :
    ∃ t : Fin cfg0.N, (cfg0.win 11).flush t = true ∧ i ∈ ((cfg0.win 11).blk t).view.set := by
  refine ⟨tOf (i 0), flush0_11 _, ?_⟩
  show i ∈ ((View.whole main_v38_1).slice (win0_11.rect (tOf (i 0)))).set
  rw [View.set_slice_whole, Rect.mem_set_unit]
  obtain ⟨-, -, -, -, -, -, -, e0, e1, e2⟩ := idx_facts0 (tOf (i 0))
  have h0 : (i 0).val < 384 := (i 0).isLt
  have h1 : (i 1).val < 27 := (i 1).isLt
  have h2 : (i 2).val < 32 := (i 2).isLt
  have et : (tOf (i 0)).val = (i 0).val / 4 := rfl
  intro a
  match a with
  | ⟨0, _⟩ => show win0_11.index (tOf (i 0)) (0 : Fin 3) * 4 ≤ (i 0).val ∧ (i 0).val < win0_11.index (tOf (i 0)) (0 : Fin 3) * 4 + 4; rw [e0, et]; omega
  | ⟨1, _⟩ => show win0_11.index (tOf (i 0)) (1 : Fin 3) * 27 ≤ (i 1).val ∧ (i 1).val < win0_11.index (tOf (i 0)) (1 : Fin 3) * 27 + 27; rw [e1]; omega
  | ⟨2, _⟩ => show win0_11.index (tOf (i 0)) (2 : Fin 3) * 32 ≤ (i 2).val ∧ (i 2).val < win0_11.index (tOf (i 0)) (2 : Fin 3) * 32 + 32; rw [e2]; omega

/-- The fusion-slab array after the region. -/
theorem final11 (c : Dev nD) : (dat0 V c).arrAt 11 cfg0.N = G11 V c :=
  (dat0 V c).arrAt_eq_of_cover 11 (G11 V c) (fun t _ => flushed11_eq V c t) (cover11 c)

/-! ## The input blocks as parts of their arrays -/

/-- The signal window's block at point `t`: batch rows `4·(t mod 32) …`, sensors `2·(t div 32)`, `2·(t div 32) + 1`. -/
theorem iblk0_0_apply (c : Dev nD) (t : Fin cfg0.N) (i : Fin 4) (c' : Fin 2) (mrow : Fin 91) (ph : Fin 120)
    (b : Fin 128) (hb : b.val = 4 * (t.val % 32) + i.val) (s : Fin 6) (hs : s.val = 2 * (t.val / 32) + c'.val) :
    (iblk0 V c 0 t : Vec F S4x2x91x120 .bf16) (ix4 i c' mrow ph) = (V c main_v3 : S128x6x91x120.Idx → Elt F .bf16) (ix4 b s mrow ph) := by
  obtain ⟨e0, e1, e2, e3, -⟩ := idx_facts0 t
  unfold iblk0
  rw [View.read_apply]
  show V c main_v3 _ = V c main_v3 (ix4 b s mrow ph)
  refine congrArg (V c main_v3) (funext fun a => Fin.ext ?_)
  match a with
  | ⟨0, _⟩ => show win0_0.index t (0 : Fin 4) * 4 + 1 * i.val = b.val; rw [e0, hb]; omega
  | ⟨1, _⟩ => show win0_0.index t (1 : Fin 4) * 2 + 1 * c'.val = s.val; rw [e1, hs]; omega
  | ⟨2, _⟩ => show win0_0.index t (2 : Fin 4) * 91 + 1 * mrow.val = mrow.val; rw [e2]; omega
  | ⟨3, _⟩ => show win0_0.index t (3 : Fin 4) * 120 + 1 * ph.val = ph.val; rw [e3]; omega

/-- Window 1's block at every point is its whole array. -/
theorem iblk0_1_eq (c : Dev nD) (t : Fin cfg0.N) : (iblk0 V c 1 t : Vec F S720x384 .bf16) = (V c main_v24 : S720x384.Idx → Elt F .bf16) := by
  obtain ⟨⟨e0, e1⟩, -, -, -, -, -, -, -, -⟩ := idx_factsW t
  funext y
  unfold iblk0
  rw [View.read_apply]
  show V c main_v24 _ = V c main_v24 y
  refine congrArg (V c main_v24) (funext fun a => Fin.ext ?_)
  match a with
  | ⟨0, _⟩ => show win0_1.index t (0 : Fin 2) * 720 + 1 * (y 0).val = (y 0).val; rw [e0]; omega
  | ⟨1, _⟩ => show win0_1.index t (1 : Fin 2) * 384 + 1 * (y 1).val = (y 1).val; rw [e1]; omega
/-- Window 2's block at every point is its whole array. -/
theorem iblk0_2_eq (c : Dev nD) (t : Fin cfg0.N) : (iblk0 V c 2 t : Vec F S1x384 .f32) = (V c main_v25 : S1x384.Idx → Elt F .f32) := by
  obtain ⟨-, ⟨e0, e1⟩, -, -, -, -, -, -, -⟩ := idx_factsW t
  funext y
  unfold iblk0
  rw [View.read_apply]
  show V c main_v25 _ = V c main_v25 y
  refine congrArg (V c main_v25) (funext fun a => Fin.ext ?_)
  match a with
  | ⟨0, _⟩ => show win0_2.index t (0 : Fin 2) * 1 + 1 * (y 0).val = (y 0).val; rw [e0]; omega
  | ⟨1, _⟩ => show win0_2.index t (1 : Fin 2) * 384 + 1 * (y 1).val = (y 1).val; rw [e1]; omega
/-- Window 3's block at every point is its whole array. -/
theorem iblk0_3_eq (c : Dev nD) (t : Fin cfg0.N) : (iblk0 V c 3 t : Vec F S64x64 .bf16) = (V c main_v27 : S64x64.Idx → Elt F .bf16) := by
  obtain ⟨-, -, ⟨e0, e1⟩, -, -, -, -, -, -⟩ := idx_factsW t
  funext y
  unfold iblk0
  rw [View.read_apply]
  show V c main_v27 _ = V c main_v27 y
  refine congrArg (V c main_v27) (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega
/-- Window 4's block at every point is its whole array. -/
theorem iblk0_4_eq (c : Dev nD) (t : Fin cfg0.N) : (iblk0 V c 4 t : Vec F S1x64 .f32) = (V c main_v28 : S1x64.Idx → Elt F .f32) := by
  obtain ⟨-, -, -, ⟨e0, e1⟩, -, -, -, -, -⟩ := idx_factsW t
  funext y
  unfold iblk0
  rw [View.read_apply]
  show V c main_v28 _ = V c main_v28 y
  refine congrArg (V c main_v28) (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega
/-- Window 5's block at every point is its whole array. -/
theorem iblk0_5_eq (c : Dev nD) (t : Fin cfg0.N) : (iblk0 V c 5 t : Vec F S32x32 .bf16) = (V c main_v30 : S32x32.Idx → Elt F .bf16) := by
  obtain ⟨-, -, -, -, ⟨e0, e1⟩, -, -, -, -⟩ := idx_factsW t
  funext y
  unfold iblk0
  rw [View.read_apply]
  show V c main_v30 _ = V c main_v30 y
  refine congrArg (V c main_v30) (funext fun a => Fin.ext ?_)
  match a with
  | ⟨0, _⟩ => show win0_5.index t (0 : Fin 2) * 32 + 1 * (y 0).val = (y 0).val; rw [e0]; omega
  | ⟨1, _⟩ => show win0_5.index t (1 : Fin 2) * 32 + 1 * (y 1).val = (y 1).val; rw [e1]; omega
/-- Window 6's block at every point is its whole array. -/
theorem iblk0_6_eq (c : Dev nD) (t : Fin cfg0.N) : (iblk0 V c 6 t : Vec F S32x32 .bf16) = (V c main_v32 : S32x32.Idx → Elt F .bf16) := by
  obtain ⟨-, -, -, -, -, ⟨e0, e1⟩, -, -, -⟩ := idx_factsW t
  funext y
  unfold iblk0
  rw [View.read_apply]
  show V c main_v32 _ = V c main_v32 y
  refine congrArg (V c main_v32) (funext fun a => Fin.ext ?_)
  match a with
  | ⟨0, _⟩ => show win0_6.index t (0 : Fin 2) * 32 + 1 * (y 0).val = (y 0).val; rw [e0]; omega
  | ⟨1, _⟩ => show win0_6.index t (1 : Fin 2) * 32 + 1 * (y 1).val = (y 1).val; rw [e1]; omega
/-- Window 7's block at every point is its whole array. -/
theorem iblk0_7_eq (c : Dev nD) (t : Fin cfg0.N) : (iblk0 V c 7 t : Vec F S1x32 .f32) = (V c main_v37 : S1x32.Idx → Elt F .f32) := by
  obtain ⟨-, -, -, -, -, -, ⟨e0, e1⟩, -, -⟩ := idx_factsW t
  funext y
  unfold iblk0
  rw [View.read_apply]
  show V c main_v37 _ = V c main_v37 y
  refine congrArg (V c main_v37) (funext fun a => Fin.ext ?_)
  match a with
  | ⟨0, _⟩ => show win0_7.index t (0 : Fin 2) * 1 + 1 * (y 0).val = (y 0).val; rw [e0]; omega
  | ⟨1, _⟩ => show win0_7.index t (1 : Fin 2) * 32 + 1 * (y 1).val = (y 1).val; rw [e1]; omega
/-- Window 8's block at every point is its whole array. -/
theorem iblk0_8_eq (c : Dev nD) (t : Fin cfg0.N) : (iblk0 V c 8 t : Vec F S27x81 .bf16) = (V c main_v34 : S27x81.Idx → Elt F .bf16) := by
  obtain ⟨-, -, -, -, -, -, -, ⟨e0, e1⟩, -⟩ := idx_factsW t
  funext y
  unfold iblk0
  rw [View.read_apply]
  show V c main_v34 _ = V c main_v34 y
  refine congrArg (V c main_v34) (funext fun a => Fin.ext ?_)
  match a with
  | ⟨0, _⟩ => show win0_8.index t (0 : Fin 2) * 27 + 1 * (y 0).val = (y 0).val; rw [e0]; omega
  | ⟨1, _⟩ => show win0_8.index t (1 : Fin 2) * 81 + 1 * (y 1).val = (y 1).val; rw [e1]; omega
/-- Window 9's block at every point is its whole array. -/
theorem iblk0_9_eq (c : Dev nD) (t : Fin cfg0.N) : (iblk0 V c 9 t : Vec F S27x81 .bf16) = (V c main_v36 : S27x81.Idx → Elt F .bf16) := by
  obtain ⟨-, -, -, -, -, -, -, -, ⟨e0, e1⟩⟩ := idx_factsW t
  funext y
  unfold iblk0
  rw [View.read_apply]
  show V c main_v36 _ = V c main_v36 y
  refine congrArg (V c main_v36) (funext fun a => Fin.ext ?_)
  match a with
  | ⟨0, _⟩ => show win0_9.index t (0 : Fin 2) * 27 + 1 * (y 0).val = (y 0).val; rw [e0]; omega
  | ⟨1, _⟩ => show win0_9.index t (1 : Fin 2) * 81 + 1 * (y 1).val = (y 1).val; rw [e1]; omega

/-! ## The output arrays, row by row, as the per-stream function of the input arrays -/

/-- Stream `g`'s two sensor rows of the signal array: batch element `g mod 128`, sensors `2·(g div 128)`, `2·(g div 128) + 1`. -/
def strmX (c : Dev nD) (g : Fin 384) : Vec F S1x2x91x120 .bf16 :=
  fun j => (V c main_v3 : S128x6x91x120.Idx → Elt F .bf16)
    (ix4 ⟨g.val % 128, Nat.mod_lt _ (by decide)⟩ ⟨2 * (g.val / 128) + (j 1).val, by have := g.isLt; have h : (j 1).val < 2 := (j 1).isLt; omega⟩ (j 2) (j 3))

theorem strmX_apply (c : Dev nD) (g : Fin 384) (u : Fin 1) (c' : Fin 2) (mrow : Fin 91) (ph : Fin 120)
    (b : Fin 128) (hb : b.val = g.val % 128) (s : Fin 6) (hs : s.val = 2 * (g.val / 128) + c'.val) :
    strmX V c g (ix4 u c' mrow ph) = (V c main_v3 : S128x6x91x120.Idx → Elt F .bf16) (ix4 b s mrow ph) := by
  unfold strmX
  exact congrArg (V c main_v3) (funext fun a => Fin.ext (by
    match a with
    | ⟨0, _⟩ => exact hb.symm
    | ⟨1, _⟩ => exact hs.symm
    | ⟨2, _⟩ => rfl
    | ⟨3, _⟩ => rfl))

/-- Stream `g mod 4` of the signal block at point `g div 4` is stream `g`'s rows of the signal array. -/
theorem strmOf_iblk (c : Dev nD) (g : Fin 384) :
    strmOf (iblk0 V c 0 (tOf g)) ⟨g.val % 4, Nat.mod_lt _ (by decide)⟩ = strmX V c g := by
  funext j
  have hg := g.isLt
  have hj : (j 1).val < 2 := (j 1).isLt
  exact iblk0_0_apply V c (tOf g) ⟨g.val % 4, Nat.mod_lt _ (by decide)⟩ (j 1) (j 2) (j 3)
    ⟨g.val % 128, Nat.mod_lt _ (by decide)⟩ (by show g.val % 128 = 4 * (g.val / 4 % 32) + g.val % 4; omega)
    ⟨2 * (g.val / 128) + (j 1).val, by omega⟩ (by show 2 * (g.val / 128) + (j 1).val = 2 * (g.val / 4 / 32) + (j 1).val; omega)

/-- Row `g` of the pooled-features array after the region. -/
theorem arr10_apply (c : Dev nD) (g : Fin 384) (w : Fin 81) (ch : Fin 32) :
    ((dat0 V c).arrAt 10 cfg0.N : S384x81x32.Idx → Elt F .bf16) (ix3 g w ch)
      = k0_pay4 (k0_pay2 (strmX V c g) (V c main_v24 : Vec F S720x384 .bf16) (V c main_v25 : Vec F S1x384 .f32)) (V c main_v27 : Vec F S64x64 .bf16) (V c main_v28 : Vec F S1x64 .f32) (ix3 (0 : Fin 1) w ch) := by
  refine (congrFun (final10 V c) (ix3 g w ch)).trans ?_
  show blk10 V c (tOf g) (ix3 ⟨g.val % 4, _⟩ w ch) = _
  unfold blk10
  refine (out0_10_apply (iblk0 V c 0 (tOf g)) (iblk0 V c 1 (tOf g)) (iblk0 V c 2 (tOf g)) (iblk0 V c 3 (tOf g)) (iblk0 V c 4 (tOf g)) (iblk0 V c 5 (tOf g)) (iblk0 V c 6 (tOf g)) (iblk0 V c 7 (tOf g)) (iblk0 V c 8 (tOf g)) (iblk0 V c 9 (tOf g)) ⟨g.val % 4, Nat.mod_lt _ (by decide)⟩ w ch).trans ?_
  rw [strmOf_iblk, iblk0_1_eq, iblk0_2_eq, iblk0_3_eq, iblk0_4_eq]

/-- Row `g` of the fusion-slab array after the region. -/
theorem arr11_apply (c : Dev nD) (g : Fin 384) (wl : Fin 27) (co : Fin 32) :
    ((dat0 V c).arrAt 11 cfg0.N : S384x27x32.Idx → Elt F .bf16) (ix3 g wl co)
      = k0_pay7 (k0_pay5 (k0_pay2 (strmX V c g) (V c main_v24 : Vec F S720x384 .bf16) (V c main_v25 : Vec F S1x384 .f32)) (V c main_v27 : Vec F S64x64 .bf16) (V c main_v28 : Vec F S1x64 .f32) (V c main_v34 : Vec F S27x81 .bf16) (V c main_v30 : Vec F S32x32 .bf16)) (k0_pay6 (k0_pay2 (strmX V c g) (V c main_v24 : Vec F S720x384 .bf16) (V c main_v25 : Vec F S1x384 .f32)) (V c main_v27 : Vec F S64x64 .bf16) (V c main_v28 : Vec F S1x64 .f32) (V c main_v36 : Vec F S27x81 .bf16)) (V c main_v32 : Vec F S32x32 .bf16) (V c main_v37 : Vec F S1x32 .f32) (ix3 (0 : Fin 1) wl co) := by
  refine (congrFun (final11 V c) (ix3 g wl co)).trans ?_
  show blk11 V c (tOf g) (ix3 ⟨g.val % 4, _⟩ wl co) = _
  unfold blk11
  refine (out0_11_apply (iblk0 V c 0 (tOf g)) (iblk0 V c 1 (tOf g)) (iblk0 V c 2 (tOf g)) (iblk0 V c 3 (tOf g)) (iblk0 V c 4 (tOf g)) (iblk0 V c 5 (tOf g)) (iblk0 V c 6 (tOf g)) (iblk0 V c 7 (tOf g)) (iblk0 V c 8 (tOf g)) (iblk0 V c 9 (tOf g)) ⟨g.val % 4, Nat.mod_lt _ (by decide)⟩ wl co).trans ?_
  rw [strmOf_iblk, iblk0_1_eq, iblk0_2_eq, iblk0_3_eq, iblk0_4_eq, iblk0_5_eq, iblk0_6_eq, iblk0_7_eq, iblk0_8_eq, iblk0_9_eq]

end Cert.KernelIdeal.KV
end
-- ==== Proof.KV.HostPre.lean ====
/- What the arrays hold when the per-stream region is entered: each of its ten input arrays, index by index, as the
   program's arguments. The signal is cut to six sensors, rounded, padded with zeros to 91 rows of 120 phases and
   re-laid; the three shift taps' tables are cut into their two sensor halves, laid side by side sensor-major and
   transposed; the small tables are transposed and the bias columns turned into rows. At the extended reals a
   change of float format is the identity, so each entry is an entry of an argument, or the padding zero. -/
import proofs.«116650_g2000303023666169_pallasbulk_55_22_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.KV

open Idealize.ShloMosaic Idealize.ShloMosaic.TcCoe Idealize.ShloMosaic.ValueIdx
open Cert.KernelIdeal Cert.KernelIdeal.Gen

/-! ## Layout operations read at an index -/

section Layout
variable {α : Type}

/-- One column block of a shift tap's table: tap `q`, columns from `o`. -/
theorem tapcols_apply (x : S3x384x240.Idx → α) (q : Fin 3) (o : Nat)
    (h1 : S3x384x240.Slices ![q.val, 0, 0] S1x384x240) (h2 : S1x384x240.ShapeCasts S384x240) (h3 : S384x240.Slices ![0, o] S384x120)
    (n : Fin 384) (ph : Fin 120) (k : Fin 240) (hk : k.val = o + ph.val) :
    extractStridedSlice S384x120 ![0, o] (shapeCast S384x240 (extractStridedSlice S1x384x240 ![q.val, 0, 0] x h1) h2) h3 (ix2 n ph)
      = x (ix3 q n k) := by
  refine (slice2_axis1_apply o _ h3 n ph k hk).trans ?_
  refine (shapeCast_1ab_ab_apply _ h2 n k).trans ?_
  exact extractStridedSlice_apply _ _ h1 _ _ (fun ax => by
    match ax with
    | ⟨0, _⟩ => exact (Nat.add_zero _).symm
    | ⟨1, _⟩ => exact (Nat.zero_add _).symm
    | ⟨2, _⟩ => exact (Nat.zero_add _).symm)

/-- The six column blocks (sensor-major, tap-minor) laid side by side and transposed: row `(c'·3 + q)·120 + ph`, column `n`
    is tap `q`'s table at row `n`, column `c'·120 + ph`. -/
theorem w1cat_apply (x : S3x384x240.Idx → α) (c' : Fin 2) (q : Fin 3) (ph : Fin 120) (n : Fin 384)
    (r : Fin 720) (hr : r.val = (c'.val * 3 + q.val) * 120 + ph.val) (k : Fin 240) (hk : k.val = c'.val * 120 + ph.val) :
    transpose S720x384 [1, 0] (concatenate S384x720 1
          [⟨S384x120, extractStridedSlice S384x120 ![0, 0] (shapeCast S384x240 (extractStridedSlice S1x384x240 ![0, 0, 0] x slices_S3x384x240_S1x384x240_0_0_0) shapeCasts_S1x384x240_S384x240) slices_S384x240_S384x120_0_0⟩,
           ⟨S384x120, extractStridedSlice S384x120 ![0, 0] (shapeCast S384x240 (extractStridedSlice S1x384x240 ![1, 0, 0] x slices_S3x384x240_S1x384x240_1_0_0) shapeCasts_S1x384x240_S384x240) slices_S384x240_S384x120_0_0⟩,
           ⟨S384x120, extractStridedSlice S384x120 ![0, 0] (shapeCast S384x240 (extractStridedSlice S1x384x240 ![2, 0, 0] x slices_S3x384x240_S1x384x240_2_0_0) shapeCasts_S1x384x240_S384x240) slices_S384x240_S384x120_0_0⟩,
           ⟨S384x120, extractStridedSlice S384x120 ![0, 120] (shapeCast S384x240 (extractStridedSlice S1x384x240 ![0, 0, 0] x slices_S3x384x240_S1x384x240_0_0_0) shapeCasts_S1x384x240_S384x240) slices_S384x240_S384x120_0_120⟩,
           ⟨S384x120, extractStridedSlice S384x120 ![0, 120] (shapeCast S384x240 (extractStridedSlice S1x384x240 ![1, 0, 0] x slices_S3x384x240_S1x384x240_1_0_0) shapeCasts_S1x384x240_S384x240) slices_S384x240_S384x120_0_120⟩,
           ⟨S384x120, extractStridedSlice S384x120 ![0, 120] (shapeCast S384x240 (extractStridedSlice S1x384x240 ![2, 0, 0] x slices_S3x384x240_S1x384x240_2_0_0) shapeCasts_S1x384x240_S384x240) slices_S384x240_S384x120_0_120⟩]
          concatenates_S384x120_S384x120_S384x120_S384x120_S384x120_S384x120_S384x720_d1) transposes_S384x720_S720x384_1_0 (ix2 r n)
      = x (ix3 q n k) := by
  refine (transpose_ix2_apply _ transposes_S384x720_S720x384_1_0 r n).trans ?_
  have hi : ∀ b : Fin S384x120.rank, b.cast (rfl : S384x120.rank = S384x720.rank) ≠ (1 : Fin S384x720.rank) →
      ((ix2 n ph : S384x120.Idx) b).val = ((ix2 n r : S384x720.Idx) (b.cast rfl)).val := fun b hb => by
    match b with
    | ⟨0, _⟩ => rfl
    | ⟨1, _⟩ => exact absurd rfl hb
  have hph := ph.isLt
  match c', q with
  | ⟨0, _⟩, ⟨0, _⟩ =>
    have hr' : r.val = 0 + ph.val := hr
    have hk' : k.val = 0 + ph.val := hk
    refine (concatenate_apply_piece 1 _ _ (ix2 n r) 0 (by show (0 : ℕ) < 6; omega) S384x120 _ rfl rfl 0 rfl (ix2 n ph) hi (by show 0 + ph.val = r.val; omega)).trans ?_
    exact tapcols_apply x 0 0 _ _ _ n ph k hk'
  | ⟨0, _⟩, ⟨1, _⟩ =>
    have hr' : r.val = 120 + ph.val := hr
    have hk' : k.val = 0 + ph.val := hk
    refine (concatenate_apply_piece 1 _ _ (ix2 n r) 1 (by show (1 : ℕ) < 6; omega) S384x120 _ rfl rfl 120 rfl (ix2 n ph) hi (by show 120 + ph.val = r.val; omega)).trans ?_
    exact tapcols_apply x 1 0 _ _ _ n ph k hk'
  | ⟨0, _⟩, ⟨2, _⟩ =>
    have hr' : r.val = 240 + ph.val := hr
    have hk' : k.val = 0 + ph.val := hk
    refine (concatenate_apply_piece 1 _ _ (ix2 n r) 2 (by show (2 : ℕ) < 6; omega) S384x120 _ rfl rfl 240 rfl (ix2 n ph) hi (by show 240 + ph.val = r.val; omega)).trans ?_
    exact tapcols_apply x 2 0 _ _ _ n ph k hk'
  | ⟨1, _⟩, ⟨0, _⟩ =>
    have hr' : r.val = 360 + ph.val := hr
    have hk' : k.val = 120 + ph.val := hk
    refine (concatenate_apply_piece 1 _ _ (ix2 n r) 3 (by show (3 : ℕ) < 6; omega) S384x120 _ rfl rfl 360 rfl (ix2 n ph) hi (by show 360 + ph.val = r.val; omega)).trans ?_
    exact tapcols_apply x 0 120 _ _ _ n ph k hk'
  | ⟨1, _⟩, ⟨1, _⟩ =>
    have hr' : r.val = 480 + ph.val := hr
    have hk' : k.val = 120 + ph.val := hk
    refine (concatenate_apply_piece 1 _ _ (ix2 n r) 4 (by show (4 : ℕ) < 6; omega) S384x120 _ rfl rfl 480 rfl (ix2 n ph) hi (by show 480 + ph.val = r.val; omega)).trans ?_
    exact tapcols_apply x 1 120 _ _ _ n ph k hk'
  | ⟨1, _⟩, ⟨2, _⟩ =>
    have hr' : r.val = 600 + ph.val := hr
    have hk' : k.val = 120 + ph.val := hk
    refine (concatenate_apply_piece 1 _ _ (ix2 n r) 5 (by show (5 : ℕ) < 6; omega) S384x120 _ rfl rfl 600 rfl (ix2 n ph) hi (by show 600 + ph.val = r.val; omega)).trans ?_
    exact tapcols_apply x 2 120 _ _ _ n ph k hk'

end Layout

section Layout2
variable {α : Type}

/-- A column `[a, 1]` turned into a row `[1, a]`: entry `(0, n)` is entry `(n, 0)`. -/
theorem shapeCast_a1_1a_apply {a : ℕ} (x : (⟨2, ![a, 1]⟩ : Shape).Idx → α)
    (h : (⟨2, ![a, 1]⟩ : Shape).ShapeCasts ⟨2, ![1, a]⟩) (u : Fin 1) (n : Fin a) :
    shapeCast ⟨2, ![1, a]⟩ x h (ix2 u n) = x (ix2 n (0 : Fin 1)) :=
  shapeCast_apply x h _ _ (by
    have hu : u.val = 0 := by omega
    rw [Shape.rowMajor_val_two, Shape.rowMajor_val_two]
    show n.val * 1 + 0 = u.val * a + n.val
    rw [hu, Nat.zero_mul, Nat.zero_add, Nat.mul_one, Nat.add_zero])

/-- The signal padded behind its last axis from 10178 to 10920 samples, at a sample it has. -/
theorem padsig_apply_in (x : S128x6x10178.Idx → α) (v : S_.Idx → α) (b : Fin 128) (s : Fin 6) (p : Fin 10920) (hp : p.val < 10178) :
    pad S128x6x10920 ![0, 0, 0] ![0, 0, 742] ![0, 0, 0] x v pads_S128x6x10178_S128x6x10920_000_000_07420 h_S_ (ix3 b s p)
      = x (ix3 b s ⟨p.val, hp⟩) := by
  refine pad_apply_of_inside _ _ _ x v _ h_S_ _ (ix3 b s ⟨p.val, hp⟩) (fun a => ?_)
  match a with
  | ⟨0, _⟩ => show b.val = 0 + b.val * (0 + 1); omega
  | ⟨1, _⟩ => show s.val = 0 + s.val * (0 + 1); omega
  | ⟨2, _⟩ => show p.val = 0 + p.val * (0 + 1); omega

/-- Beyond the last sample it is the padding value. -/
theorem padsig_apply_out (x : S128x6x10178.Idx → α) (v : S_.Idx → α) (b : Fin 128) (s : Fin 6) (p : Fin 10920) (hp : ¬ p.val < 10178) :
    pad S128x6x10920 ![0, 0, 0] ![0, 0, 742] ![0, 0, 0] x v pads_S128x6x10178_S128x6x10920_000_000_07420 h_S_ (ix3 b s p)
      = v (Shape.Idx.first h_S_) := by
  refine pad_apply_of_not_inside _ _ _ x v _ h_S_ _ (2 : Fin 3) (fun hin => hp ?_)
  have h3 : (p.val - 0) / (0 + 1) < 10178 := hin.2.2
  rw [Nat.sub_zero, Nat.zero_add, Nat.div_one] at h3
  exact h3

end Layout2

/-! ## The host stretches before the region, one result at a time -/

variable {F : FTy → Type} [FloatOps F]

section Stages
variable (W : Valuation τ sig (Elt F))

theorem a0_v1 : (StableHlo.after hostOps0 W (Proc.devRef .tc main_v1) : S128x6x10178.Idx → Elt F .bf16)
      = truncf .bf16 (shapeCast S128x6x10178 (W (Proc.devRef .tc main_arg0)) shapeCasts_S128x1x6x10178_S128x6x10178) bitsLt_bf16_f32 := by
  after_results
  try rfl

theorem a0_c : (StableHlo.after hostOps0 W (Proc.devRef .tc main_c) : S_.Idx → BitVec 32) = constantI S_ 32 0#32 := by
  after_results
  try rfl

theorem a01_v2 : (StableHlo.after hostOps0_1 W (Proc.devRef .tc main_v2) : S128x6x10920.Idx → Elt F .bf16)
      = pad S128x6x10920 ![0, 0, 0] ![0, 0, 742] ![0, 0, 0] (W (Proc.devRef .tc main_v1)) (sitofp .bf16 (W (Proc.devRef .tc main_c)) : S_.Idx → Elt F .bf16) pads_S128x6x10178_S128x6x10920_000_000_07420 h_S_ := by
  after_results
  try rfl

theorem a02_v3 : (StableHlo.after hostOps0_2 W (Proc.devRef .tc main_v3) : S128x6x91x120.Idx → Elt F .bf16)
      = shapeCast S128x6x91x120 (W (Proc.devRef .tc main_v2)) shapeCasts_S128x6x10920_S128x6x91x120 := by
  after_results
  try rfl

theorem a02_v25 : (StableHlo.after hostOps0_2 W (Proc.devRef .tc main_v25) : S1x384.Idx → Elt F .f32)
      = shapeCast S1x384 (W (Proc.devRef .tc main_arg2)) shapeCasts_S384x1_S1x384 := by
  after_results
  try rfl

theorem a02_v27 : (StableHlo.after hostOps0_2 W (Proc.devRef .tc main_v27) : S64x64.Idx → Elt F .bf16)
      = truncf .bf16 (transpose S64x64 [1, 0] (W (Proc.devRef .tc main_arg3)) transposes_S64x64_S64x64_1_0) bitsLt_bf16_f32 := by
  after_results
  try rfl

theorem a02_v28 : (StableHlo.after hostOps0_2 W (Proc.devRef .tc main_v28) : S1x64.Idx → Elt F .f32)
      = shapeCast S1x64 (W (Proc.devRef .tc main_arg4)) shapeCasts_S64x1_S1x64 := by
  after_results
  try rfl

theorem a02_v30 : (StableHlo.after hostOps0_2 W (Proc.devRef .tc main_v30) : S32x32.Idx → Elt F .bf16)
      = truncf .bf16 (transpose S32x32 [1, 0] (W (Proc.devRef .tc main_arg5)) transposes_S32x32_S32x32_1_0) bitsLt_bf16_f32 := by
  after_results
  try rfl

theorem a02_v32 : (StableHlo.after hostOps0_2 W (Proc.devRef .tc main_v32) : S32x32.Idx → Elt F .bf16)
      = truncf .bf16 (transpose S32x32 [1, 0] (W (Proc.devRef .tc main_arg6)) transposes_S32x32_S32x32_1_0) bitsLt_bf16_f32 := by
  after_results
  try rfl

theorem a02_v37 : (StableHlo.after hostOps0_2 W (Proc.devRef .tc main_v37) : S1x32.Idx → Elt F .f32)
      = shapeCast S1x32 (W (Proc.devRef .tc main_arg7)) shapeCasts_S32x1_S1x32 := by
  after_results
  try rfl

theorem a02_v34 : (StableHlo.after hostOps0_2 W (Proc.devRef .tc main_v34) : S27x81.Idx → Elt F .bf16)
      = truncf .bf16 (transpose S27x81 [1, 0] (W (Proc.devRef .tc main_arg8)) transposes_S81x27_S27x81_1_0) bitsLt_bf16_f32 := by
  after_results
  try rfl

theorem a02_v36 : (StableHlo.after hostOps0_2 W (Proc.devRef .tc main_v36) : S27x81.Idx → Elt F .bf16)
      = truncf .bf16 (transpose S27x81 [1, 0] (W (Proc.devRef .tc main_arg9)) transposes_S81x27_S27x81_1_0) bitsLt_bf16_f32 := by
  after_results
  try rfl

/-- The third stretch up to the six column blocks, and from their joining on. -/
abbrev opsA : List (HloOp τ sig (Elt F)) :=
  [ StableHlo.reshape main_v2 main_v3 rfl shapeCasts_S128x6x10920_S128x6x91x120,
    StableHlo.unary main_arg1 main_v4 ((extractStridedSlice S1x384x240 ![0, 0, 0] · slices_S3x384x240_S1x384x240_0_0_0) : (⟨S3x384x240, .f32⟩ : BufTy).Contents (Elt F) → (⟨S1x384x240, .f32⟩ : BufTy).Contents (Elt F)),
    StableHlo.reshape main_v4 main_v5 rfl shapeCasts_S1x384x240_S384x240,
    StableHlo.unary main_v5 main_v6 ((extractStridedSlice S384x120 ![0, 0] · slices_S384x240_S384x120_0_0) : (⟨S384x240, .f32⟩ : BufTy).Contents (Elt F) → (⟨S384x120, .f32⟩ : BufTy).Contents (Elt F)),
    StableHlo.unary main_arg1 main_v7 ((extractStridedSlice S1x384x240 ![1, 0, 0] · slices_S3x384x240_S1x384x240_1_0_0) : (⟨S3x384x240, .f32⟩ : BufTy).Contents (Elt F) → (⟨S1x384x240, .f32⟩ : BufTy).Contents (Elt F)),
    StableHlo.reshape main_v7 main_v8 rfl shapeCasts_S1x384x240_S384x240,
    StableHlo.unary main_v8 main_v9 ((extractStridedSlice S384x120 ![0, 0] · slices_S384x240_S384x120_0_0) : (⟨S384x240, .f32⟩ : BufTy).Contents (Elt F) → (⟨S384x120, .f32⟩ : BufTy).Contents (Elt F)),
    StableHlo.unary main_arg1 main_v10 ((extractStridedSlice S1x384x240 ![2, 0, 0] · slices_S3x384x240_S1x384x240_2_0_0) : (⟨S3x384x240, .f32⟩ : BufTy).Contents (Elt F) → (⟨S1x384x240, .f32⟩ : BufTy).Contents (Elt F)),
    StableHlo.reshape main_v10 main_v11 rfl shapeCasts_S1x384x240_S384x240,
    StableHlo.unary main_v11 main_v12 ((extractStridedSlice S384x120 ![0, 0] · slices_S384x240_S384x120_0_0) : (⟨S384x240, .f32⟩ : BufTy).Contents (Elt F) → (⟨S384x120, .f32⟩ : BufTy).Contents (Elt F)),
    StableHlo.unary main_arg1 main_v13 ((extractStridedSlice S1x384x240 ![0, 0, 0] · slices_S3x384x240_S1x384x240_0_0_0) : (⟨S3x384x240, .f32⟩ : BufTy).Contents (Elt F) → (⟨S1x384x240, .f32⟩ : BufTy).Contents (Elt F)),
    StableHlo.reshape main_v13 main_v14 rfl shapeCasts_S1x384x240_S384x240,
    StableHlo.unary main_v14 main_v15 ((extractStridedSlice S384x120 ![0, 120] · slices_S384x240_S384x120_0_120) : (⟨S384x240, .f32⟩ : BufTy).Contents (Elt F) → (⟨S384x120, .f32⟩ : BufTy).Contents (Elt F)),
    StableHlo.unary main_arg1 main_v16 ((extractStridedSlice S1x384x240 ![1, 0, 0] · slices_S3x384x240_S1x384x240_1_0_0) : (⟨S3x384x240, .f32⟩ : BufTy).Contents (Elt F) → (⟨S1x384x240, .f32⟩ : BufTy).Contents (Elt F)),
    StableHlo.reshape main_v16 main_v17 rfl shapeCasts_S1x384x240_S384x240,
    StableHlo.unary main_v17 main_v18 ((extractStridedSlice S384x120 ![0, 120] · slices_S384x240_S384x120_0_120) : (⟨S384x240, .f32⟩ : BufTy).Contents (Elt F) → (⟨S384x120, .f32⟩ : BufTy).Contents (Elt F)),
    StableHlo.unary main_arg1 main_v19 ((extractStridedSlice S1x384x240 ![2, 0, 0] · slices_S3x384x240_S1x384x240_2_0_0) : (⟨S3x384x240, .f32⟩ : BufTy).Contents (Elt F) → (⟨S1x384x240, .f32⟩ : BufTy).Contents (Elt F)),
    StableHlo.reshape main_v19 main_v20 rfl shapeCasts_S1x384x240_S384x240,
    StableHlo.unary main_v20 main_v21 ((extractStridedSlice S384x120 ![0, 120] · slices_S384x240_S384x120_0_120) : (⟨S384x240, .f32⟩ : BufTy).Contents (Elt F) → (⟨S384x120, .f32⟩ : BufTy).Contents (Elt F)) ]
abbrev opsB : List (HloOp τ sig (Elt F)) :=
  [ StableHlo.nary ![main_v6, main_v9, main_v12, main_v15, main_v18, main_v21] main_v22 (fun u => concatenate S384x720 1 [⟨S384x120, u 0⟩, ⟨S384x120, u 1⟩, ⟨S384x120, u 2⟩, ⟨S384x120, u 3⟩, ⟨S384x120, u 4⟩, ⟨S384x120, u 5⟩] concatenates_S384x120_S384x120_S384x120_S384x120_S384x120_S384x120_S384x720_d1),
    StableHlo.unary main_v22 main_v23 ((transpose S720x384 [1, 0] · transposes_S384x720_S720x384_1_0) : (⟨S384x720, .f32⟩ : BufTy).Contents (Elt F) → (⟨S720x384, .f32⟩ : BufTy).Contents (Elt F)),
    StableHlo.unary main_v23 main_v24 ((truncf .bf16 · bitsLt_bf16_f32) : (⟨S720x384, .f32⟩ : BufTy).Contents (Elt F) → (⟨S720x384, .bf16⟩ : BufTy).Contents (Elt F)),
    StableHlo.reshape main_arg2 main_v25 rfl shapeCasts_S384x1_S1x384,
    StableHlo.unary main_arg3 main_v26 ((transpose S64x64 [1, 0] · transposes_S64x64_S64x64_1_0) : (⟨S64x64, .f32⟩ : BufTy).Contents (Elt F) → (⟨S64x64, .f32⟩ : BufTy).Contents (Elt F)),
    StableHlo.unary main_v26 main_v27 ((truncf .bf16 · bitsLt_bf16_f32) : (⟨S64x64, .f32⟩ : BufTy).Contents (Elt F) → (⟨S64x64, .bf16⟩ : BufTy).Contents (Elt F)),
    StableHlo.reshape main_arg4 main_v28 rfl shapeCasts_S64x1_S1x64,
    StableHlo.unary main_arg5 main_v29 ((transpose S32x32 [1, 0] · transposes_S32x32_S32x32_1_0) : (⟨S32x32, .f32⟩ : BufTy).Contents (Elt F) → (⟨S32x32, .f32⟩ : BufTy).Contents (Elt F)),
    StableHlo.unary main_v29 main_v30 ((truncf .bf16 · bitsLt_bf16_f32) : (⟨S32x32, .f32⟩ : BufTy).Contents (Elt F) → (⟨S32x32, .bf16⟩ : BufTy).Contents (Elt F)),
    StableHlo.unary main_arg6 main_v31 ((transpose S32x32 [1, 0] · transposes_S32x32_S32x32_1_0) : (⟨S32x32, .f32⟩ : BufTy).Contents (Elt F) → (⟨S32x32, .f32⟩ : BufTy).Contents (Elt F)),
    StableHlo.unary main_v31 main_v32 ((truncf .bf16 · bitsLt_bf16_f32) : (⟨S32x32, .f32⟩ : BufTy).Contents (Elt F) → (⟨S32x32, .bf16⟩ : BufTy).Contents (Elt F)),
    StableHlo.unary main_arg8 main_v33 ((transpose S27x81 [1, 0] · transposes_S81x27_S27x81_1_0) : (⟨S81x27, .f32⟩ : BufTy).Contents (Elt F) → (⟨S27x81, .f32⟩ : BufTy).Contents (Elt F)),
    StableHlo.unary main_v33 main_v34 ((truncf .bf16 · bitsLt_bf16_f32) : (⟨S27x81, .f32⟩ : BufTy).Contents (Elt F) → (⟨S27x81, .bf16⟩ : BufTy).Contents (Elt F)),
    StableHlo.unary main_arg9 main_v35 ((transpose S27x81 [1, 0] · transposes_S81x27_S27x81_1_0) : (⟨S81x27, .f32⟩ : BufTy).Contents (Elt F) → (⟨S27x81, .f32⟩ : BufTy).Contents (Elt F)),
    StableHlo.unary main_v35 main_v36 ((truncf .bf16 · bitsLt_bf16_f32) : (⟨S27x81, .f32⟩ : BufTy).Contents (Elt F) → (⟨S27x81, .bf16⟩ : BufTy).Contents (Elt F)),
    StableHlo.reshape main_arg7 main_v37 rfl shapeCasts_S32x1_S1x32 ]
theorem hostOps0_2_split : (hostOps0_2 : List (HloOp τ sig (Elt F))) = opsA ++ opsB := rfl

theorem aB_v24 : (StableHlo.after opsB W (Proc.devRef .tc main_v24) : S720x384.Idx → Elt F .bf16)
      = truncf .bf16 (transpose S720x384 [1, 0] (concatenate S384x720 1
          [⟨S384x120, W (Proc.devRef .tc main_v6)⟩, ⟨S384x120, W (Proc.devRef .tc main_v9)⟩, ⟨S384x120, W (Proc.devRef .tc main_v12)⟩,
           ⟨S384x120, W (Proc.devRef .tc main_v15)⟩, ⟨S384x120, W (Proc.devRef .tc main_v18)⟩, ⟨S384x120, W (Proc.devRef .tc main_v21)⟩]
          concatenates_S384x120_S384x120_S384x120_S384x120_S384x120_S384x120_S384x720_d1) transposes_S384x720_S720x384_1_0) bitsLt_bf16_f32 := by
  after_results
  try rfl

theorem aA_v6 : (StableHlo.after opsA W (Proc.devRef .tc main_v6) : S384x120.Idx → Elt F .f32)
      = extractStridedSlice S384x120 ![0, 0] (shapeCast S384x240 (extractStridedSlice S1x384x240 ![0, 0, 0] (W (Proc.devRef .tc main_arg1)) slices_S3x384x240_S1x384x240_0_0_0) shapeCasts_S1x384x240_S384x240) slices_S384x240_S384x120_0_0 := by
  after_results
  try rfl

theorem aA_v9 : (StableHlo.after opsA W (Proc.devRef .tc main_v9) : S384x120.Idx → Elt F .f32)
      = extractStridedSlice S384x120 ![0, 0] (shapeCast S384x240 (extractStridedSlice S1x384x240 ![1, 0, 0] (W (Proc.devRef .tc main_arg1)) slices_S3x384x240_S1x384x240_1_0_0) shapeCasts_S1x384x240_S384x240) slices_S384x240_S384x120_0_0 := by
  after_results
  try rfl

theorem aA_v12 : (StableHlo.after opsA W (Proc.devRef .tc main_v12) : S384x120.Idx → Elt F .f32)
      = extractStridedSlice S384x120 ![0, 0] (shapeCast S384x240 (extractStridedSlice S1x384x240 ![2, 0, 0] (W (Proc.devRef .tc main_arg1)) slices_S3x384x240_S1x384x240_2_0_0) shapeCasts_S1x384x240_S384x240) slices_S384x240_S384x120_0_0 := by
  after_results
  try rfl

theorem aA_v15 : (StableHlo.after opsA W (Proc.devRef .tc main_v15) : S384x120.Idx → Elt F .f32)
      = extractStridedSlice S384x120 ![0, 120] (shapeCast S384x240 (extractStridedSlice S1x384x240 ![0, 0, 0] (W (Proc.devRef .tc main_arg1)) slices_S3x384x240_S1x384x240_0_0_0) shapeCasts_S1x384x240_S384x240) slices_S384x240_S384x120_0_120 := by
  after_results
  try rfl

theorem aA_v18 : (StableHlo.after opsA W (Proc.devRef .tc main_v18) : S384x120.Idx → Elt F .f32)
      = extractStridedSlice S384x120 ![0, 120] (shapeCast S384x240 (extractStridedSlice S1x384x240 ![1, 0, 0] (W (Proc.devRef .tc main_arg1)) slices_S3x384x240_S1x384x240_1_0_0) shapeCasts_S1x384x240_S384x240) slices_S384x240_S384x120_0_120 := by
  after_results
  try rfl

theorem aA_v21 : (StableHlo.after opsA W (Proc.devRef .tc main_v21) : S384x120.Idx → Elt F .f32)
      = extractStridedSlice S384x120 ![0, 120] (shapeCast S384x240 (extractStridedSlice S1x384x240 ![2, 0, 0] (W (Proc.devRef .tc main_arg1)) slices_S3x384x240_S1x384x240_2_0_0) shapeCasts_S1x384x240_S384x240) slices_S384x240_S384x120_0_120 := by
  after_results
  try rfl

theorem a02_v24 : (StableHlo.after hostOps0_2 W (Proc.devRef .tc main_v24) : S720x384.Idx → Elt F .bf16)
      = truncf .bf16 (transpose S720x384 [1, 0] (concatenate S384x720 1
          [⟨S384x120, extractStridedSlice S384x120 ![0, 0] (shapeCast S384x240 (extractStridedSlice S1x384x240 ![0, 0, 0] (W (Proc.devRef .tc main_arg1)) slices_S3x384x240_S1x384x240_0_0_0) shapeCasts_S1x384x240_S384x240) slices_S384x240_S384x120_0_0⟩,
           ⟨S384x120, extractStridedSlice S384x120 ![0, 0] (shapeCast S384x240 (extractStridedSlice S1x384x240 ![1, 0, 0] (W (Proc.devRef .tc main_arg1)) slices_S3x384x240_S1x384x240_1_0_0) shapeCasts_S1x384x240_S384x240) slices_S384x240_S384x120_0_0⟩,
           ⟨S384x120, extractStridedSlice S384x120 ![0, 0] (shapeCast S384x240 (extractStridedSlice S1x384x240 ![2, 0, 0] (W (Proc.devRef .tc main_arg1)) slices_S3x384x240_S1x384x240_2_0_0) shapeCasts_S1x384x240_S384x240) slices_S384x240_S384x120_0_0⟩,
           ⟨S384x120, extractStridedSlice S384x120 ![0, 120] (shapeCast S384x240 (extractStridedSlice S1x384x240 ![0, 0, 0] (W (Proc.devRef .tc main_arg1)) slices_S3x384x240_S1x384x240_0_0_0) shapeCasts_S1x384x240_S384x240) slices_S384x240_S384x120_0_120⟩,
           ⟨S384x120, extractStridedSlice S384x120 ![0, 120] (shapeCast S384x240 (extractStridedSlice S1x384x240 ![1, 0, 0] (W (Proc.devRef .tc main_arg1)) slices_S3x384x240_S1x384x240_1_0_0) shapeCasts_S1x384x240_S384x240) slices_S384x240_S384x120_0_120⟩,
           ⟨S384x120, extractStridedSlice S384x120 ![0, 120] (shapeCast S384x240 (extractStridedSlice S1x384x240 ![2, 0, 0] (W (Proc.devRef .tc main_arg1)) slices_S3x384x240_S1x384x240_2_0_0) shapeCasts_S1x384x240_S384x240) slices_S384x240_S384x120_0_120⟩]
          concatenates_S384x120_S384x120_S384x120_S384x120_S384x120_S384x120_S384x720_d1) transposes_S384x720_S720x384_1_0) bitsLt_bf16_f32 := by
  rw [hostOps0_2_split, StableHlo.after_append, aB_v24, aA_v6, aA_v9, aA_v12, aA_v15, aA_v18, aA_v21]

end Stages

/-! ## The region's input arrays as the arguments -/

variable (m : (ℓ : Loc nD τ sig) → Buf (Elt F) ℓ)

theorem V2_arg0 (c : Dev nD) : V2 m c (Proc.devRef .tc main_arg0) = m ((c : Thread nD τ).loc main_arg0) :=
  (V2_of m c main_arg0 (by decide)).trans ((V1_of m c main_arg0 (by decide)).trans rfl)
theorem V2_arg1 (c : Dev nD) : V2 m c (Proc.devRef .tc main_arg1) = m ((c : Thread nD τ).loc main_arg1) :=
  (V2_of m c main_arg1 (by decide)).trans ((V1_of m c main_arg1 (by decide)).trans rfl)
theorem V2_arg2 (c : Dev nD) : V2 m c (Proc.devRef .tc main_arg2) = m ((c : Thread nD τ).loc main_arg2) :=
  (V2_of m c main_arg2 (by decide)).trans ((V1_of m c main_arg2 (by decide)).trans rfl)
theorem V2_arg3 (c : Dev nD) : V2 m c (Proc.devRef .tc main_arg3) = m ((c : Thread nD τ).loc main_arg3) :=
  (V2_of m c main_arg3 (by decide)).trans ((V1_of m c main_arg3 (by decide)).trans rfl)
theorem V2_arg4 (c : Dev nD) : V2 m c (Proc.devRef .tc main_arg4) = m ((c : Thread nD τ).loc main_arg4) :=
  (V2_of m c main_arg4 (by decide)).trans ((V1_of m c main_arg4 (by decide)).trans rfl)
theorem V2_arg5 (c : Dev nD) : V2 m c (Proc.devRef .tc main_arg5) = m ((c : Thread nD τ).loc main_arg5) :=
  (V2_of m c main_arg5 (by decide)).trans ((V1_of m c main_arg5 (by decide)).trans rfl)
theorem V2_arg6 (c : Dev nD) : V2 m c (Proc.devRef .tc main_arg6) = m ((c : Thread nD τ).loc main_arg6) :=
  (V2_of m c main_arg6 (by decide)).trans ((V1_of m c main_arg6 (by decide)).trans rfl)
theorem V2_arg7 (c : Dev nD) : V2 m c (Proc.devRef .tc main_arg7) = m ((c : Thread nD τ).loc main_arg7) :=
  (V2_of m c main_arg7 (by decide)).trans ((V1_of m c main_arg7 (by decide)).trans rfl)
theorem V2_arg8 (c : Dev nD) : V2 m c (Proc.devRef .tc main_arg8) = m ((c : Thread nD τ).loc main_arg8) :=
  (V2_of m c main_arg8 (by decide)).trans ((V1_of m c main_arg8 (by decide)).trans rfl)
theorem V2_arg9 (c : Dev nD) : V2 m c (Proc.devRef .tc main_arg9) = m ((c : Thread nD τ).loc main_arg9) :=
  (V2_of m c main_arg9 (by decide)).trans ((V1_of m c main_arg9 (by decide)).trans rfl)

theorem V3_v3_eq (c : Dev nD) : (V3 m c (Proc.devRef .tc main_v3) : S128x6x91x120.Idx → Elt F .bf16)
      = shapeCast S128x6x91x120 (pad S128x6x10920 ![0, 0, 0] ![0, 0, 742] ![0, 0, 0]
          (truncf .bf16 (shapeCast S128x6x10178 (m ((c : Thread nD τ).loc main_arg0)) shapeCasts_S128x1x6x10178_S128x6x10178) bitsLt_bf16_f32)
          (sitofp .bf16 (constantI S_ 32 0#32) : S_.Idx → Elt F .bf16) pads_S128x6x10178_S128x6x10920_000_000_07420 h_S_) shapeCasts_S128x6x10920_S128x6x91x120 := by
  show StableHlo.after hostOps0_2 (V2 m c) (Proc.devRef .tc main_v3) = _
  rw [a02_v3]
  show shapeCast S128x6x91x120 (StableHlo.after hostOps0_1 (V1 m c) (Proc.devRef .tc main_v2)) _ = _
  rw [a01_v2]
  show shapeCast S128x6x91x120 (pad S128x6x10920 ![0, 0, 0] ![0, 0, 742] ![0, 0, 0] (StableHlo.after hostOps0 (V0 m c) (Proc.devRef .tc main_v1))
      (sitofp .bf16 (StableHlo.after hostOps0 (V0 m c) (Proc.devRef .tc main_c))) _ _) _ = _
  rw [a0_v1, a0_c]

theorem V3_v24_eq (c : Dev nD) : (V3 m c (Proc.devRef .tc main_v24) : S720x384.Idx → Elt F .bf16)
      = truncf .bf16 (transpose S720x384 [1, 0] (concatenate S384x720 1
          [⟨S384x120, extractStridedSlice S384x120 ![0, 0] (shapeCast S384x240 (extractStridedSlice S1x384x240 ![0, 0, 0] (m ((c : Thread nD τ).loc main_arg1)) slices_S3x384x240_S1x384x240_0_0_0) shapeCasts_S1x384x240_S384x240) slices_S384x240_S384x120_0_0⟩,
           ⟨S384x120, extractStridedSlice S384x120 ![0, 0] (shapeCast S384x240 (extractStridedSlice S1x384x240 ![1, 0, 0] (m ((c : Thread nD τ).loc main_arg1)) slices_S3x384x240_S1x384x240_1_0_0) shapeCasts_S1x384x240_S384x240) slices_S384x240_S384x120_0_0⟩,
           ⟨S384x120, extractStridedSlice S384x120 ![0, 0] (shapeCast S384x240 (extractStridedSlice S1x384x240 ![2, 0, 0] (m ((c : Thread nD τ).loc main_arg1)) slices_S3x384x240_S1x384x240_2_0_0) shapeCasts_S1x384x240_S384x240) slices_S384x240_S384x120_0_0⟩,
           ⟨S384x120, extractStridedSlice S384x120 ![0, 120] (shapeCast S384x240 (extractStridedSlice S1x384x240 ![0, 0, 0] (m ((c : Thread nD τ).loc main_arg1)) slices_S3x384x240_S1x384x240_0_0_0) shapeCasts_S1x384x240_S384x240) slices_S384x240_S384x120_0_120⟩,
           ⟨S384x120, extractStridedSlice S384x120 ![0, 120] (shapeCast S384x240 (extractStridedSlice S1x384x240 ![1, 0, 0] (m ((c : Thread nD τ).loc main_arg1)) slices_S3x384x240_S1x384x240_1_0_0) shapeCasts_S1x384x240_S384x240) slices_S384x240_S384x120_0_120⟩,
           ⟨S384x120, extractStridedSlice S384x120 ![0, 120] (shapeCast S384x240 (extractStridedSlice S1x384x240 ![2, 0, 0] (m ((c : Thread nD τ).loc main_arg1)) slices_S3x384x240_S1x384x240_2_0_0) shapeCasts_S1x384x240_S384x240) slices_S384x240_S384x120_0_120⟩]
          concatenates_S384x120_S384x120_S384x120_S384x120_S384x120_S384x120_S384x720_d1) transposes_S384x720_S720x384_1_0) bitsLt_bf16_f32 := by
  show StableHlo.after hostOps0_2 (V2 m c) (Proc.devRef .tc main_v24) = _
  rw [a02_v24, V2_arg1]

theorem V3_v25_eq (c : Dev nD) : (V3 m c (Proc.devRef .tc main_v25) : S1x384.Idx → Elt F .f32)
      = shapeCast S1x384 (m ((c : Thread nD τ).loc main_arg2)) shapeCasts_S384x1_S1x384 := by
  show StableHlo.after hostOps0_2 (V2 m c) (Proc.devRef .tc main_v25) = _
  rw [a02_v25, V2_arg2]
theorem V3_v27_eq (c : Dev nD) : (V3 m c (Proc.devRef .tc main_v27) : S64x64.Idx → Elt F .bf16)
      = truncf .bf16 (transpose S64x64 [1, 0] (m ((c : Thread nD τ).loc main_arg3)) transposes_S64x64_S64x64_1_0) bitsLt_bf16_f32 := by
  show StableHlo.after hostOps0_2 (V2 m c) (Proc.devRef .tc main_v27) = _
  rw [a02_v27, V2_arg3]
theorem V3_v28_eq (c : Dev nD) : (V3 m c (Proc.devRef .tc main_v28) : S1x64.Idx → Elt F .f32)
      = shapeCast S1x64 (m ((c : Thread nD τ).loc main_arg4)) shapeCasts_S64x1_S1x64 := by
  show StableHlo.after hostOps0_2 (V2 m c) (Proc.devRef .tc main_v28) = _
  rw [a02_v28, V2_arg4]
theorem V3_v30_eq (c : Dev nD) : (V3 m c (Proc.devRef .tc main_v30) : S32x32.Idx → Elt F .bf16)
      = truncf .bf16 (transpose S32x32 [1, 0] (m ((c : Thread nD τ).loc main_arg5)) transposes_S32x32_S32x32_1_0) bitsLt_bf16_f32 := by
  show StableHlo.after hostOps0_2 (V2 m c) (Proc.devRef .tc main_v30) = _
  rw [a02_v30, V2_arg5]
theorem V3_v32_eq (c : Dev nD) : (V3 m c (Proc.devRef .tc main_v32) : S32x32.Idx → Elt F .bf16)
      = truncf .bf16 (transpose S32x32 [1, 0] (m ((c : Thread nD τ).loc main_arg6)) transposes_S32x32_S32x32_1_0) bitsLt_bf16_f32 := by
  show StableHlo.after hostOps0_2 (V2 m c) (Proc.devRef .tc main_v32) = _
  rw [a02_v32, V2_arg6]
theorem V3_v37_eq (c : Dev nD) : (V3 m c (Proc.devRef .tc main_v37) : S1x32.Idx → Elt F .f32)
      = shapeCast S1x32 (m ((c : Thread nD τ).loc main_arg7)) shapeCasts_S32x1_S1x32 := by
  show StableHlo.after hostOps0_2 (V2 m c) (Proc.devRef .tc main_v37) = _
  rw [a02_v37, V2_arg7]
theorem V3_v34_eq (c : Dev nD) : (V3 m c (Proc.devRef .tc main_v34) : S27x81.Idx → Elt F .bf16)
      = truncf .bf16 (transpose S27x81 [1, 0] (m ((c : Thread nD τ).loc main_arg8)) transposes_S81x27_S27x81_1_0) bitsLt_bf16_f32 := by
  show StableHlo.after hostOps0_2 (V2 m c) (Proc.devRef .tc main_v34) = _
  rw [a02_v34, V2_arg8]
theorem V3_v36_eq (c : Dev nD) : (V3 m c (Proc.devRef .tc main_v36) : S27x81.Idx → Elt F .bf16)
      = truncf .bf16 (transpose S27x81 [1, 0] (m ((c : Thread nD τ).loc main_arg9)) transposes_S81x27_S27x81_1_0) bitsLt_bf16_f32 := by
  show StableHlo.after hostOps0_2 (V2 m c) (Proc.devRef .tc main_v36) = _
  rw [a02_v36, V2_arg9]

/-! ## The same, index by index, at the extended reals -/

section AtIdeal
variable (mI : (ℓ : Loc nD τ sig) → Buf (Elt Ideal) ℓ)

/-- The signal array `[128, 6, 91, 120]`: row `mrow`, phase `ph` of sensor `s6` is sample `mrow·120 + ph` where the signal
    has one, zero beyond its 10178 samples. -/
theorem V3_v3_apply (c : Dev nD) (b : Fin 128) (s6 : Fin 6) (mrow : Fin 91) (ph : Fin 120) :
    (V3 (F := Ideal) mI c (Proc.devRef .tc main_v3) : S128x6x91x120.Idx → EReal) (ix4 b s6 mrow ph)
      = if h : mrow.val * 120 + ph.val < 10178 then
          (mI ((c : Thread nD τ).loc main_arg0) : S128x1x6x10178.Idx → EReal) (ix4 b (0 : Fin 1) s6 ⟨mrow.val * 120 + ph.val, h⟩)
        else (0 : EReal) := by
  rw [V3_v3_eq]
  have hp : mrow.val * 120 + ph.val < 10920 := by have := mrow.isLt; have := ph.isLt; omega
  refine (shapeCast_apply _ _ (ix4 b s6 mrow ph) (ix3 b s6 ⟨mrow.val * 120 + ph.val, hp⟩) ?_).trans ?_
  · rw [Shape.rowMajor_val_three, Shape.rowMajor_val_four]
    show (b.val * 6 + s6.val) * 10920 + (mrow.val * 120 + ph.val) = ((b.val * 6 + s6.val) * 91 + mrow.val) * 120 + ph.val
    omega
  by_cases h : mrow.val * 120 + ph.val < 10178
  · rw [dif_pos h]
    refine (padsig_apply_in _ _ b s6 ⟨_, hp⟩ h).trans ?_
    show shapeCast S128x6x10178 (mI ((c : Thread nD τ).loc main_arg0)) shapeCasts_S128x1x6x10178_S128x6x10178 (ix3 b s6 ⟨mrow.val * 120 + ph.val, h⟩) = _
    refine shapeCast_apply _ _ _ (ix4 b (0 : Fin 1) s6 ⟨mrow.val * 120 + ph.val, h⟩) ?_
    rw [Shape.rowMajor_val_four, Shape.rowMajor_val_three]
    show ((b.val * 1 + 0) * 6 + s6.val) * 10178 + (mrow.val * 120 + ph.val) = (b.val * 6 + s6.val) * 10178 + (mrow.val * 120 + ph.val)
    omega
  · rw [dif_neg h]
    refine (padsig_apply_out _ _ b s6 ⟨_, hp⟩ h).trans ?_
    exact sitofp_zero (φ := .bf16)

/-- The first convolution's table `[720, 384]`: row `(c'·3 + q)·120 + ph`, column `n` is shift tap `q`'s table at row `n`, column `c'·120 + ph`. -/
theorem V3_v24_apply (c : Dev nD) (c' : Fin 2) (q : Fin 3) (ph : Fin 120) (n : Fin 384)
    (r : Fin 720) (hr : r.val = (c'.val * 3 + q.val) * 120 + ph.val) (k : Fin 240) (hk : k.val = c'.val * 120 + ph.val) :
    (V3 (F := Ideal) mI c (Proc.devRef .tc main_v24) : S720x384.Idx → EReal) (ix2 r n)
      = (mI ((c : Thread nD τ).loc main_arg1) : S3x384x240.Idx → EReal) (ix3 q n k) := by
  rw [V3_v24_eq]
  exact w1cat_apply _ c' q ph n r hr k hk

/-- The first bias as a row. -/
theorem V3_v25_apply (c : Dev nD) (u : Fin 1) (n : Fin 384) :
    (V3 (F := Ideal) mI c (Proc.devRef .tc main_v25) : S1x384.Idx → EReal) (ix2 u n)
      = (mI ((c : Thread nD τ).loc main_arg2) : S384x1.Idx → EReal) (ix2 n (0 : Fin 1)) := by
  rw [V3_v25_eq]
  exact shapeCast_a1_1a_apply _ _ u n
/-- The second convolution's table, transposed. -/
theorem V3_v27_apply (c : Dev nD) (j : Fin 64) (i : Fin 64) :
    (V3 (F := Ideal) mI c (Proc.devRef .tc main_v27) : S64x64.Idx → EReal) (ix2 j i)
      = (mI ((c : Thread nD τ).loc main_arg3) : S64x64.Idx → EReal) (ix2 i j) := by
  rw [V3_v27_eq]
  exact transpose_ix2_apply _ _ j i
/-- The second bias as a row. -/
theorem V3_v28_apply (c : Dev nD) (u : Fin 1) (n : Fin 64) :
    (V3 (F := Ideal) mI c (Proc.devRef .tc main_v28) : S1x64.Idx → EReal) (ix2 u n)
      = (mI ((c : Thread nD τ).loc main_arg4) : S64x1.Idx → EReal) (ix2 n (0 : Fin 1)) := by
  rw [V3_v28_eq]
  exact shapeCast_a1_1a_apply _ _ u n
/-- The fusion convolution's first tap table, transposed. -/
theorem V3_v30_apply (c : Dev nD) (j : Fin 32) (i : Fin 32) :
    (V3 (F := Ideal) mI c (Proc.devRef .tc main_v30) : S32x32.Idx → EReal) (ix2 j i)
      = (mI ((c : Thread nD τ).loc main_arg5) : S32x32.Idx → EReal) (ix2 i j) := by
  rw [V3_v30_eq]
  exact transpose_ix2_apply _ _ j i
/-- The fusion convolution's second tap table, transposed. -/
theorem V3_v32_apply (c : Dev nD) (j : Fin 32) (i : Fin 32) :
    (V3 (F := Ideal) mI c (Proc.devRef .tc main_v32) : S32x32.Idx → EReal) (ix2 j i)
      = (mI ((c : Thread nD τ).loc main_arg6) : S32x32.Idx → EReal) (ix2 i j) := by
  rw [V3_v32_eq]
  exact transpose_ix2_apply _ _ j i
/-- The fusion bias as a row. -/
theorem V3_v37_apply (c : Dev nD) (u : Fin 1) (n : Fin 32) :
    (V3 (F := Ideal) mI c (Proc.devRef .tc main_v37) : S1x32.Idx → EReal) (ix2 u n)
      = (mI ((c : Thread nD τ).loc main_arg7) : S32x1.Idx → EReal) (ix2 n (0 : Fin 1)) := by
  rw [V3_v37_eq]
  exact shapeCast_a1_1a_apply _ _ u n
/-- The first selection table, transposed. -/
theorem V3_v34_apply (c : Dev nD) (j : Fin 27) (i : Fin 81) :
    (V3 (F := Ideal) mI c (Proc.devRef .tc main_v34) : S27x81.Idx → EReal) (ix2 j i)
      = (mI ((c : Thread nD τ).loc main_arg8) : S81x27.Idx → EReal) (ix2 i j) := by
  rw [V3_v34_eq]
  exact transpose_ix2_apply _ _ j i
/-- The second selection table, transposed. -/
theorem V3_v36_apply (c : Dev nD) (j : Fin 27) (i : Fin 81) :
    (V3 (F := Ideal) mI c (Proc.devRef .tc main_v36) : S27x81.Idx → EReal) (ix2 j i)
      = (mI ((c : Thread nD τ).loc main_arg9) : S81x27.Idx → EReal) (ix2 i j) := by
  rw [V3_v36_eq]
  exact transpose_ix2_apply _ _ j i

end AtIdeal

end Cert.KernelIdeal.KV
end
-- ==== Proof.KV.Streams.lean ====
import proofs.«116650_g2000303023666169_pallasbulk_55_22_alg».proof.Proof.Gen.KernelIdeal.Skeleton

set_option maxRecDepth 65536

noncomputable section
namespace Cert.KernelIdeal.KV
open Idealize.ShloMosaic Cert.KernelIdeal Cert.KernelIdeal.Gen
variable {F : FTy → Type} [FloatOps F]

def ZB (x : Vec F S1x2x91x120 .bf16) (w1 : Vec F S720x384 .bf16) (b1 : Vec F S1x384 .f32) (w2 : Vec F S64x64 .bf16) (b2 : Vec F S1x64 .f32) : FVec F S1x81x32 .bf16 :=
  k0_pay4 (k0_pay2 x w1 b1) w2 b2

def YB (x : Vec F S1x2x91x120 .bf16) (w1 : Vec F S720x384 .bf16) (b1 : Vec F S1x384 .f32) (w2 : Vec F S64x64 .bf16) (b2 : Vec F S1x64 .f32)
    (s0 s1 : Vec F S27x81 .bf16) (wf0 wf1 : Vec F S32x32 .bf16) (bf : Vec F S1x32 .f32) : FVec F S1x27x32 .bf16 :=
  k0_pay7 (k0_pay5 (k0_pay2 x w1 b1) w2 b2 s0 wf0) (k0_pay6 (k0_pay2 x w1 b1) w2 b2 s1) wf1 bf

variable (x : Vec F S1x2x91x120 .bf16) (w1 : Vec F S720x384 .bf16) (b1 : Vec F S1x384 .f32) (w2 : Vec F S64x64 .bf16) (b2 : Vec F S1x64 .f32)
    (s0 s1 : Vec F S27x81 .bf16) (wf0 wf1 : Vec F S32x32 .bf16) (bf : Vec F S1x32 .f32)

theorem s1z : k0_pay10 (k0_pay8 x w1 b1) w2 b2 = ZB x w1 b1 w2 b2 := rfl
theorem s1y : k0_pay11 (k0_pay9 (k0_pay8 x w1 b1) w2 b2) s0 s1 wf0 wf1 bf = YB x w1 b1 w2 b2 s0 s1 wf0 wf1 bf := rfl
theorem s2z : k0_pay16 (k0_pay13 (k0_pay12 x) w1 b1 w2) (k0_pay14 b2) = ZB x w1 b1 w2 b2 := rfl
theorem s2y : k0_pay17 (k0_pay13 (k0_pay12 x) w1 b1 w2) (k0_pay14 b2) s0 s1 wf0 wf1 bf = YB x w1 b1 w2 b2 s0 s1 wf0 wf1 bf := rfl
theorem s3z : k0_pay20 (k0_pay18 x w1 b1) w2 b2 = ZB x w1 b1 w2 b2 := rfl
theorem s3y : k0_pay1 (k0_pay21 (k0_pay18 x w1 b1) w2 b2 s0 wf0) (k0_pay22 (k0_pay18 x w1 b1) w2 b2 s1) wf1 bf = YB x w1 b1 w2 b2 s0 s1 wf0 wf1 bf := rfl

end Cert.KernelIdeal.KV
end
-- ==== Proof.KV.Stages.lean ====
/- The per-stream computation of the convolution kernel cut into named stages: the K-concatenated signal rows, the first
   convolution, the six levels of the doubling max tree, the phase pick with rectifier, the second convolution, the second
   pool, and the fusion taps. The printed payloads are these stages composed, by unfolding. -/
import proofs.«116650_g2000303023666169_pallasbulk_55_22_alg».proof.Proof.Gen.KernelIdeal.Skeleton
import Idealize.ShloMosaic.PureOps.Ideal

set_option maxRecDepth 65536

noncomputable section
namespace Cert.KernelIdeal.KV
open Idealize.ShloMosaic Cert.KernelIdeal Cert.KernelIdeal.Gen

/-- The signal rows for the K = 720 product: row m is rows m, m+1, m+2 of sensor 0 then of sensor 1, side by side. -/
def xsOf (x : Vec Ideal S1x2x91x120 .bf16) : FVec Ideal S89x720 .bf16 :=
  have v1 : FVec Ideal S2x91x120 .bf16 := shapeCast S2x91x120 x shapeCasts_S1x2x91x120_S2x91x120
  have v3 : FVec Ideal S91x120 .bf16 := shapeCast S91x120 (extractStridedSlice S1x91x120 ![0, 0, 0] v1 slices_S2x91x120_o0_0_0_S1x91x120) shapeCasts_S1x91x120_S91x120
  have v5 : FVec Ideal S91x120 .bf16 := shapeCast S91x120 (extractStridedSlice S1x91x120 ![1, 0, 0] v1 slices_S2x91x120_o1_0_0_S1x91x120) shapeCasts_S1x91x120_S91x120
  concatenate S89x720 1 [⟨S89x120, extractStridedSlice S89x120 ![0, 0] v3 slices_S91x120_o0_0_S89x120⟩,
    ⟨S89x120, extractStridedSlice S89x120 ![1, 0] v3 slices_S91x120_o1_0_S89x120⟩,
    ⟨S89x120, extractStridedSlice S89x120 ![2, 0] v3 slices_S91x120_o2_0_S89x120⟩,
    ⟨S89x120, extractStridedSlice S89x120 ![0, 0] v5 slices_S91x120_o0_0_S89x120⟩,
    ⟨S89x120, extractStridedSlice S89x120 ![1, 0] v5 slices_S91x120_o1_0_S89x120⟩,
    ⟨S89x120, extractStridedSlice S89x120 ![2, 0] v5 slices_S91x120_o2_0_S89x120⟩]
    concatenates_S89x120_S89x120_S89x120_S89x120_S89x120_S89x120_S89x720_d1

/-- The first convolution as one product plus the bias row. -/
def convOf (xs : FVec Ideal S89x720 .bf16) (w1 : Vec Ideal S720x384 .bf16) (b1 : Vec Ideal S1x384 .f32) : FVec Ideal S89x384 .f32 :=
  addf (matmul dot_S89x720_S720x384_S89x384_1_0_0_1_n_n none xs (shapeCast S720x384 w1 shapeCasts_S720x384_S720x384 : FVec Ideal S720x384 .bf16) (constant S89x384 .f32 0x00000000#32))
    (broadcastTo S89x384 (shapeCast S1x384 b1 shapeCasts_S1x384_S1x384 : FVec Ideal S1x384 .f32) broadcasts_S1x384_S89x384)

/-- The six shift-and-max levels (shifts of 1, 2, 4, 8, 16, 32 positions). -/
def lv1 (A : FVec Ideal S89x384 .f32) : FVec Ideal S88x384 .f32 :=
  maximumf (extractStridedSlice S88x384 ![0, 0] A slices_S89x384_o0_0_S88x384)
    (concatenate S88x384 1 [⟨S88x368, extractStridedSlice S88x368 ![0, 16] A slices_S89x384_o0_16_S88x368⟩,
      ⟨S88x16, extractStridedSlice S88x16 ![1, 0] A slices_S89x384_o1_0_S88x16⟩] concatenates_S88x368_S88x16_S88x384_d1)
def lv2 (A : FVec Ideal S88x384 .f32) : FVec Ideal S87x384 .f32 :=
  maximumf (extractStridedSlice S87x384 ![0, 0] A slices_S88x384_o0_0_S87x384)
    (concatenate S87x384 1 [⟨S87x352, extractStridedSlice S87x352 ![0, 32] A slices_S88x384_o0_32_S87x352⟩,
      ⟨S87x32, extractStridedSlice S87x32 ![1, 0] A slices_S88x384_o1_0_S87x32⟩] concatenates_S87x352_S87x32_S87x384_d1)
def lv3 (A : FVec Ideal S87x384 .f32) : FVec Ideal S86x384 .f32 :=
  maximumf (extractStridedSlice S86x384 ![0, 0] A slices_S87x384_o0_0_S86x384)
    (concatenate S86x384 1 [⟨S86x320, extractStridedSlice S86x320 ![0, 64] A slices_S87x384_o0_64_S86x320⟩,
      ⟨S86x64, extractStridedSlice S86x64 ![1, 0] A slices_S87x384_o1_0_S86x64⟩] concatenates_S86x320_S86x64_S86x384_d1)
def lv4 (A : FVec Ideal S86x384 .f32) : FVec Ideal S85x384 .f32 :=
  maximumf (extractStridedSlice S85x384 ![0, 0] A slices_S86x384_o0_0_S85x384)
    (concatenate S85x384 1 [⟨S85x256, extractStridedSlice S85x256 ![0, 128] A slices_S86x384_o0_128_S85x256⟩,
      ⟨S85x128, extractStridedSlice S85x128 ![1, 0] A slices_S86x384_o1_0_S85x128⟩] concatenates_S85x256_S85x128_S85x384_d1)
def lv5 (A : FVec Ideal S85x384 .f32) : FVec Ideal S84x384 .f32 :=
  maximumf (extractStridedSlice S84x384 ![0, 0] A slices_S85x384_o0_0_S84x384)
    (concatenate S84x384 1 [⟨S84x128, extractStridedSlice S84x128 ![0, 256] A slices_S85x384_o0_256_S84x128⟩,
      ⟨S84x256, extractStridedSlice S84x256 ![1, 0] A slices_S85x384_o1_0_S84x256⟩] concatenates_S84x128_S84x256_S84x384_d1)
def lv6 (A : FVec Ideal S84x384 .f32) : FVec Ideal S82x384 .f32 :=
  maximumf (extractStridedSlice S82x384 ![0, 0] A slices_S84x384_o0_0_S82x384)
    (concatenate S82x384 1 [⟨S82x256, extractStridedSlice S82x256 ![1, 128] A slices_S84x384_o1_128_S82x256⟩,
      ⟨S82x128, extractStridedSlice S82x128 ![2, 0] A slices_S84x384_o2_0_S82x128⟩] concatenates_S82x256_S82x128_S82x384_d1)

theorem pay2_eq (x : Vec Ideal S1x2x91x120 .bf16) (w1 : Vec Ideal S720x384 .bf16) (b1 : Vec Ideal S1x384 .f32) :
    k0_pay2 x w1 b1 = lv6 (lv5 (lv4 (lv3 (lv2 (lv1 (convOf (xsOf x) w1 b1)))))) := rfl

/-- The four pooled phases the second convolution reads, rectified. -/
def p1Of (v49 : FVec Ideal S82x384 .f32) : FVec Ideal S82x64 .bf16 :=
  truncf .bf16 (maximumf (concatenate S82x64 1 [⟨S82x16, extractStridedSlice S82x16 ![0, 0] v49 slices_S82x384_o0_0_S82x16⟩,
      ⟨S82x16, extractStridedSlice S82x16 ![0, 48] v49 slices_S82x384_o0_48_S82x16⟩,
      ⟨S82x16, extractStridedSlice S82x16 ![0, 192] v49 slices_S82x384_o0_192_S82x16⟩,
      ⟨S82x16, extractStridedSlice S82x16 ![0, 240] v49 slices_S82x384_o0_240_S82x16⟩]
      concatenates_S82x16_S82x16_S82x16_S82x16_S82x64_d1) (broadcast S82x64 (Scalar.ofBits .f32 0x00000000#32))) bitsLt_bf16_f32

/-- The second convolution, both output phases in one product, plus the bias row. -/
def c2Of (p : FVec Ideal S82x64 .bf16) (w2 : Vec Ideal S64x64 .bf16) (b2 : Vec Ideal S1x64 .f32) : FVec Ideal S82x64 .f32 :=
  addf (matmul dot_S82x64_S64x64_S82x64_1_0_0_1_n_n none p (shapeCast S64x64 w2 shapeCasts_S64x64_S64x64 : FVec Ideal S64x64 .bf16) (constant S82x64 .f32 0x00000000#32))
    (broadcastTo S82x64 (shapeCast S1x64 b2 shapeCasts_S1x64_S1x64 : FVec Ideal S1x64 .f32) broadcasts_S1x64_S82x64)

/-- The second pool over the two phases and the next column, rectified. -/
def zOf (c : FVec Ideal S82x64 .f32) : FVec Ideal S81x32 .bf16 :=
  truncf .bf16 (maximumf (maximumf (maximumf (extractStridedSlice S81x32 ![0, 0] c slices_S82x64_o0_0_S81x32)
      (extractStridedSlice S81x32 ![0, 32] c slices_S82x64_o0_32_S81x32)) (extractStridedSlice S81x32 ![1, 0] c slices_S82x64_o1_0_S81x32))
      (broadcast S81x32 (Scalar.ofBits .f32 0x00000000#32))) bitsLt_bf16_f32

theorem pay3_eq (v49 : FVec Ideal S82x384 .f32) (w2 : Vec Ideal S64x64 .bf16) (b2 : Vec Ideal S1x64 .f32) :
    k0_pay3 v49 w2 b2 = zOf (c2Of (p1Of v49) w2 b2) := rfl

end Cert.KernelIdeal.KV
end
-- ==== Proof.Spec.lean ====
/- The mathematics both programs compute, written once over the extended reals with explicit indices: a strided
   two-row convolution of a zero-padded signal pair (position p = 24·m + u of channel co sits at weight-table row
   u·16 + co, column m), a 64-wide max pool with stride 3 read at the four phases the next layer uses, a two-tap
   convolution, a 3-wide max pool, the stride-3 fusion taps, and the dense head. Every sum is a finite sum in a
   commutative monoid and every maximum a lattice join, so the arrangement chosen here is one of many equal ones. -/
import Idealize.ShloMosaic.PureOps.Ideal
import Idealize.ShloMosaic.Lib.ValueIdx

noncomputable section

open scoped BigOperators
open Idealize.ShloMosaic Idealize.ShloMosaic.ValueIdx

namespace Cert.Spec

/-- Arrays of extended reals over a literal shape. -/
abbrev A2 (a b : ℕ) : Type := (⟨2, ![a, b]⟩ : Shape).Idx → EReal
abbrev A3 (a b c : ℕ) : Type := (⟨3, ![a, b, c]⟩ : Shape).Idx → EReal
abbrev A4 (a b c d : ℕ) : Type := (⟨4, ![a, b, c, d]⟩ : Shape).Idx → EReal

/-- The stream block's weights, as the programs' arguments give them. -/
structure Wts where
  w1q : A3 3 384 240
  b1s : A2 384 1
  wc2 : A2 64 64
  b2s : A2 64 1
  wf0 : A2 32 32
  wf1 : A2 32 32
  bf : A2 32 1
  s0 : A2 81 27
  s1 : A2 81 27

/-- The head's weights. -/
structure HWts where
  wcon : A2 2592 32
  bcon : A2 1 32
  wfl : A2 2592 32
  bfl : A2 1 32
  wout : A2 128 10
  bout : A2 1 10

/-- Column `c·120 + ph` of a shift tap's weight table. -/
def k240 (c : Fin 2) (ph : Fin 120) : Fin 240 := ⟨c.val * 120 + ph.val, by omega⟩

/-- The first convolution at weight-table row `n` and phase-column `mrow`, of a signal pair `σ` (sensor, position):
    three shift taps, two sensors, 120 phases, plus the row's bias. -/
def c1 (σ : Fin 2 → ℕ → EReal) (W : Wts) (n : Fin 384) (mrow : ℕ) : EReal :=
  (∑ q : Fin 3, ∑ c : Fin 2, ∑ ph : Fin 120, σ c ((mrow + q.val) * 120 + ph.val) * W.w1q (ix3 q n (k240 c ph))) + W.b1s (ix2 n 0)

/-- The first convolution by output position: position `p` of channel `co` is row `(p % 24)·16 + co`, column `p / 24`. -/
def cpos (σ : Fin 2 → ℕ → EReal) (W : Wts) (co : Fin 16) (p : ℕ) : EReal :=
  c1 σ W ⟨(p % 24) * 16 + co.val, by omega⟩ (p / 24)

/-- The pool-output phases the second convolution reads. -/
def phase : Fin 4 → ℕ := ![0, 1, 4, 5]

/-- First pool (64 wide, stride 3) and rectifier, at row `k = e·16 + co` (phase `e`, channel `co`) and column `mm`. -/
def p1 (σ : Fin 2 → ℕ → EReal) (W : Wts) (k : Fin 64) (mm : ℕ) : EReal :=
  max ((Finset.range 64).sup fun j => cpos σ W ⟨k.val % 16, by omega⟩ (24 * mm + 3 * phase ⟨k.val / 16, by omega⟩ + j)) 0

/-- Second convolution, both output phases stacked: row `r`, column `mm`. -/
def c2 (σ : Fin 2 → ℕ → EReal) (W : Wts) (r : Fin 64) (mm : ℕ) : EReal :=
  (∑ k : Fin 64, W.wc2 (ix2 r k) * p1 σ W k mm) + W.b2s (ix2 r 0)

/-- Second pool (3 wide, stride 2) and rectifier: channel `ch`, width `w`. -/
def z (σ : Fin 2 → ℕ → EReal) (W : Wts) (ch : Fin 32) (w : ℕ) : EReal :=
  max (max (max (c2 σ W ⟨ch.val, by omega⟩ w) (c2 σ W ⟨32 + ch.val, by omega⟩ w)) (c2 σ W ⟨ch.val, by omega⟩ (w + 1))) 0

/-- The fusion convolution's two stride-3 taps, taken by 0/1 selection tables. -/
def t0 (σ : Fin 2 → ℕ → EReal) (W : Wts) (ch : Fin 32) (wl : Fin 27) : EReal := ∑ w : Fin 81, z σ W ch w.val * W.s0 (ix2 w wl)
def t1 (σ : Fin 2 → ℕ → EReal) (W : Wts) (ch : Fin 32) (wl : Fin 27) : EReal := ∑ w : Fin 81, z σ W ch w.val * W.s1 (ix2 w wl)

/-- This stream's slab of the fusion convolution, rectified: channel `co`, local width `wl`. -/
def x44 (σ : Fin 2 → ℕ → EReal) (W : Wts) (co : Fin 32) (wl : Fin 27) : EReal :=
  max (((∑ ch : Fin 32, W.wf0 (ix2 co ch) * t0 σ W ch wl) + (∑ ch : Fin 32, W.wf1 (ix2 co ch) * t1 σ W ch wl)) + W.bf (ix2 co 0)) 0

/-- Stream `g = s·128 + b` reads sensors `2s`, `2s+1` of batch element `b`, zero beyond the signal's 10178 samples. -/
def sig (X : A4 128 1 6 10178) (g : Fin 384) (c : Fin 2) (p : ℕ) : EReal :=
  if h : p < 10178 then X (ix4 ⟨g.val % 128, by omega⟩ 0 ⟨2 * (g.val / 128) + c.val, by omega⟩ ⟨p, h⟩) else 0

/-- The shared linear layer on a stream's pooled features, rectified. -/
def x5 (X : A4 128 1 6 10178) (W : Wts) (H : HWts) (g : Fin 384) (o : Fin 32) : EReal :=
  max ((∑ ch : Fin 32, ∑ w : Fin 81, z (sig X g) W ch w.val * H.wcon (ix2 ⟨ch.val * 81 + w.val, by omega⟩ o)) + H.bcon (ix2 0 o)) 0

/-- The fusion linear layer on the three streams' slabs of one batch element, rectified. -/
def x54 (X : A4 128 1 6 10178) (W : Wts) (H : HWts) (b : Fin 128) (o : Fin 32) : EReal :=
  max ((∑ co : Fin 32, ∑ s : Fin 3, ∑ wl : Fin 27,
      x44 (sig X ⟨s.val * 128 + b.val, by omega⟩) W co wl * H.wfl (ix2 ⟨co.val * 81 + s.val * 27 + wl.val, by omega⟩ o)) + H.bfl (ix2 0 o)) 0

/-- The concatenated feature row: three stream blocks then the fusion block. -/
def x6 (X : A4 128 1 6 10178) (W : Wts) (H : HWts) (b : Fin 128) (n : Fin 128) : EReal :=
  if h0 : n.val < 32 then x5 X W H ⟨b.val, by omega⟩ ⟨n.val, h0⟩
  else if h1 : n.val < 64 then x5 X W H ⟨128 + b.val, by omega⟩ ⟨n.val - 32, by omega⟩
  else if h2 : n.val < 96 then x5 X W H ⟨256 + b.val, by omega⟩ ⟨n.val - 64, by omega⟩
  else x54 X W H b ⟨n.val - 96, by omega⟩

/-- The output layer. -/
def out (X : A4 128 1 6 10178) (W : Wts) (H : HWts) (b : Fin 128) (k : Fin 10) : EReal :=
  (∑ n : Fin 128, x6 X W H b n * H.wout (ix2 n k)) + H.bout (ix2 0 k)

end Cert.Spec

end
-- ==== Proof.LibRead2.lean ====
/- Two-dimensional arrays read at an index through the layout operations a tiled kernel is written with: a unit-stride
   slice is the operand at the shifted coordinates, a concatenation along the columns is the piece the column falls in. -/
import Idealize.ShloMosaic.Lib.Pipeline.Value
import Idealize.ShloMosaic.Lib.ValueIdx

noncomputable section

namespace Cert.Read2

open Idealize.ShloMosaic Idealize.ShloMosaic.ValueIdx

variable {α : Type}

/-- A slice of an [a, b] array at offsets (o0, o1), read at (i, j), is the array at (o0 + i, o1 + j). -/
theorem slice2 {a b a' b' : ℕ} (o0 o1 : ℕ) (x : (⟨2, ![a, b]⟩ : Shape).Idx → α)
    (h : (⟨2, ![a, b]⟩ : Shape).Slices ![o0, o1] ⟨2, ![a', b']⟩) (i : Fin a') (j : Fin b')
    (hi : o0 + i.val < a) (hj : o1 + j.val < b) :
    extractStridedSlice ⟨2, ![a', b']⟩ ![o0, o1] x h (ix2 i j) = x (ix2 ⟨o0 + i.val, hi⟩ ⟨o1 + j.val, hj⟩) :=
  extractStridedSlice_apply _ _ _ _ _ (fun ax => by match ax with | ⟨0, _⟩ => rfl | ⟨1, _⟩ => rfl)

/-- Two pieces side by side: a column left of the seam reads the first piece. -/
theorem concat2_left {a b1 b2 b : ℕ} (x1 : (⟨2, ![a, b1]⟩ : Shape).Idx → α) (x2 : (⟨2, ![a, b2]⟩ : Shape).Idx → α)
    (h : Shape.Concatenates [⟨2, ![a, b1]⟩, ⟨2, ![a, b2]⟩] ⟨2, ![a, b]⟩ (1 : Fin 2)) (i : Fin a) (j : Fin b) (hj : j.val < b1) :
    concatenate ⟨2, ![a, b]⟩ (1 : Fin 2) [⟨⟨2, ![a, b1]⟩, x1⟩, ⟨⟨2, ![a, b2]⟩, x2⟩] h (ix2 i j) = x1 (ix2 i ⟨j.val, hj⟩) :=
  concatenate_pair_apply_left (1 : Fin 2) x1 x2 h (ix2 i j) rfl (ix2 i ⟨j.val, hj⟩)
    (fun b => by match b with | ⟨0, _⟩ => rfl | ⟨1, _⟩ => rfl)

/-- Two pieces side by side: a column at or right of the seam reads the second piece, the first width less. -/
theorem concat2_right {a b1 b2 b : ℕ} (x1 : (⟨2, ![a, b1]⟩ : Shape).Idx → α) (x2 : (⟨2, ![a, b2]⟩ : Shape).Idx → α)
    (h : Shape.Concatenates [⟨2, ![a, b1]⟩, ⟨2, ![a, b2]⟩] ⟨2, ![a, b]⟩ (1 : Fin 2)) (i : Fin a) (j : Fin b) (hj : b1 ≤ j.val)
    (hj2 : j.val - b1 < b2) :
    concatenate ⟨2, ![a, b]⟩ (1 : Fin 2) [⟨⟨2, ![a, b1]⟩, x1⟩, ⟨⟨2, ![a, b2]⟩, x2⟩] h (ix2 i j) = x2 (ix2 i ⟨j.val - b1, hj2⟩) :=
  concatenate_pair_apply_right (1 : Fin 2) x1 x2 h (ix2 i j) rfl rfl (ix2 i ⟨j.val - b1, hj2⟩)
    (fun b hb => by match b with | ⟨0, _⟩ => rfl | ⟨1, _⟩ => exact absurd rfl hb)
    (by show j.val - b1 + b1 = j.val; omega)

/-- `N` pieces of one width `w` side by side: column `j` reads piece `j / w` at column `j % w`. -/
theorem concatN {a w b N : ℕ} (hw : 0 < w) (f : Fin N → ((⟨2, ![a, w]⟩ : Shape).Idx → α))
    (h : Shape.Concatenates ((List.ofFn fun n : Fin N => (⟨⟨2, ![a, w]⟩, f n⟩ : (s : Shape) × (s.Idx → α))).map (·.1)) ⟨2, ![a, b]⟩ (1 : Fin 2))
    (i : Fin a) (j : Fin b) (n : Fin N) (hn : j.val / w = n.val) :
    concatenate ⟨2, ![a, b]⟩ (1 : Fin 2) (List.ofFn fun n : Fin N => (⟨⟨2, ![a, w]⟩, f n⟩ : (s : Shape) × (s.Idx → α))) h (ix2 i j)
      = f n (ix2 i ⟨j.val % w, Nat.mod_lt _ hw⟩) :=
  concatenate_ofFn_apply (t := ⟨2, ![a, b]⟩) (s₁ := ⟨2, ![a, w]⟩) (1 : Fin 2) f h rfl w rfl (ix2 i j) n hn (ix2 i ⟨j.val % w, Nat.mod_lt _ hw⟩) rfl
    (fun b hb => by match b with | ⟨0, _⟩ => rfl | ⟨1, _⟩ => exact absurd rfl hb)

/-- Any list of pieces side by side: a column inside piece `k` (the pieces before it `pre` columns wide together) reads
    that piece, `pre` columns less. -/
theorem concatK {a w b : ℕ} (xs : List ((s : Shape) × (s.Idx → α)))
    (h : Shape.Concatenates (xs.map (·.1)) ⟨2, ![a, b]⟩ (1 : Fin 2)) (k : ℕ) (hk : k < xs.length)
    (x₁ : (⟨2, ![a, w]⟩ : Shape).Idx → α) (hxk : xs[k] = ⟨⟨2, ![a, w]⟩, x₁⟩) (pre : ℕ)
    (hpre : (((xs.take k).map (·.1)).map fun s => if h : s.rank = 2 then s.size ((1 : Fin 2).cast h.symm) else 0).sum = pre)
    (i : Fin a) (j : Fin b) (hj : pre ≤ j.val) (hj2 : j.val - pre < w) :
    concatenate ⟨2, ![a, b]⟩ (1 : Fin 2) xs h (ix2 i j) = x₁ (ix2 i ⟨j.val - pre, hj2⟩) :=
  concatenate_apply_piece (t := ⟨2, ![a, b]⟩) (1 : Fin 2) xs h (ix2 i j) k hk ⟨2, ![a, w]⟩ x₁ hxk rfl pre hpre (ix2 i ⟨j.val - pre, hj2⟩)
    (fun b hb => by match b with | ⟨0, _⟩ => rfl | ⟨1, _⟩ => exact absurd rfl hb)
    (by show pre + (j.val - pre) = j.val; omega)

end Cert.Read2

end
-- ==== Proof.LibPoolStep.lean ====
/- One level of a doubling max tree over a width-major table. A [rows, 384] table holds position 24·row + u of lane
   `l` at column 16·u + l. Shifting by s = 24·a0 + r positions is a column roll by 16·r with a carry into the next row:
   the step's maximum of the table with its shifted copy is, in positions, g p ⊔ g (p + s). -/
import Idealize.ShloMosaic.PureOps.Ideal
import Idealize.ShloMosaic.Lib.ValueIdx
import proofs.«116650_g2000303023666169_pallasbulk_55_22_alg».proof.Proof.LibRead2

noncomputable section

namespace Cert.PoolStep

open Idealize.ShloMosaic Idealize.ShloMosaic.ValueIdx

/-- A table that holds `g lane position` goes, by one shift-and-max step, to the table of `g l p ⊔ g l (p + s)`. -/
theorem level_step {R w b1 : ℕ} (a0 a1 c0 r s : ℕ)
    (A : FVec Ideal ⟨2, ![R, 384]⟩ .f32) (g : ℕ → ℕ → EReal)
    (h1 : (⟨2, ![R, 384]⟩ : Shape).Slices ![a0, c0] ⟨2, ![w, b1]⟩)
    (h2 : (⟨2, ![R, 384]⟩ : Shape).Slices ![a1, 0] ⟨2, ![w, c0]⟩)
    (h3 : (⟨2, ![R, 384]⟩ : Shape).Slices ![0, 0] ⟨2, ![w, 384]⟩)
    (hc : Shape.Concatenates [⟨2, ![w, b1]⟩, ⟨2, ![w, c0]⟩] ⟨2, ![w, 384]⟩ (1 : Fin 2))
    (hb : b1 + c0 = 384) (ha1 : a1 = a0 + 1) (hR : a1 + w ≤ R) (hc0 : c0 = 16 * r) (hs : s = 24 * a0 + r)
    (hA : ∀ (row : Fin R) (col : Fin 384), A (ix2 row col) = g (col.val % 16) (24 * row.val + col.val / 16))
    (row : Fin w) (col : Fin 384) :
    maximumf (extractStridedSlice ⟨2, ![w, 384]⟩ ![0, 0] A h3)
      (concatenate ⟨2, ![w, 384]⟩ (1 : Fin 2) [⟨⟨2, ![w, b1]⟩, extractStridedSlice ⟨2, ![w, b1]⟩ ![a0, c0] A h1⟩,
         ⟨⟨2, ![w, c0]⟩, extractStridedSlice ⟨2, ![w, c0]⟩ ![a1, 0] A h2⟩] hc) (ix2 row col)
    = max (g (col.val % 16) (24 * row.val + col.val / 16)) (g (col.val % 16) (24 * row.val + col.val / 16 + s)) := by
  have hrow := row.isLt
  have hcol := col.isLt
  rw [maximumf_apply, Cert.Read2.slice2 0 0 A h3 row col (by omega) (by omega), hA]
  by_cases hlt : col.val < b1
  · rw [Cert.Read2.concat2_left _ _ hc row col hlt,
      Cert.Read2.slice2 a0 c0 A h1 row ⟨col.val, hlt⟩ (by omega) (by show c0 + col.val < 384; omega), hA]
    exact congrArg₂ max (congrArg₂ g (by show (0 + col.val) % 16 = _; omega) (by show 24 * (0 + row.val) + (0 + col.val) / 16 = _; omega))
      (congrArg₂ g (by show (c0 + col.val) % 16 = _; omega) (by show 24 * (a0 + row.val) + (c0 + col.val) / 16 = _; omega))
  · have hge : b1 ≤ col.val := Nat.le_of_not_lt hlt
    rw [Cert.Read2.concat2_right _ _ hc row col hge (by omega),
      Cert.Read2.slice2 a1 0 A h2 row ⟨col.val - b1, by omega⟩ (by omega) (by show 0 + (col.val - b1) < 384; omega), hA]
    exact congrArg₂ max (congrArg₂ g (by show (0 + col.val) % 16 = _; omega) (by show 24 * (0 + row.val) + (0 + col.val) / 16 = _; omega))
      (congrArg₂ g (by show (0 + (col.val - b1)) % 16 = _; omega) (by show 24 * (a1 + row.val) + (0 + (col.val - b1)) / 16 = _; omega))

end Cert.PoolStep

end
-- ==== Proof.MathPool.lean ====
/- Lattice and index facts behind the two ways a 64-wide maximum is taken.

   One arrangement doubles: a window of width 2 is the join of two neighbours, a window of width 4 the join of two
   windows of width 2 that lie 2 apart, and so on up to width 64. The other runs along the window from left to right,
   joining one more value at each step. Both are the join of the 64 values, because a join-semilattice with a least
   element is a commutative idempotent monoid under the join.

   The second half is arithmetic of the layout in which position p = 24·row + u of lane (channel) l is kept at row
   `row` and column 16·u + l of an array 384 wide: what a shift of the position does to (row, column). -/
import Mathlib.Data.EReal.Basic
import Mathlib.Data.Finset.Lattice.Fold
import Mathlib.Tactic.SplitIfs

namespace Cert.MathPool

open Finset

section Lattice

variable {α : Type*} [SemilatticeSup α] [OrderBot α]

/-- A join over `a + b` consecutive naturals splits into the first `a` and the next `b`. -/
theorem sup_range_add (g : ℕ → α) (a b : ℕ) :
    (range (a + b)).sup g = (range a).sup g ⊔ (range b).sup fun j => g (a + j) := by
  induction b with
  | zero => simp
  | succ b ih =>
    rw [← Nat.add_assoc, range_add_one, sup_insert, ih, range_add_one, sup_insert]
    exact sup_left_comm _ _ _

/-- A join over `n + 1` consecutive naturals is the join over the first `n` and the last value. -/
theorem sup_range_succ' (g : ℕ → α) (n : ℕ) : (range (n + 1)).sup g = (range n).sup g ⊔ g n := by
  rw [range_add_one, sup_insert, sup_comm]

/-- One doubling step: if `g p` is the join of the `n` values of `f` from `p` on, and `g' p` joins `g p` with `g (p + n)`,
    then `g' p` is the join of the `n + n` values of `f` from `p` on. -/
theorem tree_step (f g g' : ℕ → α) (n : ℕ)
    (hg : ∀ p, g p = (range n).sup fun j => f (p + j))
    (hg' : ∀ p, g' p = g p ⊔ g (p + n)) (p : ℕ) :
    g' p = (range (n + n)).sup fun j => f (p + j) := by
  rw [hg', hg, hg, sup_range_add]
  simp only [Nat.add_assoc]

/-- The doubling tree in general: level 0 is `f`, and level `k + 1` at `p` joins level `k` at `p` and at `p + 2^k`;
    then level `k` at `p` is the join of the `2^k` values of `f` from `p` on. -/
theorem tree_level (f : ℕ → α) (lvl : ℕ → ℕ → α) (h0 : ∀ p, lvl 0 p = f p)
    (hs : ∀ k p, lvl (k + 1) p = lvl k p ⊔ lvl k (p + 2 ^ k)) (k p : ℕ) :
    lvl k p = (range (2 ^ k)).sup fun j => f (p + j) := by
  induction k generalizing p with
  | zero => simp [h0]
  | succ k ih =>
    have h2 : 2 ^ (k + 1) = 2 ^ k + 2 ^ k := by rw [pow_succ, Nat.mul_two]
    rw [h2]
    exact tree_step f (lvl k) (lvl (k + 1)) (2 ^ k) ih (hs k) p

/-- Six doubling levels kept as six separate functions: the last one is the join of 64 consecutive values. -/
theorem tree6 (f g1 g2 g3 g4 g5 g6 : ℕ → α)
    (h1 : ∀ p, g1 p = f p ⊔ f (p + 1))
    (h2 : ∀ p, g2 p = g1 p ⊔ g1 (p + 2))
    (h3 : ∀ p, g3 p = g2 p ⊔ g2 (p + 4))
    (h4 : ∀ p, g4 p = g3 p ⊔ g3 (p + 8))
    (h5 : ∀ p, g5 p = g4 p ⊔ g4 (p + 16))
    (h6 : ∀ p, g6 p = g5 p ⊔ g5 (p + 32)) (p : ℕ) :
    g6 p = (range 64).sup fun j => f (p + j) := by
  have e0 : ∀ p, f p = (range 1).sup fun j => f (p + j) := fun p => by simp
  have e1 := tree_step f f g1 1 e0 h1
  have e2 := tree_step f g1 g2 2 e1 h2
  have e3 := tree_step f g2 g3 4 e2 h3
  have e4 := tree_step f g3 g4 8 e3 h4
  have e5 := tree_step f g4 g5 16 e4 h5
  exact tree_step f g5 g6 32 e5 h6 p

/-- The running join of `a 0, a 1, …, a n`, nested to the left: `((a 0 ⊔ a 1) ⊔ a 2) ⊔ … ⊔ a n`. -/
def chain (a : ℕ → α) : ℕ → α
  | 0 => a 0
  | n + 1 => chain a n ⊔ a (n + 1)

@[simp] theorem chain_zero (a : ℕ → α) : chain a 0 = a 0 := rfl

@[simp] theorem chain_succ (a : ℕ → α) (n : ℕ) : chain a (n + 1) = chain a n ⊔ a (n + 1) := rfl

/-- The running join of the first `n + 1` values is their join. -/
theorem chain_eq_sup (a : ℕ → α) (n : ℕ) : chain a n = (range (n + 1)).sup a := by
  induction n with
  | zero => simp
  | succ n ih => rw [chain_succ, ih, sup_range_succ' a (n + 1)]

/-- The running join of 64 values is their join. -/
theorem chain63 (a : ℕ → α) : chain a 63 = (range 64).sup a := chain_eq_sup a 63

/-- The running join written as a left fold over the values after the first. -/
theorem foldl_eq_chain (a : ℕ → α) (n : ℕ) :
    (List.range n).foldl (fun acc j => acc ⊔ a (j + 1)) (a 0) = chain a n := by
  induction n with
  | zero => rfl
  | succ n ih => rw [List.range_succ, List.foldl_append, ih]; rfl

/-- The running join of the values `f (p + j)`, `j ≤ n`, is the join of `f` over the `n + 1` positions from `p` on. -/
theorem chain_shift_eq_sup (f : ℕ → α) (p n : ℕ) :
    chain (fun j => f (p + j)) n = (range (n + 1)).sup fun j => f (p + j) :=
  chain_eq_sup _ n

end Lattice

section Layout

/-- The column block of column `16·u + l`. -/
theorem col_div (u l : ℕ) (hl : l < 16) : (16 * u + l) / 16 = u := by omega

/-- The lane of column `16·u + l`. -/
theorem col_mod (u l : ℕ) (hl : l < 16) : (16 * u + l) % 16 = l := by omega

/-- A column below 384 is `16·u + l` with `u = col / 16 < 24` and `l = col % 16 < 16`. -/
theorem col_split (col : ℕ) (h : col < 384) :
    col = 16 * (col / 16) + col % 16 ∧ col / 16 < 24 ∧ col % 16 < 16 := by omega

/-- Moving `r` column blocks to the right keeps the lane. -/
theorem col_shift (u l r : ℕ) : 16 * u + l + 16 * r = 16 * (u + r) + l := by omega

/-- The column block after a move of `r` blocks. -/
theorem col_shift_div (u l r : ℕ) (hl : l < 16) : (16 * u + l + 16 * r) / 16 = u + r := by omega

/-- The lane after a move of `r` blocks. -/
theorem col_shift_mod (u l r : ℕ) (hl : l < 16) : (16 * u + l + 16 * r) % 16 = l := by omega

/-- A move that stays inside the row: the column stays below 384. -/
theorem col_shift_lt (u l r : ℕ) (hl : l < 16) (h : u + r < 24) : 16 * u + l + 16 * r < 384 := by omega

/-- A move that leaves the row on the right comes back 384 columns to the left (one row further down). -/
theorem col_shift_wrap (u l r : ℕ) (h : 24 ≤ u + r) :
    16 * u + l + 16 * r - 384 = 16 * (u + r - 24) + l := by omega

/-- The wrapped column is a column again. -/
theorem col_shift_wrap_lt (u l r : ℕ) (hu : u < 24) (hr : r < 24) (hl : l < 16) (h : 24 ≤ u + r) :
    16 * u + l + 16 * r - 384 < 384 ∧ 384 ≤ 16 * u + l + 16 * r := by omega

/-- Position `24·row + u` moved by `24·a0 + r`, when `u + r` stays below 24: `a0` rows down, `r` blocks right. -/
theorem pos_shift_lt (row u a0 r : ℕ) :
    24 * (row + a0) + (u + r) = (24 * row + u) + (24 * a0 + r) := by omega

/-- Position `24·row + u` moved by `24·a0 + r`, when `u + r` reaches 24: `a0 + 1` rows down, `u + r - 24` the block. -/
theorem pos_shift_ge (row u a0 r : ℕ) (h : 24 ≤ u + r) :
    24 * (row + a0 + 1) + (u + r - 24) = (24 * row + u) + (24 * a0 + r) := by omega

/-- Both cases at once, as the (row, block) of the moved position. -/
theorem pos_shift (row u a0 r : ℕ) (hu : u < 24) (hr : r < 24) :
    ((24 * row + u) + (24 * a0 + r)) / 24 = (if u + r < 24 then row + a0 else row + a0 + 1) ∧
    ((24 * row + u) + (24 * a0 + r)) % 24 = (if u + r < 24 then u + r else u + r - 24) := by
  split_ifs <;> omega

/-- The block of position `24·mm + c`. -/
theorem pos_mod (mm c : ℕ) (hc : c < 24) : (24 * mm + c) % 24 = c := by omega

/-- The row of position `24·mm + c`. -/
theorem pos_div (mm c : ℕ) (hc : c < 24) : (24 * mm + c) / 24 = mm := by omega

/-- Every position is `24·(p / 24) + p % 24` with `p % 24 < 24`. -/
theorem pos_split (p : ℕ) : p = 24 * (p / 24) + p % 24 ∧ p % 24 < 24 := by omega

/-- The weight-table row `(p % 24)·16 + co` of position `p = 24·row + u` is the column `16·u + co`. -/
theorem pos_row (row u co : ℕ) (hu : u < 24) : ((24 * row + u) % 24) * 16 + co = 16 * u + co := by omega

/-- Read at a column: the weight-table row of position `24·row + col / 16`, lane `col % 16`, is `col`. -/
theorem pos_row_col (row col : ℕ) (h : col < 384) :
    ((24 * row + col / 16) % 24) * 16 + col % 16 = col ∧ (24 * row + col / 16) / 24 = row := by omega

end Layout

section EReal

/-- On the extended reals the binary maximum is the lattice join. -/
theorem max_eq_sup (x y : EReal) : max x y = x ⊔ y := rfl

/-- The doubling tree with binary maxima on the extended reals. -/
theorem tree6_max (f g1 g2 g3 g4 g5 g6 : ℕ → EReal)
    (h1 : ∀ p, g1 p = max (f p) (f (p + 1)))
    (h2 : ∀ p, g2 p = max (g1 p) (g1 (p + 2)))
    (h3 : ∀ p, g3 p = max (g2 p) (g2 (p + 4)))
    (h4 : ∀ p, g4 p = max (g3 p) (g3 (p + 8)))
    (h5 : ∀ p, g5 p = max (g4 p) (g4 (p + 16)))
    (h6 : ∀ p, g6 p = max (g5 p) (g5 (p + 32))) (p : ℕ) :
    g6 p = (range 64).sup fun j => f (p + j) :=
  tree6 f g1 g2 g3 g4 g5 g6 h1 h2 h3 h4 h5 h6 p

/-- The running maximum of 64 extended reals is their join. -/
theorem chain63_max (a : ℕ → EReal) : chain a 63 = (range 64).sup a := chain63 a

/-- One step of the running maximum on the extended reals, with `max`. -/
theorem chain_succ_max (a : ℕ → EReal) (n : ℕ) : chain a (n + 1) = max (chain a n) (a (n + 1)) := rfl

end EReal

end Cert.MathPool
-- ==== Proof.KV.PoolRead.lean ====
/- The doubling max tree of the convolution kernel read in positions: after the six shift-and-max levels the table at
   (row, column) holds the maximum of the first convolution over the 64 positions from 24·row + column/16 on, in the
   column's lane. -/
import proofs.«116650_g2000303023666169_pallasbulk_55_22_alg».proof.Proof.KV.Stages
import proofs.«116650_g2000303023666169_pallasbulk_55_22_alg».proof.Proof.Spec
import proofs.«116650_g2000303023666169_pallasbulk_55_22_alg».proof.Proof.LibPoolStep
import proofs.«116650_g2000303023666169_pallasbulk_55_22_alg».proof.Proof.MathPool

set_option maxRecDepth 16384

noncomputable section
namespace Cert.KernelIdeal.KV
open Idealize.ShloMosaic Idealize.ShloMosaic.ValueIdx Cert.KernelIdeal Cert.KernelIdeal.Gen

variable (σ : Fin 2 → ℕ → EReal) (W : Cert.Spec.Wts)

/-- The first convolution by position, the lane given as a natural number (read modulo 16). -/
def cposN (l p : ℕ) : EReal := Cert.Spec.cpos σ W ⟨l % 16, Nat.mod_lt _ (by norm_num)⟩ p

/-- The tree's levels in positions: level k+1 joins level k with itself 2^k positions on. -/
def G1 (l p : ℕ) : EReal := max (cposN σ W l p) (cposN σ W l (p + 1))
def G2 (l p : ℕ) : EReal := max (G1 σ W l p) (G1 σ W l (p + 2))
def G3 (l p : ℕ) : EReal := max (G2 σ W l p) (G2 σ W l (p + 4))
def G4 (l p : ℕ) : EReal := max (G3 σ W l p) (G3 σ W l (p + 8))
def G5 (l p : ℕ) : EReal := max (G4 σ W l p) (G4 σ W l (p + 16))
def G6 (l p : ℕ) : EReal := max (G5 σ W l p) (G5 σ W l (p + 32))

/-- Six doublings reach the 64 positions from `p` on. -/
theorem G6_eq (l p : ℕ) : G6 σ W l p = (Finset.range 64).sup fun j => cposN σ W l (p + j) :=
  Cert.MathPool.tree6_max (cposN σ W l) (G1 σ W l) (G2 σ W l) (G3 σ W l) (G4 σ W l) (G5 σ W l) (G6 σ W l)
    (fun _ => rfl) (fun _ => rfl) (fun _ => rfl) (fun _ => rfl) (fun _ => rfl) (fun _ => rfl) p

theorem lv1_apply (A : FVec Ideal S89x384 .f32)
    (hA : ∀ (row : Fin 89) (col : Fin 384), A (ix2 row col) = cposN σ W (col.val % 16) (24 * row.val + col.val / 16))
    (row : Fin 88) (col : Fin 384) : lv1 A (ix2 row col) = G1 σ W (col.val % 16) (24 * row.val + col.val / 16) :=
  Cert.PoolStep.level_step 0 1 16 1 1 A (cposN σ W) _ _ _ _ (by norm_num) rfl (by norm_num) rfl rfl hA row col

theorem lv2_apply (A : FVec Ideal S88x384 .f32)
    (hA : ∀ (row : Fin 88) (col : Fin 384), A (ix2 row col) = G1 σ W (col.val % 16) (24 * row.val + col.val / 16))
    (row : Fin 87) (col : Fin 384) : lv2 A (ix2 row col) = G2 σ W (col.val % 16) (24 * row.val + col.val / 16) :=
  Cert.PoolStep.level_step 0 1 32 2 2 A (G1 σ W) _ _ _ _ (by norm_num) rfl (by norm_num) rfl rfl hA row col

theorem lv3_apply (A : FVec Ideal S87x384 .f32)
    (hA : ∀ (row : Fin 87) (col : Fin 384), A (ix2 row col) = G2 σ W (col.val % 16) (24 * row.val + col.val / 16))
    (row : Fin 86) (col : Fin 384) : lv3 A (ix2 row col) = G3 σ W (col.val % 16) (24 * row.val + col.val / 16) :=
  Cert.PoolStep.level_step 0 1 64 4 4 A (G2 σ W) _ _ _ _ (by norm_num) rfl (by norm_num) rfl rfl hA row col

theorem lv4_apply (A : FVec Ideal S86x384 .f32)
    (hA : ∀ (row : Fin 86) (col : Fin 384), A (ix2 row col) = G3 σ W (col.val % 16) (24 * row.val + col.val / 16))
    (row : Fin 85) (col : Fin 384) : lv4 A (ix2 row col) = G4 σ W (col.val % 16) (24 * row.val + col.val / 16) :=
  Cert.PoolStep.level_step 0 1 128 8 8 A (G3 σ W) _ _ _ _ (by norm_num) rfl (by norm_num) rfl rfl hA row col

theorem lv5_apply (A : FVec Ideal S85x384 .f32)
    (hA : ∀ (row : Fin 85) (col : Fin 384), A (ix2 row col) = G4 σ W (col.val % 16) (24 * row.val + col.val / 16))
    (row : Fin 84) (col : Fin 384) : lv5 A (ix2 row col) = G5 σ W (col.val % 16) (24 * row.val + col.val / 16) :=
  Cert.PoolStep.level_step 0 1 256 16 16 A (G4 σ W) _ _ _ _ (by norm_num) rfl (by norm_num) rfl rfl hA row col

theorem lv6_apply (A : FVec Ideal S84x384 .f32)
    (hA : ∀ (row : Fin 84) (col : Fin 384), A (ix2 row col) = G5 σ W (col.val % 16) (24 * row.val + col.val / 16))
    (row : Fin 82) (col : Fin 384) : lv6 A (ix2 row col) = G6 σ W (col.val % 16) (24 * row.val + col.val / 16) :=
  Cert.PoolStep.level_step 1 2 128 8 32 A (G5 σ W) _ _ _ _ (by norm_num) rfl (by norm_num) rfl rfl hA row col

/-- The whole tree: a table holding the first convolution by position goes to the 64-wide running maximum. -/
theorem tree_apply (A : FVec Ideal S89x384 .f32)
    (hA : ∀ (row : Fin 89) (col : Fin 384), A (ix2 row col) = cposN σ W (col.val % 16) (24 * row.val + col.val / 16))
    (row : Fin 82) (col : Fin 384) :
    lv6 (lv5 (lv4 (lv3 (lv2 (lv1 A))))) (ix2 row col)
      = (Finset.range 64).sup fun j => cposN σ W (col.val % 16) (24 * row.val + col.val / 16 + j) := by
  rw [lv6_apply σ W _ (lv5_apply σ W _ (lv4_apply σ W _ (lv3_apply σ W _ (lv2_apply σ W _ (lv1_apply σ W A hA))))), G6_eq]

end Cert.KernelIdeal.KV
end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.KV.ConvRead.lean ====
/- The first convolution of the kernel read at an index: the K = 720 product over the six side-by-side row slices is the
   triple sum over shift tap, sensor and phase of the specification, position by position. -/
import proofs.«116650_g2000303023666169_pallasbulk_55_22_alg».proof.Proof.KV.PoolRead
import proofs.«116650_g2000303023666169_pallasbulk_55_22_alg».proof.Proof.LibTileMatmul
import proofs.«116650_g2000303023666169_pallasbulk_55_22_alg».proof.Proof.LibRead2
import Idealize.ShloMosaic.Lib.ValueLayout
import Idealize.ShloMosaic.Lib.Pipeline.Value

set_option maxRecDepth 16384

noncomputable section
namespace Cert.KernelIdeal.KV
open Idealize.ShloMosaic Idealize.ShloMosaic.ValueIdx Cert.KernelIdeal Cert.KernelIdeal.Gen
open scoped BigOperators

/-- Row `r` of sensor `c` of the stream block, as the [91, 120] table the kernel slices. -/
theorem sensor_apply (x : Vec Ideal S1x2x91x120 .bf16) (c : Fin 2) (hs) (r : Fin 91) (ph : Fin 120) :
    (shapeCast S91x120 (extractStridedSlice S1x91x120 ![c.val, 0, 0] (shapeCast S2x91x120 x shapeCasts_S1x2x91x120_S2x91x120 : FVec Ideal S2x91x120 .bf16) hs) shapeCasts_S1x91x120_S91x120 : FVec Ideal S91x120 .bf16) (ix2 r ph)
      = x (ix4 0 c r ph) := by
  rw [shapeCast_1ab_ab_apply]
  rw [extractStridedSlice_apply _ _ _ _ (ix3 c r ph) (fun a => by match a with | ⟨0, _⟩ => simp | ⟨1, _⟩ => simp | ⟨2, _⟩ => simp)]
  exact shapeCast_1abc_abc_apply _ _ c r ph

theorem xs_apply_0 (x : Vec Ideal S1x2x91x120 .bf16) (m : Fin 89) (ph : Fin 120) (r : Fin 720) (hr : r.val = 0 * 120 + ph.val) :
    xsOf x (ix2 m r) = x (ix4 0 0 ⟨m.val + 0, by omega⟩ ph) := by
  obtain rfl : r = ⟨0 + ph.val, Nat.lt_of_lt_of_le (Nat.add_lt_add_left ph.isLt 0) (by norm_num)⟩ := Fin.ext (by simpa using hr)
  unfold xsOf
  refine (Cert.Read2.concatK _ (by exact concatenates_S89x120_S89x120_S89x120_S89x120_S89x120_S89x120_S89x720_d1) 0 (by simp) _ rfl 0 (by rfl) m ⟨0 + ph.val, by omega⟩ (by show 0 ≤ 0 + ph.val; omega) (by show 0 + ph.val - 0 < 120; omega)).trans ?_
  rw [Cert.Read2.slice2 0 0 _ _ m ⟨0 + ph.val - 0, by omega⟩ (by omega) (by show 0 + (0 + ph.val - 0) < 120; omega)]
  refine (sensor_apply x 0 _ _ _).trans ?_
  exact congrArg x (by funext a; match a with | ⟨0, _⟩ => rfl | ⟨1, _⟩ => rfl | ⟨2, _⟩ => exact Fin.ext (by show 0 + m.val = m.val + 0; omega) | ⟨3, _⟩ => exact Fin.ext (by show 0 + (0 + ph.val - 0) = ph.val; omega))

theorem xs_apply_1 (x : Vec Ideal S1x2x91x120 .bf16) (m : Fin 89) (ph : Fin 120) (r : Fin 720) (hr : r.val = 1 * 120 + ph.val) :
    xsOf x (ix2 m r) = x (ix4 0 0 ⟨m.val + 1, by omega⟩ ph) := by
  obtain rfl : r = ⟨120 + ph.val, Nat.lt_of_lt_of_le (Nat.add_lt_add_left ph.isLt 120) (by norm_num)⟩ := Fin.ext (by simpa using hr)
  unfold xsOf
  refine (Cert.Read2.concatK _ (by exact concatenates_S89x120_S89x120_S89x120_S89x120_S89x120_S89x120_S89x720_d1) 1 (by simp) _ rfl 120 (by rfl) m ⟨120 + ph.val, by omega⟩ (by show 120 ≤ 120 + ph.val; omega) (by show 120 + ph.val - 120 < 120; omega)).trans ?_
  rw [Cert.Read2.slice2 1 0 _ _ m ⟨120 + ph.val - 120, by omega⟩ (by omega) (by show 0 + (120 + ph.val - 120) < 120; omega)]
  refine (sensor_apply x 0 _ _ _).trans ?_
  exact congrArg x (by funext a; match a with | ⟨0, _⟩ => rfl | ⟨1, _⟩ => rfl | ⟨2, _⟩ => exact Fin.ext (by show 1 + m.val = m.val + 1; omega) | ⟨3, _⟩ => exact Fin.ext (by show 0 + (120 + ph.val - 120) = ph.val; omega))

theorem xs_apply_2 (x : Vec Ideal S1x2x91x120 .bf16) (m : Fin 89) (ph : Fin 120) (r : Fin 720) (hr : r.val = 2 * 120 + ph.val) :
    xsOf x (ix2 m r) = x (ix4 0 0 ⟨m.val + 2, by omega⟩ ph) := by
  obtain rfl : r = ⟨240 + ph.val, Nat.lt_of_lt_of_le (Nat.add_lt_add_left ph.isLt 240) (by norm_num)⟩ := Fin.ext (by simpa using hr)
  unfold xsOf
  refine (Cert.Read2.concatK _ (by exact concatenates_S89x120_S89x120_S89x120_S89x120_S89x120_S89x120_S89x720_d1) 2 (by simp) _ rfl 240 (by rfl) m ⟨240 + ph.val, by omega⟩ (by show 240 ≤ 240 + ph.val; omega) (by show 240 + ph.val - 240 < 120; omega)).trans ?_
  rw [Cert.Read2.slice2 2 0 _ _ m ⟨240 + ph.val - 240, by omega⟩ (by omega) (by show 0 + (240 + ph.val - 240) < 120; omega)]
  refine (sensor_apply x 0 _ _ _).trans ?_
  exact congrArg x (by funext a; match a with | ⟨0, _⟩ => rfl | ⟨1, _⟩ => rfl | ⟨2, _⟩ => exact Fin.ext (by show 2 + m.val = m.val + 2; omega) | ⟨3, _⟩ => exact Fin.ext (by show 0 + (240 + ph.val - 240) = ph.val; omega))

theorem xs_apply_3 (x : Vec Ideal S1x2x91x120 .bf16) (m : Fin 89) (ph : Fin 120) (r : Fin 720) (hr : r.val = 3 * 120 + ph.val) :
    xsOf x (ix2 m r) = x (ix4 0 1 ⟨m.val + 0, by omega⟩ ph) := by
  obtain rfl : r = ⟨360 + ph.val, Nat.lt_of_lt_of_le (Nat.add_lt_add_left ph.isLt 360) (by norm_num)⟩ := Fin.ext (by simpa using hr)
  unfold xsOf
  refine (Cert.Read2.concatK _ (by exact concatenates_S89x120_S89x120_S89x120_S89x120_S89x120_S89x120_S89x720_d1) 3 (by simp) _ rfl 360 (by rfl) m ⟨360 + ph.val, by omega⟩ (by show 360 ≤ 360 + ph.val; omega) (by show 360 + ph.val - 360 < 120; omega)).trans ?_
  rw [Cert.Read2.slice2 0 0 _ _ m ⟨360 + ph.val - 360, by omega⟩ (by omega) (by show 0 + (360 + ph.val - 360) < 120; omega)]
  refine (sensor_apply x 1 _ _ _).trans ?_
  exact congrArg x (by funext a; match a with | ⟨0, _⟩ => rfl | ⟨1, _⟩ => rfl | ⟨2, _⟩ => exact Fin.ext (by show 0 + m.val = m.val + 0; omega) | ⟨3, _⟩ => exact Fin.ext (by show 0 + (360 + ph.val - 360) = ph.val; omega))

theorem xs_apply_4 (x : Vec Ideal S1x2x91x120 .bf16) (m : Fin 89) (ph : Fin 120) (r : Fin 720) (hr : r.val = 4 * 120 + ph.val) :
    xsOf x (ix2 m r) = x (ix4 0 1 ⟨m.val + 1, by omega⟩ ph) := by
  obtain rfl : r = ⟨480 + ph.val, Nat.lt_of_lt_of_le (Nat.add_lt_add_left ph.isLt 480) (by norm_num)⟩ := Fin.ext (by simpa using hr)
  unfold xsOf
  refine (Cert.Read2.concatK _ (by exact concatenates_S89x120_S89x120_S89x120_S89x120_S89x120_S89x120_S89x720_d1) 4 (by simp) _ rfl 480 (by rfl) m ⟨480 + ph.val, by omega⟩ (by show 480 ≤ 480 + ph.val; omega) (by show 480 + ph.val - 480 < 120; omega)).trans ?_
  rw [Cert.Read2.slice2 1 0 _ _ m ⟨480 + ph.val - 480, by omega⟩ (by omega) (by show 0 + (480 + ph.val - 480) < 120; omega)]
  refine (sensor_apply x 1 _ _ _).trans ?_
  exact congrArg x (by funext a; match a with | ⟨0, _⟩ => rfl | ⟨1, _⟩ => rfl | ⟨2, _⟩ => exact Fin.ext (by show 1 + m.val = m.val + 1; omega) | ⟨3, _⟩ => exact Fin.ext (by show 0 + (480 + ph.val - 480) = ph.val; omega))

theorem xs_apply_5 (x : Vec Ideal S1x2x91x120 .bf16) (m : Fin 89) (ph : Fin 120) (r : Fin 720) (hr : r.val = 5 * 120 + ph.val) :
    xsOf x (ix2 m r) = x (ix4 0 1 ⟨m.val + 2, by omega⟩ ph) := by
  obtain rfl : r = ⟨600 + ph.val, Nat.lt_of_lt_of_le (Nat.add_lt_add_left ph.isLt 600) (by norm_num)⟩ := Fin.ext (by simpa using hr)
  unfold xsOf
  refine (Cert.Read2.concatK _ (by exact concatenates_S89x120_S89x120_S89x120_S89x120_S89x120_S89x120_S89x720_d1) 5 (by simp) _ rfl 600 (by rfl) m ⟨600 + ph.val, by omega⟩ (by show 600 ≤ 600 + ph.val; omega) (by show 600 + ph.val - 600 < 120; omega)).trans ?_
  rw [Cert.Read2.slice2 2 0 _ _ m ⟨600 + ph.val - 600, by omega⟩ (by omega) (by show 0 + (600 + ph.val - 600) < 120; omega)]
  refine (sensor_apply x 1 _ _ _).trans ?_
  exact congrArg x (by funext a; match a with | ⟨0, _⟩ => rfl | ⟨1, _⟩ => rfl | ⟨2, _⟩ => exact Fin.ext (by show 2 + m.val = m.val + 2; omega) | ⟨3, _⟩ => exact Fin.ext (by show 0 + (600 + ph.val - 600) = ph.val; omega))

variable (σ : Fin 2 → ℕ → EReal) (W : Cert.Spec.Wts)

/-- A sum over a product range, block by block. -/
theorem sum_blocks {M : Type} [AddCommMonoid M] (f : Fin 720 → M) :
    ∑ k : Fin 720, f k = ∑ i : Fin 6, ∑ j : Fin 120, f ⟨i.val * 120 + j.val, by have := i.isLt; have := j.isLt; omega⟩ := by
  rw [← Finset.sum_product', Finset.univ_product_univ]
  refine (Fintype.sum_equiv (finProdFinEquiv (m := 6) (n := 120)) _ _ fun ij => ?_).symm
  refine congrArg f (Fin.ext ?_)
  show ij.1.val * 120 + ij.2.val = ij.2.val + 120 * ij.1.val
  omega

/-- The first convolution at (row m, table row n): the specification's sum over shift tap, sensor and phase. -/
theorem conv_c1 (x : Vec Ideal S1x2x91x120 .bf16) (w1 : Vec Ideal S720x384 .bf16) (b1 : Vec Ideal S1x384 .f32)
    (hx : ∀ (c : Fin 2) (mr : Fin 91) (ph : Fin 120), x (ix4 0 c mr ph) = σ c (mr.val * 120 + ph.val))
    (hw1 : ∀ (c : Fin 2) (q : Fin 3) (ph : Fin 120) (n : Fin 384) (r : Fin 720), r.val = (c.val * 3 + q.val) * 120 + ph.val →
      w1 (ix2 r n) = W.w1q (ix3 q n (Cert.Spec.k240 c ph)))
    (hb1 : ∀ n : Fin 384, b1 (ix2 0 n) = W.b1s (ix2 n 0)) (m : Fin 89) (n : Fin 384) :
    convOf (xsOf x) w1 b1 (ix2 m n) = Cert.Spec.c1 σ W n m.val := by
  unfold convOf Cert.Spec.c1
  rw [addf_apply, broadcastTo_1b_ab_apply, shapeCast_self, shapeCast_self, hb1]
  refine congrArg (· + W.b1s (ix2 n 0)) ?_
  refine (Idealize.ShloMosaic.TileMatmul.matmul_zero_apply dot_S89x720_S720x384_S89x384_1_0_0_1_n_n.wf none (xsOf x) _ m n).trans ?_
  rw [sum_blocks]
  have e0 : (∑ j : Fin 120, xsOf x (ix2 m ⟨(0 : Fin 6).val * 120 + j.val, by have := j.isLt; simp; omega⟩) * w1 (ix2 ⟨(0 : Fin 6).val * 120 + j.val, by have := j.isLt; simp; omega⟩ n))
      = ∑ ph : Fin 120, σ 0 ((m.val + (0 : Fin 3).val) * 120 + ph.val) * W.w1q (ix3 0 n (Cert.Spec.k240 0 ph)) :=
    Finset.sum_congr rfl fun j _ => by
      rw [xs_apply_0 x m j ⟨(0 : Fin 6).val * 120 + j.val, _⟩ (by simp), hx, hw1 0 0 j n _ (by simp)]
      rfl
  have e1 : (∑ j : Fin 120, xsOf x (ix2 m ⟨(1 : Fin 6).val * 120 + j.val, by have := j.isLt; simp; omega⟩) * w1 (ix2 ⟨(1 : Fin 6).val * 120 + j.val, by have := j.isLt; simp; omega⟩ n))
      = ∑ ph : Fin 120, σ 0 ((m.val + (1 : Fin 3).val) * 120 + ph.val) * W.w1q (ix3 1 n (Cert.Spec.k240 0 ph)) :=
    Finset.sum_congr rfl fun j _ => by
      rw [xs_apply_1 x m j ⟨(1 : Fin 6).val * 120 + j.val, _⟩ (by simp), hx, hw1 0 1 j n _ (by simp)]
      rfl
  have e2 : (∑ j : Fin 120, xsOf x (ix2 m ⟨(2 : Fin 6).val * 120 + j.val, by have := j.isLt; simp; omega⟩) * w1 (ix2 ⟨(2 : Fin 6).val * 120 + j.val, by have := j.isLt; simp; omega⟩ n))
      = ∑ ph : Fin 120, σ 0 ((m.val + (2 : Fin 3).val) * 120 + ph.val) * W.w1q (ix3 2 n (Cert.Spec.k240 0 ph)) :=
    Finset.sum_congr rfl fun j _ => by
      rw [xs_apply_2 x m j ⟨(2 : Fin 6).val * 120 + j.val, _⟩ (by simp), hx, hw1 0 2 j n _ (by simp)]
      rfl
  have e3 : (∑ j : Fin 120, xsOf x (ix2 m ⟨(3 : Fin 6).val * 120 + j.val, by have := j.isLt; simp; omega⟩) * w1 (ix2 ⟨(3 : Fin 6).val * 120 + j.val, by have := j.isLt; simp; omega⟩ n))
      = ∑ ph : Fin 120, σ 1 ((m.val + (0 : Fin 3).val) * 120 + ph.val) * W.w1q (ix3 0 n (Cert.Spec.k240 1 ph)) :=
    Finset.sum_congr rfl fun j _ => by
      rw [xs_apply_3 x m j ⟨(3 : Fin 6).val * 120 + j.val, _⟩ (by simp), hx, hw1 1 0 j n _ (by simp)]
      rfl
  have e4 : (∑ j : Fin 120, xsOf x (ix2 m ⟨(4 : Fin 6).val * 120 + j.val, by have := j.isLt; simp; omega⟩) * w1 (ix2 ⟨(4 : Fin 6).val * 120 + j.val, by have := j.isLt; simp; omega⟩ n))
      = ∑ ph : Fin 120, σ 1 ((m.val + (1 : Fin 3).val) * 120 + ph.val) * W.w1q (ix3 1 n (Cert.Spec.k240 1 ph)) :=
    Finset.sum_congr rfl fun j _ => by
      rw [xs_apply_4 x m j ⟨(4 : Fin 6).val * 120 + j.val, _⟩ (by simp), hx, hw1 1 1 j n _ (by simp)]
      rfl
  have e5 : (∑ j : Fin 120, xsOf x (ix2 m ⟨(5 : Fin 6).val * 120 + j.val, by have := j.isLt; simp; omega⟩) * w1 (ix2 ⟨(5 : Fin 6).val * 120 + j.val, by have := j.isLt; simp; omega⟩ n))
      = ∑ ph : Fin 120, σ 1 ((m.val + (2 : Fin 3).val) * 120 + ph.val) * W.w1q (ix3 2 n (Cert.Spec.k240 1 ph)) :=
    Finset.sum_congr rfl fun j _ => by
      rw [xs_apply_5 x m j ⟨(5 : Fin 6).val * 120 + j.val, _⟩ (by simp), hx, hw1 1 2 j n _ (by simp)]
      rfl
  rw [Fin.sum_univ_six, e0, e1, e2, e3, e4, e5, Fin.sum_univ_three]
  simp only [Fin.sum_univ_two]
  ac_rfl

/-- The same by position: the table at (row, column) holds position 24·row + column/16 of lane column%16. -/
theorem conv_apply (x : Vec Ideal S1x2x91x120 .bf16) (w1 : Vec Ideal S720x384 .bf16) (b1 : Vec Ideal S1x384 .f32)
    (hx : ∀ (c : Fin 2) (mr : Fin 91) (ph : Fin 120), x (ix4 0 c mr ph) = σ c (mr.val * 120 + ph.val))
    (hw1 : ∀ (c : Fin 2) (q : Fin 3) (ph : Fin 120) (n : Fin 384) (r : Fin 720), r.val = (c.val * 3 + q.val) * 120 + ph.val →
      w1 (ix2 r n) = W.w1q (ix3 q n (Cert.Spec.k240 c ph)))
    (hb1 : ∀ n : Fin 384, b1 (ix2 0 n) = W.b1s (ix2 n 0)) (row : Fin 89) (col : Fin 384) :
    convOf (xsOf x) w1 b1 (ix2 row col) = cposN σ W (col.val % 16) (24 * row.val + col.val / 16) := by
  rw [conv_c1 σ W x w1 b1 hx hw1 hb1]
  unfold cposN Cert.Spec.cpos
  have hcol := col.isLt
  exact congrArg₂ (Cert.Spec.c1 σ W) (Fin.ext (by show col.val = (24 * row.val + col.val / 16) % 24 * 16 + col.val % 16 % 16; omega))
    (by omega)

/-- The pooled table of the kernel: 64-wide running maximum of the first convolution, by position. -/
theorem pay2_apply (x : Vec Ideal S1x2x91x120 .bf16) (w1 : Vec Ideal S720x384 .bf16) (b1 : Vec Ideal S1x384 .f32)
    (hx : ∀ (c : Fin 2) (mr : Fin 91) (ph : Fin 120), x (ix4 0 c mr ph) = σ c (mr.val * 120 + ph.val))
    (hw1 : ∀ (c : Fin 2) (q : Fin 3) (ph : Fin 120) (n : Fin 384) (r : Fin 720), r.val = (c.val * 3 + q.val) * 120 + ph.val →
      w1 (ix2 r n) = W.w1q (ix3 q n (Cert.Spec.k240 c ph)))
    (hb1 : ∀ n : Fin 384, b1 (ix2 0 n) = W.b1s (ix2 n 0)) (mm : Fin 82) (col : Fin 384) :
    k0_pay2 (F := Ideal) x w1 b1 (ix2 mm col)
      = (Finset.range 64).sup fun j => cposN σ W (col.val % 16) (24 * mm.val + col.val / 16 + j) := by
  rw [pay2_eq]
  exact tree_apply σ W _ (conv_apply σ W x w1 b1 hx hw1 hb1) mm col

end Cert.KernelIdeal.KV
end
-- ==== Proof.KV.TailRead.lean ====
/- The second half of the per-stream computation, read one entry at a time on the extended reals and met with the
   specification.

   The table after the doubling tree holds, at (row mm, column col), the maximum of the first convolution over the 64
   positions from 24·mm + col / 16 on, in lane col % 16. From it:
     * the four pooled phases: columns 48·e' + l for the column blocks 0, 3, 12, 15 (three times the phases 0, 1, 4, 5)
       are the 64-wide maxima from positions 24·mm + 3·phase on; rectified,
     * the second convolution: a product with the 64 × 64 table (transposed in the kernel's operand) plus the bias,
     * the second pool: the maximum over the two output phases of a column and the first of the next, rectified,
     * the two stride-3 taps as products with 0/1 selection tables, the fusion products with the two 32 × 32 tables,
       the bias and the rectifier.
   Every product into the zero accumulator is the plain finite sum; the kernel multiplies "entry · weight" where the
   specification writes "weight · entry", so commutativity of the product under the sum is all that is used. -/
import proofs.«116650_g2000303023666169_pallasbulk_55_22_alg».proof.Proof.KV.Stages
import proofs.«116650_g2000303023666169_pallasbulk_55_22_alg».proof.Proof.KV.PoolRead
import proofs.«116650_g2000303023666169_pallasbulk_55_22_alg».proof.Proof.Spec
import proofs.«116650_g2000303023666169_pallasbulk_55_22_alg».proof.Proof.LibTileMatmul
import proofs.«116650_g2000303023666169_pallasbulk_55_22_alg».proof.Proof.LibRead2
import Idealize.ShloMosaic.Lib.ValueLayout

noncomputable section

open scoped BigOperators

namespace Cert.KernelIdeal.KV

open Idealize.ShloMosaic Idealize.ShloMosaic.ValueIdx Cert.KernelIdeal Cert.KernelIdeal.Gen

variable (σ : Fin 2 → ℕ → EReal) (W : Cert.Spec.Wts)

/-- Two 64-wide maxima of the first convolution agree when their lanes and their first positions do. -/
theorem tail_sup_congr (l p : ℕ) (l' : Fin 16) (p' : ℕ) (hl : l % 16 = l'.val) (hp : p = p') :
    ((Finset.range 64).sup fun j => cposN σ W l (p + j))
      = (Finset.range 64).sup fun j => Cert.Spec.cpos σ W l' (p' + j) := by
  subst hp
  have e : (⟨l % 16, Nat.mod_lt _ (by norm_num)⟩ : Fin 16) = l' := Fin.ext hl
  unfold cposN
  rw [e]

/-- The second convolution depends on its row and column through their values only. -/
theorem tail_c2_congr (r r' : Fin 64) (m m' : ℕ) (hr : r.val = r'.val) (hm : m = m') :
    Cert.Spec.c2 σ W r m = Cert.Spec.c2 σ W r' m' := by
  obtain rfl : r = r' := Fin.ext hr
  rw [hm]

/-- **The pooled phases**: entry (mm, k) of the rectified phase pick is the specification's first pool. -/
theorem tail_p1 (v49 : FVec Ideal S82x384 .f32)
    (hv : ∀ (mm : Fin 82) (col : Fin 384), v49 (ix2 mm col)
      = (Finset.range 64).sup fun j => cposN σ W (col.val % 16) (24 * mm.val + col.val / 16 + j))
    (mm : Fin 82) (k : Fin 64) : p1Of v49 (ix2 mm k) = Cert.Spec.p1 σ W k mm.val := by
  have hk := k.isLt
  have hmm := mm.isLt
  unfold p1Of Cert.Spec.p1
  rw [truncf_apply, maximumf_apply, broadcast_apply]
  show max _ (Ideal.ofBits .f32 0x00000000#32) = _
  rw [Ideal.ofBits_zero_f32]
  refine congrArg (fun t => max t 0) ?_
  rcases (by omega : k.val / 16 = 0 ∨ k.val / 16 = 1 ∨ k.val / 16 = 2 ∨ k.val / 16 = 3) with h | h | h | h
  · have hph : 3 * Cert.Spec.phase ⟨k.val / 16, by omega⟩ = 0 := by
      rw [show (⟨k.val / 16, by omega⟩ : Fin 4) = 0 from Fin.ext h]; rfl
    refine (Cert.Read2.concatK _ _ 0 (by show (0 : ℕ) < 4; omega) _ rfl 0 rfl mm k (by omega) (by omega)).trans ?_
    refine (Cert.Read2.slice2 0 0 v49 _ mm _ (by omega) (by show 0 + (k.val - 0) < 384; omega)).trans ?_
    refine (hv _ _).trans ?_
    exact tail_sup_congr σ W _ _ _ _ (by show ((0 + (k.val - 0)) % 16) % 16 = k.val % 16; omega)
      (by rw [hph]; show 24 * (0 + mm.val) + (0 + (k.val - 0)) / 16 = 24 * mm.val + 0; omega)
  · have hph : 3 * Cert.Spec.phase ⟨k.val / 16, by omega⟩ = 3 := by
      rw [show (⟨k.val / 16, by omega⟩ : Fin 4) = 1 from Fin.ext h]; rfl
    refine (Cert.Read2.concatK _ _ 1 (by show (1 : ℕ) < 4; omega) _ rfl 16 rfl mm k (by omega) (by omega)).trans ?_
    refine (Cert.Read2.slice2 0 48 v49 _ mm _ (by omega) (by show 48 + (k.val - 16) < 384; omega)).trans ?_
    refine (hv _ _).trans ?_
    exact tail_sup_congr σ W _ _ _ _ (by show ((48 + (k.val - 16)) % 16) % 16 = k.val % 16; omega)
      (by rw [hph]; show 24 * (0 + mm.val) + (48 + (k.val - 16)) / 16 = 24 * mm.val + 3; omega)
  · have hph : 3 * Cert.Spec.phase ⟨k.val / 16, by omega⟩ = 12 := by
      rw [show (⟨k.val / 16, by omega⟩ : Fin 4) = 2 from Fin.ext h]; rfl
    refine (Cert.Read2.concatK _ _ 2 (by show (2 : ℕ) < 4; omega) _ rfl 32 rfl mm k (by omega) (by omega)).trans ?_
    refine (Cert.Read2.slice2 0 192 v49 _ mm _ (by omega) (by show 192 + (k.val - 32) < 384; omega)).trans ?_
    refine (hv _ _).trans ?_
    exact tail_sup_congr σ W _ _ _ _ (by show ((192 + (k.val - 32)) % 16) % 16 = k.val % 16; omega)
      (by rw [hph]; show 24 * (0 + mm.val) + (192 + (k.val - 32)) / 16 = 24 * mm.val + 12; omega)
  · have hph : 3 * Cert.Spec.phase ⟨k.val / 16, by omega⟩ = 15 := by
      rw [show (⟨k.val / 16, by omega⟩ : Fin 4) = 3 from Fin.ext h]; rfl
    refine (Cert.Read2.concatK _ _ 3 (by show (3 : ℕ) < 4; omega) _ rfl 48 rfl mm k (by omega) (by omega)).trans ?_
    refine (Cert.Read2.slice2 0 240 v49 _ mm _ (by omega) (by show 240 + (k.val - 48) < 384; omega)).trans ?_
    refine (hv _ _).trans ?_
    exact tail_sup_congr σ W _ _ _ _ (by show ((240 + (k.val - 48)) % 16) % 16 = k.val % 16; omega)
      (by rw [hph]; show 24 * (0 + mm.val) + (240 + (k.val - 48)) / 16 = 24 * mm.val + 15; omega)

/-- **The second convolution**: the product with the table, whose entry (k, r) is the specification's (r, k), plus the
    bias row. -/
theorem tail_c2 (p : FVec Ideal S82x64 .bf16) (w2 : Vec Ideal S64x64 .bf16) (b2 : Vec Ideal S1x64 .f32)
    (hp : ∀ (mm : Fin 82) (k : Fin 64), p (ix2 mm k) = Cert.Spec.p1 σ W k mm.val)
    (hw2 : ∀ (k r : Fin 64), w2 (ix2 k r) = W.wc2 (ix2 r k))
    (hb2 : ∀ r : Fin 64, b2 (ix2 0 r) = W.b2s (ix2 r 0))
    (mm : Fin 82) (r : Fin 64) : c2Of p w2 b2 (ix2 mm r) = Cert.Spec.c2 σ W r mm.val := by
  unfold c2Of Cert.Spec.c2
  refine (addf_apply _ _ _).trans ?_
  refine congrArg₂ (· + ·) ?_ ?_
  · refine (TileMatmul.matmul_zero_apply dot_S82x64_S64x64_S82x64_1_0_0_1_n_n_wf none _ _ mm r).trans ?_
    refine Finset.sum_congr rfl fun k _ => ?_
    rw [shapeCast_self, hp, hw2, mul_comm]
  · refine (broadcastTo_1b_ab_apply _ _ mm r).trans ?_
    rw [shapeCast_self, hb2]

/-- **The second pool**: the maximum over rows ch and 32 + ch of a column and row ch of the next, rectified. -/
theorem tail_zOf (c : FVec Ideal S82x64 .f32)
    (hc : ∀ (mm : Fin 82) (r : Fin 64), c (ix2 mm r) = Cert.Spec.c2 σ W r mm.val)
    (w : Fin 81) (ch : Fin 32) : zOf c (ix2 w ch) = Cert.Spec.z σ W ch w.val := by
  have hw := w.isLt
  have hch := ch.isLt
  unfold zOf Cert.Spec.z
  rw [truncf_apply, maximumf_apply, maximumf_apply, maximumf_apply, broadcast_apply]
  show max _ (Ideal.ofBits .f32 0x00000000#32) = _
  rw [Ideal.ofBits_zero_f32,
    Cert.Read2.slice2 0 0 c _ w ch (by omega) (by omega),
    Cert.Read2.slice2 0 32 c _ w ch (by omega) (by omega),
    Cert.Read2.slice2 1 0 c _ w ch (by omega) (by omega), hc, hc, hc]
  refine congrArg (fun t => max t 0) ?_
  exact congrArg₂ max (congrArg₂ max (tail_c2_congr σ W _ _ _ _ (by show 0 + ch.val = ch.val; omega) (by show 0 + w.val = w.val; omega))
      (tail_c2_congr σ W _ _ _ _ rfl (by show 0 + w.val = w.val; omega)))
    (tail_c2_congr σ W _ _ _ _ (by show 0 + ch.val = ch.val; omega) (by show 1 + w.val = w.val + 1; omega))

section Tail

variable (v49 : FVec Ideal S82x384 .f32) (w2 : Vec Ideal S64x64 .bf16) (b2 : Vec Ideal S1x64 .f32)
  (hv : ∀ (mm : Fin 82) (col : Fin 384), v49 (ix2 mm col)
    = (Finset.range 64).sup fun j => cposN σ W (col.val % 16) (24 * mm.val + col.val / 16 + j))
  (hw2 : ∀ (k r : Fin 64), w2 (ix2 k r) = W.wc2 (ix2 r k))
  (hb2 : ∀ r : Fin 64, b2 (ix2 0 r) = W.b2s (ix2 r 0))

include hv hw2 hb2

/-- The stream's pooled features, as the [81, 32] block the later products read. -/
theorem tail_z2 (w : Fin 81) (ch : Fin 32) : k0_pay3 (F := Ideal) v49 w2 b2 (ix2 w ch) = Cert.Spec.z σ W ch w.val := by
  rw [pay3_eq]
  exact tail_zOf σ W _ (tail_c2 σ W _ w2 b2 (tail_p1 σ W v49 hv) hw2 hb2) w ch

/-- **The stream's pooled features** as stored: the [81, 32] block under a leading unit axis. -/
theorem tail_z (w : Fin 81) (ch : Fin 32) :
    k0_pay4 (F := Ideal) v49 w2 b2 (ix3 0 w ch) = Cert.Spec.z σ W ch w.val := by
  unfold k0_pay4
  exact (shapeCast_ab_1ab_apply _ _ 0 w ch).trans (tail_z2 σ W v49 w2 b2 hv hw2 hb2 w ch)

/-- A stride-3 tap: the product of a selection table (entry (wl, w) is the specification's (w, wl)) with the pooled
    features, at (wl, ch). -/
theorem tail_tap (s : Vec Ideal S27x81 .bf16) (S : Cert.Spec.A2 81 27)
    (hs : ∀ (wl : Fin 27) (w : Fin 81), s (ix2 wl w) = S (ix2 w wl)) (wl : Fin 27) (ch : Fin 32) :
    matmul (F := Ideal) dot_S27x81_S81x32_S27x32_1_0_0_1_n_n none
        (shapeCast S27x81 s shapeCasts_S27x81_S27x81 : FVec Ideal S27x81 .bf16) (k0_pay3 (F := Ideal) v49 w2 b2)
        (constant (F := Ideal) S27x32 .f32 0x00000000#32) (ix2 wl ch)
      = ∑ w : Fin 81, Cert.Spec.z σ W ch w.val * S (ix2 w wl) := by
  refine (TileMatmul.matmul_zero_apply dot_S27x81_S81x32_S27x32_1_0_0_1_n_n_wf none _ _ wl ch).trans ?_
  refine Finset.sum_congr rfl fun w _ => ?_
  rw [shapeCast_self, hs, tail_z2 σ W v49 w2 b2 hv hw2 hb2, mul_comm]

/-- The first fusion product: the first tap times the first 32 × 32 table (entry (ch, co) is the specification's
    (co, ch)), at (wl, co). -/
theorem tail_f0 (s0 : Vec Ideal S27x81 .bf16) (wf0 : Vec Ideal S32x32 .bf16)
    (hs0 : ∀ (wl : Fin 27) (w : Fin 81), s0 (ix2 wl w) = W.s0 (ix2 w wl))
    (hwf0 : ∀ (ch co : Fin 32), wf0 (ix2 ch co) = W.wf0 (ix2 co ch)) (wl : Fin 27) (co : Fin 32) :
    k0_pay5 (F := Ideal) v49 w2 b2 s0 wf0 (ix2 wl co)
      = ∑ ch : Fin 32, W.wf0 (ix2 co ch) * Cert.Spec.t0 σ W ch wl := by
  unfold k0_pay5
  refine (TileMatmul.matmul_zero_apply dot_S27x32_S32x32_S27x32_1_0_0_1_n_n_wf none _ _ wl co).trans ?_
  refine Finset.sum_congr rfl fun ch _ => ?_
  rw [shapeCast_self wf0, hwf0, truncf_apply, tail_tap σ W v49 w2 b2 hv hw2 hb2 s0 W.s0 hs0, mul_comm]
  rfl

/-- The second tap, at (wl, ch). -/
theorem tail_t1 (s1 : Vec Ideal S27x81 .bf16)
    (hs1 : ∀ (wl : Fin 27) (w : Fin 81), s1 (ix2 wl w) = W.s1 (ix2 w wl)) (wl : Fin 27) (ch : Fin 32) :
    k0_pay6 (F := Ideal) v49 w2 b2 s1 (ix2 wl ch) = Cert.Spec.t1 σ W ch wl := by
  unfold k0_pay6
  rw [truncf_apply, tail_tap σ W v49 w2 b2 hv hw2 hb2 s1 W.s1 hs1]
  rfl

/-- **The stream's slab of the fusion convolution** as stored: the two fusion products added, the bias row added, the
    rectifier, under a leading unit axis. -/
theorem tail_x44 (s0 s1 : Vec Ideal S27x81 .bf16) (wf0 wf1 : Vec Ideal S32x32 .bf16) (bf : Vec Ideal S1x32 .f32)
    (hs0 : ∀ (wl : Fin 27) (w : Fin 81), s0 (ix2 wl w) = W.s0 (ix2 w wl))
    (hs1 : ∀ (wl : Fin 27) (w : Fin 81), s1 (ix2 wl w) = W.s1 (ix2 w wl))
    (hwf0 : ∀ (ch co : Fin 32), wf0 (ix2 ch co) = W.wf0 (ix2 co ch))
    (hwf1 : ∀ (ch co : Fin 32), wf1 (ix2 ch co) = W.wf1 (ix2 co ch))
    (hbf : ∀ co : Fin 32, bf (ix2 0 co) = W.bf (ix2 co 0))
    (wl : Fin 27) (co : Fin 32) :
    k0_pay7 (F := Ideal) (k0_pay5 v49 w2 b2 s0 wf0) (k0_pay6 v49 w2 b2 s1) wf1 bf (ix3 0 wl co)
      = Cert.Spec.x44 σ W co wl := by
  unfold k0_pay7 Cert.Spec.x44
  refine (shapeCast_ab_1ab_apply _ _ 0 wl co).trans ?_
  rw [truncf_apply, maximumf_apply, broadcast_apply]
  show max _ (Ideal.ofBits .f32 0x00000000#32) = _
  rw [Ideal.ofBits_zero_f32, addf_apply, addf_apply, broadcastTo_1b_ab_apply, shapeCast_self bf, hbf,
    tail_f0 σ W v49 w2 b2 hv hw2 hb2 s0 wf0 hs0 hwf0]
  refine congrArg (fun t => max ((_ + t) + W.bf (ix2 co 0)) 0) ?_
  refine (TileMatmul.matmul_zero_apply dot_S27x32_S32x32_S27x32_1_0_0_1_n_n_wf none _ _ wl co).trans ?_
  refine Finset.sum_congr rfl fun ch _ => ?_
  rw [shapeCast_self wf1, hwf1, tail_t1 σ W v49 w2 b2 hv hw2 hb2 s1 hs1, mul_comm]

end Tail

end Cert.KernelIdeal.KV

end
-- ==== Proof.KV.StreamSpec.lean ====
/- One stream of the convolution kernel against the specification: from the stream's signal block and the re-laid
   weight tables, the stored feature block is the specification's pooled features and the stored slab its fusion slab. -/
import proofs.«116650_g2000303023666169_pallasbulk_55_22_alg».proof.Proof.KV.Streams
import proofs.«116650_g2000303023666169_pallasbulk_55_22_alg».proof.Proof.KV.ConvRead
import proofs.«116650_g2000303023666169_pallasbulk_55_22_alg».proof.Proof.KV.TailRead

set_option maxRecDepth 16384

noncomputable section
namespace Cert.KernelIdeal.KV
open Idealize.ShloMosaic Idealize.ShloMosaic.ValueIdx Cert.KernelIdeal Cert.KernelIdeal.Gen

variable (σ : Fin 2 → ℕ → EReal) (W : Cert.Spec.Wts)

/-- The stored feature block of a stream, width-major: entry (w, ch) is the specification's feature (ch, w). -/
theorem stream_z (x : Vec Ideal S1x2x91x120 .bf16) (w1 : Vec Ideal S720x384 .bf16) (b1 : Vec Ideal S1x384 .f32) (w2 : Vec Ideal S64x64 .bf16) (b2 : Vec Ideal S1x64 .f32)
    (hx : ∀ (c : Fin 2) (mr : Fin 91) (ph : Fin 120), x (ix4 0 c mr ph) = σ c (mr.val * 120 + ph.val))
    (hw1 : ∀ (c : Fin 2) (q : Fin 3) (ph : Fin 120) (n : Fin 384) (r : Fin 720), r.val = (c.val * 3 + q.val) * 120 + ph.val →
      w1 (ix2 r n) = W.w1q (ix3 q n (Cert.Spec.k240 c ph)))
    (hb1 : ∀ n : Fin 384, b1 (ix2 0 n) = W.b1s (ix2 n 0))
    (hw2 : ∀ (k r : Fin 64), w2 (ix2 k r) = W.wc2 (ix2 r k)) (hb2 : ∀ r : Fin 64, b2 (ix2 0 r) = W.b2s (ix2 r 0))
    (w : Fin 81) (ch : Fin 32) : ZB (F := Ideal) x w1 b1 w2 b2 (ix3 0 w ch) = Cert.Spec.z σ W ch w.val := by
  unfold ZB
  exact tail_z σ W _ w2 b2 (pay2_apply σ W x w1 b1 hx hw1 hb1) hw2 hb2 w ch

/-- The stored fusion slab of a stream, width-major: entry (wl, co) is the specification's slab entry (co, wl). -/
theorem stream_x44 (x : Vec Ideal S1x2x91x120 .bf16) (w1 : Vec Ideal S720x384 .bf16) (b1 : Vec Ideal S1x384 .f32) (w2 : Vec Ideal S64x64 .bf16) (b2 : Vec Ideal S1x64 .f32)
    (hx : ∀ (c : Fin 2) (mr : Fin 91) (ph : Fin 120), x (ix4 0 c mr ph) = σ c (mr.val * 120 + ph.val))
    (hw1 : ∀ (c : Fin 2) (q : Fin 3) (ph : Fin 120) (n : Fin 384) (r : Fin 720), r.val = (c.val * 3 + q.val) * 120 + ph.val →
      w1 (ix2 r n) = W.w1q (ix3 q n (Cert.Spec.k240 c ph)))
    (hb1 : ∀ n : Fin 384, b1 (ix2 0 n) = W.b1s (ix2 n 0))
    (hw2 : ∀ (k r : Fin 64), w2 (ix2 k r) = W.wc2 (ix2 r k)) (hb2 : ∀ r : Fin 64, b2 (ix2 0 r) = W.b2s (ix2 r 0))
    (s0 s1 : Vec Ideal S27x81 .bf16) (wf0 wf1 : Vec Ideal S32x32 .bf16) (bf : Vec Ideal S1x32 .f32)
    (hs0 : ∀ (wl : Fin 27) (w : Fin 81), s0 (ix2 wl w) = W.s0 (ix2 w wl)) (hs1 : ∀ (wl : Fin 27) (w : Fin 81), s1 (ix2 wl w) = W.s1 (ix2 w wl))
    (hwf0 : ∀ (ch co : Fin 32), wf0 (ix2 ch co) = W.wf0 (ix2 co ch)) (hwf1 : ∀ (ch co : Fin 32), wf1 (ix2 ch co) = W.wf1 (ix2 co ch))
    (hbf : ∀ co : Fin 32, bf (ix2 0 co) = W.bf (ix2 co 0)) (wl : Fin 27) (co : Fin 32) :
    YB (F := Ideal) x w1 b1 w2 b2 s0 s1 wf0 wf1 bf (ix3 0 wl co) = Cert.Spec.x44 σ W co wl := by
  unfold YB
  exact tail_x44 σ W _ w2 b2 (pay2_apply σ W x w1 b1 hx hw1 hb1) hw2 hb2 s0 s1 wf0 wf1 bf hs0 hs1 hwf0 hwf1 hbf wl co

end Cert.KernelIdeal.KV
end
-- ==== Proof.KV.Region0Value.lean ====
/- The per-stream region's two output arrays over the program's arguments: row `g` of the pooled-features array is the
   specification's pooled features of stream `g` (batch element `g mod 128`, sensor pair `g div 128`, zero beyond the
   signal's samples), and row `g` of the fusion-slab array its fusion slab. Each follows from the array's rows as the
   per-stream function of the region's input arrays, those arrays as the arguments, and the per-stream function against
   the specification. -/
import proofs.«116650_g2000303023666169_pallasbulk_55_22_alg».proof.Proof.KI.Frame
import proofs.«116650_g2000303023666169_pallasbulk_55_22_alg».proof.Proof.KV.Blocks
import proofs.«116650_g2000303023666169_pallasbulk_55_22_alg».proof.Proof.KV.HostPre
import proofs.«116650_g2000303023666169_pallasbulk_55_22_alg».proof.Proof.KV.StreamSpec
import proofs.«116650_g2000303023666169_pallasbulk_55_22_alg».proof.Proof.Spec

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (mI : (ℓ : Loc nD τ sig) → Buf (Elt Ideal) ℓ)

/-- The signal as the program's first argument gives it. -/
def sigX (c : Dev nD) : Cert.Spec.A4 128 1 6 10178 := mI ((c : Thread nD τ).loc main_arg0)

/-- The stream block's weights as the arguments give them. -/
def wts (c : Dev nD) : Cert.Spec.Wts where
  w1q := mI ((c : Thread nD τ).loc main_arg1)
  b1s := mI ((c : Thread nD τ).loc main_arg2)
  wc2 := mI ((c : Thread nD τ).loc main_arg3)
  b2s := mI ((c : Thread nD τ).loc main_arg4)
  wf0 := mI ((c : Thread nD τ).loc main_arg5)
  wf1 := mI ((c : Thread nD τ).loc main_arg6)
  bf := mI ((c : Thread nD τ).loc main_arg7)
  s0 := mI ((c : Thread nD τ).loc main_arg8)
  s1 := mI ((c : Thread nD τ).loc main_arg9)

/-- The head's weights as the arguments give them. -/
def hwts (c : Dev nD) : Cert.Spec.HWts where
  wcon := mI ((c : Thread nD τ).loc main_arg10)
  bcon := mI ((c : Thread nD τ).loc main_arg11)
  wfl := mI ((c : Thread nD τ).loc main_arg12)
  bfl := mI ((c : Thread nD τ).loc main_arg13)
  wout := mI ((c : Thread nD τ).loc main_arg14)
  bout := mI ((c : Thread nD τ).loc main_arg15)

/-- Stream `g`'s rows of the signal array are the specification's signal pair of stream `g`. -/
theorem strmX_sig (c : Dev nD) (g : Fin 384) (c' : Fin 2) (mr : Fin 91) (ph : Fin 120) :
    strmX (Vin0 mI) c g (ix4 (0 : Fin 1) c' mr ph) = Cert.Spec.sig (sigX mI c) g c' (mr.val * 120 + ph.val) := by
  have hg := g.isLt
  have hc := c'.isLt
  refine (strmX_apply (Vin0 mI) c g 0 c' mr ph ⟨g.val % 128, Nat.mod_lt _ (by decide)⟩ rfl ⟨2 * (g.val / 128) + c'.val, by omega⟩ rfl).trans ?_
  refine (V3_v3_apply mI c _ _ mr ph).trans ?_
  rfl

/-- Row `g` of the pooled-features array after the region is the specification's pooled features of stream `g`. -/
theorem arr10_spec (c : Dev nD) (g : Fin 384) (w : Fin 81) (ch : Fin 32) :
    ((dat0 (Vin0 mI) c).arrAt 10 cfg0.N : S384x81x32.Idx → EReal) (ix3 g w ch)
      = Cert.Spec.z (Cert.Spec.sig (sigX mI c) g) (wts mI c) ch w.val := by
  refine (arr10_apply (Vin0 mI) c g w ch).trans ?_
  exact stream_z (Cert.Spec.sig (sigX mI c) g) (wts mI c) (strmX (Vin0 mI) c g)
    (Vin0 mI c main_v24) (Vin0 mI c main_v25) (Vin0 mI c main_v27) (Vin0 mI c main_v28)
    (fun c' mr ph => strmX_sig mI c g c' mr ph)
    (fun c' q ph n r hr => V3_v24_apply mI c c' q ph n r hr (Cert.Spec.k240 c' ph) rfl)
    (fun n => V3_v25_apply mI c 0 n)
    (fun k r => V3_v27_apply mI c k r)
    (fun r => V3_v28_apply mI c 0 r) w ch

/-- Row `g` of the fusion-slab array after the region is the specification's fusion slab of stream `g`. -/
theorem arr11_spec (c : Dev nD) (g : Fin 384) (wl : Fin 27) (co : Fin 32) :
    ((dat0 (Vin0 mI) c).arrAt 11 cfg0.N : S384x27x32.Idx → EReal) (ix3 g wl co)
      = Cert.Spec.x44 (Cert.Spec.sig (sigX mI c) g) (wts mI c) co wl := by
  refine (arr11_apply (Vin0 mI) c g wl co).trans ?_
  exact stream_x44 (Cert.Spec.sig (sigX mI c) g) (wts mI c) (strmX (Vin0 mI) c g)
    (Vin0 mI c main_v24) (Vin0 mI c main_v25) (Vin0 mI c main_v27) (Vin0 mI c main_v28)
    (fun c' mr ph => strmX_sig mI c g c' mr ph)
    (fun c' q ph n r hr => V3_v24_apply mI c c' q ph n r hr (Cert.Spec.k240 c' ph) rfl)
    (fun n => V3_v25_apply mI c 0 n)
    (fun k r => V3_v27_apply mI c k r)
    (fun r => V3_v28_apply mI c 0 r)
    (Vin0 mI c main_v34) (Vin0 mI c main_v36) (Vin0 mI c main_v30) (Vin0 mI c main_v32) (Vin0 mI c main_v37)
    (fun wl w => V3_v34_apply mI c wl w)
    (fun wl w => V3_v36_apply mI c wl w)
    (fun ch co => V3_v30_apply mI c ch co)
    (fun ch co => V3_v32_apply mI c ch co)
    (fun co => V3_v37_apply mI c 0 co) wl co

end Cert.KernelIdeal.KV
end
-- ==== Proof.KV.Region1Value.lean ====
/- Region 1's two output arrays after the run, as functions of its input arrays when the region is entered.

   The region's grid has one point, and at that point every window's block index is (0, 0) with the block as large as
   the array: the block an input window fetches is the array itself, and the block an output window writes back covers
   its whole array. The body's one store to each output buffer is a whole-buffer store of a pure function of the loaded
   input blocks, so each output array ends holding that function of the input arrays. -/
import proofs.«116650_g2000303023666169_pallasbulk_55_22_alg».proof.Proof.KI.Region1
import Idealize.ShloMosaic.Lib.Pipeline.Value
import Idealize.ShloMosaic.Lib.ValueIdx

set_option maxRecDepth 16384

noncomputable section

namespace Cert.KernelIdeal.KV

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem r1_hz : (![0, 0] : Fin 2 → Nat) = fun _ => 0 := funext fun a => by fin_cases a <;> rfl

/-! ## The one point's blocks are the whole arrays -/

theorem r1_idx0 : ∀ t : Fin cfg1.N, win1_0.index t (0 : Fin 2) = 0 ∧ win1_0.index t (1 : Fin 2) = 0 :=
  (by decide +kernel : ∀ t : Fin grid1.N, _)
theorem r1_idx1 : ∀ t : Fin cfg1.N, win1_1.index t (0 : Fin 2) = 0 ∧ win1_1.index t (1 : Fin 2) = 0 :=
  (by decide +kernel : ∀ t : Fin grid1.N, _)
theorem r1_idx2 : ∀ t : Fin cfg1.N, win1_2.index t (0 : Fin 2) = 0 ∧ win1_2.index t (1 : Fin 2) = 0 :=
  (by decide +kernel : ∀ t : Fin grid1.N, _)
theorem r1_idx3 : ∀ t : Fin cfg1.N, win1_3.index t (0 : Fin 2) = 0 ∧ win1_3.index t (1 : Fin 2) = 0 :=
  (by decide +kernel : ∀ t : Fin grid1.N, _)
theorem r1_idx4 : ∀ t : Fin cfg1.N, win1_4.index t (0 : Fin 2) = 0 ∧ win1_4.index t (1 : Fin 2) = 0 :=
  (by decide +kernel : ∀ t : Fin grid1.N, _)
theorem r1_idx5 : ∀ t : Fin cfg1.N, win1_5.index t (0 : Fin 2) = 0 ∧ win1_5.index t (1 : Fin 2) = 0 :=
  (by decide +kernel : ∀ t : Fin grid1.N, _)
theorem r1_idx6 : ∀ t : Fin cfg1.N, win1_6.index t (0 : Fin 2) = 0 ∧ win1_6.index t (1 : Fin 2) = 0 :=
  (by decide +kernel : ∀ t : Fin grid1.N, _)
theorem r1_idx7 : ∀ t : Fin cfg1.N, win1_7.index t (0 : Fin 2) = 0 ∧ win1_7.index t (1 : Fin 2) = 0 :=
  (by decide +kernel : ∀ t : Fin grid1.N, _)
theorem r1_idx8 : ∀ t : Fin cfg1.N, win1_8.index t (0 : Fin 2) = 0 ∧ win1_8.index t (1 : Fin 2) = 0 :=
  (by decide +kernel : ∀ t : Fin grid1.N, _)
theorem r1_idx9 : ∀ t : Fin cfg1.N, win1_9.index t (0 : Fin 2) = 0 ∧ win1_9.index t (1 : Fin 2) = 0 :=
  (by decide +kernel : ∀ t : Fin grid1.N, _)

/-- Window 0's block at the point is its whole array: a block index is the array index. -/
theorem r1_emb0 (t : Fin cfg1.N) (j : S384x2592.Idx) : ((cfg1.win 0).blk t).view.emb j = j := by
  obtain ⟨e0, e1⟩ := r1_idx0 t
  funext a; apply Fin.ext
  match a with
  | ⟨0, _⟩ => show win1_0.index t (0 : Fin 2) * 384 + 1 * (j 0).val = (j 0).val; omega
  | ⟨1, _⟩ => show win1_0.index t (1 : Fin 2) * 2592 + 1 * (j 1).val = (j 1).val; omega

/-- Window 1's block at the point is its whole array: a block index is the array index. -/
theorem r1_emb1 (t : Fin cfg1.N) (j : S128x2592.Idx) : ((cfg1.win 1).blk t).view.emb j = j := by
  obtain ⟨e0, e1⟩ := r1_idx1 t
  funext a; apply Fin.ext
  match a with
  | ⟨0, _⟩ => show win1_1.index t (0 : Fin 2) * 128 + 1 * (j 0).val = (j 0).val; omega
  | ⟨1, _⟩ => show win1_1.index t (1 : Fin 2) * 2592 + 1 * (j 1).val = (j 1).val; omega

/-- Window 2's block at the point is its whole array: a block index is the array index. -/
theorem r1_emb2 (t : Fin cfg1.N) (j : S2592x32.Idx) : ((cfg1.win 2).blk t).view.emb j = j := by
  obtain ⟨e0, e1⟩ := r1_idx2 t
  funext a; apply Fin.ext
  match a with
  | ⟨0, _⟩ => show win1_2.index t (0 : Fin 2) * 2592 + 1 * (j 0).val = (j 0).val; omega
  | ⟨1, _⟩ => show win1_2.index t (1 : Fin 2) * 32 + 1 * (j 1).val = (j 1).val; omega

/-- Window 3's block at the point is its whole array: a block index is the array index. -/
theorem r1_emb3 (t : Fin cfg1.N) (j : S1x32.Idx) : ((cfg1.win 3).blk t).view.emb j = j := by
  obtain ⟨e0, e1⟩ := r1_idx3 t
  funext a; apply Fin.ext
  match a with
  | ⟨0, _⟩ => show win1_3.index t (0 : Fin 2) * 1 + 1 * (j 0).val = (j 0).val; omega
  | ⟨1, _⟩ => show win1_3.index t (1 : Fin 2) * 32 + 1 * (j 1).val = (j 1).val; omega

/-- Window 4's block at the point is its whole array: a block index is the array index. -/
theorem r1_emb4 (t : Fin cfg1.N) (j : S2592x32.Idx) : ((cfg1.win 4).blk t).view.emb j = j := by
  obtain ⟨e0, e1⟩ := r1_idx4 t
  funext a; apply Fin.ext
  match a with
  | ⟨0, _⟩ => show win1_4.index t (0 : Fin 2) * 2592 + 1 * (j 0).val = (j 0).val; omega
  | ⟨1, _⟩ => show win1_4.index t (1 : Fin 2) * 32 + 1 * (j 1).val = (j 1).val; omega

/-- Window 5's block at the point is its whole array: a block index is the array index. -/
theorem r1_emb5 (t : Fin cfg1.N) (j : S1x32.Idx) : ((cfg1.win 5).blk t).view.emb j = j := by
  obtain ⟨e0, e1⟩ := r1_idx5 t
  funext a; apply Fin.ext
  match a with
  | ⟨0, _⟩ => show win1_5.index t (0 : Fin 2) * 1 + 1 * (j 0).val = (j 0).val; omega
  | ⟨1, _⟩ => show win1_5.index t (1 : Fin 2) * 32 + 1 * (j 1).val = (j 1).val; omega

/-- Window 6's block at the point is its whole array: a block index is the array index. -/
theorem r1_emb6 (t : Fin cfg1.N) (j : S128x10.Idx) : ((cfg1.win 6).blk t).view.emb j = j := by
  obtain ⟨e0, e1⟩ := r1_idx6 t
  funext a; apply Fin.ext
  match a with
  | ⟨0, _⟩ => show win1_6.index t (0 : Fin 2) * 128 + 1 * (j 0).val = (j 0).val; omega
  | ⟨1, _⟩ => show win1_6.index t (1 : Fin 2) * 10 + 1 * (j 1).val = (j 1).val; omega

/-- Window 7's block at the point is its whole array: a block index is the array index. -/
theorem r1_emb7 (t : Fin cfg1.N) (j : S1x10.Idx) : ((cfg1.win 7).blk t).view.emb j = j := by
  obtain ⟨e0, e1⟩ := r1_idx7 t
  funext a; apply Fin.ext
  match a with
  | ⟨0, _⟩ => show win1_7.index t (0 : Fin 2) * 1 + 1 * (j 0).val = (j 0).val; omega
  | ⟨1, _⟩ => show win1_7.index t (1 : Fin 2) * 10 + 1 * (j 1).val = (j 1).val; omega

/-- Window 8's block at the point is its whole array: a block index is the array index. -/
theorem r1_emb8 (t : Fin cfg1.N) (j : S128x10.Idx) : ((cfg1.win 8).blk t).view.emb j = j := by
  obtain ⟨e0, e1⟩ := r1_idx8 t
  funext a; apply Fin.ext
  match a with
  | ⟨0, _⟩ => show win1_8.index t (0 : Fin 2) * 128 + 1 * (j 0).val = (j 0).val; omega
  | ⟨1, _⟩ => show win1_8.index t (1 : Fin 2) * 10 + 1 * (j 1).val = (j 1).val; omega

/-- Window 9's block at the point is its whole array: a block index is the array index. -/
theorem r1_emb9 (t : Fin cfg1.N) (j : S128x128.Idx) : ((cfg1.win 9).blk t).view.emb j = j := by
  obtain ⟨e0, e1⟩ := r1_idx9 t
  funext a; apply Fin.ext
  match a with
  | ⟨0, _⟩ => show win1_9.index t (0 : Fin 2) * 128 + 1 * (j 0).val = (j 0).val; omega
  | ⟨1, _⟩ => show win1_9.index t (1 : Fin 2) * 128 + 1 * (j 1).val = (j 1).val; omega

/-- Input window 0's block at the point is the array as the region finds it. -/
theorem r1_iblk0 (c : Dev nD) (t : Fin cfg1.N) :
    iblk1 V c 0 t = (V c (Pipeline.arrRef spec1 0) : Vec F S384x2592 .bf16) := by
  funext j
  show V c (Pipeline.arrRef spec1 0) (((cfg1.win 0).blk t).view.emb j) = _
  rw [r1_emb0]

/-- Input window 1's block at the point is the array as the region finds it. -/
theorem r1_iblk1 (c : Dev nD) (t : Fin cfg1.N) :
    iblk1 V c 1 t = (V c (Pipeline.arrRef spec1 1) : Vec F S128x2592 .bf16) := by
  funext j
  show V c (Pipeline.arrRef spec1 1) (((cfg1.win 1).blk t).view.emb j) = _
  rw [r1_emb1]

/-- Input window 2's block at the point is the array as the region finds it. -/
theorem r1_iblk2 (c : Dev nD) (t : Fin cfg1.N) :
    iblk1 V c 2 t = (V c (Pipeline.arrRef spec1 2) : Vec F S2592x32 .bf16) := by
  funext j
  show V c (Pipeline.arrRef spec1 2) (((cfg1.win 2).blk t).view.emb j) = _
  rw [r1_emb2]

/-- Input window 3's block at the point is the array as the region finds it. -/
theorem r1_iblk3 (c : Dev nD) (t : Fin cfg1.N) :
    iblk1 V c 3 t = (V c (Pipeline.arrRef spec1 3) : Vec F S1x32 .f32) := by
  funext j
  show V c (Pipeline.arrRef spec1 3) (((cfg1.win 3).blk t).view.emb j) = _
  rw [r1_emb3]

/-- Input window 4's block at the point is the array as the region finds it. -/
theorem r1_iblk4 (c : Dev nD) (t : Fin cfg1.N) :
    iblk1 V c 4 t = (V c (Pipeline.arrRef spec1 4) : Vec F S2592x32 .bf16) := by
  funext j
  show V c (Pipeline.arrRef spec1 4) (((cfg1.win 4).blk t).view.emb j) = _
  rw [r1_emb4]

/-- Input window 5's block at the point is the array as the region finds it. -/
theorem r1_iblk5 (c : Dev nD) (t : Fin cfg1.N) :
    iblk1 V c 5 t = (V c (Pipeline.arrRef spec1 5) : Vec F S1x32 .f32) := by
  funext j
  show V c (Pipeline.arrRef spec1 5) (((cfg1.win 5).blk t).view.emb j) = _
  rw [r1_emb5]

/-- Input window 6's block at the point is the array as the region finds it. -/
theorem r1_iblk6 (c : Dev nD) (t : Fin cfg1.N) :
    iblk1 V c 6 t = (V c (Pipeline.arrRef spec1 6) : Vec F S128x10 .bf16) := by
  funext j
  show V c (Pipeline.arrRef spec1 6) (((cfg1.win 6).blk t).view.emb j) = _
  rw [r1_emb6]

/-- Input window 7's block at the point is the array as the region finds it. -/
theorem r1_iblk7 (c : Dev nD) (t : Fin cfg1.N) :
    iblk1 V c 7 t = (V c (Pipeline.arrRef spec1 7) : Vec F S1x10 .f32) := by
  funext j
  show V c (Pipeline.arrRef spec1 7) (((cfg1.win 7).blk t).view.emb j) = _
  rw [r1_emb7]

/-! ## The output arrays after the run -/

/-- Every index of window 8's array lies in the block the one point writes back. -/
theorem r1_mem8 (t : Fin cfg1.N) (i : S128x10.Idx) : i ∈ ((cfg1.win 8).blk t).view.set := by
  obtain ⟨e0, e1⟩ := r1_idx8 t
  have h0 := ValueIdx.idx2_lt0 i
  have h1 := ValueIdx.idx2_lt1 i
  show i ∈ ((View.whole main_v52_0).slice (win1_8.rect t)).set
  rw [View.set_slice_whole, Rect.mem_set_unit]
  intro a
  match a with
  | ⟨0, _⟩ => show win1_8.index t (0 : Fin 2) * 128 ≤ (i 0).val ∧ (i 0).val < win1_8.index t (0 : Fin 2) * 128 + 128; omega
  | ⟨1, _⟩ => show win1_8.index t (1 : Fin 2) * 10 ≤ (i 1).val ∧ (i 1).val < win1_8.index t (1 : Fin 2) * 10 + 10; omega

/-- Window 8's block is not cut at the array's end: what is written back of a buffer's contents is all of them. -/
theorem r1_cut8 {α : Type} (t : Fin cfg1.N) (X : S128x10.Idx → α) : (cfg1.win 8).cut (grid1.coords t) X = X := rfl

/-- Reading an array through window 8's block at the point gives the array. -/
theorem r1_read8 (t : Fin cfg1.N) (G : S128x10.Idx → Elt F .f32) :
    ((cfg1.win 8).blk t).view.read (Elt F) G = G := by
  funext j
  show G (((cfg1.win 8).blk t).view.emb j) = _
  rw [r1_emb8]

/-- Every index of window 9's array lies in the block the one point writes back. -/
theorem r1_mem9 (t : Fin cfg1.N) (i : S128x128.Idx) : i ∈ ((cfg1.win 9).blk t).view.set := by
  obtain ⟨e0, e1⟩ := r1_idx9 t
  have h0 := ValueIdx.idx2_lt0 i
  have h1 := ValueIdx.idx2_lt1 i
  show i ∈ ((View.whole main_v52_1).slice (win1_9.rect t)).set
  rw [View.set_slice_whole, Rect.mem_set_unit]
  intro a
  match a with
  | ⟨0, _⟩ => show win1_9.index t (0 : Fin 2) * 128 ≤ (i 0).val ∧ (i 0).val < win1_9.index t (0 : Fin 2) * 128 + 128; omega
  | ⟨1, _⟩ => show win1_9.index t (1 : Fin 2) * 128 ≤ (i 1).val ∧ (i 1).val < win1_9.index t (1 : Fin 2) * 128 + 128; omega

/-- Window 9's block is not cut at the array's end: what is written back of a buffer's contents is all of them. -/
theorem r1_cut9 {α : Type} (t : Fin cfg1.N) (X : S128x128.Idx → α) : (cfg1.win 9).cut (grid1.coords t) X = X := rfl

/-- Reading an array through window 9's block at the point gives the array. -/
theorem r1_read9 (t : Fin cfg1.N) (G : S128x128.Idx → Elt F .f32) :
    ((cfg1.win 9).blk t).view.read (Elt F) G = G := by
  funext j
  show G (((cfg1.win 9).blk t).view.emb j) = _
  rw [r1_emb9]

/-- The body's whole-buffer store to window 9, of whole-block loads, is the first payload of the loaded blocks. -/
theorem r1_out9_eq (x0 : Vec F S384x2592 .bf16) (x1 : Vec F S128x2592 .bf16) (x2 : Vec F S2592x32 .bf16) (x3 : Vec F S1x32 .f32) (x4 : Vec F S2592x32 .bf16) (x5 : Vec F S1x32 .f32) :
    out1_9 x0 x1 x2 x3 x4 x5 = k1_pay1 x0 x2 x3 x1 x4 x5 := by
  unfold out1_9
  rw [View.canon_unit_zero r1_hz]
  simp only [View.ld_unit_zero (S := S384x2592) r1_hz, View.ld_unit_zero (S := S128x2592) r1_hz, View.ld_unit_zero (S := S2592x32) r1_hz, View.ld_unit_zero (S := S1x32) r1_hz, View.ld_unit_zero (S := S128x10) r1_hz, View.ld_unit_zero (S := S1x10) r1_hz]

/-- The body's whole-buffer store to window 8, of whole-block loads, is the second payload of the loaded blocks. -/
theorem r1_out8_eq (x0 : Vec F S384x2592 .bf16) (x1 : Vec F S128x2592 .bf16) (x2 : Vec F S2592x32 .bf16) (x3 : Vec F S1x32 .f32) (x4 : Vec F S2592x32 .bf16) (x5 : Vec F S1x32 .f32) (x6 : Vec F S128x10 .bf16) (x7 : Vec F S1x10 .f32) :
    out1_8 x0 x1 x2 x3 x4 x5 x6 x7 = k1_pay2 x0 x2 x3 x1 x4 x5 x6 x7 := by
  unfold out1_8
  rw [View.canon_unit_zero r1_hz]
  simp only [View.ld_unit_zero (S := S384x2592) r1_hz, View.ld_unit_zero (S := S128x2592) r1_hz, View.ld_unit_zero (S := S2592x32) r1_hz, View.ld_unit_zero (S := S1x32) r1_hz, View.ld_unit_zero (S := S128x10) r1_hz, View.ld_unit_zero (S := S1x10) r1_hz]

/-- The payloads of equal blocks are equal. -/
theorem r1_pay1_congr {x0 y0 : Vec F S384x2592 .bf16} {x1 y1 : Vec F S128x2592 .bf16} {x2 y2 : Vec F S2592x32 .bf16} {x3 y3 : Vec F S1x32 .f32} {x4 y4 : Vec F S2592x32 .bf16} {x5 y5 : Vec F S1x32 .f32} (h0 : x0 = y0) (h1 : x1 = y1) (h2 : x2 = y2) (h3 : x3 = y3) (h4 : x4 = y4) (h5 : x5 = y5) :
    k1_pay1 x0 x2 x3 x1 x4 x5 = k1_pay1 y0 y2 y3 y1 y4 y5 := by
  subst h0 h1 h2 h3 h4 h5; rfl
theorem r1_pay2_congr {x0 y0 : Vec F S384x2592 .bf16} {x1 y1 : Vec F S128x2592 .bf16} {x2 y2 : Vec F S2592x32 .bf16} {x3 y3 : Vec F S1x32 .f32} {x4 y4 : Vec F S2592x32 .bf16} {x5 y5 : Vec F S1x32 .f32} {x6 y6 : Vec F S128x10 .bf16} {x7 y7 : Vec F S1x10 .f32} (h0 : x0 = y0) (h1 : x1 = y1) (h2 : x2 = y2) (h3 : x3 = y3) (h4 : x4 = y4) (h5 : x5 = y5) (h6 : x6 = y6) (h7 : x7 = y7) :
    k1_pay2 x0 x2 x3 x1 x4 x5 x6 x7 = k1_pay2 y0 y2 y3 y1 y4 y5 y6 y7 := by
  subst h0 h1 h2 h3 h4 h5 h6 h7; rfl

/-- What the point writes back to window 9's array is the 128x128 feature block of the input arrays. -/
theorem r1_flushed9 (c : Dev nD) (t : Fin cfg1.N) :
    (dat1 V c).flushed 9 t = k1_pay1 (V c (Pipeline.arrRef spec1 0) : Vec F S384x2592 .bf16) (V c (Pipeline.arrRef spec1 2) : Vec F S2592x32 .bf16) (V c (Pipeline.arrRef spec1 3) : Vec F S1x32 .f32) (V c (Pipeline.arrRef spec1 1) : Vec F S128x2592 .bf16) (V c (Pipeline.arrRef spec1 4) : Vec F S2592x32 .bf16) (V c (Pipeline.arrRef spec1 5) : Vec F S1x32 .f32) := by
  show (cfg1.win 9).cut (grid1.coords t) ((dat1 V c).after 9 t) = _
  rw [after1_9, r1_cut9, r1_out9_eq]
  exact r1_pay1_congr (r1_iblk0 V c t) (r1_iblk1 V c t) (r1_iblk2 V c t) (r1_iblk3 V c t) (r1_iblk4 V c t) (r1_iblk5 V c t)

/-- What the point writes back to window 8's array is the output block of the input arrays. -/
theorem r1_flushed8 (c : Dev nD) (t : Fin cfg1.N) :
    (dat1 V c).flushed 8 t = k1_pay2 (V c (Pipeline.arrRef spec1 0) : Vec F S384x2592 .bf16) (V c (Pipeline.arrRef spec1 2) : Vec F S2592x32 .bf16) (V c (Pipeline.arrRef spec1 3) : Vec F S1x32 .f32) (V c (Pipeline.arrRef spec1 1) : Vec F S128x2592 .bf16) (V c (Pipeline.arrRef spec1 4) : Vec F S2592x32 .bf16) (V c (Pipeline.arrRef spec1 5) : Vec F S1x32 .f32) (V c (Pipeline.arrRef spec1 6) : Vec F S128x10 .bf16) (V c (Pipeline.arrRef spec1 7) : Vec F S1x10 .f32) := by
  show (cfg1.win 8).cut (grid1.coords t) ((dat1 V c).after 8 t) = _
  rw [after1_8, r1_cut8, r1_out8_eq]
  exact r1_pay2_congr (r1_iblk0 V c t) (r1_iblk1 V c t) (r1_iblk2 V c t) (r1_iblk3 V c t) (r1_iblk4 V c t) (r1_iblk5 V c t)
    (r1_iblk6 V c t) (r1_iblk7 V c t)

/-- **Window 9's array after the region**: the 128x128 feature block, as the head's first payload of the input arrays
    (windows 0, 2, 3, 1, 4, 5 in the payload's parameter order). -/
theorem region1_out9 (c : Dev nD) :
    (dat1 V c).arrAt 9 cfg1.N = k1_pay1 (V c (Pipeline.arrRef spec1 0) : Vec F S384x2592 .bf16) (V c (Pipeline.arrRef spec1 2) : Vec F S2592x32 .bf16) (V c (Pipeline.arrRef spec1 3) : Vec F S1x32 .f32) (V c (Pipeline.arrRef spec1 1) : Vec F S128x2592 .bf16) (V c (Pipeline.arrRef spec1 4) : Vec F S2592x32 .bf16) (V c (Pipeline.arrRef spec1 5) : Vec F S1x32 .f32) :=
  (dat1 V c).arrAt_eq_of_cover 9 _ (fun t _ => (r1_flushed9 V c t).trans (r1_read9 t _).symm)
    (fun i => ⟨t1_0, flush1_9 t1_0, r1_mem9 t1_0 i⟩)

/-- **Window 8's array after the region**: the output block, as the head's second payload of the input arrays (windows
    0, 2, 3, 1, 4, 5, 6, 7 in the payload's parameter order). -/
theorem region1_out8 (c : Dev nD) :
    (dat1 V c).arrAt 8 cfg1.N = k1_pay2 (V c (Pipeline.arrRef spec1 0) : Vec F S384x2592 .bf16) (V c (Pipeline.arrRef spec1 2) : Vec F S2592x32 .bf16) (V c (Pipeline.arrRef spec1 3) : Vec F S1x32 .f32) (V c (Pipeline.arrRef spec1 1) : Vec F S128x2592 .bf16) (V c (Pipeline.arrRef spec1 4) : Vec F S2592x32 .bf16) (V c (Pipeline.arrRef spec1 5) : Vec F S1x32 .f32) (V c (Pipeline.arrRef spec1 6) : Vec F S128x10 .bf16) (V c (Pipeline.arrRef spec1 7) : Vec F S1x10 .f32) :=
  (dat1 V c).arrAt_eq_of_cover 8 _ (fun t _ => (r1_flushed8 V c t).trans (r1_read8 t _).symm)
    (fun i => ⟨t1_0, flush1_8 t1_0, r1_mem8 t1_0 i⟩)

end Cert.KernelIdeal.KV

end
-- ==== Proof.KV.Head.lean ====
/- The head kernel of the kernel program, read one entry at a time on the extended reals.

   The head takes the three streams' pooled features (one row per stream and batch element, 384 rows of 2592), the
   fused slabs (128 rows of 2592) and two weight tables, and forms
     * a dense layer with bias and rectifier on every feature row: entry (g, o) is
       max (∑ₖ zf (g, k) · wc (k, o) + bc (0, o)) 0,
     * the same on every fused row with the other table,
     * the feature block x6: for batch element b, the three stream rows b, 128 + b, 256 + b of the first result and
       row b of the second, side by side (columns 0–31, 32–63, 64–95, 96–127),
     * the output: x6 times the last table plus its bias row.
   A change of float format is the identity on the extended reals and a product into the zero accumulator is the
   plain finite sum, so each entry is the formula above in exactly this association: the sum over the contracted
   coordinate first, then the bias added on the right, then the maximum with 0 on the right.

   The second half re-indexes the sums over the 2592 flattened coordinates by (width, channel), respectively
   (stream, width, channel), and so meets the specification's sums; only commutativity and associativity of finite
   sums are used. -/
import proofs.«116650_g2000303023666169_pallasbulk_55_22_alg».proof.Proof.Gen.KernelIdeal.Skeleton
import proofs.«116650_g2000303023666169_pallasbulk_55_22_alg».proof.Proof.Spec
import proofs.«116650_g2000303023666169_pallasbulk_55_22_alg».proof.Proof.LibTileMatmul
import Idealize.ShloMosaic.Lib.Pipeline.Value
import Idealize.ShloMosaic.Lib.ValueLayout

noncomputable section

open scoped BigOperators

namespace Cert.KernelIdeal.KV.Head

open Idealize.ShloMosaic Idealize.ShloMosaic.ValueIdx Cert.KernelIdeal Cert.KernelIdeal.Gen

/-! ## Finite sums over a flattened coordinate -/

/-- A sum over `n = a·b` flattened coordinates is the double sum over (i, j) with flat coordinate `i·b + j`. -/
theorem sum_fin_mul {M : Type*} [AddCommMonoid M] {a b n : ℕ} (hn : a * b = n) (f : Fin n → M) :
    ∑ k : Fin n, f k = ∑ i : Fin a, ∑ j : Fin b,
      f ⟨i.val * b + j.val, hn ▸ Nat.lt_of_lt_of_le (Nat.add_lt_add_left j.isLt _)
        (by rw [← Nat.succ_mul]; exact Nat.mul_le_mul_right _ i.isLt)⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm, Nat.add_comm]

/-! ## One dense layer with bias and rectifier -/

/-- Entry (a, o) of a rectified dense layer: `max (∑ₖ A (a, k) · B (k, o) + bias (0, o)) 0`. -/
def dense {m : ℕ} (A : (⟨2, ![m, 2592]⟩ : Shape).Idx → EReal) (B : S2592x32.Idx → EReal) (bias : S1x32.Idx → EReal)
    (a : Fin m) (o : Fin 32) : EReal :=
  max ((∑ k : Fin 2592, A (ix2 a k) * B (ix2 k o)) + bias (ix2 0 o)) 0

/-- The operations of one dense layer — the product into the zero accumulator, the broadcast bias row added, the
    maximum with the zero splat — read at (a, o). -/
theorem dense_ops_apply {m : ℕ}
    (w : DotDims.WF ⟨2, ![m, 2592]⟩ ⟨2, ![2592, 32]⟩ ⟨2, ![m, 32]⟩ [1] [0] [0] [1] [] [])
    (hA : (⟨2, ![m, 2592]⟩ : Shape).ShapeCasts ⟨2, ![m, 2592]⟩)
    (hB : (⟨2, ![2592, 32]⟩ : Shape).ShapeCasts ⟨2, ![2592, 32]⟩)
    (hb : (⟨2, ![1, 32]⟩ : Shape).Broadcasts ⟨2, ![m, 32]⟩)
    (A : FVec Ideal ⟨2, ![m, 2592]⟩ .bf16) (B : FVec Ideal ⟨2, ![2592, 32]⟩ .bf16) (bias : FVec Ideal ⟨2, ![1, 32]⟩ .f32)
    (a : Fin m) (o : Fin 32) :
    maximumf (addf (matmul (F := Ideal) (TileMatmul.plainDims w) none (shapeCast ⟨2, ![m, 2592]⟩ A hA)
        (shapeCast ⟨2, ![2592, 32]⟩ B hB) (constant (F := Ideal) ⟨2, ![m, 32]⟩ .f32 0x00000000#32))
        (broadcastTo ⟨2, ![m, 32]⟩ bias hb))
      (broadcast ⟨2, ![m, 32]⟩ (Scalar.ofBits (F := Ideal) .f32 0x00000000#32)) (ix2 a o)
    = dense A B bias a o := by
  rw [shapeCast_self A hA, shapeCast_self B hB, maximumf_apply, addf_apply, broadcast_apply,
    TileMatmul.matmul_zero_apply, broadcastTo_1b_ab_apply]
  show max _ (Ideal.ofBits .f32 0x00000000#32) = _
  rw [Ideal.ofBits_zero_f32]
  rfl

/-! ## Four blocks of 32 columns side by side -/

/-- Off the column axis an entry of a block and the entry of the joined array have the same coordinate. -/
theorem off_axis (b n : Fin 128) (o : Fin 32) :
    ∀ ax : Fin S128x32.rank, ax.cast (rfl : S128x32.rank = S128x128.rank) ≠ (1 : Fin 2) →
      ((ix2 b o : S128x32.Idx) ax).val = ((ix2 b n : S128x128.Idx) (ax.cast rfl)).val := fun ax hax => by
  match ax with
  | ⟨0, _⟩ => rfl
  | ⟨1, _⟩ => exact absurd rfl hax

/-- Four [128, 32] blocks joined along the columns, read at (b, n) with `n = 0 + o`: block 0 at (b, o). -/
theorem concat4_apply_0 {α : Type} (x0 x1 x2 x3 : S128x32.Idx → α)
    (h : Shape.Concatenates [S128x32, S128x32, S128x32, S128x32] S128x128 1)
    (b n : Fin 128) (o : Fin 32) (hn : n.val = 0 + o.val) :
    concatenate S128x128 1 [⟨S128x32, x0⟩, ⟨S128x32, x1⟩, ⟨S128x32, x2⟩, ⟨S128x32, x3⟩] h (ix2 b n) = x0 (ix2 b o) :=
  concatenate_apply_piece (t := S128x128) (1 : Fin 2)
    [⟨S128x32, x0⟩, ⟨S128x32, x1⟩, ⟨S128x32, x2⟩, ⟨S128x32, x3⟩] h (ix2 b n) 0 (by show (0 : ℕ) < 4; omega) S128x32 x0 rfl rfl 0 rfl
    (ix2 b o) (off_axis b n o) (by show 0 + o.val = n.val; omega)

/-- Four [128, 32] blocks joined along the columns, read at (b, n) with `n = 32 + o`: block 1 at (b, o). -/
theorem concat4_apply_1 {α : Type} (x0 x1 x2 x3 : S128x32.Idx → α)
    (h : Shape.Concatenates [S128x32, S128x32, S128x32, S128x32] S128x128 1)
    (b n : Fin 128) (o : Fin 32) (hn : n.val = 32 + o.val) :
    concatenate S128x128 1 [⟨S128x32, x0⟩, ⟨S128x32, x1⟩, ⟨S128x32, x2⟩, ⟨S128x32, x3⟩] h (ix2 b n) = x1 (ix2 b o) :=
  concatenate_apply_piece (t := S128x128) (1 : Fin 2)
    [⟨S128x32, x0⟩, ⟨S128x32, x1⟩, ⟨S128x32, x2⟩, ⟨S128x32, x3⟩] h (ix2 b n) 1 (by show (1 : ℕ) < 4; omega) S128x32 x1 rfl rfl 32 rfl
    (ix2 b o) (off_axis b n o) (by show 32 + o.val = n.val; omega)

/-- Four [128, 32] blocks joined along the columns, read at (b, n) with `n = 64 + o`: block 2 at (b, o). -/
theorem concat4_apply_2 {α : Type} (x0 x1 x2 x3 : S128x32.Idx → α)
    (h : Shape.Concatenates [S128x32, S128x32, S128x32, S128x32] S128x128 1)
    (b n : Fin 128) (o : Fin 32) (hn : n.val = 64 + o.val) :
    concatenate S128x128 1 [⟨S128x32, x0⟩, ⟨S128x32, x1⟩, ⟨S128x32, x2⟩, ⟨S128x32, x3⟩] h (ix2 b n) = x2 (ix2 b o) :=
  concatenate_apply_piece (t := S128x128) (1 : Fin 2)
    [⟨S128x32, x0⟩, ⟨S128x32, x1⟩, ⟨S128x32, x2⟩, ⟨S128x32, x3⟩] h (ix2 b n) 2 (by show (2 : ℕ) < 4; omega) S128x32 x2 rfl rfl 64 rfl
    (ix2 b o) (off_axis b n o) (by show 64 + o.val = n.val; omega)

/-- Four [128, 32] blocks joined along the columns, read at (b, n) with `n = 96 + o`: block 3 at (b, o). -/
theorem concat4_apply_3 {α : Type} (x0 x1 x2 x3 : S128x32.Idx → α)
    (h : Shape.Concatenates [S128x32, S128x32, S128x32, S128x32] S128x128 1)
    (b n : Fin 128) (o : Fin 32) (hn : n.val = 96 + o.val) :
    concatenate S128x128 1 [⟨S128x32, x0⟩, ⟨S128x32, x1⟩, ⟨S128x32, x2⟩, ⟨S128x32, x3⟩] h (ix2 b n) = x3 (ix2 b o) :=
  concatenate_apply_piece (t := S128x128) (1 : Fin 2)
    [⟨S128x32, x0⟩, ⟨S128x32, x1⟩, ⟨S128x32, x2⟩, ⟨S128x32, x3⟩] h (ix2 b n) 3 (by show (3 : ℕ) < 4; omega) S128x32 x3 rfl rfl 96 rfl
    (ix2 b o) (off_axis b n o) (by show 96 + o.val = n.val; omega)

/-! ## The feature block -/

section Payload

variable (zf : Vec Ideal S384x2592 .bf16) (wc : Vec Ideal S2592x32 .bf16) (bc : Vec Ideal S1x32 .f32)
  (xf : Vec Ideal S128x2592 .bf16) (wl : Vec Ideal S2592x32 .bf16) (bl : Vec Ideal S1x32 .f32)

/-- Columns `32·s + o`, `s < 3`, of row `b` of the feature block: the rectified dense layer on stream row
    `g = 128·s + b`, at output `o`. -/
theorem head_x6_stream (b n : Fin 128) (o : Fin 32) (s : ℕ) (hs : s < 3) (hn : n.val = 32 * s + o.val)
    (g : Fin 384) (hg : g.val = 128 * s + b.val) :
    k1_pay1 (F := Ideal) zf wc bc xf wl bl (ix2 b n) = dense zf wc bc g o := by
  unfold k1_pay1
  interval_cases s
  · refine (concat4_apply_0 _ _ _ _ _ b n o (by omega)).trans ?_
    refine (slice2_axis0_apply 0 _ _ b o g (by omega)).trans ?_
    exact dense_ops_apply dot_S384x2592_S2592x32_S384x32_1_0_0_1_n_n_wf _ _ _ zf wc bc g o
  · refine (concat4_apply_1 _ _ _ _ _ b n o (by omega)).trans ?_
    refine (slice2_axis0_apply 128 _ _ b o g (by omega)).trans ?_
    exact dense_ops_apply dot_S384x2592_S2592x32_S384x32_1_0_0_1_n_n_wf _ _ _ zf wc bc g o
  · refine (concat4_apply_2 _ _ _ _ _ b n o (by omega)).trans ?_
    refine (slice2_axis0_apply 256 _ _ b o g (by omega)).trans ?_
    exact dense_ops_apply dot_S384x2592_S2592x32_S384x32_1_0_0_1_n_n_wf _ _ _ zf wc bc g o

/-- Columns `96 + o` of row `b` of the feature block: the rectified dense layer on fused row `b`. -/
theorem head_x6_fused (b n : Fin 128) (o : Fin 32) (hn : n.val = 96 + o.val) :
    k1_pay1 (F := Ideal) zf wc bc xf wl bl (ix2 b n) = dense xf wl bl b o := by
  unfold k1_pay1
  refine (concat4_apply_3 _ _ _ _ _ b n o hn).trans ?_
  exact dense_ops_apply dot_S128x2592_S2592x32_S128x32_1_0_0_1_n_n_wf _ _ _ xf wl bl b o

/-- The feature block by cases on the column, in the specification's own arrangement. -/
def x6K (b n : Fin 128) : EReal :=
  if h0 : n.val < 32 then dense zf wc bc (⟨b.val, by omega⟩ : Fin 384) ⟨n.val, h0⟩
  else if h1 : n.val < 64 then dense zf wc bc (⟨128 + b.val, by omega⟩ : Fin 384) ⟨n.val - 32, by omega⟩
  else if h2 : n.val < 96 then dense zf wc bc (⟨256 + b.val, by omega⟩ : Fin 384) ⟨n.val - 64, by omega⟩
  else dense xf wl bl b ⟨n.val - 96, by omega⟩

/-- **The feature block at an entry.** -/
theorem head_x6_apply (b n : Fin 128) :
    k1_pay1 (F := Ideal) zf wc bc xf wl bl (ix2 b n) = x6K zf wc bc xf wl bl b n := by
  unfold x6K
  split_ifs with h0 h1 h2
  · exact head_x6_stream zf wc bc xf wl bl b n _ 0 (by omega) (by simp) _ (by simp)
  · exact head_x6_stream zf wc bc xf wl bl b n _ 1 (by omega) (by simp; omega) _ (by simp)
  · exact head_x6_stream zf wc bc xf wl bl b n _ 2 (by omega) (by simp; omega) _ (by simp)
  · exact head_x6_fused zf wc bc xf wl bl b n _ (by simp; omega)

/-- **The output at an entry**: the feature row times the last table, the sum over the 128 features first, then the
    bias added on the right. -/
theorem head_out_apply (wo : Vec Ideal S128x10 .bf16) (bo : Vec Ideal S1x10 .f32) (b : Fin 128) (k : Fin 10) :
    k1_pay2 (F := Ideal) zf wc bc xf wl bl wo bo (ix2 b k)
      = (∑ n : Fin 128, k1_pay1 (F := Ideal) zf wc bc xf wl bl (ix2 b n) * wo (ix2 n k)) + bo (ix2 0 k) := by
  unfold k1_pay2
  refine (addf_apply _ _ _).trans ?_
  refine congrArg₂ (· + ·) ?_ (broadcastTo_1b_ab_apply bo _ b k)
  refine (TileMatmul.matmul_zero_apply dot_S128x128_S128x10_S128x10_1_0_0_1_n_n_wf none _ _ b k).trans ?_
  refine Finset.sum_congr rfl fun n _ => ?_
  rw [shapeCast_self]
  rfl

end Payload

/-! ## Against the specification -/

section AgainstSpec

variable (X : Spec.A4 128 1 6 10178) (W : Spec.Wts) (H : Spec.HWts)
variable (zf : Vec Ideal S384x2592 .bf16) (wc : Vec Ideal S2592x32 .bf16) (bc : Vec Ideal S1x32 .f32)
  (xf : Vec Ideal S128x2592 .bf16) (wl : Vec Ideal S2592x32 .bf16) (bl : Vec Ideal S1x32 .f32)

/-- The dense layer on stream row `g` is the specification's shared linear layer, when flat coordinate `w·32 + ch` of
    the row holds the stream's pooled feature (channel `ch`, width `w`) and of the table holds the weight of the
    channel-major coordinate `ch·81 + w`: the sum over 2592 coordinates is the double sum over (w, ch), and the two
    sums are exchanged. -/
theorem dense_eq_x5 (g : Fin 384) (o : Fin 32)
    (hz : ∀ (w : Fin 81) (ch : Fin 32) (k : Fin 2592), k.val = w.val * 32 + ch.val →
      zf (ix2 g k) = Spec.z (Spec.sig X g) W ch w.val)
    (hwc : ∀ (w : Fin 81) (ch : Fin 32) (k : Fin 2592), k.val = w.val * 32 + ch.val →
      wc (ix2 k o) = H.wcon (ix2 ⟨ch.val * 81 + w.val, by omega⟩ o))
    (hbc : bc (ix2 0 o) = H.bcon (ix2 0 o)) :
    dense zf wc bc g o = Spec.x5 X W H g o := by
  unfold dense Spec.x5
  rw [hbc]
  refine congrArg (fun t => max (t + H.bcon (ix2 0 o)) 0) ?_
  refine (sum_fin_mul (a := 81) (b := 32) (n := 2592) rfl _).trans ?_
  refine Eq.trans ?_ Finset.sum_comm
  exact Finset.sum_congr rfl fun w _ => Finset.sum_congr rfl fun ch _ =>
    congrArg₂ (· * ·) (hz w ch _ rfl) (hwc w ch _ rfl)

/-- The dense layer on fused row `b` is the specification's fusion linear layer, when flat coordinate
    `s·864 + w·32 + co` of the row holds stream `s`'s slab entry (channel `co`, local width `w`) and of the table holds
    the weight of coordinate `co·81 + s·27 + w`: the sum over 2592 coordinates is the triple sum over (s, w, co),
    reordered to (co, s, w). -/
theorem dense_eq_x54 (b : Fin 128) (o : Fin 32)
    (hx : ∀ (s : Fin 3) (w : Fin 27) (co : Fin 32) (k : Fin 2592), k.val = s.val * 864 + w.val * 32 + co.val →
      xf (ix2 b k) = Spec.x44 (Spec.sig X ⟨s.val * 128 + b.val, by omega⟩) W co w)
    (hwl : ∀ (s : Fin 3) (w : Fin 27) (co : Fin 32) (k : Fin 2592), k.val = s.val * 864 + w.val * 32 + co.val →
      wl (ix2 k o) = H.wfl (ix2 ⟨co.val * 81 + s.val * 27 + w.val, by omega⟩ o))
    (hbl : bl (ix2 0 o) = H.bfl (ix2 0 o)) :
    dense xf wl bl b o = Spec.x54 X W H b o := by
  unfold dense Spec.x54
  rw [hbl]
  refine congrArg (fun t => max (t + H.bfl (ix2 0 o)) 0) ?_
  refine (sum_fin_mul (a := 3) (b := 864) (n := 2592) rfl _).trans ?_
  refine Eq.trans ?_ Finset.sum_comm
  refine Finset.sum_congr rfl fun s _ => ?_
  refine (sum_fin_mul (a := 27) (b := 32) (n := 864) rfl _).trans ?_
  refine Eq.trans ?_ Finset.sum_comm
  exact Finset.sum_congr rfl fun w _ => Finset.sum_congr rfl fun co _ =>
    congrArg₂ (· * ·) (hx s w co _ (Nat.add_assoc _ _ _).symm) (hwl s w co _ (Nat.add_assoc _ _ _).symm)

/-- **The feature block is the specification's**, given what the operands hold. -/
theorem head_x6_spec
    (hz : ∀ (g : Fin 384) (w : Fin 81) (ch : Fin 32) (k : Fin 2592), k.val = w.val * 32 + ch.val →
      zf (ix2 g k) = Spec.z (Spec.sig X g) W ch w.val)
    (hwc : ∀ (w : Fin 81) (ch : Fin 32) (o : Fin 32) (k : Fin 2592), k.val = w.val * 32 + ch.val →
      wc (ix2 k o) = H.wcon (ix2 ⟨ch.val * 81 + w.val, by omega⟩ o))
    (hbc : ∀ o : Fin 32, bc (ix2 0 o) = H.bcon (ix2 0 o))
    (hx : ∀ (b : Fin 128) (s : Fin 3) (w : Fin 27) (co : Fin 32) (k : Fin 2592),
      k.val = s.val * 864 + w.val * 32 + co.val →
      xf (ix2 b k) = Spec.x44 (Spec.sig X ⟨s.val * 128 + b.val, by omega⟩) W co w)
    (hwl : ∀ (s : Fin 3) (w : Fin 27) (co : Fin 32) (o : Fin 32) (k : Fin 2592),
      k.val = s.val * 864 + w.val * 32 + co.val →
      wl (ix2 k o) = H.wfl (ix2 ⟨co.val * 81 + s.val * 27 + w.val, by omega⟩ o))
    (hbl : ∀ o : Fin 32, bl (ix2 0 o) = H.bfl (ix2 0 o))
    (b n : Fin 128) :
    k1_pay1 (F := Ideal) zf wc bc xf wl bl (ix2 b n) = Spec.x6 X W H b n := by
  rw [head_x6_apply]
  unfold x6K Spec.x6
  split_ifs with h0 h1 h2
  · exact dense_eq_x5 X W H zf wc bc _ _ (hz _) (fun w ch => hwc w ch _) (hbc _)
  · exact dense_eq_x5 X W H zf wc bc _ _ (hz _) (fun w ch => hwc w ch _) (hbc _)
  · exact dense_eq_x5 X W H zf wc bc _ _ (hz _) (fun w ch => hwc w ch _) (hbc _)
  · exact dense_eq_x54 X W H xf wl bl b _ (hx b) (fun s w co => hwl s w co _) (hbl _)

/-- **The output is the specification's**, given what the operands hold. -/
theorem head_out_spec (wo : Vec Ideal S128x10 .bf16) (bo : Vec Ideal S1x10 .f32)
    (hz : ∀ (g : Fin 384) (w : Fin 81) (ch : Fin 32) (k : Fin 2592), k.val = w.val * 32 + ch.val →
      zf (ix2 g k) = Spec.z (Spec.sig X g) W ch w.val)
    (hwc : ∀ (w : Fin 81) (ch : Fin 32) (o : Fin 32) (k : Fin 2592), k.val = w.val * 32 + ch.val →
      wc (ix2 k o) = H.wcon (ix2 ⟨ch.val * 81 + w.val, by omega⟩ o))
    (hbc : ∀ o : Fin 32, bc (ix2 0 o) = H.bcon (ix2 0 o))
    (hx : ∀ (b : Fin 128) (s : Fin 3) (w : Fin 27) (co : Fin 32) (k : Fin 2592),
      k.val = s.val * 864 + w.val * 32 + co.val →
      xf (ix2 b k) = Spec.x44 (Spec.sig X ⟨s.val * 128 + b.val, by omega⟩) W co w)
    (hwl : ∀ (s : Fin 3) (w : Fin 27) (co : Fin 32) (o : Fin 32) (k : Fin 2592),
      k.val = s.val * 864 + w.val * 32 + co.val →
      wl (ix2 k o) = H.wfl (ix2 ⟨co.val * 81 + s.val * 27 + w.val, by omega⟩ o))
    (hbl : ∀ o : Fin 32, bl (ix2 0 o) = H.bfl (ix2 0 o))
    (hwo : ∀ (n : Fin 128) (k : Fin 10), wo (ix2 n k) = H.wout (ix2 n k))
    (hbo : ∀ k : Fin 10, bo (ix2 0 k) = H.bout (ix2 0 k))
    (b : Fin 128) (k : Fin 10) :
    k1_pay2 (F := Ideal) zf wc bc xf wl bl wo bo (ix2 b k) = Spec.out X W H b k := by
  rw [head_out_apply]
  unfold Spec.out
  rw [hbo]
  refine congrArg (fun t => t + H.bout (ix2 0 k)) ?_
  exact Finset.sum_congr rfl fun n _ =>
    congrArg₂ (· * ·) (head_x6_spec X W H zf wc bc xf wl bl hz hwc hbc hx hwl hbl b n) (hwo n k)

end AgainstSpec

end Cert.KernelIdeal.KV.Head

end
-- ==== Proof.SpecArr.lean ====
/- The specification's two results as whole arrays. -/
import proofs.«116650_g2000303023666169_pallasbulk_55_22_alg».proof.Proof.Spec

noncomputable section

open Idealize.ShloMosaic

namespace Cert.Spec

/-- The output layer as a [128, 10] array. -/
def outArr (X : A4 128 1 6 10178) (W : Wts) (H : HWts) : (⟨2, ![128, 10]⟩ : Shape).Idx → EReal := fun i => out X W H (i 0) (i 1)

/-- The concatenated features as a [128, 128] array. -/
def x6Arr (X : A4 128 1 6 10178) (W : Wts) (H : HWts) : (⟨2, ![128, 128]⟩ : Shape).Idx → EReal := fun i => x6 X W H (i 0) (i 1)

end Cert.Spec

end
-- ==== Proof.KV.KernelValue.lean ====
/- The kernel program's run with its two results named by the specification: every weakly fair execution ends with the
   output array at the specification's output layer and the feature array at its concatenated features, as functions of
   the argument arrays, and with the arguments unchanged. The head region's two output arrays are its two payloads of its
   eight input arrays; those arrays are the per-stream region's output arrays flattened and the permuted tables, index by
   index; the per-stream region's output arrays are the specification's pooled features and fusion slabs; and the head's
   payloads of such operands are the specification's head. -/
import proofs.«116650_g2000303023666169_pallasbulk_55_22_alg».proof.Proof.KI.Frame
import proofs.«116650_g2000303023666169_pallasbulk_55_22_alg».proof.Proof.KV.HostMid
import proofs.«116650_g2000303023666169_pallasbulk_55_22_alg».proof.Proof.KV.Region0Value
import proofs.«116650_g2000303023666169_pallasbulk_55_22_alg».proof.Proof.KV.Region1Value
import proofs.«116650_g2000303023666169_pallasbulk_55_22_alg».proof.Proof.KV.Head
import proofs.«116650_g2000303023666169_pallasbulk_55_22_alg».proof.Proof.SpecArr

noncomputable section

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ)

/-- What the head region finds in the two arrays the per-stream region wrote. -/
theorem V4_v38_0 (c : Dev nD) :
    (V4 (F := Ideal) m (outsA m) c (Proc.devRef .tc main_v38_0) : S384x81x32.Idx → EReal) = (dat0 (Vin0 m) c).arrAt 10 cfg0.N :=
  (V4_at0 m (outsA m) c).trans (outs4_0 m c)
theorem V4_v38_1 (c : Dev nD) :
    (V4 (F := Ideal) m (outsA m) c (Proc.devRef .tc main_v38_1) : S384x27x32.Idx → EReal) = (dat0 (Vin0 m) c).arrAt 11 cfg0.N :=
  (V4_at1 m (outsA m) c).trans (outs4_1 m c)

/-- The flattened pooled features the head reads are the specification's. -/
theorem head_hz (c : Dev nD) (g : Fin 384) (w : Fin 81) (ch : Fin 32) (k : Fin 2592) (hk : k.val = w.val * 32 + ch.val) :
    (Vin1 m c main_v39 : S384x2592.Idx → EReal) (ix2 g k) = Cert.Spec.z (Cert.Spec.sig (sigX m c) g) (wts m c) ch w.val :=
  (V5_v39_apply m (outsA m) c g w ch k hk).trans ((congrFun (V4_v38_0 m c) (ix3 g w ch)).trans (arr10_spec m c g w ch))

/-- The side-by-side fusion slabs the head reads are the specification's. -/
theorem head_hx (c : Dev nD) (b : Fin 128) (s : Fin 3) (w : Fin 27) (co : Fin 32) (k : Fin 2592)
    (hk : k.val = s.val * 864 + w.val * 32 + co.val) :
    (Vin1 m c main_v42 : S128x2592.Idx → EReal) (ix2 b k)
      = Cert.Spec.x44 (Cert.Spec.sig (sigX m c) ⟨s.val * 128 + b.val, by omega⟩) (wts m c) co w :=
  (V5_v42_apply m (outsA m) c b s w co k hk ⟨s.val * 128 + b.val, by omega⟩ rfl).trans
    ((congrFun (V4_v38_1 m c) (ix3 ⟨s.val * 128 + b.val, by omega⟩ w co)).trans (arr11_spec m c ⟨s.val * 128 + b.val, by omega⟩ w co))

theorem head_hwc (c : Dev nD) (w : Fin 81) (ch : Fin 32) (o : Fin 32) (k : Fin 2592) (hk : k.val = w.val * 32 + ch.val) :
    (Vin1 m c main_v49 : S2592x32.Idx → EReal) (ix2 k o) = (hwts m c).wcon (ix2 ⟨ch.val * 81 + w.val, by omega⟩ o) :=
  V5_v49_apply m (outsA m) c w ch o k hk ⟨ch.val * 81 + w.val, by omega⟩ rfl

theorem head_hwl (c : Dev nD) (s : Fin 3) (w : Fin 27) (co : Fin 32) (o : Fin 32) (k : Fin 2592)
    (hk : k.val = s.val * 864 + w.val * 32 + co.val) :
    (Vin1 m c main_v50 : S2592x32.Idx → EReal) (ix2 k o) = (hwts m c).wfl (ix2 ⟨co.val * 81 + s.val * 27 + w.val, by omega⟩ o) :=
  V5_v50_apply m (outsA m) c s w co o k hk ⟨co.val * 81 + s.val * 27 + w.val, by omega⟩ rfl

theorem head_hbc (c : Dev nD) (o : Fin 32) : (Vin1 m c main_arg11 : S1x32.Idx → EReal) (ix2 0 o) = (hwts m c).bcon (ix2 0 o) :=
  congrFun (V5_arg11 m (outsA m) c) (ix2 0 o)
theorem head_hbl (c : Dev nD) (o : Fin 32) : (Vin1 m c main_arg13 : S1x32.Idx → EReal) (ix2 0 o) = (hwts m c).bfl (ix2 0 o) :=
  congrFun (V5_arg13 m (outsA m) c) (ix2 0 o)
theorem head_hwo (c : Dev nD) (n : Fin 128) (k : Fin 10) : (Vin1 m c main_v51 : S128x10.Idx → EReal) (ix2 n k) = (hwts m c).wout (ix2 n k) :=
  V5_v51_apply m (outsA m) c (ix2 n k)
theorem head_hbo (c : Dev nD) (k : Fin 10) : (Vin1 m c main_arg15 : S1x10.Idx → EReal) (ix2 0 k) = (hwts m c).bout (ix2 0 k) :=
  congrFun (V5_arg15 m (outsA m) c) (ix2 0 k)

/-- The head region's output array is the specification's output layer. -/
theorem out8_spec (c : Dev nD) : (dat1 (Vin1 m) c).arrAt 8 cfg1.N = Cert.Spec.outArr (sigX m c) (wts m c) (hwts m c) := by
  refine (region1_out8 (Vin1 m) c).trans ?_
  funext i
  obtain ⟨b, k, rfl⟩ : ∃ (b : Fin 128) (k : Fin 10), i = ix2 b k := ⟨i 0, i 1, eq_ix2 i⟩
  show _ = Cert.Spec.out (sigX m c) (wts m c) (hwts m c) b k
  exact Head.head_out_spec (sigX m c) (wts m c) (hwts m c) (Vin1 m c main_v39) (Vin1 m c main_v49) (Vin1 m c main_arg11)
    (Vin1 m c main_v42) (Vin1 m c main_v50) (Vin1 m c main_arg13) (Vin1 m c main_v51) (Vin1 m c main_arg15)
    (head_hz m c) (head_hwc m c) (head_hbc m c) (head_hx m c) (head_hwl m c) (head_hbl m c) (head_hwo m c) (head_hbo m c) b k

/-- The head region's feature array is the specification's concatenated features. -/
theorem out9_spec (c : Dev nD) : (dat1 (Vin1 m) c).arrAt 9 cfg1.N = Cert.Spec.x6Arr (sigX m c) (wts m c) (hwts m c) := by
  refine (region1_out9 (Vin1 m) c).trans ?_
  funext i
  obtain ⟨b, n, rfl⟩ : ∃ (b : Fin 128) (n : Fin 128), i = ix2 b n := ⟨i 0, i 1, eq_ix2 i⟩
  show _ = Cert.Spec.x6 (sigX m c) (wts m c) (hwts m c) b n
  exact Head.head_x6_spec (sigX m c) (wts m c) (hwts m c) (Vin1 m c main_v39) (Vin1 m c main_v49) (Vin1 m c main_arg11)
    (Vin1 m c main_v42) (Vin1 m c main_v50) (Vin1 m c main_arg13)
    (head_hz m c) (head_hwc m c) (head_hbc m c) (head_hx m c) (head_hwl m c) (head_hbl m c) b n

/-- The kernel program's run, its two results at the specification's arrays of the arguments, the arguments unchanged. -/
theorem kernel_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52_0) = Cert.Spec.outArr (sigX m c) (wts m c) (hwts m c)
      ∧ r.2.mem ((c.tc : Thread nD τ).loc main_v52_1) = Cert.Spec.x6Arr (sigX m c) (wts m c) (hwts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (out8_spec m c), (h c).2.1.trans (out9_spec m c), (h c).2.2⟩)
    (run_named m ρ)

end Cert.KernelIdeal.KV
end
-- ==== Proof.RV.HostMid.lean ====
/- What the reference's host hands its second kernel, read at an index. Between the launches the per-stream features
   [384, 32, 81] are flattened row-major to [384, 2592] (entry ch·81 + w of stream g is feature (ch, w)), and the
   per-stream slabs [384, 32, 27] are regrouped by batch element: stream s·128 + b's slab becomes columns
   co·81 + s·27 + wl of batch element b's row, through a reshape to [3, 128, 32, 27], the transposition to
   [128, 32, 3, 27] and the row-major flattening. The six remaining inputs are arguments no operation writes. -/
import proofs.«116650_g2000303023666169_pallasbulk_55_22_alg».proof.Proof.Gen.ReferenceIdeal.Regions
import Idealize.ShloMosaic.Lib.Pipeline.Value
import Idealize.ShloMosaic.Lib.ValueIdx
import Idealize.ShloMosaic.Lib.StableHlo.Run

noncomputable section

namespace Cert.ReferenceIdeal.RV

open Idealize.ShloMosaic Idealize.ShloMosaic.ValueIdx Idealize.ShloMosaic.TcCoe
open Cert.ReferenceIdeal Cert.ReferenceIdeal.Gen

variable {α : Type}

/-! ## The two layout chains, read at an index -/

/-- The flattened features: entry `ch·81 + w` of stream `g`'s row is feature `(ch, w)`. -/
theorem zflat_apply (Z : S384x32x81.Idx → α) (g : Fin 384) (ch : Fin 32) (w : Fin 81) :
    shapeCast S384x2592 Z shapeCasts_S384x32x81_S384x2592 (ix2 g ⟨ch.val * 81 + w.val, by omega⟩) = Z (ix3 g ch w) :=
  shapeCast_apply _ _ (ix2 g ⟨ch.val * 81 + w.val, by omega⟩) (ix3 g ch w)
    (by rw [Shape.rowMajor_val_three, Shape.rowMajor_val_two]
        show (g.val * 32 + ch.val) * 81 + w.val = g.val * 2592 + (ch.val * 81 + w.val)
        omega)

/-- The regrouped slabs as one function of the per-stream slabs. -/
def x44flat (Y : S384x32x27.Idx → α) : S128x2592.Idx → α :=
  shapeCast S128x2592
    (transpose S128x32x3x27 [1, 2, 0, 3] (shapeCast S3x128x32x27 Y shapeCasts_S384x32x27_S3x128x32x27)
      transposes_S3x128x32x27_S128x32x3x27_1_2_0_3)
    shapeCasts_S128x32x3x27_S128x2592

/-- Entry `co·81 + s·27 + wl` of batch element `b`'s row is entry `(co, wl)` of stream `s·128 + b`'s slab. -/
theorem x44flat_apply (Y : S384x32x27.Idx → α) (b : Fin 128) (co : Fin 32) (s : Fin 3) (wl : Fin 27) :
    x44flat Y (ix2 b ⟨co.val * 81 + s.val * 27 + wl.val, by omega⟩) = Y (ix3 ⟨s.val * 128 + b.val, by omega⟩ co wl) := by
  have hb := b.isLt
  have hco := co.isLt
  have hs := s.isLt
  have hwl := wl.isLt
  unfold x44flat
  refine (shapeCast_apply _ _ (ix2 b ⟨co.val * 81 + s.val * 27 + wl.val, by omega⟩) (ix4 b co s wl)
    (by rw [Shape.rowMajor_val_four, Shape.rowMajor_val_two]
        show ((b.val * 32 + co.val) * 3 + s.val) * 27 + wl.val = b.val * 2592 + (co.val * 81 + s.val * 27 + wl.val)
        omega)).trans ?_
  refine (transpose_apply _ _ _ (ix4 b co s wl) (ix4 s b co wl)
    (fun a => match a with | ⟨0, _⟩ => rfl | ⟨1, _⟩ => rfl | ⟨2, _⟩ => rfl | ⟨3, _⟩ => rfl)).trans ?_
  exact shapeCast_apply _ _ (ix4 s b co wl) (ix3 ⟨s.val * 128 + b.val, by omega⟩ co wl)
    (by rw [Shape.rowMajor_val_three, Shape.rowMajor_val_four]
        show ((s.val * 128 + b.val) * 32 + co.val) * 27 + wl.val = ((s.val * 128 + b.val) * 32 + co.val) * 27 + wl.val
        rfl)

/-! ## In the memory between the launches -/

section Mem
variable {F : FTy → Type} [FloatOps F]

set_option maxHeartbeats 1000000 in
/-- After the host stretch between the launches the second kernel's first input is the flattened feature array, -/
theorem mid_v14 (W : Valuation τ sig (Elt F)) :
    (StableHlo.after hostOps1 W (Proc.devRef .tc main_v14) : S384x2592.Idx → Elt F .f32)
      = shapeCast S384x2592 (W (Proc.devRef .tc main_v13_0) : S384x32x81.Idx → Elt F .f32) shapeCasts_S384x32x81_S384x2592 := by
  dsimp only [hostOps1]
  simp only [StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

set_option maxHeartbeats 1000000 in
/-- and its second the regrouped slabs. -/
theorem mid_v17 (W : Valuation τ sig (Elt F)) :
    (StableHlo.after hostOps1 W (Proc.devRef .tc main_v17) : S128x2592.Idx → Elt F .f32)
      = x44flat (W (Proc.devRef .tc main_v13_1) : S384x32x27.Idx → Elt F .f32) := by
  dsimp only [hostOps1]
  simp only [StableHlo.after_cons, StableHlo.after_nil]
  repeat (first
    | rw [StableHlo.unary_result] | rw [StableHlo.reshape_result]
    | (rw [StableHlo.unary_result_ne]; rotate_left; decide)
    | (rw [StableHlo.reshape_result_ne]; rotate_left; decide))
  rfl

variable (m : (ℓ : Loc nD τ sig) → Buf (Elt F) ℓ) (outs : Gen.Outs (F := F))

/-- The second kernel's first input at stream `g`, entry `ch·81 + w`: what the first launch left in its first output
    array at `(g, ch, w)`. -/
theorem zflat_block (c : Dev nD) (g : Fin 384) (ch : Fin 32) (w : Fin 81) :
    (Gen.V5 m outs c (Proc.devRef .tc main_v14) : S384x2592.Idx → Elt F .f32) (ix2 g ⟨ch.val * 81 + w.val, by omega⟩)
      = (Gen.V4 m outs c (Proc.devRef .tc main_v13_0) : S384x32x81.Idx → Elt F .f32) (ix3 g ch w) := by
  show (StableHlo.after hostOps1 (Gen.V4 m outs c) (Proc.devRef .tc main_v14) : S384x2592.Idx → Elt F .f32) _ = _
  rw [mid_v14]; exact zflat_apply _ g ch w

/-- The second kernel's second input at batch element `b`, entry `co·81 + s·27 + wl`: what the first launch left in
    its second output array at `(s·128 + b, co, wl)`. -/
theorem x44flat_block (c : Dev nD) (b : Fin 128) (co : Fin 32) (s : Fin 3) (wl : Fin 27) :
    (Gen.V5 m outs c (Proc.devRef .tc main_v17) : S128x2592.Idx → Elt F .f32) (ix2 b ⟨co.val * 81 + s.val * 27 + wl.val, by omega⟩)
      = (Gen.V4 m outs c (Proc.devRef .tc main_v13_1) : S384x32x27.Idx → Elt F .f32) (ix3 ⟨s.val * 128 + b.val, by omega⟩ co wl) := by
  show (StableHlo.after hostOps1 (Gen.V4 m outs c) (Proc.devRef .tc main_v17) : S128x2592.Idx → Elt F .f32) _ = _
  rw [mid_v17]; exact x44flat_apply _ b co s wl

/-- The two arrays the first launch may change, read off the valuation after it: the contents it leaves. -/
theorem V4_at0 (c : Dev nD) : Gen.V4 m outs c main_v13_0 = outs 4 main_v13_0 c := by
  simp only [Gen.V4, Function.update_of_ne (StableHlo.devRef_ne_of_ne (by decide : (main_v13_0 : Ref sig .tc) ≠ main_v13_1) : (Proc.devRef .tc main_v13_0 : DevRef τ sig) ≠ Proc.devRef .tc main_v13_1), Function.update_self]
theorem V4_at1 (c : Dev nD) : Gen.V4 m outs c main_v13_1 = outs 4 main_v13_1 c := by
  simp only [Gen.V4, Function.update_self]

/-- A buffer no host stretch writes and no launch may change holds its launch contents when the second kernel is
    entered. -/
theorem V5_keep (c : Dev nD) (r : Ref sig .tc)
    (h0 : r ∉ hostOps0_W) (h1 : r ∉ hostOps0_1_W) (h2 : r ∉ hostOps0_2_W)
    (h3 : r ∉ ([main_v13_0, main_v13_1] : List (Ref sig .tc))) (h4 : r ∉ hostOps1_W) :
    Gen.V5 m outs c r = m ((c.tc : Thread nD τ).loc r) :=
  (Gen.V5_of m outs c r h4).trans ((Gen.V4_of m outs c r h3).trans ((Gen.V3_of m c r h2).trans ((Gen.V2_of m c r h1).trans ((Gen.V1_of m c r h0).trans rfl))))

theorem V5_arg10 (c : Dev nD) : Gen.V5 m outs c main_arg10 = m ((c.tc : Thread nD τ).loc main_arg10) :=
  V5_keep m outs c main_arg10 (by decide) (by decide) (by decide) (by decide) (by decide)
theorem V5_arg11 (c : Dev nD) : Gen.V5 m outs c main_arg11 = m ((c.tc : Thread nD τ).loc main_arg11) :=
  V5_keep m outs c main_arg11 (by decide) (by decide) (by decide) (by decide) (by decide)
theorem V5_arg12 (c : Dev nD) : Gen.V5 m outs c main_arg12 = m ((c.tc : Thread nD τ).loc main_arg12) :=
  V5_keep m outs c main_arg12 (by decide) (by decide) (by decide) (by decide) (by decide)
theorem V5_arg13 (c : Dev nD) : Gen.V5 m outs c main_arg13 = m ((c.tc : Thread nD τ).loc main_arg13) :=
  V5_keep m outs c main_arg13 (by decide) (by decide) (by decide) (by decide) (by decide)
theorem V5_arg14 (c : Dev nD) : Gen.V5 m outs c main_arg14 = m ((c.tc : Thread nD τ).loc main_arg14) :=
  V5_keep m outs c main_arg14 (by decide) (by decide) (by decide) (by decide) (by decide)
theorem V5_arg15 (c : Dev nD) : Gen.V5 m outs c main_arg15 = m ((c.tc : Thread nD τ).loc main_arg15) :=
  V5_keep m outs c main_arg15 (by decide) (by decide) (by decide) (by decide) (by decide)

/-- The second kernel's windows stage the two computed arrays and the six head weights, in this order. -/
theorem win1_ref_0 : Pipeline.arrRef spec1 0 = main_v14 := rfl
theorem win1_ref_1 : Pipeline.arrRef spec1 1 = main_v17 := rfl
theorem win1_ref_2 : Pipeline.arrRef spec1 2 = main_arg10 := rfl
theorem win1_ref_3 : Pipeline.arrRef spec1 3 = main_arg11 := rfl
theorem win1_ref_4 : Pipeline.arrRef spec1 4 = main_arg12 := rfl
theorem win1_ref_5 : Pipeline.arrRef spec1 5 = main_arg13 := rfl
theorem win1_ref_6 : Pipeline.arrRef spec1 6 = main_arg14 := rfl
theorem win1_ref_7 : Pipeline.arrRef spec1 7 = main_arg15 := rfl

end Mem

end Cert.ReferenceIdeal.RV

end
-- ==== Proof.RV.Head.lean ====
/- The reference's head kernel against the specification. Its first stored value is the row of four 32-wide blocks:
   the shared linear layer on the flattened features of streams b, 128 + b, 256 + b, and the fusion linear layer on batch
   element b's regrouped slabs, each rectified; its second is the output layer on that row. Every product is a finite
   sum over the 2592 flattened positions, which the flattening orders as (channel, width) for the features and as
   (channel, stream, local width) for the slabs: re-indexing the sum along those bijections gives the specification's
   nested sums term by term. Sums over the extended reals are sums in a commutative monoid, so no finiteness is used. -/
import proofs.«116650_g2000303023666169_pallasbulk_55_22_alg».proof.Proof.Gen.ReferenceIdeal.Skeleton
import proofs.«116650_g2000303023666169_pallasbulk_55_22_alg».proof.Proof.Spec
import proofs.«116650_g2000303023666169_pallasbulk_55_22_alg».proof.Proof.LibTileMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.RV

open Idealize.ShloMosaic Idealize.ShloMosaic.ValueIdx
open Cert.ReferenceIdeal Cert.ReferenceIdeal.Gen

/-! ## The 2592 flattened positions, re-indexed -/

/-- Position `ch·81 + w`. -/
def posCW : Fin 32 × Fin 81 ≃ Fin 2592 where
  toFun p := ⟨p.1.val * 81 + p.2.val, by have := p.1.isLt; have := p.2.isLt; omega⟩
  invFun k := (⟨k.val / 81, by have := k.isLt; omega⟩, ⟨k.val % 81, by omega⟩)
  left_inv p := by
    obtain ⟨a, b⟩ := p
    have ha := a.isLt
    have hb := b.isLt
    refine Prod.ext (Fin.ext ?_) (Fin.ext ?_)
    · show (a.val * 81 + b.val) / 81 = a.val; omega
    · show (a.val * 81 + b.val) % 81 = b.val; omega
  right_inv k := Fin.ext (by show k.val / 81 * 81 + k.val % 81 = k.val; omega)

/-- Position `co·81 + s·27 + wl`. -/
def posCSW : Fin 32 × Fin 3 × Fin 27 ≃ Fin 2592 where
  toFun p := ⟨p.1.val * 81 + p.2.1.val * 27 + p.2.2.val, by have := p.1.isLt; have := p.2.1.isLt; have := p.2.2.isLt; omega⟩
  invFun k := (⟨k.val / 81, by have := k.isLt; omega⟩, ⟨k.val % 81 / 27, by omega⟩, ⟨k.val % 27, by omega⟩)
  left_inv p := by
    obtain ⟨a, b, c⟩ := p
    have ha := a.isLt
    have hb := b.isLt
    have hc := c.isLt
    refine Prod.ext (Fin.ext ?_) (Prod.ext (Fin.ext ?_) (Fin.ext ?_))
    · show (a.val * 81 + b.val * 27 + c.val) / 81 = a.val; omega
    · show (a.val * 81 + b.val * 27 + c.val) % 81 / 27 = b.val; omega
    · show (a.val * 81 + b.val * 27 + c.val) % 27 = c.val; omega
  right_inv k := Fin.ext (by show k.val / 81 * 81 + k.val % 81 / 27 * 27 + k.val % 27 = k.val; omega)

/-- A sum over the flattened positions is the sum over channels and widths. -/
theorem sum_posCW {M : Type} [AddCommMonoid M] (f : Fin 2592 → M) :
    ∑ k, f k = ∑ ch : Fin 32, ∑ w : Fin 81, f ⟨ch.val * 81 + w.val, by omega⟩ :=
  (Equiv.sum_comp posCW f).symm.trans (Fintype.sum_prod_type _)

/-- A sum over the flattened positions is the sum over channels, streams and local widths. -/
theorem sum_posCSW {M : Type} [AddCommMonoid M] (f : Fin 2592 → M) :
    ∑ k, f k = ∑ co : Fin 32, ∑ s : Fin 3, ∑ wl : Fin 27, f ⟨co.val * 81 + s.val * 27 + wl.val, by omega⟩ :=
  (Equiv.sum_comp posCSW f).symm.trans
    ((Fintype.sum_prod_type _).trans (Finset.sum_congr rfl fun co _ => Fintype.sum_prod_type _))

/-! ## The two rectified linear layers -/

/-- The shared linear layer on the 384 flattened feature rows, rectified. -/
def layer5 (zf : FVec Ideal S384x2592 .f32) (wcon : FVec Ideal S2592x32 .f32) (bcon : FVec Ideal S1x32 .f32) : FVec Ideal S384x32 .f32 :=
  maximumf
    (addf
      (matmul dot_S384x2592_S2592x32_S384x32_1_0_0_1_n_n none (shapeCast S384x2592 zf shapeCasts_S384x2592_S384x2592) wcon
        (constant (F := Ideal) S384x32 .f32 0x00000000#32))
      (broadcastTo S384x32 bcon broadcasts_S1x32_S384x32))
    (broadcast S384x32 (Scalar.ofBits (F := Ideal) .f32 0x00000000#32))

/-- The fusion linear layer on the 128 regrouped slab rows, rectified. -/
def layer54 (xf : FVec Ideal S128x2592 .f32) (wfl : FVec Ideal S2592x32 .f32) (bfl : FVec Ideal S1x32 .f32) : FVec Ideal S128x32 .f32 :=
  maximumf
    (addf
      (matmul dot_S128x2592_S2592x32_S128x32_1_0_0_1_n_n none (shapeCast S128x2592 xf shapeCasts_S128x2592_S128x2592) wfl
        (constant (F := Ideal) S128x32 .f32 0x00000000#32))
      (broadcastTo S128x32 bfl broadcasts_S1x32_S128x32))
    (broadcast S128x32 (Scalar.ofBits (F := Ideal) .f32 0x00000000#32))

theorem layer5_apply (zf : FVec Ideal S384x2592 .f32) (wcon : FVec Ideal S2592x32 .f32) (bcon : FVec Ideal S1x32 .f32)
    (g : Fin 384) (o : Fin 32) :
    layer5 zf wcon bcon (ix2 g o) = max ((∑ k : Fin 2592, zf (ix2 g k) * wcon (ix2 k o)) + bcon (ix2 0 o)) 0 := by
  unfold layer5
  refine congrArg₂ max (congrArg₂ (· + ·) ?_ ?_) ?_
  · refine (TileMatmul.matmul_zero_apply _ none _ wcon g o).trans ?_
    rw [shapeCast_self]
  · exact broadcastTo_1b_ab_apply bcon _ g o
  · exact Ideal.ofBits_zero_f32

theorem layer54_apply (xf : FVec Ideal S128x2592 .f32) (wfl : FVec Ideal S2592x32 .f32) (bfl : FVec Ideal S1x32 .f32)
    (b : Fin 128) (o : Fin 32) :
    layer54 xf wfl bfl (ix2 b o) = max ((∑ k : Fin 2592, xf (ix2 b k) * wfl (ix2 k o)) + bfl (ix2 0 o)) 0 := by
  unfold layer54
  refine congrArg₂ max (congrArg₂ (· + ·) ?_ ?_) ?_
  · refine (TileMatmul.matmul_zero_apply _ none _ wfl b o).trans ?_
    rw [shapeCast_self]
  · exact broadcastTo_1b_ab_apply bfl _ b o
  · exact Ideal.ofBits_zero_f32

/-! ## The feature row -/

/-- Rows `128·q … 128·q + 127` of the shared layer: the block of stream group `q`. -/
def blk0 (zf : FVec Ideal S384x2592 .f32) (wcon : FVec Ideal S2592x32 .f32) (bcon : FVec Ideal S1x32 .f32) : FVec Ideal S128x32 .f32 :=
  extractStridedSlice S128x32 ![0, 0] (layer5 zf wcon bcon) slices_S384x32_o0_0_S128x32
def blk1 (zf : FVec Ideal S384x2592 .f32) (wcon : FVec Ideal S2592x32 .f32) (bcon : FVec Ideal S1x32 .f32) : FVec Ideal S128x32 .f32 :=
  extractStridedSlice S128x32 ![128, 0] (layer5 zf wcon bcon) slices_S384x32_o128_0_S128x32
def blk2 (zf : FVec Ideal S384x2592 .f32) (wcon : FVec Ideal S2592x32 .f32) (bcon : FVec Ideal S1x32 .f32) : FVec Ideal S128x32 .f32 :=
  extractStridedSlice S128x32 ![256, 0] (layer5 zf wcon bcon) slices_S384x32_o256_0_S128x32

theorem blk0_apply (zf : FVec Ideal S384x2592 .f32) (wcon : FVec Ideal S2592x32 .f32) (bcon : FVec Ideal S1x32 .f32)
    (b : Fin 128) (o : Fin 32) (g : Fin 384) (hg : g.val = 0 + b.val) : blk0 zf wcon bcon (ix2 b o) = layer5 zf wcon bcon (ix2 g o) :=
  extractStridedSlice_apply _ _ _ (ix2 b o) (ix2 g o)
    (fun a => match a with | ⟨0, _⟩ => hg | ⟨1, _⟩ => by show o.val = 0 + o.val; omega)
theorem blk1_apply (zf : FVec Ideal S384x2592 .f32) (wcon : FVec Ideal S2592x32 .f32) (bcon : FVec Ideal S1x32 .f32)
    (b : Fin 128) (o : Fin 32) (g : Fin 384) (hg : g.val = 128 + b.val) : blk1 zf wcon bcon (ix2 b o) = layer5 zf wcon bcon (ix2 g o) :=
  extractStridedSlice_apply _ _ _ (ix2 b o) (ix2 g o)
    (fun a => match a with | ⟨0, _⟩ => hg | ⟨1, _⟩ => by show o.val = 0 + o.val; omega)
theorem blk2_apply (zf : FVec Ideal S384x2592 .f32) (wcon : FVec Ideal S2592x32 .f32) (bcon : FVec Ideal S1x32 .f32)
    (b : Fin 128) (o : Fin 32) (g : Fin 384) (hg : g.val = 256 + b.val) : blk2 zf wcon bcon (ix2 b o) = layer5 zf wcon bcon (ix2 g o) :=
  extractStridedSlice_apply _ _ _ (ix2 b o) (ix2 g o)
    (fun a => match a with | ⟨0, _⟩ => hg | ⟨1, _⟩ => by show o.val = 0 + o.val; omega)

/-- The four 32-wide blocks of the row, in order. -/
abbrev rowPieces (zf : FVec Ideal S384x2592 .f32) (wcon : FVec Ideal S2592x32 .f32) (bcon : FVec Ideal S1x32 .f32)
    (xf : FVec Ideal S128x2592 .f32) (wfl : FVec Ideal S2592x32 .f32) (bfl : FVec Ideal S1x32 .f32) :
    List ((s : Shape) × (s.Idx → Ideal .f32)) :=
  [⟨S128x32, blk0 zf wcon bcon⟩, ⟨S128x32, blk1 zf wcon bcon⟩, ⟨S128x32, blk2 zf wcon bcon⟩, ⟨S128x32, layer54 xf wfl bfl⟩]

/-- The head's first stored value is the four blocks side by side. -/
theorem pay1_eq (zf : FVec Ideal S384x2592 .f32) (wcon : FVec Ideal S2592x32 .f32) (bcon : FVec Ideal S1x32 .f32)
    (xf : FVec Ideal S128x2592 .f32) (wfl : FVec Ideal S2592x32 .f32) (bfl : FVec Ideal S1x32 .f32) :
    k1_pay1 (F := Ideal) zf wcon bcon xf wfl bfl
      = concatenate S128x128 1 (rowPieces zf wcon bcon xf wfl bfl) concatenates_S128x32_S128x32_S128x32_S128x32_S128x128_d1 := rfl

/-- Block `q` (`q < 3`) of the row at column `32·q + o` is the shared layer of stream `g = 128·q + b` at `o`. -/
theorem row_stream (zf : FVec Ideal S384x2592 .f32) (wcon : FVec Ideal S2592x32 .f32) (bcon : FVec Ideal S1x32 .f32)
    (xf : FVec Ideal S128x2592 .f32) (wfl : FVec Ideal S2592x32 .f32) (bfl : FVec Ideal S1x32 .f32)
    (b : Fin 128) (n : Fin 128) (q : Fin 3) (o : Fin 32) (g : Fin 384) (hn : n.val = 32 * q.val + o.val) (hg : g.val = 128 * q.val + b.val) :
    k1_pay1 (F := Ideal) zf wcon bcon xf wfl bfl (ix2 b n) = layer5 zf wcon bcon (ix2 g o) := by
  have hb := b.isLt
  have ho := o.isLt
  rw [pay1_eq]
  have hq : q.val = 0 ∨ q.val = 1 ∨ q.val = 2 := by omega
  rcases hq with hq | hq | hq
  · refine (concatenate_apply_piece (t := S128x128) (1 : Fin 2) (rowPieces zf wcon bcon xf wfl bfl)
      concatenates_S128x32_S128x32_S128x32_S128x32_S128x128_d1 (ix2 b n) 0 (by show (0 : ℕ) < 4; omega) S128x32
      (blk0 zf wcon bcon) rfl rfl 0 rfl (ix2 b o)
      (fun a ha => match a with | ⟨0, _⟩ => rfl | ⟨1, _⟩ => absurd rfl ha)
      (by show 0 + o.val = n.val; omega)).trans ?_
    exact blk0_apply zf wcon bcon b o g (by omega)
  · refine (concatenate_apply_piece (t := S128x128) (1 : Fin 2) (rowPieces zf wcon bcon xf wfl bfl)
      concatenates_S128x32_S128x32_S128x32_S128x32_S128x128_d1 (ix2 b n) 1 (by show (1 : ℕ) < 4; omega) S128x32
      (blk1 zf wcon bcon) rfl rfl 32 rfl (ix2 b o)
      (fun a ha => match a with | ⟨0, _⟩ => rfl | ⟨1, _⟩ => absurd rfl ha)
      (by show 32 + o.val = n.val; omega)).trans ?_
    exact blk1_apply zf wcon bcon b o g (by omega)
  · refine (concatenate_apply_piece (t := S128x128) (1 : Fin 2) (rowPieces zf wcon bcon xf wfl bfl)
      concatenates_S128x32_S128x32_S128x32_S128x32_S128x128_d1 (ix2 b n) 2 (by show (2 : ℕ) < 4; omega) S128x32
      (blk2 zf wcon bcon) rfl rfl 64 rfl (ix2 b o)
      (fun a ha => match a with | ⟨0, _⟩ => rfl | ⟨1, _⟩ => absurd rfl ha)
      (by show 64 + o.val = n.val; omega)).trans ?_
    exact blk2_apply zf wcon bcon b o g (by omega)

/-- The last block of the row, at column `96 + o`, is the fusion layer of batch element `b` at `o`. -/
theorem row_fusion (zf : FVec Ideal S384x2592 .f32) (wcon : FVec Ideal S2592x32 .f32) (bcon : FVec Ideal S1x32 .f32)
    (xf : FVec Ideal S128x2592 .f32) (wfl : FVec Ideal S2592x32 .f32) (bfl : FVec Ideal S1x32 .f32)
    (b : Fin 128) (n : Fin 128) (o : Fin 32) (hn : n.val = 96 + o.val) :
    k1_pay1 (F := Ideal) zf wcon bcon xf wfl bfl (ix2 b n) = layer54 xf wfl bfl (ix2 b o) := by
  rw [pay1_eq]
  exact concatenate_apply_piece (t := S128x128) (1 : Fin 2) (rowPieces zf wcon bcon xf wfl bfl)
    concatenates_S128x32_S128x32_S128x32_S128x32_S128x128_d1 (ix2 b n) 3 (by show (3 : ℕ) < 4; omega) S128x32
    (layer54 xf wfl bfl) rfl rfl 96 rfl (ix2 b o)
    (fun a ha => match a with | ⟨0, _⟩ => rfl | ⟨1, _⟩ => absurd rfl ha)
    (by show 96 + o.val = n.val; omega)

/-! ## Against the specification -/

section Spec
variable (X : Cert.Spec.A4 128 1 6 10178) (W : Cert.Spec.Wts) (H : Cert.Spec.HWts)
variable (zf : FVec Ideal S384x2592 .f32) (xf : FVec Ideal S128x2592 .f32)

/-- The shared layer of stream `g` is the specification's, when the flattened features are the specification's. -/
theorem layer5_eq_x5
    (hz : ∀ (g : Fin 384) (ch : Fin 32) (w : Fin 81), zf (ix2 g ⟨ch.val * 81 + w.val, by omega⟩) = Cert.Spec.z (Cert.Spec.sig X g) W ch w.val)
    (g : Fin 384) (o : Fin 32) : layer5 zf H.wcon H.bcon (ix2 g o) = Cert.Spec.x5 X W H g o := by
  rw [layer5_apply, sum_posCW]
  unfold Cert.Spec.x5
  refine congrArg₂ max (congrArg₂ (· + ·) ?_ rfl) rfl
  exact Finset.sum_congr rfl fun ch _ => Finset.sum_congr rfl fun w _ => by rw [hz g ch w]

/-- The fusion layer of batch element `b` is the specification's, when the regrouped slabs are the specification's. -/
theorem layer54_eq_x54
    (hx : ∀ (b : Fin 128) (co : Fin 32) (s : Fin 3) (wl : Fin 27),
      xf (ix2 b ⟨co.val * 81 + s.val * 27 + wl.val, by omega⟩) = Cert.Spec.x44 (Cert.Spec.sig X ⟨s.val * 128 + b.val, by omega⟩) W co wl)
    (b : Fin 128) (o : Fin 32) : layer54 xf H.wfl H.bfl (ix2 b o) = Cert.Spec.x54 X W H b o := by
  rw [layer54_apply, sum_posCSW]
  unfold Cert.Spec.x54
  refine congrArg₂ max (congrArg₂ (· + ·) ?_ rfl) rfl
  exact Finset.sum_congr rfl fun co _ => Finset.sum_congr rfl fun s _ => Finset.sum_congr rfl fun wl _ => by rw [hx b co s wl]

/-- The head's first stored value is the specification's feature row. -/
theorem pay1_eq_x6
    (hz : ∀ (g : Fin 384) (ch : Fin 32) (w : Fin 81), zf (ix2 g ⟨ch.val * 81 + w.val, by omega⟩) = Cert.Spec.z (Cert.Spec.sig X g) W ch w.val)
    (hx : ∀ (b : Fin 128) (co : Fin 32) (s : Fin 3) (wl : Fin 27),
      xf (ix2 b ⟨co.val * 81 + s.val * 27 + wl.val, by omega⟩) = Cert.Spec.x44 (Cert.Spec.sig X ⟨s.val * 128 + b.val, by omega⟩) W co wl)
    (b : Fin 128) (n : Fin 128) :
    k1_pay1 (F := Ideal) zf H.wcon H.bcon xf H.wfl H.bfl (ix2 b n) = Cert.Spec.x6 X W H b n := by
  have hb := b.isLt
  have hn := n.isLt
  unfold Cert.Spec.x6
  by_cases h0 : n.val < 32
  · rw [dif_pos h0, row_stream zf H.wcon H.bcon xf H.wfl H.bfl b n 0 ⟨n.val, h0⟩ ⟨b.val, by omega⟩ (by show n.val = 32 * 0 + n.val; omega) (by show b.val = 128 * 0 + b.val; omega)]
    exact layer5_eq_x5 X W H zf hz _ _
  · rw [dif_neg h0]
    by_cases h1 : n.val < 64
    · rw [dif_pos h1, row_stream zf H.wcon H.bcon xf H.wfl H.bfl b n 1 ⟨n.val - 32, by omega⟩ ⟨128 + b.val, by omega⟩ (by show n.val = 32 * 1 + (n.val - 32); omega) (by show 128 + b.val = 128 * 1 + b.val; omega)]
      exact layer5_eq_x5 X W H zf hz _ _
    · rw [dif_neg h1]
      by_cases h2 : n.val < 96
      · rw [dif_pos h2, row_stream zf H.wcon H.bcon xf H.wfl H.bfl b n 2 ⟨n.val - 64, by omega⟩ ⟨256 + b.val, by omega⟩ (by show n.val = 32 * 2 + (n.val - 64); omega) (by show 256 + b.val = 128 * 2 + b.val; omega)]
        exact layer5_eq_x5 X W H zf hz _ _
      · rw [dif_neg h2, row_fusion zf H.wcon H.bcon xf H.wfl H.bfl b n ⟨n.val - 96, by omega⟩ (by show n.val = 96 + (n.val - 96); omega)]
        exact layer54_eq_x54 X W H xf hx _ _

/-- The head's second stored value is the output layer on its first. -/
theorem pay2_apply (wcon : FVec Ideal S2592x32 .f32) (bcon : FVec Ideal S1x32 .f32) (wfl : FVec Ideal S2592x32 .f32) (bfl : FVec Ideal S1x32 .f32)
    (wout : FVec Ideal S128x10 .f32) (bout : FVec Ideal S1x10 .f32) (b : Fin 128) (k : Fin 10) :
    k1_pay2 (F := Ideal) zf wcon bcon xf wfl bfl wout bout (ix2 b k)
      = (∑ n : Fin 128, k1_pay1 (F := Ideal) zf wcon bcon xf wfl bfl (ix2 b n) * wout (ix2 n k)) + bout (ix2 0 k) := by
  show matmul dot_S128x128_S128x10_S128x10_1_0_0_1_n_n none (k1_pay1 (F := Ideal) zf wcon bcon xf wfl bfl) wout
      (constant (F := Ideal) S128x10 .f32 0x00000000#32) (ix2 b k) + broadcastTo S128x10 bout broadcasts_S1x10_S128x10 (ix2 b k) = _
  refine congrArg₂ (· + ·) ?_ ?_
  · exact TileMatmul.matmul_zero_apply _ none _ wout b k
  · exact broadcastTo_1b_ab_apply bout _ b k

/-- The head's second stored value is the specification's output. -/
theorem pay2_eq_out
    (hz : ∀ (g : Fin 384) (ch : Fin 32) (w : Fin 81), zf (ix2 g ⟨ch.val * 81 + w.val, by omega⟩) = Cert.Spec.z (Cert.Spec.sig X g) W ch w.val)
    (hx : ∀ (b : Fin 128) (co : Fin 32) (s : Fin 3) (wl : Fin 27),
      xf (ix2 b ⟨co.val * 81 + s.val * 27 + wl.val, by omega⟩) = Cert.Spec.x44 (Cert.Spec.sig X ⟨s.val * 128 + b.val, by omega⟩) W co wl)
    (b : Fin 128) (k : Fin 10) :
    k1_pay2 (F := Ideal) zf H.wcon H.bcon xf H.wfl H.bfl H.wout H.bout (ix2 b k) = Cert.Spec.out X W H b k := by
  rw [pay2_apply]
  unfold Cert.Spec.out
  refine congrArg₂ (· + ·) ?_ rfl
  exact Finset.sum_congr rfl fun n _ => by rw [pay1_eq_x6 X W H zf xf hz hx b n]

end Spec

end Cert.ReferenceIdeal.RV

end
-- ==== Proof.RI.FrameNamed.lean ====
/- The reference program's run with its two results named: every weakly fair execution ends with the second launch's two
   output arrays at what its write-backs leave from its entry contents, and with the argument arrays as launched. @main's
   items run as segments over the thread state that holds every unscoped buffer at the valuation between two items; the
   last thread state holds them at the last valuation, which is read against the final memory: the two result buffers are
   the two references the second launch updates, every argument is written by no item. -/
import proofs.«116650_g2000303023666169_pallasbulk_55_22_alg».proof.Proof.RI.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The run with @main's two results named, and the arguments unchanged. -/
theorem run_named : θ_run defs (onTc (τ := τ) (main (F := F))) ⟨m, fun _ => 0, ρ⟩ (fun r => ∀ c : Dev nD,
      r.2.mem ((c.tc : Thread nD τ).loc main_v18_0) = (dat1 (Vin1 m) c).arrAt 8 cfg1.N
      ∧ r.2.mem ((c.tc : Thread nD τ).loc main_v18_1) = (dat1 (Vin1 m) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_dev (pcfgs (F := F)) adm (pdats m) () cellOf_inj embL defs₀ 𝒱₀ L lv m ρ main
    (Gen.segs m (outsH m) 𝒱₀ L lv (fun _ c => R c) () (pdats m) (reg0 m) (reg1 m))
    (fun c Q => by
      rewrite [main_chain c, Pipeline.Seg.run_eq_chain,
        show (Gen.segs m (outsH m) 𝒱₀ L lv (fun _ c => R c) () (pdats m) (reg0 m) (reg1 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outsH m) c))
    (hch := fun c => ⟨.rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V6 m (outsH m) c b)
    (hfin := fun c s' => by
      iintro ⟨Hh, HSI⟩
      unfold StableHlo.held
      imodintro
      iapply (pointsTo_read_all (Pipeline.ucRefs τ sig) (fun b => (((c : Thread nD τ)).1, b)) (Gen.V6 m (outsH m) c) s')
      isplitl [Hh] <;> iassumption)
    (hQ := fun s h c =>
      ⟨(h c _ (mem_uc main_v18_0 (by decide))).trans (V6_res0 m c),
       (h c _ (mem_uc main_v18_1 (by decide))).trans (V6_res1 m c),
       (h c _ (mem_uc main_arg0 (by decide))).trans (Gen.V6_main_arg0 m (outsH m) c),
       (h c _ (mem_uc main_arg1 (by decide))).trans (Gen.V6_main_arg1 m (outsH m) c),
       (h c _ (mem_uc main_arg2 (by decide))).trans (Gen.V6_main_arg2 m (outsH m) c),
       (h c _ (mem_uc main_arg3 (by decide))).trans (Gen.V6_main_arg3 m (outsH m) c),
       (h c _ (mem_uc main_arg4 (by decide))).trans (Gen.V6_main_arg4 m (outsH m) c),
       (h c _ (mem_uc main_arg5 (by decide))).trans (Gen.V6_main_arg5 m (outsH m) c),
       (h c _ (mem_uc main_arg6 (by decide))).trans (Gen.V6_main_arg6 m (outsH m) c),
       (h c _ (mem_uc main_arg7 (by decide))).trans (Gen.V6_main_arg7 m (outsH m) c),
       (h c _ (mem_uc main_arg8 (by decide))).trans (Gen.V6_main_arg8 m (outsH m) c),
       (h c _ (mem_uc main_arg9 (by decide))).trans (Gen.V6_main_arg9 m (outsH m) c),
       (h c _ (mem_uc main_arg10 (by decide))).trans (Gen.V6_main_arg10 m (outsH m) c),
       (h c _ (mem_uc main_arg11 (by decide))).trans (Gen.V6_main_arg11 m (outsH m) c),
       (h c _ (mem_uc main_arg12 (by decide))).trans (Gen.V6_main_arg12 m (outsH m) c),
       (h c _ (mem_uc main_arg13 (by decide))).trans (Gen.V6_main_arg13 m (outsH m) c),
       (h c _ (mem_uc main_arg14 (by decide))).trans (Gen.V6_main_arg14 m (outsH m) c),
       (h c _ (mem_uc main_arg15 (by decide))).trans (Gen.V6_main_arg15 m (outsH m) c)⟩)

end Cert.ReferenceIdeal.Hand

end
-- ==== Proof.RV.Blocks.lean ====
/- From blocks to arrays for the reference's first launch. Its grid has 384 points, one per stream; at point `t` the
   signal window's block is stream `t`'s [240, 87] slab of the phase-split signal, the nine weight windows are their
   whole arrays, and each of the two output windows' blocks is stream `t`'s slab of its array. The 384 output blocks are
   disjoint and cover the array, so the array after the launch is, stream by stream, what the body left in the window's
   buffer at that stream's point. -/
import proofs.«116650_g2000303023666169_pallasbulk_55_22_alg».proof.Proof.RI.Region0
import Idealize.ShloMosaic.Lib.Pipeline.Value
import Idealize.ShloMosaic.Lib.ValueIdx

set_option maxRecDepth 16384

noncomputable section

namespace Cert.ReferenceIdeal.RV

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Hand

variable {F : FTy → Type} [FloatOps F]
variable (V : (c : Dev nD) → (b : Ref sig .tc) → Buf (Elt F) ((c : Thread nD τ).loc b))

/-! ## Streams and grid points -/

theorem N0_lt (t : Fin cfg0.N) : t.val < 384 := Nat.lt_of_lt_of_eq t.isLt (show cfg0.N = 384 from N_0)
/-- Stream `g`'s grid point. -/
def pt (g : Fin 384) : Fin cfg0.N := ⟨g.val, by rw [show cfg0.N = 384 from N_0]; exact g.isLt⟩
theorem pt_val (g : Fin 384) : (pt g).val = g.val := rfl

/-! ## The printed index maps, decided over the grid -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx0_11 : ∀ t : Fin cfg0.N, win0_11.index t (0 : Fin 3) = t.val ∧ win0_11.index t (1 : Fin 3) = 0 ∧ win0_11.index t (2 : Fin 3) = 0 :=
  (by decide +kernel : ∀ t : Fin grid0.N, _)

/-! ## The input blocks read at an index -/

/-- The signal window's block at point `t` is stream `t`'s slab of the phase-split signal. -/
theorem iblk0_0_apply (c : Dev nD) (t : Fin cfg0.N) (x : S1x240x87.Idx) :
    (iblk0 V c 0 t : Vec F S1x240x87 .f32) x
      = (V c main_v12 : S384x240x87.Idx → Elt F .f32) (ix3 ⟨t.val, N0_lt t⟩ ⟨(x 1).val, (x 1).isLt⟩ ⟨(x 2).val, (x 2).isLt⟩) := by
  obtain ⟨e0, e1, e2⟩ := idx0_0 t
  have h0 : (x 0).val < 1 := (x 0).isLt
  unfold iblk0
  rw [View.read_apply]
  show V c (Pipeline.arrRef spec0 0) _ = V c main_v12 _
  congr 1
  funext a
  apply Fin.ext
  match a with
  | ⟨0, _⟩ => show win0_0.index t (0 : Fin 3) * 1 + 1 * (x 0).val = t.val; rw [e0]; omega
  | ⟨1, _⟩ => show win0_0.index t (1 : Fin 3) * 240 + 1 * (x 1).val = (x 1).val; rw [e1]; omega
  | ⟨2, _⟩ => show win0_0.index t (2 : Fin 3) * 87 + 1 * (x 2).val = (x 2).val; rw [e2]; omega

/-- Each weight window's block, at every point, is its whole array. -/
theorem iblk0_1_apply (c : Dev nD) (t : Fin cfg0.N) (x : S3x384x240.Idx) :
    (iblk0 V c 1 t : Vec F S3x384x240 .f32) x = (V c main_arg1 : S3x384x240.Idx → Elt F .f32) x := by
  obtain ⟨e0, e1, e2⟩ := idx0_1 t
  unfold iblk0
  rw [View.read_apply]
  show V c (Pipeline.arrRef spec0 1) _ = V c main_arg1 _
  congr 1
  funext a
  apply Fin.ext
  match a with
  | ⟨0, _⟩ => show win0_1.index t (0 : Fin 3) * 3 + 1 * (x 0).val = (x 0).val; rw [e0]; omega
  | ⟨1, _⟩ => show win0_1.index t (1 : Fin 3) * 384 + 1 * (x 1).val = (x 1).val; rw [e1]; omega
  | ⟨2, _⟩ => show win0_1.index t (2 : Fin 3) * 240 + 1 * (x 2).val = (x 2).val; rw [e2]; omega
theorem iblk0_2_apply (c : Dev nD) (t : Fin cfg0.N) (x : S384x1.Idx) :
    (iblk0 V c 2 t : Vec F S384x1 .f32) x = (V c main_arg2 : S384x1.Idx → Elt F .f32) x := by
  obtain ⟨e0, e1⟩ := idx0_2 t
  unfold iblk0
  rw [View.read_apply]
  show V c (Pipeline.arrRef spec0 2) _ = V c main_arg2 _
  congr 1
  funext a
  apply Fin.ext
  match a with
  | ⟨0, _⟩ => show win0_2.index t (0 : Fin 2) * 384 + 1 * (x 0).val = (x 0).val; rw [e0]; omega
  | ⟨1, _⟩ => show win0_2.index t (1 : Fin 2) * 1 + 1 * (x 1).val = (x 1).val; rw [e1]; omega
theorem iblk0_3_apply (c : Dev nD) (t : Fin cfg0.N) (x : S64x64.Idx) :
    (iblk0 V c 3 t : Vec F S64x64 .f32) x = (V c main_arg3 : S64x64.Idx → Elt F .f32) x := by
  obtain ⟨e0, e1⟩ := idx0_3 t
  unfold iblk0
  rw [View.read_apply]
  show V c (Pipeline.arrRef spec0 3) _ = V c main_arg3 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega
theorem iblk0_4_apply (c : Dev nD) (t : Fin cfg0.N) (x : S64x1.Idx) :
    (iblk0 V c 4 t : Vec F S64x1 .f32) x = (V c main_arg4 : S64x1.Idx → Elt F .f32) x := by
  obtain ⟨e0, e1⟩ := idx0_4 t
  unfold iblk0
  rw [View.read_apply]
  show V c (Pipeline.arrRef spec0 4) _ = V c main_arg4 _
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 1 + 1 * (x 1).val = (x 1).val; rw [e1]; omega
theorem iblk0_5_apply (c : Dev nD) (t : Fin cfg0.N) (x : S32x32.Idx) :
    (iblk0 V c 5 t : Vec F S32x32 .f32) x = (V c main_arg5 : S32x32.Idx → Elt F .f32) x := by
  obtain ⟨e0, e1⟩ := idx0_5 t
  unfold iblk0
  rw [View.read_apply]
  show V c (Pipeline.arrRef spec0 5) _ = V c main_arg5 _
  congr 1
  funext a
  apply Fin.ext
  match a with
  | ⟨0, _⟩ => show win0_5.index t (0 : Fin 2) * 32 + 1 * (x 0).val = (x 0).val; rw [e0]; omega
  | ⟨1, _⟩ => show win0_5.index t (1 : Fin 2) * 32 + 1 * (x 1).val = (x 1).val; rw [e1]; omega
theorem iblk0_6_apply (c : Dev nD) (t : Fin cfg0.N) (x : S32x32.Idx) :
    (iblk0 V c 6 t : Vec F S32x32 .f32) x = (V c main_arg6 : S32x32.Idx → Elt F .f32) x := by
  obtain ⟨e0, e1⟩ := idx0_6 t
  unfold iblk0
  rw [View.read_apply]
  show V c (Pipeline.arrRef spec0 6) _ = V c main_arg6 _
  congr 1
  funext a
  apply Fin.ext
  match a with
  | ⟨0, _⟩ => show win0_6.index t (0 : Fin 2) * 32 + 1 * (x 0).val = (x 0).val; rw [e0]; omega
  | ⟨1, _⟩ => show win0_6.index t (1 : Fin 2) * 32 + 1 * (x 1).val = (x 1).val; rw [e1]; omega
theorem iblk0_7_apply (c : Dev nD) (t : Fin cfg0.N) (x : S32x1.Idx) :
    (iblk0 V c 7 t : Vec F S32x1 .f32) x = (V c main_arg7 : S32x1.Idx → Elt F .f32) x := by
  obtain ⟨e0, e1⟩ := idx0_7 t
  unfold iblk0
  rw [View.read_apply]
  show V c (Pipeline.arrRef spec0 7) _ = V c main_arg7 _
  congr 1
  funext a
  apply Fin.ext
  match a with
  | ⟨0, _⟩ => show win0_7.index t (0 : Fin 2) * 32 + 1 * (x 0).val = (x 0).val; rw [e0]; omega
  | ⟨1, _⟩ => show win0_7.index t (1 : Fin 2) * 1 + 1 * (x 1).val = (x 1).val; rw [e1]; omega
theorem iblk0_8_apply (c : Dev nD) (t : Fin cfg0.N) (x : S81x27.Idx) :
    (iblk0 V c 8 t : Vec F S81x27 .f32) x = (V c main_arg8 : S81x27.Idx → Elt F .f32) x := by
  obtain ⟨e0, e1⟩ := idx0_8 t
  unfold iblk0
  rw [View.read_apply]
  show V c (Pipeline.arrRef spec0 8) _ = V c main_arg8 _
  congr 1
  funext a
  apply Fin.ext
  match a with
  | ⟨0, _⟩ => show win0_8.index t (0 : Fin 2) * 81 + 1 * (x 0).val = (x 0).val; rw [e0]; omega
  | ⟨1, _⟩ => show win0_8.index t (1 : Fin 2) * 27 + 1 * (x 1).val = (x 1).val; rw [e1]; omega
theorem iblk0_9_apply (c : Dev nD) (t : Fin cfg0.N) (x : S81x27.Idx) :
    (iblk0 V c 9 t : Vec F S81x27 .f32) x = (V c main_arg9 : S81x27.Idx → Elt F .f32) x := by
  obtain ⟨e0, e1⟩ := idx0_9 t
  unfold iblk0
  rw [View.read_apply]
  show V c (Pipeline.arrRef spec0 9) _ = V c main_arg9 _
  congr 1
  funext a
  apply Fin.ext
  match a with
  | ⟨0, _⟩ => show win0_9.index t (0 : Fin 2) * 81 + 1 * (x 0).val = (x 0).val; rw [e0]; omega
  | ⟨1, _⟩ => show win0_9.index t (1 : Fin 2) * 27 + 1 * (x 1).val = (x 1).val; rw [e1]; omega

/-! ## Output window 10: point `t` writes rows of stream `t` only, and the 384 points cover the array -/

/-- An index of the array is in point `t`'s block iff each coordinate is in the block's range on its axis. -/
theorem mem_blk10 (t : Fin cfg0.N) (i : S384x32x81.Idx) :
    i ∈ ((cfg0.win 10).blk t).view.set ↔ ∀ a : Fin 3, win0_10.index t a * S1x32x81.size a ≤ (i a).val ∧ (i a).val < win0_10.index t a * S1x32x81.size a + S1x32x81.size a := by
  show i ∈ ((View.whole main_v13_0).slice (win0_10.rect t)).set ↔ _
  rw [View.set_slice_whole, Rect.mem_set_unit]
  exact Iff.rfl

/-- Every index of the array is in the block of the point its first coordinate names. -/
theorem cover10 (i : S384x32x81.Idx) : ∃ t : Fin cfg0.N, (cfg0.win 10).flush t = true ∧ i ∈ ((cfg0.win 10).blk t).view.set := by
  have h0 : (i 0).val < 384 := (i 0).isLt
  have h1 : (i 1).val < 32 := (i 1).isLt
  have h2 : (i 2).val < 81 := (i 2).isLt
  refine ⟨pt ⟨(i 0).val, h0⟩, flush0_10 _, ?_⟩
  obtain ⟨e0, e1, e2⟩ := idx0_10 (pt ⟨(i 0).val, h0⟩)
  have ht : (pt ⟨(i 0).val, h0⟩).val = (i 0).val := rfl
  rw [mem_blk10]
  intro a
  match a with
  | ⟨0, _⟩ => show win0_10.index (pt ⟨(i 0).val, h0⟩) (0 : Fin 3) * 1 ≤ (i 0).val ∧ (i 0).val < win0_10.index (pt ⟨(i 0).val, h0⟩) (0 : Fin 3) * 1 + 1; rw [e0, ht]; omega
  | ⟨1, _⟩ => show win0_10.index (pt ⟨(i 0).val, h0⟩) (1 : Fin 3) * 32 ≤ (i 1).val ∧ (i 1).val < win0_10.index (pt ⟨(i 0).val, h0⟩) (1 : Fin 3) * 32 + 32; rw [e1]; omega
  | ⟨2, _⟩ => show win0_10.index (pt ⟨(i 0).val, h0⟩) (2 : Fin 3) * 81 ≤ (i 2).val ∧ (i 2).val < win0_10.index (pt ⟨(i 0).val, h0⟩) (2 : Fin 3) * 81 + 81; rw [e2]; omega

/-- What point `t` writes back is block `t` of any whole-array function `G` that agrees, stream by stream, with what
    the body leaves in the window's buffer. -/
theorem flushed10_eq (c : Dev nD) (G : S384x32x81.Idx → Elt F .f32)
    (hG : ∀ (t : Fin cfg0.N) (x : S1x32x81.Idx), outsAt0_10 V c t x = G (ix3 ⟨t.val, N0_lt t⟩ ⟨(x 1).val, (x 1).isLt⟩ ⟨(x 2).val, (x 2).isLt⟩))
    (t : Fin cfg0.N) : (dat0 V c).flushed 10 t = ((cfg0.win 10).blk t).view.read (Elt F) G := by
  obtain ⟨e0, e1, e2⟩ := idx0_10 t
  show (cfg0.win 10).cut (grid0.coords t) ((dat0 V c).after 10 t) = _
  rw [after0_10]
  funext j
  show outsAt0_10 V c t j = G (((cfg0.win 10).blk t).view.emb j)
  refine (hG t j).trans (congrArg G ?_)
  funext a
  apply Fin.ext
  match a with
  | ⟨0, _⟩ => show t.val = win0_10.index t (0 : Fin 3) * 1 + 1 * (j 0).val; have hj : (j 0).val < 1 := (j 0).isLt; rw [e0]; omega
  | ⟨1, _⟩ => show (j 1).val = win0_10.index t (1 : Fin 3) * 32 + 1 * (j 1).val; rw [e1]; omega
  | ⟨2, _⟩ => show (j 2).val = win0_10.index t (2 : Fin 3) * 81 + 1 * (j 2).val; rw [e2]; omega

/-- The array after the launch is `G`. -/
theorem final10 (c : Dev nD) (G : S384x32x81.Idx → Elt F .f32)
    (hG : ∀ (t : Fin cfg0.N) (x : S1x32x81.Idx), outsAt0_10 V c t x = G (ix3 ⟨t.val, N0_lt t⟩ ⟨(x 1).val, (x 1).isLt⟩ ⟨(x 2).val, (x 2).isLt⟩)) :
    (dat0 V c).arrAt 10 cfg0.N = G :=
  (dat0 V c).arrAt_eq_of_cover 10 G (fun t _ => flushed10_eq V c G hG t) cover10

/-- The array after the launch, at stream `g`: what the body leaves in the window's buffer at point `g`. -/
theorem arr10_apply (c : Dev nD) (g : Fin 384) (a : Fin 32) (b : Fin 81) :
    ((dat0 V c).arrAt 10 cfg0.N : S384x32x81.Idx → Elt F .f32) (ix3 g a b) = outsAt0_10 V c (pt g) (ix3 0 a b) := by
  rw [final10 V c (fun i => outsAt0_10 V c (pt ⟨(i 0).val, (i 0).isLt⟩) (ix3 0 ⟨(i 1).val, (i 1).isLt⟩ ⟨(i 2).val, (i 2).isLt⟩))
    (fun t x => by
      have hx : x = ix3 0 ⟨(x 1).val, (x 1).isLt⟩ ⟨(x 2).val, (x 2).isLt⟩ := by
        funext d
        match d with
        | ⟨0, _⟩ => exact Fin.ext (by have h : (x 0).val < 1 := (x 0).isLt; show (x 0).val = 0; omega)
        | ⟨1, _⟩ => rfl
        | ⟨2, _⟩ => rfl
      exact congrArg (outsAt0_10 V c t) hx)]

/-! ## Output window 11: point `t` writes rows of stream `t` only, and the 384 points cover the array -/

/-- An index of the array is in point `t`'s block iff each coordinate is in the block's range on its axis. -/
theorem mem_blk11 (t : Fin cfg0.N) (i : S384x32x27.Idx) :
    i ∈ ((cfg0.win 11).blk t).view.set ↔ ∀ a : Fin 3, win0_11.index t a * S1x32x27.size a ≤ (i a).val ∧ (i a).val < win0_11.index t a * S1x32x27.size a + S1x32x27.size a := by
  show i ∈ ((View.whole main_v13_1).slice (win0_11.rect t)).set ↔ _
  rw [View.set_slice_whole, Rect.mem_set_unit]
  exact Iff.rfl

/-- Every index of the array is in the block of the point its first coordinate names. -/
theorem cover11 (i : S384x32x27.Idx) : ∃ t : Fin cfg0.N, (cfg0.win 11).flush t = true ∧ i ∈ ((cfg0.win 11).blk t).view.set := by
  have h0 : (i 0).val < 384 := (i 0).isLt
  have h1 : (i 1).val < 32 := (i 1).isLt
  have h2 : (i 2).val < 27 := (i 2).isLt
  refine ⟨pt ⟨(i 0).val, h0⟩, flush0_11 _, ?_⟩
  obtain ⟨e0, e1, e2⟩ := idx0_11 (pt ⟨(i 0).val, h0⟩)
  have ht : (pt ⟨(i 0).val, h0⟩).val = (i 0).val := rfl
  rw [mem_blk11]
  intro a
  match a with
  | ⟨0, _⟩ => show win0_11.index (pt ⟨(i 0).val, h0⟩) (0 : Fin 3) * 1 ≤ (i 0).val ∧ (i 0).val < win0_11.index (pt ⟨(i 0).val, h0⟩) (0 : Fin 3) * 1 + 1; rw [e0, ht]; omega
  | ⟨1, _⟩ => show win0_11.index (pt ⟨(i 0).val, h0⟩) (1 : Fin 3) * 32 ≤ (i 1).val ∧ (i 1).val < win0_11.index (pt ⟨(i 0).val, h0⟩) (1 : Fin 3) * 32 + 32; rw [e1]; omega
  | ⟨2, _⟩ => show win0_11.index (pt ⟨(i 0).val, h0⟩) (2 : Fin 3) * 27 ≤ (i 2).val ∧ (i 2).val < win0_11.index (pt ⟨(i 0).val, h0⟩) (2 : Fin 3) * 27 + 27; rw [e2]; omega

/-- What point `t` writes back is block `t` of any whole-array function `G` that agrees, stream by stream, with what
    the body leaves in the window's buffer. -/
theorem flushed11_eq (c : Dev nD) (G : S384x32x27.Idx → Elt F .f32)
    (hG : ∀ (t : Fin cfg0.N) (x : S1x32x27.Idx), outsAt0_11 V c t x = G (ix3 ⟨t.val, N0_lt t⟩ ⟨(x 1).val, (x 1).isLt⟩ ⟨(x 2).val, (x 2).isLt⟩))
    (t : Fin cfg0.N) : (dat0 V c).flushed 11 t = ((cfg0.win 11).blk t).view.read (Elt F) G := by
  obtain ⟨e0, e1, e2⟩ := idx0_11 t
  show (cfg0.win 11).cut (grid0.coords t) ((dat0 V c).after 11 t) = _
  rw [after0_11]
  funext j
  show outsAt0_11 V c t j = G (((cfg0.win 11).blk t).view.emb j)
  refine (hG t j).trans (congrArg G ?_)
  funext a
  apply Fin.ext
  match a with
  | ⟨0, _⟩ => show t.val = win0_11.index t (0 : Fin 3) * 1 + 1 * (j 0).val; have hj : (j 0).val < 1 := (j 0).isLt; rw [e0]; omega
  | ⟨1, _⟩ => show (j 1).val = win0_11.index t (1 : Fin 3) * 32 + 1 * (j 1).val; rw [e1]; omega
  | ⟨2, _⟩ => show (j 2).val = win0_11.index t (2 : Fin 3) * 27 + 1 * (j 2).val; rw [e2]; omega

/-- The array after the launch is `G`. -/
theorem final11 (c : Dev nD) (G : S384x32x27.Idx → Elt F .f32)
    (hG : ∀ (t : Fin cfg0.N) (x : S1x32x27.Idx), outsAt0_11 V c t x = G (ix3 ⟨t.val, N0_lt t⟩ ⟨(x 1).val, (x 1).isLt⟩ ⟨(x 2).val, (x 2).isLt⟩)) :
    (dat0 V c).arrAt 11 cfg0.N = G :=
  (dat0 V c).arrAt_eq_of_cover 11 G (fun t _ => flushed11_eq V c G hG t) cover11

/-- The array after the launch, at stream `g`: what the body leaves in the window's buffer at point `g`. -/
theorem arr11_apply (c : Dev nD) (g : Fin 384) (a : Fin 32) (b : Fin 27) :
    ((dat0 V c).arrAt 11 cfg0.N : S384x32x27.Idx → Elt F .f32) (ix3 g a b) = outsAt0_11 V c (pt g) (ix3 0 a b) := by
  rw [final11 V c (fun i => outsAt0_11 V c (pt ⟨(i 0).val, (i 0).isLt⟩) (ix3 0 ⟨(i 1).val, (i 1).isLt⟩ ⟨(i 2).val, (i 2).isLt⟩))
    (fun t x => by
      have hx : x = ix3 0 ⟨(x 1).val, (x 1).isLt⟩ ⟨(x 2).val, (x 2).isLt⟩ := by
        funext d
        match d with
        | ⟨0, _⟩ => exact Fin.ext (by have h : (x 0).val < 1 := (x 0).isLt; show (x 0).val = 0; omega)
        | ⟨1, _⟩ => rfl
        | ⟨2, _⟩ => rfl
      exact congrArg (outsAt0_11 V c t) hx)]

end Cert.ReferenceIdeal.RV

end
-- ==== Proof.RV.HostPre.lean ====
/- What the reference's host prefix hands its first kernel, read at an index. The signal array [128, 1, 6, 10178] is cut
   into the three sensor pairs (0,1), (2,3), (4,5), which are stacked stream-major (stream g = s·128 + b reads pair s of
   batch element b), padded with zeros from 10178 to 10440 = 87·120 samples, and split by phase: position p = m'·120 + ph
   of sensor c sits at row c·120 + ph, column m'. Each of the nine layout operations reads ONE index of its operand, so
   the composite reads one index of the signal, or the zero of the padding. -/
import proofs.«116650_g2000303023666169_pallasbulk_55_22_alg».proof.Proof.Gen.ReferenceIdeal.Regions
import proofs.«116650_g2000303023666169_pallasbulk_55_22_alg».proof.Proof.Spec
import Idealize.ShloMosaic.Lib.Pipeline.Value
import Idealize.ShloMosaic.Lib.KernelVsHost
import Idealize.ShloMosaic.Lib.ValueIdx
import Idealize.ShloMosaic.Lib.StableHlo.Run

noncomputable section

namespace Cert.ReferenceIdeal.RV

open Idealize.ShloMosaic Idealize.ShloMosaic.ValueIdx Idealize.ShloMosaic.TcCoe
open Cert.ReferenceIdeal Cert.ReferenceIdeal.Gen

/-! ## The host prefix as functions of the signal -/

/-- Sensors `o`, `o + 1` of every batch element, under a new leading unit axis. -/
def pairS (X : S128x1x6x10178.Idx → EReal) (o : ℕ) (h : S128x6x10178.Slices ![0, o, 0] S128x2x10178) : S1x128x2x10178.Idx → EReal :=
  broadcastInDim S1x128x2x10178 ![1, 2, 3] bcast_S128x2x10178_S1x128x2x10178_1_2_3
    (extractStridedSlice S128x2x10178 ![0, o, 0] (shapeCast S128x6x10178 X shapeCasts_S128x1x6x10178_S128x6x10178) h)

/-- The three pairs, in order. -/
abbrev pieces (X : S128x1x6x10178.Idx → EReal) : List ((s : Shape) × (s.Idx → EReal)) :=
  [⟨S1x128x2x10178, pairS X 0 slices_S128x6x10178_S128x2x10178_0_0_0⟩,
   ⟨S1x128x2x10178, pairS X 2 slices_S128x6x10178_S128x2x10178_0_2_0⟩,
   ⟨S1x128x2x10178, pairS X 4 slices_S128x6x10178_S128x2x10178_0_4_0⟩]

/-- The three pairs stacked stream-major. -/
def stacked (X : S128x1x6x10178.Idx → EReal) : S384x2x10178.Idx → EReal :=
  shapeCast S384x2x10178
    (concatenate S3x128x2x10178 0 (pieces X)
      concatenates_S1x128x2x10178_S1x128x2x10178_S1x128x2x10178_S3x128x2x10178_d0)
    shapeCasts_S3x128x2x10178_S384x2x10178

/-- Padded on the right of the sample axis with the value `v`. -/
def padded (X : S128x1x6x10178.Idx → EReal) (v : S_.Idx → EReal) : S384x2x10440.Idx → EReal :=
  pad S384x2x10440 ![0, 0, 0] ![0, 0, 262] ![0, 0, 0] (stacked X) v pads_S384x2x10178_S384x2x10440_000_000_02620 h_S_

/-- Split by phase: [384, 2, 87, 120] transposed to [384, 2, 120, 87] and flattened to [384, 240, 87]. -/
def x120 (X : S128x1x6x10178.Idx → EReal) (v : S_.Idx → EReal) : S384x240x87.Idx → EReal :=
  shapeCast S384x240x87
    (transpose S384x2x120x87 [0, 1, 3, 2]
      (shapeCast S384x2x87x120 (padded X v) shapeCasts_S384x2x10440_S384x2x87x120)
      transposes_S384x2x87x120_S384x2x120x87_0_1_3_2)
    shapeCasts_S384x2x120x87_S384x240x87

/-! ## Read at an index -/

/-- A pair at (0, b, c, p) is the signal of batch element `b`, sensor `o + c`, sample `p`. -/
theorem pairS_apply (X : S128x1x6x10178.Idx → EReal) (o : ℕ) (h : S128x6x10178.Slices ![0, o, 0] S128x2x10178)
    (b : Fin 128) (cc : Fin 2) (p : Fin 10178) (sn : Fin 6) (hsn : sn.val = o + cc.val) :
    pairS X o h (ix4 0 b cc p) = X (ix4 b 0 sn p) := by
  unfold pairS
  refine (broadcastInDim_apply _ _ _ (ix4 0 b cc p) (ix3 b cc p)
    (fun a => match a with | ⟨0, _⟩ => rfl | ⟨1, _⟩ => rfl | ⟨2, _⟩ => rfl)).trans ?_
  refine (extractStridedSlice_apply _ _ _ (ix3 b cc p) (ix3 b sn p)
    (fun a => match a with
      | ⟨0, _⟩ => by show b.val = 0 + b.val; omega
      | ⟨1, _⟩ => by show sn.val = o + cc.val; exact hsn
      | ⟨2, _⟩ => by show p.val = 0 + p.val; omega)).trans ?_
  exact shapeCast_apply _ _ (ix3 b sn p) (ix4 b 0 sn p)
    (by rw [Shape.rowMajor_val_four, Shape.rowMajor_val_three]
        show ((b.val * 1 + 0) * 6 + sn.val) * 10178 + p.val = (b.val * 6 + sn.val) * 10178 + p.val
        omega)

/-- Stream `g`, sensor `c`, sample `p` of the stack is batch element `g % 128`, sensor `2·(g / 128) + c`. -/
theorem stacked_apply (X : S128x1x6x10178.Idx → EReal) (g : Fin 384) (cc : Fin 2) (p : Fin 10178) :
    stacked X (ix3 g cc p) = X (ix4 ⟨g.val % 128, by omega⟩ 0 ⟨2 * (g.val / 128) + cc.val, by omega⟩ p) := by
  have hg := g.isLt
  have hc := cc.isLt
  unfold stacked
  refine (shapeCast_apply _ _ (ix3 g cc p) (ix4 ⟨g.val / 128, by omega⟩ ⟨g.val % 128, by omega⟩ cc p)
    (by rw [Shape.rowMajor_val_four, Shape.rowMajor_val_three]
        show (((g.val / 128) * 128 + g.val % 128) * 2 + cc.val) * 10178 + p.val = (g.val * 2 + cc.val) * 10178 + p.val
        omega)).trans ?_
  have hs : g.val / 128 = 0 ∨ g.val / 128 = 1 ∨ g.val / 128 = 2 := by omega
  rcases hs with hs | hs | hs
  · refine (concatenate_apply_piece (t := S3x128x2x10178) (0 : Fin 4) (pieces X)
      concatenates_S1x128x2x10178_S1x128x2x10178_S1x128x2x10178_S3x128x2x10178_d0
      (ix4 ⟨g.val / 128, by omega⟩ ⟨g.val % 128, by omega⟩ cc p) 0 (by show (0 : ℕ) < 3; omega) S1x128x2x10178
      (pairS X 0 slices_S128x6x10178_S128x2x10178_0_0_0) rfl rfl 0 rfl
      (ix4 0 ⟨g.val % 128, by omega⟩ cc p)
      (fun b hb => match b with | ⟨0, _⟩ => absurd rfl hb | ⟨1, _⟩ => rfl | ⟨2, _⟩ => rfl | ⟨3, _⟩ => rfl)
      (by show 0 + 0 = g.val / 128; omega)).trans ?_
    exact pairS_apply X 0 _ _ cc p _ (by show 2 * (g.val / 128) + cc.val = 0 + cc.val; omega)
  · refine (concatenate_apply_piece (t := S3x128x2x10178) (0 : Fin 4) (pieces X)
      concatenates_S1x128x2x10178_S1x128x2x10178_S1x128x2x10178_S3x128x2x10178_d0
      (ix4 ⟨g.val / 128, by omega⟩ ⟨g.val % 128, by omega⟩ cc p) 1 (by show (1 : ℕ) < 3; omega) S1x128x2x10178
      (pairS X 2 slices_S128x6x10178_S128x2x10178_0_2_0) rfl rfl 1 rfl
      (ix4 0 ⟨g.val % 128, by omega⟩ cc p)
      (fun b hb => match b with | ⟨0, _⟩ => absurd rfl hb | ⟨1, _⟩ => rfl | ⟨2, _⟩ => rfl | ⟨3, _⟩ => rfl)
      (by show 1 + 0 = g.val / 128; omega)).trans ?_
    exact pairS_apply X 2 _ _ cc p _ (by show 2 * (g.val / 128) + cc.val = 2 + cc.val; omega)
  · refine (concatenate_apply_piece (t := S3x128x2x10178) (0 : Fin 4) (pieces X)
      concatenates_S1x128x2x10178_S1x128x2x10178_S1x128x2x10178_S3x128x2x10178_d0
      (ix4 ⟨g.val / 128, by omega⟩ ⟨g.val % 128, by omega⟩ cc p) 2 (by show (2 : ℕ) < 3; omega) S1x128x2x10178
      (pairS X 4 slices_S128x6x10178_S128x2x10178_0_4_0) rfl rfl 2 rfl
      (ix4 0 ⟨g.val % 128, by omega⟩ cc p)
      (fun b hb => match b with | ⟨0, _⟩ => absurd rfl hb | ⟨1, _⟩ => rfl | ⟨2, _⟩ => rfl | ⟨3, _⟩ => rfl)
      (by show 2 + 0 = g.val / 128; omega)).trans ?_
    exact pairS_apply X 4 _ _ cc p _ (by show 2 * (g.val / 128) + cc.val = 4 + cc.val; omega)

/-- Inside the signal the padded array is the stack; -/
theorem padded_apply_in (X : S128x1x6x10178.Idx → EReal) (v : S_.Idx → EReal) (g : Fin 384) (cc : Fin 2) (p : Fin 10440)
    (hp : p.val < 10178) : padded X v (ix3 g cc p) = stacked X (ix3 g cc ⟨p.val, hp⟩) := by
  unfold padded
  exact pad_apply_of_inside _ _ _ _ _ _ _ (ix3 g cc p) (ix3 g cc ⟨p.val, hp⟩)
    (fun a => match a with
      | ⟨0, _⟩ => by show g.val = 0 + g.val * (0 + 1); omega
      | ⟨1, _⟩ => by show cc.val = 0 + cc.val * (0 + 1); omega
      | ⟨2, _⟩ => by show p.val = 0 + p.val * (0 + 1); omega)

/-- beyond it, the padding value. -/
theorem padded_apply_out (X : S128x1x6x10178.Idx → EReal) (v : S_.Idx → EReal) (g : Fin 384) (cc : Fin 2) (p : Fin 10440)
    (hp : ¬ p.val < 10178) : padded X v (ix3 g cc p) = v ix0 := by
  unfold padded
  refine (pad_apply_of_not_inside _ _ _ _ _ _ _ (ix3 g cc p) (2 : Fin 3) ?_).trans (congrArg v (eq_ix0 _))
  intro h
  have h3 : (p.val - 0) / (0 + 1) < 10178 := h.2.2
  omega

/-- Row `c·120 + ph`, column `m'` of stream `g`'s block is sample `m'·120 + ph` of sensor `c` in the padded stack. -/
theorem x120_apply (X : S128x1x6x10178.Idx → EReal) (v : S_.Idx → EReal) (g : Fin 384) (cc : Fin 2) (ph : Fin 120) (m' : Fin 87) :
    x120 X v (ix3 g ⟨cc.val * 120 + ph.val, by omega⟩ m') = padded X v (ix3 g cc ⟨m'.val * 120 + ph.val, by omega⟩) := by
  have hc := cc.isLt
  have hph := ph.isLt
  have hm := m'.isLt
  unfold x120
  refine (shapeCast_apply _ _ (ix3 g ⟨cc.val * 120 + ph.val, by omega⟩ m') (ix4 g cc ph m')
    (by rw [Shape.rowMajor_val_four, Shape.rowMajor_val_three]
        show ((g.val * 2 + cc.val) * 120 + ph.val) * 87 + m'.val = (g.val * 240 + (cc.val * 120 + ph.val)) * 87 + m'.val
        omega)).trans ?_
  refine (transpose_apply _ _ _ (ix4 g cc ph m') (ix4 g cc m' ph)
    (fun b => match b with | ⟨0, _⟩ => rfl | ⟨1, _⟩ => rfl | ⟨2, _⟩ => rfl | ⟨3, _⟩ => rfl)).trans ?_
  exact shapeCast_apply _ _ (ix4 g cc m' ph) (ix3 g cc ⟨m'.val * 120 + ph.val, by omega⟩)
    (by rw [Shape.rowMajor_val_three, Shape.rowMajor_val_four]
        show (g.val * 2 + cc.val) * 10440 + (m'.val * 120 + ph.val) = ((g.val * 2 + cc.val) * 87 + m'.val) * 120 + ph.val
        omega)

/-- The first kernel's signal block, at a zero padding value, is the specification's signal pair of the stream. -/
theorem x120_eq_sig (X : S128x1x6x10178.Idx → EReal) (v : S_.Idx → EReal) (hv : v ix0 = 0)
    (g : Fin 384) (cc : Fin 2) (ph : Fin 120) (m' : Fin 87) :
    x120 X v (ix3 g ⟨cc.val * 120 + ph.val, by omega⟩ m') = Cert.Spec.sig X g cc (m'.val * 120 + ph.val) := by
  have hph := ph.isLt
  have hm := m'.isLt
  rw [x120_apply]
  unfold Cert.Spec.sig
  by_cases hp : m'.val * 120 + ph.val < 10178
  · rw [dif_pos hp, padded_apply_in X v g cc _ hp, stacked_apply]
  · rw [dif_neg hp, padded_apply_out X v g cc _ hp, hv]

/-! ## The first kernel's arrays in the launch memory -/

/-- A three-operand operation's result, each operand's contents at its own reference. -/
theorem nary3_result {τ' : Topo} {sig' : RefSig} {Val : EltTy → Type} {x a b y : Ref sig' .tc}
    (f : ((k : Fin 3) → ((![x, a, b] : Fin 3 → Ref sig' .tc) k).ty.Contents Val) → y.ty.Contents Val) (hxs hy)
    (G : Valuation τ' sig' Val) :
    (StableHlo.nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- The padding value: the integer zero converted, which is zero. -/
abbrev padv : S_.Idx → EReal := sitofp (F := Ideal) .f32 (constantI S_ 32 0#32)
theorem padv_zero : padv ix0 = 0 := sitofp_zero (φ := .f32)

set_option maxHeartbeats 1000000 in
/-- After the three host stretches the first kernel's signal array is the phase split of the launch signal: each
    operation's result read at its own buffer, every other buffer as it was. -/
theorem V3_v12 (m : (ℓ : Loc nD τ sig) → Buf (Elt Ideal) ℓ) (c : Dev nD) :
    (Gen.V3 m c (Proc.devRef .tc main_v12) : S384x240x87.Idx → EReal)
      = x120 (m ((c.tc : Thread nD τ).loc main_arg0)) padv := by
  dsimp only [Gen.V3, Gen.V2, Gen.V1, Gen.V0, hostOps0, hostOps0_1, hostOps0_2]
  simp only [StableHlo.after_cons, StableHlo.after_nil]
  repeat (first
    | rw [nary3_result] | rw [StableHlo.nullary_result] | rw [StableHlo.unary_result] | rw [StableHlo.binary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- The first kernel's signal array at stream `g`, row `c·120 + ph`, column `m'`: sample `m'·120 + ph` of the
    stream's sensor `c`, zero beyond the signal. -/
theorem sig_block (m : (ℓ : Loc nD τ sig) → Buf (Elt Ideal) ℓ) (c : Dev nD) (g : Fin 384) (cc : Fin 2) (ph : Fin 120) (m' : Fin 87) :
    (Gen.V3 m c (Proc.devRef .tc main_v12) : S384x240x87.Idx → EReal) (ix3 g ⟨cc.val * 120 + ph.val, by omega⟩ m')
      = Cert.Spec.sig (m ((c.tc : Thread nD τ).loc main_arg0)) g cc (m'.val * 120 + ph.val) := by
  rw [V3_v12]; exact x120_eq_sig _ _ padv_zero g cc ph m'

section Args
variable {F : FTy → Type} [FloatOps F]

/-- A buffer none of the three host stretches writes holds its launch contents when the first kernel is entered. -/
theorem V3_keep (m : (ℓ : Loc nD τ sig) → Buf (Elt F) ℓ) (c : Dev nD) (r : Ref sig .tc)
    (h0 : r ∉ hostOps0_W) (h1 : r ∉ hostOps0_1_W) (h2 : r ∉ hostOps0_2_W) :
    Gen.V3 m c r = m ((c.tc : Thread nD τ).loc r) :=
  (Gen.V3_of m c r h2).trans ((Gen.V2_of m c r h1).trans ((Gen.V1_of m c r h0).trans rfl))

theorem V3_arg1 (m : (ℓ : Loc nD τ sig) → Buf (Elt F) ℓ) (c : Dev nD) : Gen.V3 m c main_arg1 = m ((c.tc : Thread nD τ).loc main_arg1) :=
  V3_keep m c main_arg1 (by decide) (by decide) (by decide)
theorem V3_arg2 (m : (ℓ : Loc nD τ sig) → Buf (Elt F) ℓ) (c : Dev nD) : Gen.V3 m c main_arg2 = m ((c.tc : Thread nD τ).loc main_arg2) :=
  V3_keep m c main_arg2 (by decide) (by decide) (by decide)
theorem V3_arg3 (m : (ℓ : Loc nD τ sig) → Buf (Elt F) ℓ) (c : Dev nD) : Gen.V3 m c main_arg3 = m ((c.tc : Thread nD τ).loc main_arg3) :=
  V3_keep m c main_arg3 (by decide) (by decide) (by decide)
theorem V3_arg4 (m : (ℓ : Loc nD τ sig) → Buf (Elt F) ℓ) (c : Dev nD) : Gen.V3 m c main_arg4 = m ((c.tc : Thread nD τ).loc main_arg4) :=
  V3_keep m c main_arg4 (by decide) (by decide) (by decide)
theorem V3_arg5 (m : (ℓ : Loc nD τ sig) → Buf (Elt F) ℓ) (c : Dev nD) : Gen.V3 m c main_arg5 = m ((c.tc : Thread nD τ).loc main_arg5) :=
  V3_keep m c main_arg5 (by decide) (by decide) (by decide)
theorem V3_arg6 (m : (ℓ : Loc nD τ sig) → Buf (Elt F) ℓ) (c : Dev nD) : Gen.V3 m c main_arg6 = m ((c.tc : Thread nD τ).loc main_arg6) :=
  V3_keep m c main_arg6 (by decide) (by decide) (by decide)
theorem V3_arg7 (m : (ℓ : Loc nD τ sig) → Buf (Elt F) ℓ) (c : Dev nD) : Gen.V3 m c main_arg7 = m ((c.tc : Thread nD τ).loc main_arg7) :=
  V3_keep m c main_arg7 (by decide) (by decide) (by decide)
theorem V3_arg8 (m : (ℓ : Loc nD τ sig) → Buf (Elt F) ℓ) (c : Dev nD) : Gen.V3 m c main_arg8 = m ((c.tc : Thread nD τ).loc main_arg8) :=
  V3_keep m c main_arg8 (by decide) (by decide) (by decide)
theorem V3_arg9 (m : (ℓ : Loc nD τ sig) → Buf (Elt F) ℓ) (c : Dev nD) : Gen.V3 m c main_arg9 = m ((c.tc : Thread nD τ).loc main_arg9) :=
  V3_keep m c main_arg9 (by decide) (by decide) (by decide)

/-- The first kernel's windows stage the signal array and the nine weight arguments, in this order. -/
theorem win0_ref_0 : Pipeline.arrRef spec0 0 = main_v12 := rfl
theorem win0_ref_1 : Pipeline.arrRef spec0 1 = main_arg1 := rfl
theorem win0_ref_2 : Pipeline.arrRef spec0 2 = main_arg2 := rfl
theorem win0_ref_3 : Pipeline.arrRef spec0 3 = main_arg3 := rfl
theorem win0_ref_4 : Pipeline.arrRef spec0 4 = main_arg4 := rfl
theorem win0_ref_5 : Pipeline.arrRef spec0 5 = main_arg5 := rfl
theorem win0_ref_6 : Pipeline.arrRef spec0 6 = main_arg6 := rfl
theorem win0_ref_7 : Pipeline.arrRef spec0 7 = main_arg7 := rfl
theorem win0_ref_8 : Pipeline.arrRef spec0 8 = main_arg8 := rfl
theorem win0_ref_9 : Pipeline.arrRef spec0 9 = main_arg9 := rfl

end Args

/-! ## The arguments as the specification's records -/

/-- The launch signal. -/
abbrev sigX (m : (ℓ : Loc nD τ sig) → Buf (Elt Ideal) ℓ) (c : Dev nD) : Cert.Spec.A4 128 1 6 10178 :=
  m ((c.tc : Thread nD τ).loc main_arg0)
/-- The stream block's weights, as launched. -/
def wts (m : (ℓ : Loc nD τ sig) → Buf (Elt Ideal) ℓ) (c : Dev nD) : Cert.Spec.Wts where
  w1q := m ((c.tc : Thread nD τ).loc main_arg1)
  b1s := m ((c.tc : Thread nD τ).loc main_arg2)
  wc2 := m ((c.tc : Thread nD τ).loc main_arg3)
  b2s := m ((c.tc : Thread nD τ).loc main_arg4)
  wf0 := m ((c.tc : Thread nD τ).loc main_arg5)
  wf1 := m ((c.tc : Thread nD τ).loc main_arg6)
  bf := m ((c.tc : Thread nD τ).loc main_arg7)
  s0 := m ((c.tc : Thread nD τ).loc main_arg8)
  s1 := m ((c.tc : Thread nD τ).loc main_arg9)
/-- The head's weights, as launched. -/
def hwts (m : (ℓ : Loc nD τ sig) → Buf (Elt Ideal) ℓ) (c : Dev nD) : Cert.Spec.HWts where
  wcon := m ((c.tc : Thread nD τ).loc main_arg10)
  bcon := m ((c.tc : Thread nD τ).loc main_arg11)
  wfl := m ((c.tc : Thread nD τ).loc main_arg12)
  bfl := m ((c.tc : Thread nD τ).loc main_arg13)
  wout := m ((c.tc : Thread nD τ).loc main_arg14)
  bout := m ((c.tc : Thread nD τ).loc main_arg15)

end Cert.ReferenceIdeal.RV

end
-- ==== Proof.RV.StreamRun.lean ====
/-
  The per-stream body of the reference program, read back from its run: what its two stores into the output buffers
  hold, as the printed arithmetic applied to the input blocks; the first scratch buffer as one array (the first
  convolution of the stream block); and each of the 79 distinct 16x82 windows the body loads from that scratch buffer
  as that array at the window's offset. Window number p sits at rows (p % 24)·16 and columns p / 24 on: the value at
  (co, mm) of window p is the first convolution at weight-table row (p % 24)·16 + co and column p / 24 + mm, that
  is, at output position 24·mm + p of channel co.
-/
import proofs.«116650_g2000303023666169_pallasbulk_55_22_alg».proof.Proof.RI.Region0
import proofs.«116650_g2000303023666169_pallasbulk_55_22_alg».proof.Proof.Spec
import Idealize.ShloMosaic.Lib.Pipeline.Value
import Idealize.ShloMosaic.Lib.ValueIdx
import Idealize.ShloMosaic.Lib.Tactic

set_option maxRecDepth 16384

noncomputable section

namespace Cert.ReferenceIdeal.RV

open Idealize.ShloMosaic Idealize.ShloMosaic.TcCoe Idealize.ShloMosaic.Tactic Idealize.ShloMosaic.ValueIdx
open Idealize.SL Idealize.SL.Sem
open Idealize.ShloMosaic.Pipeline (Dat)
open Cert.ReferenceIdeal Cert.ReferenceIdeal.Gen Cert.ReferenceIdeal.Hand

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a 16x82 window of a buffer that one store wrote whole reads the stored array at the window's offset
    plus the coordinate. -/
theorem tap_read (v : View sig .tc .vmem S384x85 .f32) (G : FVec Ideal S384x85 .f32) (off : Fin 2 → ℕ)
    (inb : ∀ a, off a + S16x82.size a ≤ S384x85.size a)
    (co : Fin 16) (mm : Fin 82) (n : Fin 384) (mcol : Fin 85) (hn : n.val = off 0 + co.val) (hm : mcol.val = off 1 + mm.val) :
    v.readCov [(⟨Rect.unit (s := S384x85) ![0, 0] S384x85.size inb_S384x85_S384x85_0_0, G⟩ : View.Piece (Elt Ideal) S384x85 .f32)]
      (Rect.unit (s := S384x85) off S16x82.size inb).toLoadRect (ix2 co mm) = G (ix2 n mcol) := by
  rw [View.readCov_eq_canon', View.canon_unit_zero hz2]
  show G _ = G _
  refine congrArg G (funext fun a => Fin.ext ?_)
  match a with
  | ⟨0, _⟩ => simp only [LoadRect.idx_apply, Rect.emb_apply, Rect.off_unit, Rect.stride_unit, Nat.one_mul]; exact hn.symm
  | ⟨1, _⟩ => simp only [LoadRect.idx_apply, Rect.emb_apply, Rect.off_unit, Rect.stride_unit, Nat.one_mul]; exact hm.symm

variable (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
variable (x0 : Vec Ideal S1x240x87 .f32) (x1 : Vec Ideal S3x384x240 .f32) (x2 : Vec Ideal S384x1 .f32) (x3 : Vec Ideal S64x64 .f32) (x4 : Vec Ideal S64x1 .f32) (x5 : Vec Ideal S32x32 .f32) (x6 : Vec Ideal S32x32 .f32) (x7 : Vec Ideal S32x1 .f32) (x8 : Vec Ideal S81x27 .f32) (x9 : Vec Ideal S81x27 .f32)

/-! ## The two stores into the output buffers -/

/-- Output window 10's block after the body: the printed tail applied to the second scratch buffer as loaded. -/
theorem out10_eq : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 =
    k0_pay26 (F := Ideal) x3 (kernelRun0_A.sl.v551 (F := Ideal) c arg1 harg1 arg2 harg2 arg3 harg3 arg13 arg14 x0 x1 x2) x4 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  rw [View.canon_unit_zero hz3]
  simp only [View.readAt_eq_ld, harg4.read_unread, harg5.read_unread, View.ld_unit_zero (S := S64x64) hz2, View.ld_unit_zero (S := S64x1) hz2]

/-- Output window 11's block after the body. -/
theorem out11_eq : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 =
    k0_pay1 (F := Ideal) (k0_pay27 (F := Ideal) x3 (kernelRun0_A.sl.v551 (F := Ideal) c arg1 harg1 arg2 harg2 arg3 harg3 arg13 arg14 x0 x1 x2) x4 x8)
      (k0_pay28 (F := Ideal) x3 (kernelRun0_A.sl.v551 (F := Ideal) c arg1 harg1 arg2 harg2 arg3 harg3 arg13 arg14 x0 x1 x2) x4 x9) x5 x6 x7 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  rw [View.canon_unit_zero hz3]
  unfold kernelRun0_A.sl.r_17 kernelRun0_A.sl.r_18 kernelRun0_A.sl.r_19
  simp only [View.readAt_eq_ld, harg4.read_unread, harg5.read_unread, harg6.read_unread, harg7.read_unread, harg8.read_unread, harg9.read_unread, harg10.read_unread,
    View.ld_unit_zero (S := S64x64) hz2, View.ld_unit_zero (S := S64x1) hz2, View.ld_unit_zero (S := S32x32) hz2, View.ld_unit_zero (S := S32x1) hz2, View.ld_unit_zero (S := S81x27) hz2]

/-! ## The first scratch buffer -/

/-- The first scratch buffer's contents: the printed first convolution of the stream block with the three slabs of
    the first weight array and the first bias. -/
def conv0 (x0 : Vec Ideal S1x240x87 .f32) (x1 : Vec Ideal S3x384x240 .f32) (x2 : Vec Ideal S384x1 .f32) : FVec Ideal S384x85 .f32 :=
  k0_pay2 (F := Ideal) x0
    (View.ld x1 (Rect.unit (s := S3x384x240) ![0, 0, 0] S1x384x240.size inb_S3x384x240_S1x384x240_0_0_0))
    (View.ld x1 (Rect.unit (s := S3x384x240) ![1, 0, 0] S1x384x240.size inb_S3x384x240_S1x384x240_1_0_0))
    (View.ld x1 (Rect.unit (s := S3x384x240) ![2, 0, 0] S1x384x240.size inb_S3x384x240_S1x384x240_2_0_0)) x2

theorem HS0_eq : kernelRun0_A.sl.HS0_1 (F := Ideal) c arg1 harg1 arg2 harg2 arg3 harg3 x0 x1 x2
    = [⟨Rect.unit (s := S384x85) ![0, 0] S384x85.size inb_S384x85_S384x85_0_0, conv0 x0 x1 x2⟩] := by
  unfold kernelRun0_A.sl.HS0_1 conv0
  simp only [View.readAt_eq_ld, harg1.read_unread, harg2.read_unread, harg3.read_unread, View.ld_unit_zero (S := S1x240x87) hz3, View.ld_unit_zero (S := S384x1) hz2]

/-! ## The 79 windows of the first scratch buffer -/

theorem tap_at_0 (co : Fin 16) (mm : Fin 82) : kernelRun0_A.sl.v22 (F := Ideal) c arg1 harg1 arg2 harg2 arg3 harg3 arg13 x0 x1 x2 (ix2 co mm)
    = conv0 x0 x1 x2 (ix2 ⟨(0 % 24) * 16 + co.val, by omega⟩ ⟨0 / 24 + mm.val, by omega⟩) := by
  unfold kernelRun0_A.sl.v22; rw [HS0_eq]; exact tap_read _ _ _ _ co mm _ _ rfl rfl
theorem tap_at_1 (co : Fin 16) (mm : Fin 82) : kernelRun0_A.sl.v23 (F := Ideal) c arg1 harg1 arg2 harg2 arg3 harg3 arg13 x0 x1 x2 (ix2 co mm)
    = conv0 x0 x1 x2 (ix2 ⟨(1 % 24) * 16 + co.val, by omega⟩ ⟨1 / 24 + mm.val, by omega⟩) := by
  unfold kernelRun0_A.sl.v23; rw [HS0_eq]; exact tap_read _ _ _ _ co mm _ _ rfl rfl
theorem tap_at_2 (co : Fin 16) (mm : Fin 82) : kernelRun0_A.sl.v25 (F := Ideal) c arg1 harg1 arg2 harg2 arg3 harg3 arg13 x0 x1 x2 (ix2 co mm)
    = conv0 x0 x1 x2 (ix2 ⟨(2 % 24) * 16 + co.val, by omega⟩ ⟨2 / 24 + mm.val, by omega⟩) := by
  unfold kernelRun0_A.sl.v25; rw [HS0_eq]; exact tap_read _ _ _ _ co mm _ _ rfl rfl
theorem tap_at_3 (co : Fin 16) (mm : Fin 82) : kernelRun0_A.sl.v27 (F := Ideal) c arg1 harg1 arg2 harg2 arg3 harg3 arg13 x0 x1 x2 (ix2 co mm)
    = conv0 x0 x1 x2 (ix2 ⟨(3 % 24) * 16 + co.val, by omega⟩ ⟨3 / 24 + mm.val, by omega⟩) := by
  unfold kernelRun0_A.sl.v27; rw [HS0_eq]; exact tap_read _ _ _ _ co mm _ _ rfl rfl
theorem tap_at_4 (co : Fin 16) (mm : Fin 82) : kernelRun0_A.sl.v29 (F := Ideal) c arg1 harg1 arg2 harg2 arg3 harg3 arg13 x0 x1 x2 (ix2 co mm)
    = conv0 x0 x1 x2 (ix2 ⟨(4 % 24) * 16 + co.val, by omega⟩ ⟨4 / 24 + mm.val, by omega⟩) := by
  unfold kernelRun0_A.sl.v29; rw [HS0_eq]; exact tap_read _ _ _ _ co mm _ _ rfl rfl
theorem tap_at_5 (co : Fin 16) (mm : Fin 82) : kernelRun0_A.sl.v31 (F := Ideal) c arg1 harg1 arg2 harg2 arg3 harg3 arg13 x0 x1 x2 (ix2 co mm)
    = conv0 x0 x1 x2 (ix2 ⟨(5 % 24) * 16 + co.val, by omega⟩ ⟨5 / 24 + mm.val, by omega⟩) := by
  unfold kernelRun0_A.sl.v31; rw [HS0_eq]; exact tap_read _ _ _ _ co mm _ _ rfl rfl
theorem tap_at_6 (co : Fin 16) (mm : Fin 82) : kernelRun0_A.sl.v33 (F := Ideal) c arg1 harg1 arg2 harg2 arg3 harg3 arg13 x0 x1 x2 (ix2 co mm)
    = conv0 x0 x1 x2 (ix2 ⟨(6 % 24) * 16 + co.val, by omega⟩ ⟨6 / 24 + mm.val, by omega⟩) := by
  unfold kernelRun0_A.sl.v33; rw [HS0_eq]; exact tap_read _ _ _ _ co mm _ _ rfl rfl
theorem tap_at_7 (co : Fin 16) (mm : Fin 82) : kernelRun0_A.sl.v35 (F := Ideal) c arg1 harg1 arg2 harg2 arg3 harg3 arg13 x0 x1 x2 (ix2 co mm)
    = conv0 x0 x1 x2 (ix2 ⟨(7 % 24) * 16 + co.val, by omega⟩ ⟨7 / 24 + mm.val, by omega⟩) := by
  unfold kernelRun0_A.sl.v35; rw [HS0_eq]; exact tap_read _ _ _ _ co mm _ _ rfl rfl
theorem tap_at_8 (co : Fin 16) (mm : Fin 82) : kernelRun0_A.sl.v37 (F := Ideal) c arg1 harg1 arg2 harg2 arg3 harg3 arg13 x0 x1 x2 (ix2 co mm)
    = conv0 x0 x1 x2 (ix2 ⟨(8 % 24) * 16 + co.val, by omega⟩ ⟨8 / 24 + mm.val, by omega⟩) := by
  unfold kernelRun0_A.sl.v37; rw [HS0_eq]; exact tap_read _ _ _ _ co mm _ _ rfl rfl
theorem tap_at_9 (co : Fin 16) (mm : Fin 82) : kernelRun0_A.sl.v39 (F := Ideal) c arg1 harg1 arg2 harg2 arg3 harg3 arg13 x0 x1 x2 (ix2 co mm)
    = conv0 x0 x1 x2 (ix2 ⟨(9 % 24) * 16 + co.val, by omega⟩ ⟨9 / 24 + mm.val, by omega⟩) := by
  unfold kernelRun0_A.sl.v39; rw [HS0_eq]; exact tap_read _ _ _ _ co mm _ _ rfl rfl
theorem tap_at_10 (co : Fin 16) (mm : Fin 82) : kernelRun0_A.sl.v41 (F := Ideal) c arg1 harg1 arg2 harg2 arg3 harg3 arg13 x0 x1 x2 (ix2 co mm)
    = conv0 x0 x1 x2 (ix2 ⟨(10 % 24) * 16 + co.val, by omega⟩ ⟨10 / 24 + mm.val, by omega⟩) := by
  unfold kernelRun0_A.sl.v41; rw [HS0_eq]; exact tap_read _ _ _ _ co mm _ _ rfl rfl
theorem tap_at_11 (co : Fin 16) (mm : Fin 82) : kernelRun0_A.sl.v43 (F := Ideal) c arg1 harg1 arg2 harg2 arg3 harg3 arg13 x0 x1 x2 (ix2 co mm)
    = conv0 x0 x1 x2 (ix2 ⟨(11 % 24) * 16 + co.val, by omega⟩ ⟨11 / 24 + mm.val, by omega⟩) := by
  unfold kernelRun0_A.sl.v43; rw [HS0_eq]; exact tap_read _ _ _ _ co mm _ _ rfl rfl
theorem tap_at_12 (co : Fin 16) (mm : Fin 82) : kernelRun0_A.sl.v45 (F := Ideal) c arg1 harg1 arg2 harg2 arg3 harg3 arg13 x0 x1 x2 (ix2 co mm)
    = conv0 x0 x1 x2 (ix2 ⟨(12 % 24) * 16 + co.val, by omega⟩ ⟨12 / 24 + mm.val, by omega⟩) := by
  unfold kernelRun0_A.sl.v45; rw [HS0_eq]; exact tap_read _ _ _ _ co mm _ _ rfl rfl
theorem tap_at_13 (co : Fin 16) (mm : Fin 82) : kernelRun0_A.sl.v47 (F := Ideal) c arg1 harg1 arg2 harg2 arg3 harg3 arg13 x0 x1 x2 (ix2 co mm)
    = conv0 x0 x1 x2 (ix2 ⟨(13 % 24) * 16 + co.val, by omega⟩ ⟨13 / 24 + mm.val, by omega⟩) := by
  unfold kernelRun0_A.sl.v47; rw [HS0_eq]; exact tap_read _ _ _ _ co mm _ _ rfl rfl
theorem tap_at_14 (co : Fin 16) (mm : Fin 82) : kernelRun0_A.sl.v49 (F := Ideal) c arg1 harg1 arg2 harg2 arg3 harg3 arg13 x0 x1 x2 (ix2 co mm)
    = conv0 x0 x1 x2 (ix2 ⟨(14 % 24) * 16 + co.val, by omega⟩ ⟨14 / 24 + mm.val, by omega⟩) := by
  unfold kernelRun0_A.sl.v49; rw [HS0_eq]; exact tap_read _ _ _ _ co mm _ _ rfl rfl
theorem tap_at_15 (co : Fin 16) (mm : Fin 82) : kernelRun0_A.sl.v51 (F := Ideal) c arg1 harg1 arg2 harg2 arg3 harg3 arg13 x0 x1 x2 (ix2 co mm)
    = conv0 x0 x1 x2 (ix2 ⟨(15 % 24) * 16 + co.val, by omega⟩ ⟨15 / 24 + mm.val, by omega⟩) := by
  unfold kernelRun0_A.sl.v51; rw [HS0_eq]; exact tap_read _ _ _ _ co mm _ _ rfl rfl
theorem tap_at_16 (co : Fin 16) (mm : Fin 82) : kernelRun0_A.sl.v53 (F := Ideal) c arg1 harg1 arg2 harg2 arg3 harg3 arg13 x0 x1 x2 (ix2 co mm)
    = conv0 x0 x1 x2 (ix2 ⟨(16 % 24) * 16 + co.val, by omega⟩ ⟨16 / 24 + mm.val, by omega⟩) := by
  unfold kernelRun0_A.sl.v53; rw [HS0_eq]; exact tap_read _ _ _ _ co mm _ _ rfl rfl
theorem tap_at_17 (co : Fin 16) (mm : Fin 82) : kernelRun0_A.sl.v55 (F := Ideal) c arg1 harg1 arg2 harg2 arg3 harg3 arg13 x0 x1 x2 (ix2 co mm)
    = conv0 x0 x1 x2 (ix2 ⟨(17 % 24) * 16 + co.val, by omega⟩ ⟨17 / 24 + mm.val, by omega⟩) := by
  unfold kernelRun0_A.sl.v55; rw [HS0_eq]; exact tap_read _ _ _ _ co mm _ _ rfl rfl
theorem tap_at_18 (co : Fin 16) (mm : Fin 82) : kernelRun0_A.sl.v57 (F := Ideal) c arg1 harg1 arg2 harg2 arg3 harg3 arg13 x0 x1 x2 (ix2 co mm)
    = conv0 x0 x1 x2 (ix2 ⟨(18 % 24) * 16 + co.val, by omega⟩ ⟨18 / 24 + mm.val, by omega⟩) := by
  unfold kernelRun0_A.sl.v57; rw [HS0_eq]; exact tap_read _ _ _ _ co mm _ _ rfl rfl
theorem tap_at_19 (co : Fin 16) (mm : Fin 82) : kernelRun0_A.sl.v59 (F := Ideal) c arg1 harg1 arg2 harg2 arg3 harg3 arg13 x0 x1 x2 (ix2 co mm)
    = conv0 x0 x1 x2 (ix2 ⟨(19 % 24) * 16 + co.val, by omega⟩ ⟨19 / 24 + mm.val, by omega⟩) := by
  unfold kernelRun0_A.sl.v59; rw [HS0_eq]; exact tap_read _ _ _ _ co mm _ _ rfl rfl
theorem tap_at_20 (co : Fin 16) (mm : Fin 82) : kernelRun0_A.sl.v61 (F := Ideal) c arg1 harg1 arg2 harg2 arg3 harg3 arg13 x0 x1 x2 (ix2 co mm)
    = conv0 x0 x1 x2 (ix2 ⟨(20 % 24) * 16 + co.val, by omega⟩ ⟨20 / 24 + mm.val, by omega⟩) := by
  unfold kernelRun0_A.sl.v61; rw [HS0_eq]; exact tap_read _ _ _ _ co mm _ _ rfl rfl
theorem tap_at_21 (co : Fin 16) (mm : Fin 82) : kernelRun0_A.sl.v63 (F := Ideal) c arg1 harg1 arg2 harg2 arg3 harg3 arg13 x0 x1 x2 (ix2 co mm)
    = conv0 x0 x1 x2 (ix2 ⟨(21 % 24) * 16 + co.val, by omega⟩ ⟨21 / 24 + mm.val, by omega⟩) := by
  unfold kernelRun0_A.sl.v63; rw [HS0_eq]; exact tap_read _ _ _ _ co mm _ _ rfl rfl
theorem tap_at_22 (co : Fin 16) (mm : Fin 82) : kernelRun0_A.sl.v65 (F := Ideal) c arg1 harg1 arg2 harg2 arg3 harg3 arg13 x0 x1 x2 (ix2 co mm)
    = conv0 x0 x1 x2 (ix2 ⟨(22 % 24) * 16 + co.val, by omega⟩ ⟨22 / 24 + mm.val, by omega⟩) := by
  unfold kernelRun0_A.sl.v65; rw [HS0_eq]; exact tap_read _ _ _ _ co mm _ _ rfl rfl
theorem tap_at_23 (co : Fin 16) (mm : Fin 82) : kernelRun0_A.sl.v67 (F := Ideal) c arg1 harg1 arg2 harg2 arg3 harg3 arg13 x0 x1 x2 (ix2 co mm)
    = conv0 x0 x1 x2 (ix2 ⟨(23 % 24) * 16 + co.val, by omega⟩ ⟨23 / 24 + mm.val, by omega⟩) := by
  unfold kernelRun0_A.sl.v67; rw [HS0_eq]; exact tap_read _ _ _ _ co mm _ _ rfl rfl
theorem tap_at_24 (co : Fin 16) (mm : Fin 82) : kernelRun0_A.sl.v69 (F := Ideal) c arg1 harg1 arg2 harg2 arg3 harg3 arg13 x0 x1 x2 (ix2 co mm)
    = conv0 x0 x1 x2 (ix2 ⟨(24 % 24) * 16 + co.val, by omega⟩ ⟨24 / 24 + mm.val, by omega⟩) := by
  unfold kernelRun0_A.sl.v69; rw [HS0_eq]; exact tap_read _ _ _ _ co mm _ _ rfl rfl
theorem tap_at_25 (co : Fin 16) (mm : Fin 82) : kernelRun0_A.sl.v71 (F := Ideal) c arg1 harg1 arg2 harg2 arg3 harg3 arg13 x0 x1 x2 (ix2 co mm)
    = conv0 x0 x1 x2 (ix2 ⟨(25 % 24) * 16 + co.val, by omega⟩ ⟨25 / 24 + mm.val, by omega⟩) := by
  unfold kernelRun0_A.sl.v71; rw [HS0_eq]; exact tap_read _ _ _ _ co mm _ _ rfl rfl
theorem tap_at_26 (co : Fin 16) (mm : Fin 82) : kernelRun0_A.sl.v73 (F := Ideal) c arg1 harg1 arg2 harg2 arg3 harg3 arg13 x0 x1 x2 (ix2 co mm)
    = conv0 x0 x1 x2 (ix2 ⟨(26 % 24) * 16 + co.val, by omega⟩ ⟨26 / 24 + mm.val, by omega⟩) := by
  unfold kernelRun0_A.sl.v73; rw [HS0_eq]; exact tap_read _ _ _ _ co mm _ _ rfl rfl
theorem tap_at_27 (co : Fin 16) (mm : Fin 82) : kernelRun0_A.sl.v75 (F := Ideal) c arg1 harg1 arg2 harg2 arg3 harg3 arg13 x0 x1 x2 (ix2 co mm)
    = conv0 x0 x1 x2 (ix2 ⟨(27 % 24) * 16 + co.val, by omega⟩ ⟨27 / 24 + mm.val, by omega⟩) := by
  unfold kernelRun0_A.sl.v75; rw [HS0_eq]; exact tap_read _ _ _ _ co mm _ _ rfl rfl
theorem tap_at_28 (co : Fin 16) (mm : Fin 82) : kernelRun0_A.sl.v77 (F := Ideal) c arg1 harg1 arg2 harg2 arg3 harg3 arg13 x0 x1 x2 (ix2 co mm)
    = conv0 x0 x1 x2 (ix2 ⟨(28 % 24) * 16 + co.val, by omega⟩ ⟨28 / 24 + mm.val, by omega⟩) := by
  unfold kernelRun0_A.sl.v77; rw [HS0_eq]; exact tap_read _ _ _ _ co mm _ _ rfl rfl
theorem tap_at_29 (co : Fin 16) (mm : Fin 82) : kernelRun0_A.sl.v79 (F := Ideal) c arg1 harg1 arg2 harg2 arg3 harg3 arg13 x0 x1 x2 (ix2 co mm)
    = conv0 x0 x1 x2 (ix2 ⟨(29 % 24) * 16 + co.val, by omega⟩ ⟨29 / 24 + mm.val, by omega⟩) := by
  unfold kernelRun0_A.sl.v79; rw [HS0_eq]; exact tap_read _ _ _ _ co mm _ _ rfl rfl
theorem tap_at_30 (co : Fin 16) (mm : Fin 82) : kernelRun0_A.sl.v81 (F := Ideal) c arg1 harg1 arg2 harg2 arg3 harg3 arg13 x0 x1 x2 (ix2 co mm)
    = conv0 x0 x1 x2 (ix2 ⟨(30 % 24) * 16 + co.val, by omega⟩ ⟨30 / 24 + mm.val, by omega⟩) := by
  unfold kernelRun0_A.sl.v81; rw [HS0_eq]; exact tap_read _ _ _ _ co mm _ _ rfl rfl
theorem tap_at_31 (co : Fin 16) (mm : Fin 82) : kernelRun0_A.sl.v83 (F := Ideal) c arg1 harg1 arg2 harg2 arg3 harg3 arg13 x0 x1 x2 (ix2 co mm)
    = conv0 x0 x1 x2 (ix2 ⟨(31 % 24) * 16 + co.val, by omega⟩ ⟨31 / 24 + mm.val, by omega⟩) := by
  unfold kernelRun0_A.sl.v83; rw [HS0_eq]; exact tap_read _ _ _ _ co mm _ _ rfl rfl
theorem tap_at_32 (co : Fin 16) (mm : Fin 82) : kernelRun0_A.sl.v85 (F := Ideal) c arg1 harg1 arg2 harg2 arg3 harg3 arg13 x0 x1 x2 (ix2 co mm)
    = conv0 x0 x1 x2 (ix2 ⟨(32 % 24) * 16 + co.val, by omega⟩ ⟨32 / 24 + mm.val, by omega⟩) := by
  unfold kernelRun0_A.sl.v85; rw [HS0_eq]; exact tap_read _ _ _ _ co mm _ _ rfl rfl
theorem tap_at_33 (co : Fin 16) (mm : Fin 82) : kernelRun0_A.sl.v87 (F := Ideal) c arg1 harg1 arg2 harg2 arg3 harg3 arg13 x0 x1 x2 (ix2 co mm)
    = conv0 x0 x1 x2 (ix2 ⟨(33 % 24) * 16 + co.val, by omega⟩ ⟨33 / 24 + mm.val, by omega⟩) := by
  unfold kernelRun0_A.sl.v87; rw [HS0_eq]; exact tap_read _ _ _ _ co mm _ _ rfl rfl
theorem tap_at_34 (co : Fin 16) (mm : Fin 82) : kernelRun0_A.sl.v89 (F := Ideal) c arg1 harg1 arg2 harg2 arg3 harg3 arg13 x0 x1 x2 (ix2 co mm)
    = conv0 x0 x1 x2 (ix2 ⟨(34 % 24) * 16 + co.val, by omega⟩ ⟨34 / 24 + mm.val, by omega⟩) := by
  unfold kernelRun0_A.sl.v89; rw [HS0_eq]; exact tap_read _ _ _ _ co mm _ _ rfl rfl
theorem tap_at_35 (co : Fin 16) (mm : Fin 82) : kernelRun0_A.sl.v91 (F := Ideal) c arg1 harg1 arg2 harg2 arg3 harg3 arg13 x0 x1 x2 (ix2 co mm)
    = conv0 x0 x1 x2 (ix2 ⟨(35 % 24) * 16 + co.val, by omega⟩ ⟨35 / 24 + mm.val, by omega⟩) := by
  unfold kernelRun0_A.sl.v91; rw [HS0_eq]; exact tap_read _ _ _ _ co mm _ _ rfl rfl
theorem tap_at_36 (co : Fin 16) (mm : Fin 82) : kernelRun0_A.sl.v93 (F := Ideal) c arg1 harg1 arg2 harg2 arg3 harg3 arg13 x0 x1 x2 (ix2 co mm)
    = conv0 x0 x1 x2 (ix2 ⟨(36 % 24) * 16 + co.val, by omega⟩ ⟨36 / 24 + mm.val, by omega⟩) := by
  unfold kernelRun0_A.sl.v93; rw [HS0_eq]; exact tap_read _ _ _ _ co mm _ _ rfl rfl
theorem tap_at_37 (co : Fin 16) (mm : Fin 82) : kernelRun0_A.sl.v95 (F := Ideal) c arg1 harg1 arg2 harg2 arg3 harg3 arg13 x0 x1 x2 (ix2 co mm)
    = conv0 x0 x1 x2 (ix2 ⟨(37 % 24) * 16 + co.val, by omega⟩ ⟨37 / 24 + mm.val, by omega⟩) := by
  unfold kernelRun0_A.sl.v95; rw [HS0_eq]; exact tap_read _ _ _ _ co mm _ _ rfl rfl
theorem tap_at_38 (co : Fin 16) (mm : Fin 82) : kernelRun0_A.sl.v97 (F := Ideal) c arg1 harg1 arg2 harg2 arg3 harg3 arg13 x0 x1 x2 (ix2 co mm)
    = conv0 x0 x1 x2 (ix2 ⟨(38 % 24) * 16 + co.val, by omega⟩ ⟨38 / 24 + mm.val, by omega⟩) := by
  unfold kernelRun0_A.sl.v97; rw [HS0_eq]; exact tap_read _ _ _ _ co mm _ _ rfl rfl
theorem tap_at_39 (co : Fin 16) (mm : Fin 82) : kernelRun0_A.sl.v99 (F := Ideal) c arg1 harg1 arg2 harg2 arg3 harg3 arg13 x0 x1 x2 (ix2 co mm)
    = conv0 x0 x1 x2 (ix2 ⟨(39 % 24) * 16 + co.val, by omega⟩ ⟨39 / 24 + mm.val, by omega⟩) := by
  unfold kernelRun0_A.sl.v99; rw [HS0_eq]; exact tap_read _ _ _ _ co mm _ _ rfl rfl
theorem tap_at_40 (co : Fin 16) (mm : Fin 82) : kernelRun0_A.sl.v101 (F := Ideal) c arg1 harg1 arg2 harg2 arg3 harg3 arg13 x0 x1 x2 (ix2 co mm)
    = conv0 x0 x1 x2 (ix2 ⟨(40 % 24) * 16 + co.val, by omega⟩ ⟨40 / 24 + mm.val, by omega⟩) := by
  unfold kernelRun0_A.sl.v101; rw [HS0_eq]; exact tap_read _ _ _ _ co mm _ _ rfl rfl
theorem tap_at_41 (co : Fin 16) (mm : Fin 82) : kernelRun0_A.sl.v103 (F := Ideal) c arg1 harg1 arg2 harg2 arg3 harg3 arg13 x0 x1 x2 (ix2 co mm)
    = conv0 x0 x1 x2 (ix2 ⟨(41 % 24) * 16 + co.val, by omega⟩ ⟨41 / 24 + mm.val, by omega⟩) := by
  unfold kernelRun0_A.sl.v103; rw [HS0_eq]; exact tap_read _ _ _ _ co mm _ _ rfl rfl
theorem tap_at_42 (co : Fin 16) (mm : Fin 82) : kernelRun0_A.sl.v105 (F := Ideal) c arg1 harg1 arg2 harg2 arg3 harg3 arg13 x0 x1 x2 (ix2 co mm)
    = conv0 x0 x1 x2 (ix2 ⟨(42 % 24) * 16 + co.val, by omega⟩ ⟨42 / 24 + mm.val, by omega⟩) := by
  unfold kernelRun0_A.sl.v105; rw [HS0_eq]; exact tap_read _ _ _ _ co mm _ _ rfl rfl
theorem tap_at_43 (co : Fin 16) (mm : Fin 82) : kernelRun0_A.sl.v107 (F := Ideal) c arg1 harg1 arg2 harg2 arg3 harg3 arg13 x0 x1 x2 (ix2 co mm)
    = conv0 x0 x1 x2 (ix2 ⟨(43 % 24) * 16 + co.val, by omega⟩ ⟨43 / 24 + mm.val, by omega⟩) := by
  unfold kernelRun0_A.sl.v107; rw [HS0_eq]; exact tap_read _ _ _ _ co mm _ _ rfl rfl
theorem tap_at_44 (co : Fin 16) (mm : Fin 82) : kernelRun0_A.sl.v109 (F := Ideal) c arg1 harg1 arg2 harg2 arg3 harg3 arg13 x0 x1 x2 (ix2 co mm)
    = conv0 x0 x1 x2 (ix2 ⟨(44 % 24) * 16 + co.val, by omega⟩ ⟨44 / 24 + mm.val, by omega⟩) := by
  unfold kernelRun0_A.sl.v109; rw [HS0_eq]; exact tap_read _ _ _ _ co mm _ _ rfl rfl
theorem tap_at_45 (co : Fin 16) (mm : Fin 82) : kernelRun0_A.sl.v111 (F := Ideal) c arg1 harg1 arg2 harg2 arg3 harg3 arg13 x0 x1 x2 (ix2 co mm)
    = conv0 x0 x1 x2 (ix2 ⟨(45 % 24) * 16 + co.val, by omega⟩ ⟨45 / 24 + mm.val, by omega⟩) := by
  unfold kernelRun0_A.sl.v111; rw [HS0_eq]; exact tap_read _ _ _ _ co mm _ _ rfl rfl
theorem tap_at_46 (co : Fin 16) (mm : Fin 82) : kernelRun0_A.sl.v113 (F := Ideal) c arg1 harg1 arg2 harg2 arg3 harg3 arg13 x0 x1 x2 (ix2 co mm)
    = conv0 x0 x1 x2 (ix2 ⟨(46 % 24) * 16 + co.val, by omega⟩ ⟨46 / 24 + mm.val, by omega⟩) := by
  unfold kernelRun0_A.sl.v113; rw [HS0_eq]; exact tap_read _ _ _ _ co mm _ _ rfl rfl
theorem tap_at_47 (co : Fin 16) (mm : Fin 82) : kernelRun0_A.sl.v115 (F := Ideal) c arg1 harg1 arg2 harg2 arg3 harg3 arg13 x0 x1 x2 (ix2 co mm)
    = conv0 x0 x1 x2 (ix2 ⟨(47 % 24) * 16 + co.val, by omega⟩ ⟨47 / 24 + mm.val, by omega⟩) := by
  unfold kernelRun0_A.sl.v115; rw [HS0_eq]; exact tap_read _ _ _ _ co mm _ _ rfl rfl
theorem tap_at_48 (co : Fin 16) (mm : Fin 82) : kernelRun0_A.sl.v117 (F := Ideal) c arg1 harg1 arg2 harg2 arg3 harg3 arg13 x0 x1 x2 (ix2 co mm)
    = conv0 x0 x1 x2 (ix2 ⟨(48 % 24) * 16 + co.val, by omega⟩ ⟨48 / 24 + mm.val, by omega⟩) := by
  unfold kernelRun0_A.sl.v117; rw [HS0_eq]; exact tap_read _ _ _ _ co mm _ _ rfl rfl
theorem tap_at_49 (co : Fin 16) (mm : Fin 82) : kernelRun0_A.sl.v119 (F := Ideal) c arg1 harg1 arg2 harg2 arg3 harg3 arg13 x0 x1 x2 (ix2 co mm)
    = conv0 x0 x1 x2 (ix2 ⟨(49 % 24) * 16 + co.val, by omega⟩ ⟨49 / 24 + mm.val, by omega⟩) := by
  unfold kernelRun0_A.sl.v119; rw [HS0_eq]; exact tap_read _ _ _ _ co mm _ _ rfl rfl
theorem tap_at_50 (co : Fin 16) (mm : Fin 82) : kernelRun0_A.sl.v121 (F := Ideal) c arg1 harg1 arg2 harg2 arg3 harg3 arg13 x0 x1 x2 (ix2 co mm)
    = conv0 x0 x1 x2 (ix2 ⟨(50 % 24) * 16 + co.val, by omega⟩ ⟨50 / 24 + mm.val, by omega⟩) := by
  unfold kernelRun0_A.sl.v121; rw [HS0_eq]; exact tap_read _ _ _ _ co mm _ _ rfl rfl
theorem tap_at_51 (co : Fin 16) (mm : Fin 82) : kernelRun0_A.sl.v123 (F := Ideal) c arg1 harg1 arg2 harg2 arg3 harg3 arg13 x0 x1 x2 (ix2 co mm)
    = conv0 x0 x1 x2 (ix2 ⟨(51 % 24) * 16 + co.val, by omega⟩ ⟨51 / 24 + mm.val, by omega⟩) := by
  unfold kernelRun0_A.sl.v123; rw [HS0_eq]; exact tap_read _ _ _ _ co mm _ _ rfl rfl
theorem tap_at_52 (co : Fin 16) (mm : Fin 82) : kernelRun0_A.sl.v125 (F := Ideal) c arg1 harg1 arg2 harg2 arg3 harg3 arg13 x0 x1 x2 (ix2 co mm)
    = conv0 x0 x1 x2 (ix2 ⟨(52 % 24) * 16 + co.val, by omega⟩ ⟨52 / 24 + mm.val, by omega⟩) := by
  unfold kernelRun0_A.sl.v125; rw [HS0_eq]; exact tap_read _ _ _ _ co mm _ _ rfl rfl
theorem tap_at_53 (co : Fin 16) (mm : Fin 82) : kernelRun0_A.sl.v127 (F := Ideal) c arg1 harg1 arg2 harg2 arg3 harg3 arg13 x0 x1 x2 (ix2 co mm)
    = conv0 x0 x1 x2 (ix2 ⟨(53 % 24) * 16 + co.val, by omega⟩ ⟨53 / 24 + mm.val, by omega⟩) := by
  unfold kernelRun0_A.sl.v127; rw [HS0_eq]; exact tap_read _ _ _ _ co mm _ _ rfl rfl
theorem tap_at_54 (co : Fin 16) (mm : Fin 82) : kernelRun0_A.sl.v129 (F := Ideal) c arg1 harg1 arg2 harg2 arg3 harg3 arg13 x0 x1 x2 (ix2 co mm)
    = conv0 x0 x1 x2 (ix2 ⟨(54 % 24) * 16 + co.val, by omega⟩ ⟨54 / 24 + mm.val, by omega⟩) := by
  unfold kernelRun0_A.sl.v129; rw [HS0_eq]; exact tap_read _ _ _ _ co mm _ _ rfl rfl
theorem tap_at_55 (co : Fin 16) (mm : Fin 82) : kernelRun0_A.sl.v131 (F := Ideal) c arg1 harg1 arg2 harg2 arg3 harg3 arg13 x0 x1 x2 (ix2 co mm)
    = conv0 x0 x1 x2 (ix2 ⟨(55 % 24) * 16 + co.val, by omega⟩ ⟨55 / 24 + mm.val, by omega⟩) := by
  unfold kernelRun0_A.sl.v131; rw [HS0_eq]; exact tap_read _ _ _ _ co mm _ _ rfl rfl
theorem tap_at_56 (co : Fin 16) (mm : Fin 82) : kernelRun0_A.sl.v133 (F := Ideal) c arg1 harg1 arg2 harg2 arg3 harg3 arg13 x0 x1 x2 (ix2 co mm)
    = conv0 x0 x1 x2 (ix2 ⟨(56 % 24) * 16 + co.val, by omega⟩ ⟨56 / 24 + mm.val, by omega⟩) := by
  unfold kernelRun0_A.sl.v133; rw [HS0_eq]; exact tap_read _ _ _ _ co mm _ _ rfl rfl
theorem tap_at_57 (co : Fin 16) (mm : Fin 82) : kernelRun0_A.sl.v135 (F := Ideal) c arg1 harg1 arg2 harg2 arg3 harg3 arg13 x0 x1 x2 (ix2 co mm)
    = conv0 x0 x1 x2 (ix2 ⟨(57 % 24) * 16 + co.val, by omega⟩ ⟨57 / 24 + mm.val, by omega⟩) := by
  unfold kernelRun0_A.sl.v135; rw [HS0_eq]; exact tap_read _ _ _ _ co mm _ _ rfl rfl
theorem tap_at_58 (co : Fin 16) (mm : Fin 82) : kernelRun0_A.sl.v137 (F := Ideal) c arg1 harg1 arg2 harg2 arg3 harg3 arg13 x0 x1 x2 (ix2 co mm)
    = conv0 x0 x1 x2 (ix2 ⟨(58 % 24) * 16 + co.val, by omega⟩ ⟨58 / 24 + mm.val, by omega⟩) := by
  unfold kernelRun0_A.sl.v137; rw [HS0_eq]; exact tap_read _ _ _ _ co mm _ _ rfl rfl
theorem tap_at_59 (co : Fin 16) (mm : Fin 82) : kernelRun0_A.sl.v139 (F := Ideal) c arg1 harg1 arg2 harg2 arg3 harg3 arg13 x0 x1 x2 (ix2 co mm)
    = conv0 x0 x1 x2 (ix2 ⟨(59 % 24) * 16 + co.val, by omega⟩ ⟨59 / 24 + mm.val, by omega⟩) := by
  unfold kernelRun0_A.sl.v139; rw [HS0_eq]; exact tap_read _ _ _ _ co mm _ _ rfl rfl
theorem tap_at_60 (co : Fin 16) (mm : Fin 82) : kernelRun0_A.sl.v141 (F := Ideal) c arg1 harg1 arg2 harg2 arg3 harg3 arg13 x0 x1 x2 (ix2 co mm)
    = conv0 x0 x1 x2 (ix2 ⟨(60 % 24) * 16 + co.val, by omega⟩ ⟨60 / 24 + mm.val, by omega⟩) := by
  unfold kernelRun0_A.sl.v141; rw [HS0_eq]; exact tap_read _ _ _ _ co mm _ _ rfl rfl
theorem tap_at_61 (co : Fin 16) (mm : Fin 82) : kernelRun0_A.sl.v143 (F := Ideal) c arg1 harg1 arg2 harg2 arg3 harg3 arg13 x0 x1 x2 (ix2 co mm)
    = conv0 x0 x1 x2 (ix2 ⟨(61 % 24) * 16 + co.val, by omega⟩ ⟨61 / 24 + mm.val, by omega⟩) := by
  unfold kernelRun0_A.sl.v143; rw [HS0_eq]; exact tap_read _ _ _ _ co mm _ _ rfl rfl
theorem tap_at_62 (co : Fin 16) (mm : Fin 82) : kernelRun0_A.sl.v145 (F := Ideal) c arg1 harg1 arg2 harg2 arg3 harg3 arg13 x0 x1 x2 (ix2 co mm)
    = conv0 x0 x1 x2 (ix2 ⟨(62 % 24) * 16 + co.val, by omega⟩ ⟨62 / 24 + mm.val, by omega⟩) := by
  unfold kernelRun0_A.sl.v145; rw [HS0_eq]; exact tap_read _ _ _ _ co mm _ _ rfl rfl
theorem tap_at_63 (co : Fin 16) (mm : Fin 82) : kernelRun0_A.sl.v147 (F := Ideal) c arg1 harg1 arg2 harg2 arg3 harg3 arg13 x0 x1 x2 (ix2 co mm)
    = conv0 x0 x1 x2 (ix2 ⟨(63 % 24) * 16 + co.val, by omega⟩ ⟨63 / 24 + mm.val, by omega⟩) := by
  unfold kernelRun0_A.sl.v147; rw [HS0_eq]; exact tap_read _ _ _ _ co mm _ _ rfl rfl
theorem tap_at_64 (co : Fin 16) (mm : Fin 82) : kernelRun0_A.sl.v275 (F := Ideal) c arg1 harg1 arg2 harg2 arg3 harg3 arg13 x0 x1 x2 (ix2 co mm)
    = conv0 x0 x1 x2 (ix2 ⟨(64 % 24) * 16 + co.val, by omega⟩ ⟨64 / 24 + mm.val, by omega⟩) := by
  unfold kernelRun0_A.sl.v275; rw [HS0_eq]; exact tap_read _ _ _ _ co mm _ _ rfl rfl
theorem tap_at_65 (co : Fin 16) (mm : Fin 82) : kernelRun0_A.sl.v277 (F := Ideal) c arg1 harg1 arg2 harg2 arg3 harg3 arg13 x0 x1 x2 (ix2 co mm)
    = conv0 x0 x1 x2 (ix2 ⟨(65 % 24) * 16 + co.val, by omega⟩ ⟨65 / 24 + mm.val, by omega⟩) := by
  unfold kernelRun0_A.sl.v277; rw [HS0_eq]; exact tap_read _ _ _ _ co mm _ _ rfl rfl
theorem tap_at_66 (co : Fin 16) (mm : Fin 82) : kernelRun0_A.sl.v279 (F := Ideal) c arg1 harg1 arg2 harg2 arg3 harg3 arg13 x0 x1 x2 (ix2 co mm)
    = conv0 x0 x1 x2 (ix2 ⟨(66 % 24) * 16 + co.val, by omega⟩ ⟨66 / 24 + mm.val, by omega⟩) := by
  unfold kernelRun0_A.sl.v279; rw [HS0_eq]; exact tap_read _ _ _ _ co mm _ _ rfl rfl
theorem tap_at_67 (co : Fin 16) (mm : Fin 82) : kernelRun0_A.sl.v395 (F := Ideal) c arg1 harg1 arg2 harg2 arg3 harg3 arg13 x0 x1 x2 (ix2 co mm)
    = conv0 x0 x1 x2 (ix2 ⟨(67 % 24) * 16 + co.val, by omega⟩ ⟨67 / 24 + mm.val, by omega⟩) := by
  unfold kernelRun0_A.sl.v395; rw [HS0_eq]; exact tap_read _ _ _ _ co mm _ _ rfl rfl
theorem tap_at_68 (co : Fin 16) (mm : Fin 82) : kernelRun0_A.sl.v397 (F := Ideal) c arg1 harg1 arg2 harg2 arg3 harg3 arg13 x0 x1 x2 (ix2 co mm)
    = conv0 x0 x1 x2 (ix2 ⟨(68 % 24) * 16 + co.val, by omega⟩ ⟨68 / 24 + mm.val, by omega⟩) := by
  unfold kernelRun0_A.sl.v397; rw [HS0_eq]; exact tap_read _ _ _ _ co mm _ _ rfl rfl
theorem tap_at_69 (co : Fin 16) (mm : Fin 82) : kernelRun0_A.sl.v399 (F := Ideal) c arg1 harg1 arg2 harg2 arg3 harg3 arg13 x0 x1 x2 (ix2 co mm)
    = conv0 x0 x1 x2 (ix2 ⟨(69 % 24) * 16 + co.val, by omega⟩ ⟨69 / 24 + mm.val, by omega⟩) := by
  unfold kernelRun0_A.sl.v399; rw [HS0_eq]; exact tap_read _ _ _ _ co mm _ _ rfl rfl
theorem tap_at_70 (co : Fin 16) (mm : Fin 82) : kernelRun0_A.sl.v401 (F := Ideal) c arg1 harg1 arg2 harg2 arg3 harg3 arg13 x0 x1 x2 (ix2 co mm)
    = conv0 x0 x1 x2 (ix2 ⟨(70 % 24) * 16 + co.val, by omega⟩ ⟨70 / 24 + mm.val, by omega⟩) := by
  unfold kernelRun0_A.sl.v401; rw [HS0_eq]; exact tap_read _ _ _ _ co mm _ _ rfl rfl
theorem tap_at_71 (co : Fin 16) (mm : Fin 82) : kernelRun0_A.sl.v403 (F := Ideal) c arg1 harg1 arg2 harg2 arg3 harg3 arg13 x0 x1 x2 (ix2 co mm)
    = conv0 x0 x1 x2 (ix2 ⟨(71 % 24) * 16 + co.val, by omega⟩ ⟨71 / 24 + mm.val, by omega⟩) := by
  unfold kernelRun0_A.sl.v403; rw [HS0_eq]; exact tap_read _ _ _ _ co mm _ _ rfl rfl
theorem tap_at_72 (co : Fin 16) (mm : Fin 82) : kernelRun0_A.sl.v405 (F := Ideal) c arg1 harg1 arg2 harg2 arg3 harg3 arg13 x0 x1 x2 (ix2 co mm)
    = conv0 x0 x1 x2 (ix2 ⟨(72 % 24) * 16 + co.val, by omega⟩ ⟨72 / 24 + mm.val, by omega⟩) := by
  unfold kernelRun0_A.sl.v405; rw [HS0_eq]; exact tap_read _ _ _ _ co mm _ _ rfl rfl
theorem tap_at_73 (co : Fin 16) (mm : Fin 82) : kernelRun0_A.sl.v407 (F := Ideal) c arg1 harg1 arg2 harg2 arg3 harg3 arg13 x0 x1 x2 (ix2 co mm)
    = conv0 x0 x1 x2 (ix2 ⟨(73 % 24) * 16 + co.val, by omega⟩ ⟨73 / 24 + mm.val, by omega⟩) := by
  unfold kernelRun0_A.sl.v407; rw [HS0_eq]; exact tap_read _ _ _ _ co mm _ _ rfl rfl
theorem tap_at_74 (co : Fin 16) (mm : Fin 82) : kernelRun0_A.sl.v409 (F := Ideal) c arg1 harg1 arg2 harg2 arg3 harg3 arg13 x0 x1 x2 (ix2 co mm)
    = conv0 x0 x1 x2 (ix2 ⟨(74 % 24) * 16 + co.val, by omega⟩ ⟨74 / 24 + mm.val, by omega⟩) := by
  unfold kernelRun0_A.sl.v409; rw [HS0_eq]; exact tap_read _ _ _ _ co mm _ _ rfl rfl
theorem tap_at_75 (co : Fin 16) (mm : Fin 82) : kernelRun0_A.sl.v411 (F := Ideal) c arg1 harg1 arg2 harg2 arg3 harg3 arg13 x0 x1 x2 (ix2 co mm)
    = conv0 x0 x1 x2 (ix2 ⟨(75 % 24) * 16 + co.val, by omega⟩ ⟨75 / 24 + mm.val, by omega⟩) := by
  unfold kernelRun0_A.sl.v411; rw [HS0_eq]; exact tap_read _ _ _ _ co mm _ _ rfl rfl
theorem tap_at_76 (co : Fin 16) (mm : Fin 82) : kernelRun0_A.sl.v539 (F := Ideal) c arg1 harg1 arg2 harg2 arg3 harg3 arg13 x0 x1 x2 (ix2 co mm)
    = conv0 x0 x1 x2 (ix2 ⟨(76 % 24) * 16 + co.val, by omega⟩ ⟨76 / 24 + mm.val, by omega⟩) := by
  unfold kernelRun0_A.sl.v539; rw [HS0_eq]; exact tap_read _ _ _ _ co mm _ _ rfl rfl
theorem tap_at_77 (co : Fin 16) (mm : Fin 82) : kernelRun0_A.sl.v541 (F := Ideal) c arg1 harg1 arg2 harg2 arg3 harg3 arg13 x0 x1 x2 (ix2 co mm)
    = conv0 x0 x1 x2 (ix2 ⟨(77 % 24) * 16 + co.val, by omega⟩ ⟨77 / 24 + mm.val, by omega⟩) := by
  unfold kernelRun0_A.sl.v541; rw [HS0_eq]; exact tap_read _ _ _ _ co mm _ _ rfl rfl
theorem tap_at_78 (co : Fin 16) (mm : Fin 82) : kernelRun0_A.sl.v543 (F := Ideal) c arg1 harg1 arg2 harg2 arg3 harg3 arg13 x0 x1 x2 (ix2 co mm)
    = conv0 x0 x1 x2 (ix2 ⟨(78 % 24) * 16 + co.val, by omega⟩ ⟨78 / 24 + mm.val, by omega⟩) := by
  unfold kernelRun0_A.sl.v543; rw [HS0_eq]; exact tap_read _ _ _ _ co mm _ _ rfl rfl

/-- The windows by number: window `p` for `p < 79` (any window beyond). -/
def T (p : ℕ) : FVec Ideal S16x82 .f32 :=
  match p with
  | 0 => kernelRun0_A.sl.v22 (F := Ideal) c arg1 harg1 arg2 harg2 arg3 harg3 arg13 x0 x1 x2
  | 1 => kernelRun0_A.sl.v23 (F := Ideal) c arg1 harg1 arg2 harg2 arg3 harg3 arg13 x0 x1 x2
  | 2 => kernelRun0_A.sl.v25 (F := Ideal) c arg1 harg1 arg2 harg2 arg3 harg3 arg13 x0 x1 x2
  | 3 => kernelRun0_A.sl.v27 (F := Ideal) c arg1 harg1 arg2 harg2 arg3 harg3 arg13 x0 x1 x2
  | 4 => kernelRun0_A.sl.v29 (F := Ideal) c arg1 harg1 arg2 harg2 arg3 harg3 arg13 x0 x1 x2
  | 5 => kernelRun0_A.sl.v31 (F := Ideal) c arg1 harg1 arg2 harg2 arg3 harg3 arg13 x0 x1 x2
  | 6 => kernelRun0_A.sl.v33 (F := Ideal) c arg1 harg1 arg2 harg2 arg3 harg3 arg13 x0 x1 x2
  | 7 => kernelRun0_A.sl.v35 (F := Ideal) c arg1 harg1 arg2 harg2 arg3 harg3 arg13 x0 x1 x2
  | 8 => kernelRun0_A.sl.v37 (F := Ideal) c arg1 harg1 arg2 harg2 arg3 harg3 arg13 x0 x1 x2
  | 9 => kernelRun0_A.sl.v39 (F := Ideal) c arg1 harg1 arg2 harg2 arg3 harg3 arg13 x0 x1 x2
  | 10 => kernelRun0_A.sl.v41 (F := Ideal) c arg1 harg1 arg2 harg2 arg3 harg3 arg13 x0 x1 x2
  | 11 => kernelRun0_A.sl.v43 (F := Ideal) c arg1 harg1 arg2 harg2 arg3 harg3 arg13 x0 x1 x2
  | 12 => kernelRun0_A.sl.v45 (F := Ideal) c arg1 harg1 arg2 harg2 arg3 harg3 arg13 x0 x1 x2
  | 13 => kernelRun0_A.sl.v47 (F := Ideal) c arg1 harg1 arg2 harg2 arg3 harg3 arg13 x0 x1 x2
  | 14 => kernelRun0_A.sl.v49 (F := Ideal) c arg1 harg1 arg2 harg2 arg3 harg3 arg13 x0 x1 x2
  | 15 => kernelRun0_A.sl.v51 (F := Ideal) c arg1 harg1 arg2 harg2 arg3 harg3 arg13 x0 x1 x2
  | 16 => kernelRun0_A.sl.v53 (F := Ideal) c arg1 harg1 arg2 harg2 arg3 harg3 arg13 x0 x1 x2
  | 17 => kernelRun0_A.sl.v55 (F := Ideal) c arg1 harg1 arg2 harg2 arg3 harg3 arg13 x0 x1 x2
  | 18 => kernelRun0_A.sl.v57 (F := Ideal) c arg1 harg1 arg2 harg2 arg3 harg3 arg13 x0 x1 x2
  | 19 => kernelRun0_A.sl.v59 (F := Ideal) c arg1 harg1 arg2 harg2 arg3 harg3 arg13 x0 x1 x2
  | 20 => kernelRun0_A.sl.v61 (F := Ideal) c arg1 harg1 arg2 harg2 arg3 harg3 arg13 x0 x1 x2
  | 21 => kernelRun0_A.sl.v63 (F := Ideal) c arg1 harg1 arg2 harg2 arg3 harg3 arg13 x0 x1 x2
  | 22 => kernelRun0_A.sl.v65 (F := Ideal) c arg1 harg1 arg2 harg2 arg3 harg3 arg13 x0 x1 x2
  | 23 => kernelRun0_A.sl.v67 (F := Ideal) c arg1 harg1 arg2 harg2 arg3 harg3 arg13 x0 x1 x2
  | 24 => kernelRun0_A.sl.v69 (F := Ideal) c arg1 harg1 arg2 harg2 arg3 harg3 arg13 x0 x1 x2
  | 25 => kernelRun0_A.sl.v71 (F := Ideal) c arg1 harg1 arg2 harg2 arg3 harg3 arg13 x0 x1 x2
  | 26 => kernelRun0_A.sl.v73 (F := Ideal) c arg1 harg1 arg2 harg2 arg3 harg3 arg13 x0 x1 x2
  | 27 => kernelRun0_A.sl.v75 (F := Ideal) c arg1 harg1 arg2 harg2 arg3 harg3 arg13 x0 x1 x2
  | 28 => kernelRun0_A.sl.v77 (F := Ideal) c arg1 harg1 arg2 harg2 arg3 harg3 arg13 x0 x1 x2
  | 29 => kernelRun0_A.sl.v79 (F := Ideal) c arg1 harg1 arg2 harg2 arg3 harg3 arg13 x0 x1 x2
  | 30 => kernelRun0_A.sl.v81 (F := Ideal) c arg1 harg1 arg2 harg2 arg3 harg3 arg13 x0 x1 x2
  | 31 => kernelRun0_A.sl.v83 (F := Ideal) c arg1 harg1 arg2 harg2 arg3 harg3 arg13 x0 x1 x2
  | 32 => kernelRun0_A.sl.v85 (F := Ideal) c arg1 harg1 arg2 harg2 arg3 harg3 arg13 x0 x1 x2
  | 33 => kernelRun0_A.sl.v87 (F := Ideal) c arg1 harg1 arg2 harg2 arg3 harg3 arg13 x0 x1 x2
  | 34 => kernelRun0_A.sl.v89 (F := Ideal) c arg1 harg1 arg2 harg2 arg3 harg3 arg13 x0 x1 x2
  | 35 => kernelRun0_A.sl.v91 (F := Ideal) c arg1 harg1 arg2 harg2 arg3 harg3 arg13 x0 x1 x2
  | 36 => kernelRun0_A.sl.v93 (F := Ideal) c arg1 harg1 arg2 harg2 arg3 harg3 arg13 x0 x1 x2
  | 37 => kernelRun0_A.sl.v95 (F := Ideal) c arg1 harg1 arg2 harg2 arg3 harg3 arg13 x0 x1 x2
  | 38 => kernelRun0_A.sl.v97 (F := Ideal) c arg1 harg1 arg2 harg2 arg3 harg3 arg13 x0 x1 x2
  | 39 => kernelRun0_A.sl.v99 (F := Ideal) c arg1 harg1 arg2 harg2 arg3 harg3 arg13 x0 x1 x2
  | 40 => kernelRun0_A.sl.v101 (F := Ideal) c arg1 harg1 arg2 harg2 arg3 harg3 arg13 x0 x1 x2
  | 41 => kernelRun0_A.sl.v103 (F := Ideal) c arg1 harg1 arg2 harg2 arg3 harg3 arg13 x0 x1 x2
  | 42 => kernelRun0_A.sl.v105 (F := Ideal) c arg1 harg1 arg2 harg2 arg3 harg3 arg13 x0 x1 x2
  | 43 => kernelRun0_A.sl.v107 (F := Ideal) c arg1 harg1 arg2 harg2 arg3 harg3 arg13 x0 x1 x2
  | 44 => kernelRun0_A.sl.v109 (F := Ideal) c arg1 harg1 arg2 harg2 arg3 harg3 arg13 x0 x1 x2
  | 45 => kernelRun0_A.sl.v111 (F := Ideal) c arg1 harg1 arg2 harg2 arg3 harg3 arg13 x0 x1 x2
  | 46 => kernelRun0_A.sl.v113 (F := Ideal) c arg1 harg1 arg2 harg2 arg3 harg3 arg13 x0 x1 x2
  | 47 => kernelRun0_A.sl.v115 (F := Ideal) c arg1 harg1 arg2 harg2 arg3 harg3 arg13 x0 x1 x2
  | 48 => kernelRun0_A.sl.v117 (F := Ideal) c arg1 harg1 arg2 harg2 arg3 harg3 arg13 x0 x1 x2
  | 49 => kernelRun0_A.sl.v119 (F := Ideal) c arg1 harg1 arg2 harg2 arg3 harg3 arg13 x0 x1 x2
  | 50 => kernelRun0_A.sl.v121 (F := Ideal) c arg1 harg1 arg2 harg2 arg3 harg3 arg13 x0 x1 x2
  | 51 => kernelRun0_A.sl.v123 (F := Ideal) c arg1 harg1 arg2 harg2 arg3 harg3 arg13 x0 x1 x2
  | 52 => kernelRun0_A.sl.v125 (F := Ideal) c arg1 harg1 arg2 harg2 arg3 harg3 arg13 x0 x1 x2
  | 53 => kernelRun0_A.sl.v127 (F := Ideal) c arg1 harg1 arg2 harg2 arg3 harg3 arg13 x0 x1 x2
  | 54 => kernelRun0_A.sl.v129 (F := Ideal) c arg1 harg1 arg2 harg2 arg3 harg3 arg13 x0 x1 x2
  | 55 => kernelRun0_A.sl.v131 (F := Ideal) c arg1 harg1 arg2 harg2 arg3 harg3 arg13 x0 x1 x2
  | 56 => kernelRun0_A.sl.v133 (F := Ideal) c arg1 harg1 arg2 harg2 arg3 harg3 arg13 x0 x1 x2
  | 57 => kernelRun0_A.sl.v135 (F := Ideal) c arg1 harg1 arg2 harg2 arg3 harg3 arg13 x0 x1 x2
  | 58 => kernelRun0_A.sl.v137 (F := Ideal) c arg1 harg1 arg2 harg2 arg3 harg3 arg13 x0 x1 x2
  | 59 => kernelRun0_A.sl.v139 (F := Ideal) c arg1 harg1 arg2 harg2 arg3 harg3 arg13 x0 x1 x2
  | 60 => kernelRun0_A.sl.v141 (F := Ideal) c arg1 harg1 arg2 harg2 arg3 harg3 arg13 x0 x1 x2
  | 61 => kernelRun0_A.sl.v143 (F := Ideal) c arg1 harg1 arg2 harg2 arg3 harg3 arg13 x0 x1 x2
  | 62 => kernelRun0_A.sl.v145 (F := Ideal) c arg1 harg1 arg2 harg2 arg3 harg3 arg13 x0 x1 x2
  | 63 => kernelRun0_A.sl.v147 (F := Ideal) c arg1 harg1 arg2 harg2 arg3 harg3 arg13 x0 x1 x2
  | 64 => kernelRun0_A.sl.v275 (F := Ideal) c arg1 harg1 arg2 harg2 arg3 harg3 arg13 x0 x1 x2
  | 65 => kernelRun0_A.sl.v277 (F := Ideal) c arg1 harg1 arg2 harg2 arg3 harg3 arg13 x0 x1 x2
  | 66 => kernelRun0_A.sl.v279 (F := Ideal) c arg1 harg1 arg2 harg2 arg3 harg3 arg13 x0 x1 x2
  | 67 => kernelRun0_A.sl.v395 (F := Ideal) c arg1 harg1 arg2 harg2 arg3 harg3 arg13 x0 x1 x2
  | 68 => kernelRun0_A.sl.v397 (F := Ideal) c arg1 harg1 arg2 harg2 arg3 harg3 arg13 x0 x1 x2
  | 69 => kernelRun0_A.sl.v399 (F := Ideal) c arg1 harg1 arg2 harg2 arg3 harg3 arg13 x0 x1 x2
  | 70 => kernelRun0_A.sl.v401 (F := Ideal) c arg1 harg1 arg2 harg2 arg3 harg3 arg13 x0 x1 x2
  | 71 => kernelRun0_A.sl.v403 (F := Ideal) c arg1 harg1 arg2 harg2 arg3 harg3 arg13 x0 x1 x2
  | 72 => kernelRun0_A.sl.v405 (F := Ideal) c arg1 harg1 arg2 harg2 arg3 harg3 arg13 x0 x1 x2
  | 73 => kernelRun0_A.sl.v407 (F := Ideal) c arg1 harg1 arg2 harg2 arg3 harg3 arg13 x0 x1 x2
  | 74 => kernelRun0_A.sl.v409 (F := Ideal) c arg1 harg1 arg2 harg2 arg3 harg3 arg13 x0 x1 x2
  | 75 => kernelRun0_A.sl.v411 (F := Ideal) c arg1 harg1 arg2 harg2 arg3 harg3 arg13 x0 x1 x2
  | 76 => kernelRun0_A.sl.v539 (F := Ideal) c arg1 harg1 arg2 harg2 arg3 harg3 arg13 x0 x1 x2
  | 77 => kernelRun0_A.sl.v541 (F := Ideal) c arg1 harg1 arg2 harg2 arg3 harg3 arg13 x0 x1 x2
  | 78 => kernelRun0_A.sl.v543 (F := Ideal) c arg1 harg1 arg2 harg2 arg3 harg3 arg13 x0 x1 x2
  | _ => kernelRun0_A.sl.v22 (F := Ideal) c arg1 harg1 arg2 harg2 arg3 harg3 arg13 x0 x1 x2

/-- Window `p` at `(co, mm)` is the first scratch buffer at row `(p % 24)·16 + co`, column `p / 24 + mm`. -/
theorem T_at (p : ℕ) (hp : p < 79) (co : Fin 16) (mm : Fin 82) :
    T c arg1 harg1 arg2 harg2 arg3 harg3 arg13 x0 x1 x2 p (ix2 co mm) = conv0 x0 x1 x2 (ix2 ⟨(p % 24) * 16 + co.val, by omega⟩ ⟨p / 24 + mm.val, by omega⟩) :=
  match p, hp with
  | 0, _ => tap_at_0 c arg1 harg1 arg2 harg2 arg3 harg3 arg13 x0 x1 x2 co mm
  | 1, _ => tap_at_1 c arg1 harg1 arg2 harg2 arg3 harg3 arg13 x0 x1 x2 co mm
  | 2, _ => tap_at_2 c arg1 harg1 arg2 harg2 arg3 harg3 arg13 x0 x1 x2 co mm
  | 3, _ => tap_at_3 c arg1 harg1 arg2 harg2 arg3 harg3 arg13 x0 x1 x2 co mm
  | 4, _ => tap_at_4 c arg1 harg1 arg2 harg2 arg3 harg3 arg13 x0 x1 x2 co mm
  | 5, _ => tap_at_5 c arg1 harg1 arg2 harg2 arg3 harg3 arg13 x0 x1 x2 co mm
  | 6, _ => tap_at_6 c arg1 harg1 arg2 harg2 arg3 harg3 arg13 x0 x1 x2 co mm
  | 7, _ => tap_at_7 c arg1 harg1 arg2 harg2 arg3 harg3 arg13 x0 x1 x2 co mm
  | 8, _ => tap_at_8 c arg1 harg1 arg2 harg2 arg3 harg3 arg13 x0 x1 x2 co mm
  | 9, _ => tap_at_9 c arg1 harg1 arg2 harg2 arg3 harg3 arg13 x0 x1 x2 co mm
  | 10, _ => tap_at_10 c arg1 harg1 arg2 harg2 arg3 harg3 arg13 x0 x1 x2 co mm
  | 11, _ => tap_at_11 c arg1 harg1 arg2 harg2 arg3 harg3 arg13 x0 x1 x2 co mm
  | 12, _ => tap_at_12 c arg1 harg1 arg2 harg2 arg3 harg3 arg13 x0 x1 x2 co mm
  | 13, _ => tap_at_13 c arg1 harg1 arg2 harg2 arg3 harg3 arg13 x0 x1 x2 co mm
  | 14, _ => tap_at_14 c arg1 harg1 arg2 harg2 arg3 harg3 arg13 x0 x1 x2 co mm
  | 15, _ => tap_at_15 c arg1 harg1 arg2 harg2 arg3 harg3 arg13 x0 x1 x2 co mm
  | 16, _ => tap_at_16 c arg1 harg1 arg2 harg2 arg3 harg3 arg13 x0 x1 x2 co mm
  | 17, _ => tap_at_17 c arg1 harg1 arg2 harg2 arg3 harg3 arg13 x0 x1 x2 co mm
  | 18, _ => tap_at_18 c arg1 harg1 arg2 harg2 arg3 harg3 arg13 x0 x1 x2 co mm
  | 19, _ => tap_at_19 c arg1 harg1 arg2 harg2 arg3 harg3 arg13 x0 x1 x2 co mm
  | 20, _ => tap_at_20 c arg1 harg1 arg2 harg2 arg3 harg3 arg13 x0 x1 x2 co mm
  | 21, _ => tap_at_21 c arg1 harg1 arg2 harg2 arg3 harg3 arg13 x0 x1 x2 co mm
  | 22, _ => tap_at_22 c arg1 harg1 arg2 harg2 arg3 harg3 arg13 x0 x1 x2 co mm
  | 23, _ => tap_at_23 c arg1 harg1 arg2 harg2 arg3 harg3 arg13 x0 x1 x2 co mm
  | 24, _ => tap_at_24 c arg1 harg1 arg2 harg2 arg3 harg3 arg13 x0 x1 x2 co mm
  | 25, _ => tap_at_25 c arg1 harg1 arg2 harg2 arg3 harg3 arg13 x0 x1 x2 co mm
  | 26, _ => tap_at_26 c arg1 harg1 arg2 harg2 arg3 harg3 arg13 x0 x1 x2 co mm
  | 27, _ => tap_at_27 c arg1 harg1 arg2 harg2 arg3 harg3 arg13 x0 x1 x2 co mm
  | 28, _ => tap_at_28 c arg1 harg1 arg2 harg2 arg3 harg3 arg13 x0 x1 x2 co mm
  | 29, _ => tap_at_29 c arg1 harg1 arg2 harg2 arg3 harg3 arg13 x0 x1 x2 co mm
  | 30, _ => tap_at_30 c arg1 harg1 arg2 harg2 arg3 harg3 arg13 x0 x1 x2 co mm
  | 31, _ => tap_at_31 c arg1 harg1 arg2 harg2 arg3 harg3 arg13 x0 x1 x2 co mm
  | 32, _ => tap_at_32 c arg1 harg1 arg2 harg2 arg3 harg3 arg13 x0 x1 x2 co mm
  | 33, _ => tap_at_33 c arg1 harg1 arg2 harg2 arg3 harg3 arg13 x0 x1 x2 co mm
  | 34, _ => tap_at_34 c arg1 harg1 arg2 harg2 arg3 harg3 arg13 x0 x1 x2 co mm
  | 35, _ => tap_at_35 c arg1 harg1 arg2 harg2 arg3 harg3 arg13 x0 x1 x2 co mm
  | 36, _ => tap_at_36 c arg1 harg1 arg2 harg2 arg3 harg3 arg13 x0 x1 x2 co mm
  | 37, _ => tap_at_37 c arg1 harg1 arg2 harg2 arg3 harg3 arg13 x0 x1 x2 co mm
  | 38, _ => tap_at_38 c arg1 harg1 arg2 harg2 arg3 harg3 arg13 x0 x1 x2 co mm
  | 39, _ => tap_at_39 c arg1 harg1 arg2 harg2 arg3 harg3 arg13 x0 x1 x2 co mm
  | 40, _ => tap_at_40 c arg1 harg1 arg2 harg2 arg3 harg3 arg13 x0 x1 x2 co mm
  | 41, _ => tap_at_41 c arg1 harg1 arg2 harg2 arg3 harg3 arg13 x0 x1 x2 co mm
  | 42, _ => tap_at_42 c arg1 harg1 arg2 harg2 arg3 harg3 arg13 x0 x1 x2 co mm
  | 43, _ => tap_at_43 c arg1 harg1 arg2 harg2 arg3 harg3 arg13 x0 x1 x2 co mm
  | 44, _ => tap_at_44 c arg1 harg1 arg2 harg2 arg3 harg3 arg13 x0 x1 x2 co mm
  | 45, _ => tap_at_45 c arg1 harg1 arg2 harg2 arg3 harg3 arg13 x0 x1 x2 co mm
  | 46, _ => tap_at_46 c arg1 harg1 arg2 harg2 arg3 harg3 arg13 x0 x1 x2 co mm
  | 47, _ => tap_at_47 c arg1 harg1 arg2 harg2 arg3 harg3 arg13 x0 x1 x2 co mm
  | 48, _ => tap_at_48 c arg1 harg1 arg2 harg2 arg3 harg3 arg13 x0 x1 x2 co mm
  | 49, _ => tap_at_49 c arg1 harg1 arg2 harg2 arg3 harg3 arg13 x0 x1 x2 co mm
  | 50, _ => tap_at_50 c arg1 harg1 arg2 harg2 arg3 harg3 arg13 x0 x1 x2 co mm
  | 51, _ => tap_at_51 c arg1 harg1 arg2 harg2 arg3 harg3 arg13 x0 x1 x2 co mm
  | 52, _ => tap_at_52 c arg1 harg1 arg2 harg2 arg3 harg3 arg13 x0 x1 x2 co mm
  | 53, _ => tap_at_53 c arg1 harg1 arg2 harg2 arg3 harg3 arg13 x0 x1 x2 co mm
  | 54, _ => tap_at_54 c arg1 harg1 arg2 harg2 arg3 harg3 arg13 x0 x1 x2 co mm
  | 55, _ => tap_at_55 c arg1 harg1 arg2 harg2 arg3 harg3 arg13 x0 x1 x2 co mm
  | 56, _ => tap_at_56 c arg1 harg1 arg2 harg2 arg3 harg3 arg13 x0 x1 x2 co mm
  | 57, _ => tap_at_57 c arg1 harg1 arg2 harg2 arg3 harg3 arg13 x0 x1 x2 co mm
  | 58, _ => tap_at_58 c arg1 harg1 arg2 harg2 arg3 harg3 arg13 x0 x1 x2 co mm
  | 59, _ => tap_at_59 c arg1 harg1 arg2 harg2 arg3 harg3 arg13 x0 x1 x2 co mm
  | 60, _ => tap_at_60 c arg1 harg1 arg2 harg2 arg3 harg3 arg13 x0 x1 x2 co mm
  | 61, _ => tap_at_61 c arg1 harg1 arg2 harg2 arg3 harg3 arg13 x0 x1 x2 co mm
  | 62, _ => tap_at_62 c arg1 harg1 arg2 harg2 arg3 harg3 arg13 x0 x1 x2 co mm
  | 63, _ => tap_at_63 c arg1 harg1 arg2 harg2 arg3 harg3 arg13 x0 x1 x2 co mm
  | 64, _ => tap_at_64 c arg1 harg1 arg2 harg2 arg3 harg3 arg13 x0 x1 x2 co mm
  | 65, _ => tap_at_65 c arg1 harg1 arg2 harg2 arg3 harg3 arg13 x0 x1 x2 co mm
  | 66, _ => tap_at_66 c arg1 harg1 arg2 harg2 arg3 harg3 arg13 x0 x1 x2 co mm
  | 67, _ => tap_at_67 c arg1 harg1 arg2 harg2 arg3 harg3 arg13 x0 x1 x2 co mm
  | 68, _ => tap_at_68 c arg1 harg1 arg2 harg2 arg3 harg3 arg13 x0 x1 x2 co mm
  | 69, _ => tap_at_69 c arg1 harg1 arg2 harg2 arg3 harg3 arg13 x0 x1 x2 co mm
  | 70, _ => tap_at_70 c arg1 harg1 arg2 harg2 arg3 harg3 arg13 x0 x1 x2 co mm
  | 71, _ => tap_at_71 c arg1 harg1 arg2 harg2 arg3 harg3 arg13 x0 x1 x2 co mm
  | 72, _ => tap_at_72 c arg1 harg1 arg2 harg2 arg3 harg3 arg13 x0 x1 x2 co mm
  | 73, _ => tap_at_73 c arg1 harg1 arg2 harg2 arg3 harg3 arg13 x0 x1 x2 co mm
  | 74, _ => tap_at_74 c arg1 harg1 arg2 harg2 arg3 harg3 arg13 x0 x1 x2 co mm
  | 75, _ => tap_at_75 c arg1 harg1 arg2 harg2 arg3 harg3 arg13 x0 x1 x2 co mm
  | 76, _ => tap_at_76 c arg1 harg1 arg2 harg2 arg3 harg3 arg13 x0 x1 x2 co mm
  | 77, _ => tap_at_77 c arg1 harg1 arg2 harg2 arg3 harg3 arg13 x0 x1 x2 co mm
  | 78, _ => tap_at_78 c arg1 harg1 arg2 harg2 arg3 harg3 arg13 x0 x1 x2 co mm
  | p + 79, h => absurd h (by omega)

/-- So, when the first scratch buffer holds the first convolution `Spec.c1`, window `p` at `(co, mm)` is the
    convolution at output position `24·mm + p` of channel `co`. -/
theorem T_cpos (σ : Fin 2 → ℕ → EReal) (W : Cert.Spec.Wts)
    (hconv : ∀ (n : Fin 384) (mcol : Fin 85), conv0 x0 x1 x2 (ix2 n mcol) = Cert.Spec.c1 σ W n mcol.val)
    (p : ℕ) (hp : p < 79) (co : Fin 16) (mm : Fin 82) :
    T c arg1 harg1 arg2 harg2 arg3 harg3 arg13 x0 x1 x2 p (ix2 co mm) = Cert.Spec.cpos σ W co (24 * mm.val + p) := by
  rw [T_at c arg1 harg1 arg2 harg2 arg3 harg3 arg13 x0 x1 x2 p hp co mm, hconv]
  unfold Cert.Spec.cpos
  have e1 : (24 * mm.val + p) % 24 = p % 24 := by omega
  have e2 : (24 * mm.val + p) / 24 = p / 24 + mm.val := by omega
  congr 1
  · exact Fin.ext (by show p % 24 * 16 + co.val = (24 * mm.val + p) % 24 * 16 + co.val; rw [e1])
  · exact e2.symm

end Cert.ReferenceIdeal.RV

end
-- ==== Proof.RV.TapsRead.lean ====
/- The four running maxima of the reference's stream body, as facts about its stored values alone: each pool phase
   takes the maximum of 64 loaded taps by a left-nested chain of pairwise maxima, cut into several steps, and stores the
   chain's value rectified at zero. At the extended reals a pairwise maximum is the lattice join, so the stored value at
   an index is the join of the 64 taps there, in program order, joined with zero. -/
import proofs.«116650_g2000303023666169_pallasbulk_55_22_alg».proof.Proof.Gen.ReferenceIdeal.Skeleton
import proofs.«116650_g2000303023666169_pallasbulk_55_22_alg».proof.Proof.MathPool
import Idealize.ShloMosaic.Lib.ValueIdx
import Idealize.ShloMosaic.Lib.Pipeline.Value
import Idealize.ShloMosaic.PureOps.Ideal.Laws

set_option maxRecDepth 65536

noncomputable section

namespace Cert.ReferenceIdeal.RV

open Idealize.ShloMosaic Idealize.ShloMosaic.ValueIdx
open Cert.ReferenceIdeal Cert.ReferenceIdeal.Gen

/-- Sixty-four values as a sequence, in order (the last repeated beyond). -/
def seq64 {α : Type} (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : α) : ℕ → α
  | 0 => t0
  | 1 => t1
  | 2 => t2
  | 3 => t3
  | 4 => t4
  | 5 => t5
  | 6 => t6
  | 7 => t7
  | 8 => t8
  | 9 => t9
  | 10 => t10
  | 11 => t11
  | 12 => t12
  | 13 => t13
  | 14 => t14
  | 15 => t15
  | 16 => t16
  | 17 => t17
  | 18 => t18
  | 19 => t19
  | 20 => t20
  | 21 => t21
  | 22 => t22
  | 23 => t23
  | 24 => t24
  | 25 => t25
  | 26 => t26
  | 27 => t27
  | 28 => t28
  | 29 => t29
  | 30 => t30
  | 31 => t31
  | 32 => t32
  | 33 => t33
  | 34 => t34
  | 35 => t35
  | 36 => t36
  | 37 => t37
  | 38 => t38
  | 39 => t39
  | 40 => t40
  | 41 => t41
  | 42 => t42
  | 43 => t43
  | 44 => t44
  | 45 => t45
  | 46 => t46
  | 47 => t47
  | 48 => t48
  | 49 => t49
  | 50 => t50
  | 51 => t51
  | 52 => t52
  | 53 => t53
  | 54 => t54
  | 55 => t55
  | 56 => t56
  | 57 => t57
  | 58 => t58
  | 59 => t59
  | 60 => t60
  | 61 => t61
  | 62 => t62
  | _ => t63

/-- Pool phase 0: taps 0–3, then four steps of fifteen; the zero table is a separate value. -/
theorem phase0_chain (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay9 (k0_pay7 (k0_pay6 (k0_pay5 (k0_pay4 (k0_pay3 t0 t1 t2 t3) t4 t5 t6 t7 t8 t9 t10 t11 t12 t13 t14 t15 t16 t17 t18) t19 t20 t21 t22 t23 t24 t25 t26 t27 t28 t29 t30 t31 t32 t33) t34 t35 t36 t37 t38 t39 t40 t41 t42 t43 t44 t45 t46 t47 t48) t49 t50 t51 t52 t53 t54 t55 t56 t57 t58 t59 t60 t61 t62 t63) (k0_pay8 (F := Ideal))) (ix2 co mm)
      = max (Cert.MathPool.chain (fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 63) 0 := by
  unfold k0_pay9
  rw [shapeCast_self]
  show max _ ((k0_pay8 (F := Ideal)) (ix2 co mm)) = _
  rw [show (k0_pay8 (F := Ideal)) (ix2 co mm) = 0 from Ideal.ofBits_zero_f32]
  rfl

theorem phase0_apply (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay9 (k0_pay7 (k0_pay6 (k0_pay5 (k0_pay4 (k0_pay3 t0 t1 t2 t3) t4 t5 t6 t7 t8 t9 t10 t11 t12 t13 t14 t15 t16 t17 t18) t19 t20 t21 t22 t23 t24 t25 t26 t27 t28 t29 t30 t31 t32 t33) t34 t35 t36 t37 t38 t39 t40 t41 t42 t43 t44 t45 t46 t47 t48) t49 t50 t51 t52 t53 t54 t55 t56 t57 t58 t59 t60 t61 t62 t63) (k0_pay8 (F := Ideal))) (ix2 co mm)
      = max ((Finset.range 64).sup fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 0 := by
  rw [phase0_chain, Cert.MathPool.chain63_max]

/-- Pool phase 1: taps 0–12, three steps of fifteen, and the last six with the rectifier. -/
theorem phase1_chain (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay14 (k0_pay13 (k0_pay12 (k0_pay11 (k0_pay10 t0 t1 t2 t3 t4 t5 t6 t7 t8 t9 t10 t11 t12) t13 t14 t15 t16 t17 t18 t19 t20 t21 t22 t23 t24 t25 t26 t27) t28 t29 t30 t31 t32 t33 t34 t35 t36 t37 t38 t39 t40 t41 t42) t43 t44 t45 t46 t47 t48 t49 t50 t51 t52 t53 t54 t55 t56 t57) t58 t59 t60 t61 t62 t63) (ix2 co mm)
      = max (Cert.MathPool.chain (fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 63) 0 := by
  unfold k0_pay14
  rw [shapeCast_self]
  show max _ (Ideal.ofBits .f32 0x00000000#32) = _
  rw [Ideal.ofBits_zero_f32]
  rfl

theorem phase1_apply (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay14 (k0_pay13 (k0_pay12 (k0_pay11 (k0_pay10 t0 t1 t2 t3 t4 t5 t6 t7 t8 t9 t10 t11 t12) t13 t14 t15 t16 t17 t18 t19 t20 t21 t22 t23 t24 t25 t26 t27) t28 t29 t30 t31 t32 t33 t34 t35 t36 t37 t38 t39 t40 t41 t42) t43 t44 t45 t46 t47 t48 t49 t50 t51 t52 t53 t54 t55 t56 t57) t58 t59 t60 t61 t62 t63) (ix2 co mm)
      = max ((Finset.range 64).sup fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 0 := by
  rw [phase1_chain, Cert.MathPool.chain63_max]

/-- Pool phase 2: taps 0–6, three steps of fifteen, and the last twelve with the rectifier. -/
theorem phase2_chain (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay19 (k0_pay18 (k0_pay17 (k0_pay16 (k0_pay15 t0 t1 t2 t3 t4 t5 t6) t7 t8 t9 t10 t11 t12 t13 t14 t15 t16 t17 t18 t19 t20 t21) t22 t23 t24 t25 t26 t27 t28 t29 t30 t31 t32 t33 t34 t35 t36) t37 t38 t39 t40 t41 t42 t43 t44 t45 t46 t47 t48 t49 t50 t51) t52 t53 t54 t55 t56 t57 t58 t59 t60 t61 t62 t63) (ix2 co mm)
      = max (Cert.MathPool.chain (fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 63) 0 := by
  unfold k0_pay19
  rw [shapeCast_self]
  show max _ (Ideal.ofBits .f32 0x00000000#32) = _
  rw [Ideal.ofBits_zero_f32]
  rfl

theorem phase2_apply (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay19 (k0_pay18 (k0_pay17 (k0_pay16 (k0_pay15 t0 t1 t2 t3 t4 t5 t6) t7 t8 t9 t10 t11 t12 t13 t14 t15 t16 t17 t18 t19 t20 t21) t22 t23 t24 t25 t26 t27 t28 t29 t30 t31 t32 t33 t34 t35 t36) t37 t38 t39 t40 t41 t42 t43 t44 t45 t46 t47 t48 t49 t50 t51) t52 t53 t54 t55 t56 t57 t58 t59 t60 t61 t62 t63) (ix2 co mm)
      = max ((Finset.range 64).sup fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 0 := by
  rw [phase2_chain, Cert.MathPool.chain63_max]

/-- Pool phase 3: taps 0–15, three steps of fifteen, and the last three with the rectifier. -/
theorem phase3_chain (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay24 (k0_pay23 (k0_pay22 (k0_pay21 (k0_pay20 t0 t1 t2 t3 t4 t5 t6 t7 t8 t9 t10 t11 t12 t13 t14 t15) t16 t17 t18 t19 t20 t21 t22 t23 t24 t25 t26 t27 t28 t29 t30) t31 t32 t33 t34 t35 t36 t37 t38 t39 t40 t41 t42 t43 t44 t45) t46 t47 t48 t49 t50 t51 t52 t53 t54 t55 t56 t57 t58 t59 t60) t61 t62 t63) (ix2 co mm)
      = max (Cert.MathPool.chain (fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 63) 0 := by
  unfold k0_pay24
  rw [shapeCast_self]
  show max _ (Ideal.ofBits .f32 0x00000000#32) = _
  rw [Ideal.ofBits_zero_f32]
  rfl

theorem phase3_apply (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) :
    (k0_pay24 (k0_pay23 (k0_pay22 (k0_pay21 (k0_pay20 t0 t1 t2 t3 t4 t5 t6 t7 t8 t9 t10 t11 t12 t13 t14 t15) t16 t17 t18 t19 t20 t21 t22 t23 t24 t25 t26 t27 t28 t29 t30) t31 t32 t33 t34 t35 t36 t37 t38 t39 t40 t41 t42 t43 t44 t45) t46 t47 t48 t49 t50 t51 t52 t53 t54 t55 t56 t57 t58 t59 t60) t61 t62 t63) (ix2 co mm)
      = max ((Finset.range 64).sup fun j => seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm)) 0 := by
  rw [phase3_chain, Cert.MathPool.chain63_max]

/-- The same against any sequence the taps agree with at the index. -/
theorem phase0_apply_of (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) (a : ℕ → EReal)
    (h : ∀ j, j < 64 → seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm) = a j) :
    (k0_pay9 (k0_pay7 (k0_pay6 (k0_pay5 (k0_pay4 (k0_pay3 t0 t1 t2 t3) t4 t5 t6 t7 t8 t9 t10 t11 t12 t13 t14 t15 t16 t17 t18) t19 t20 t21 t22 t23 t24 t25 t26 t27 t28 t29 t30 t31 t32 t33) t34 t35 t36 t37 t38 t39 t40 t41 t42 t43 t44 t45 t46 t47 t48) t49 t50 t51 t52 t53 t54 t55 t56 t57 t58 t59 t60 t61 t62 t63) (k0_pay8 (F := Ideal))) (ix2 co mm) = max ((Finset.range 64).sup a) 0 := by
  rw [phase0_apply]
  exact congrArg (fun s => max s 0) (Finset.sup_congr rfl fun j hj => h j (Finset.mem_range.mp hj))

/-- The same against any sequence the taps agree with at the index. -/
theorem phase1_apply_of (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) (a : ℕ → EReal)
    (h : ∀ j, j < 64 → seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm) = a j) :
    (k0_pay14 (k0_pay13 (k0_pay12 (k0_pay11 (k0_pay10 t0 t1 t2 t3 t4 t5 t6 t7 t8 t9 t10 t11 t12) t13 t14 t15 t16 t17 t18 t19 t20 t21 t22 t23 t24 t25 t26 t27) t28 t29 t30 t31 t32 t33 t34 t35 t36 t37 t38 t39 t40 t41 t42) t43 t44 t45 t46 t47 t48 t49 t50 t51 t52 t53 t54 t55 t56 t57) t58 t59 t60 t61 t62 t63) (ix2 co mm) = max ((Finset.range 64).sup a) 0 := by
  rw [phase1_apply]
  exact congrArg (fun s => max s 0) (Finset.sup_congr rfl fun j hj => h j (Finset.mem_range.mp hj))

/-- The same against any sequence the taps agree with at the index. -/
theorem phase2_apply_of (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) (a : ℕ → EReal)
    (h : ∀ j, j < 64 → seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm) = a j) :
    (k0_pay19 (k0_pay18 (k0_pay17 (k0_pay16 (k0_pay15 t0 t1 t2 t3 t4 t5 t6) t7 t8 t9 t10 t11 t12 t13 t14 t15 t16 t17 t18 t19 t20 t21) t22 t23 t24 t25 t26 t27 t28 t29 t30 t31 t32 t33 t34 t35 t36) t37 t38 t39 t40 t41 t42 t43 t44 t45 t46 t47 t48 t49 t50 t51) t52 t53 t54 t55 t56 t57 t58 t59 t60 t61 t62 t63) (ix2 co mm) = max ((Finset.range 64).sup a) 0 := by
  rw [phase2_apply]
  exact congrArg (fun s => max s 0) (Finset.sup_congr rfl fun j hj => h j (Finset.mem_range.mp hj))

/-- The same against any sequence the taps agree with at the index. -/
theorem phase3_apply_of (t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 : Vec Ideal S16x82 .f32) (co : Fin 16) (mm : Fin 82) (a : ℕ → EReal)
    (h : ∀ j, j < 64 → seq64 t0 t1 t2 t3 t4 t5 t6 t7 t8 t9 t10 t11 t12 t13 t14 t15 t16 t17 t18 t19 t20 t21 t22 t23 t24 t25 t26 t27 t28 t29 t30 t31 t32 t33 t34 t35 t36 t37 t38 t39 t40 t41 t42 t43 t44 t45 t46 t47 t48 t49 t50 t51 t52 t53 t54 t55 t56 t57 t58 t59 t60 t61 t62 t63 j (ix2 co mm) = a j) :
    (k0_pay24 (k0_pay23 (k0_pay22 (k0_pay21 (k0_pay20 t0 t1 t2 t3 t4 t5 t6 t7 t8 t9 t10 t11 t12 t13 t14 t15) t16 t17 t18 t19 t20 t21 t22 t23 t24 t25 t26 t27 t28 t29 t30) t31 t32 t33 t34 t35 t36 t37 t38 t39 t40 t41 t42 t43 t44 t45) t46 t47 t48 t49 t50 t51 t52 t53 t54 t55 t56 t57 t58 t59 t60) t61 t62 t63) (ix2 co mm) = max ((Finset.range 64).sup a) 0 := by
  rw [phase3_apply]
  exact congrArg (fun s => max s 0) (Finset.sup_congr rfl fun j hj => h j (Finset.mem_range.mp hj))

end Cert.ReferenceIdeal.RV
end
-- ==== Proof.RV.PooledRead.lean ====
/- A scratch table of 64 rows written as four bands of 16 rows and then loaded whole: the loaded table holds, at row k,
   the band k / 16 at its row k % 16. Stated over any four bands that are the bands of one function G of (row, column):
   the loaded table is G. The bands are listed with the last store first, as a run of the stores leaves them; they do
   not overlap and together cover the table, so the order plays no part. -/
import proofs.«116650_g2000303023666169_pallasbulk_55_22_alg».proof.Proof.Gen.ReferenceIdeal
import Idealize.ShloMosaic.Lib.Pipeline.Value
import Idealize.ShloMosaic.Lib.Pipeline.FrameBody
import Idealize.ShloMosaic.Lib.ValueIdx
import Idealize.ShloMosaic.Lib.Ring
import Idealize.ShloMosaic.Lib.Tactic

set_option maxRecDepth 16384

noncomputable section

namespace Cert.ReferenceIdeal.RV

open Idealize.ShloMosaic Idealize.ShloMosaic.ValueIdx Idealize.ShloMosaic.Tactic Cert.ReferenceIdeal Cert.ReferenceIdeal.Gen

/-- **The pooled scratch read back**: four 16-row stores of the bands of `G`, then a load of the whole table, read `G`. -/
theorem pooled_read (v : View sig .tc .vmem S64x82 .f32) (P0 P1 P2 P3 : FVec Ideal S16x82 .f32) (G : Fin 64 → Fin 82 → EReal)
    (h0 : ∀ (co : Fin 16) (mm : Fin 82), P0 (ix2 co mm) = G ⟨co.val, by omega⟩ mm)
    (h1 : ∀ (co : Fin 16) (mm : Fin 82), P1 (ix2 co mm) = G ⟨16 + co.val, by omega⟩ mm)
    (h2 : ∀ (co : Fin 16) (mm : Fin 82), P2 (ix2 co mm) = G ⟨32 + co.val, by omega⟩ mm)
    (h3 : ∀ (co : Fin 16) (mm : Fin 82), P3 (ix2 co mm) = G ⟨48 + co.val, by omega⟩ mm)
    (k : Fin 64) (mm : Fin 82) :
    v.readCov [(⟨Rect.unit (s := S64x82) ![48, 0] S16x82.size inb_S64x82_S16x82_48_0, P3⟩ : View.Piece (Elt Ideal) S64x82 .f32),
        ⟨Rect.unit (s := S64x82) ![32, 0] S16x82.size inb_S64x82_S16x82_32_0, P2⟩,
        ⟨Rect.unit (s := S64x82) ![16, 0] S16x82.size inb_S64x82_S16x82_16_0, P1⟩,
        ⟨Rect.unit (s := S64x82) ![0, 0] S16x82.size inb_S64x82_S16x82_0_0, P0⟩]
      (Rect.unit (s := S64x82) ![0, 0] S64x82.size inb_S64x82_S64x82_0_0).toLoadRect (ix2 k mm) = G k mm := by
  rw [View.readCov_eq_canon']
  have hidx : (Rect.unit (s := S64x82) ![0, 0] S64x82.size inb_S64x82_S64x82_0_0).toLoadRect.idx (ix2 k mm) = ix2 k mm := by
    funext a; apply Fin.ext
    match a with
    | ⟨0, _⟩ => show 0 + 1 * k.val = k.val; omega
    | ⟨1, _⟩ => show 0 + 1 * mm.val = mm.val; omega
  beta_reduce
  rw [hidx]
  refine (View.canon_apply_of_pieces (fun y : S64x82.Idx => G ⟨(y 0).val, idx2_lt0 y⟩ ⟨(y 1).val, idx2_lt1 y⟩) _ ?_
    (ix2 k mm) (View.cover_of_tiledL (s := S64x82) _ (![16, 82] : Fin 2 → ℕ) (by sl_kernel_rfl) _)).trans rfl
  intro p hp x
  simp only [List.mem_cons, List.mem_nil_iff, or_false] at hp
  rcases hp with rfl | rfl | rfl | rfl
  · obtain ⟨co, m', rfl⟩ : ∃ (co : Fin 16) (m' : Fin 82), x = ix2 co m' := ⟨x 0, x 1, eq_ix2 x⟩
    show P3 (ix2 co m') = G ⟨_, _⟩ ⟨_, _⟩
    rw [h3]
    exact congrArg₂ G (Fin.ext (by show 48 + co.val = 48 + 1 * co.val; omega))
      (Fin.ext (by show m'.val = 0 + 1 * m'.val; omega))
  · obtain ⟨co, m', rfl⟩ : ∃ (co : Fin 16) (m' : Fin 82), x = ix2 co m' := ⟨x 0, x 1, eq_ix2 x⟩
    show P2 (ix2 co m') = G ⟨_, _⟩ ⟨_, _⟩
    rw [h2]
    exact congrArg₂ G (Fin.ext (by show 32 + co.val = 32 + 1 * co.val; omega))
      (Fin.ext (by show m'.val = 0 + 1 * m'.val; omega))
  · obtain ⟨co, m', rfl⟩ : ∃ (co : Fin 16) (m' : Fin 82), x = ix2 co m' := ⟨x 0, x 1, eq_ix2 x⟩
    show P1 (ix2 co m') = G ⟨_, _⟩ ⟨_, _⟩
    rw [h1]
    exact congrArg₂ G (Fin.ext (by show 16 + co.val = 16 + 1 * co.val; omega))
      (Fin.ext (by show m'.val = 0 + 1 * m'.val; omega))
  · obtain ⟨co, m', rfl⟩ : ∃ (co : Fin 16) (m' : Fin 82), x = ix2 co m' := ⟨x 0, x 1, eq_ix2 x⟩
    show P0 (ix2 co m') = G ⟨_, _⟩ ⟨_, _⟩
    rw [h0]
    exact congrArg₂ G (Fin.ext (by show co.val = 0 + 1 * co.val; omega))
      (Fin.ext (by show m'.val = 0 + 1 * m'.val; omega))

end Cert.ReferenceIdeal.RV

end
-- ==== Proof.RV.TailRead.lean ====
/- The second half of the reference's per-stream computation, read one entry at a time on the extended reals and met
   with the specification.

   The reference keeps channels on the rows and width on the columns, which is the specification's own arrangement. From
   the pooled table p (row k = phase·16 + channel, column mm), holding the specification's first pool:
     * the second convolution is the product of the 64 × 64 table with p plus the bias column: entry (r, mm) is
       ∑ₖ wc2 (r, k) · p (k, mm) + b2s (r, 0), the specification's sum term by term;
     * the second pool is the maximum over rows ch and 32 + ch of a column and row ch of the next column, rectified;
     * the two stride-3 taps are the products with the 0/1 selection tables, the fusion is the two products with the
       32 × 32 tables added, the bias column added, rectified.
   Every product into the zero accumulator is the plain finite sum, in the specification's own order of factors, so
   nothing is re-arranged. -/
import proofs.«116650_g2000303023666169_pallasbulk_55_22_alg».proof.Proof.Gen.ReferenceIdeal.Skeleton
import proofs.«116650_g2000303023666169_pallasbulk_55_22_alg».proof.Proof.Spec
import proofs.«116650_g2000303023666169_pallasbulk_55_22_alg».proof.Proof.LibTileMatmul
import proofs.«116650_g2000303023666169_pallasbulk_55_22_alg».proof.Proof.LibRead2
import Idealize.ShloMosaic.Lib.ValueLayout

noncomputable section

open scoped BigOperators

namespace Cert.ReferenceIdeal.RV

open Idealize.ShloMosaic Idealize.ShloMosaic.ValueIdx Cert.ReferenceIdeal Cert.ReferenceIdeal.Gen

/-- A column [a, 1] broadcast along the columns reads, at (p, c), the column's entry (p, 0). -/
theorem rtail_bcast_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stages, named -/

/-- The second convolution: the 64 × 64 table times the pooled table, plus the bias column. -/
def c2OfR (wc2 : Vec Ideal S64x64 .f32) (p : Vec Ideal S64x82 .f32) (b2s : Vec Ideal S64x1 .f32) : FVec Ideal S64x82 .f32 :=
  addf (matmul (φ₁ := .f32) (φ₂ := .f32) dot_S64x64_S64x82_S64x82_1_0_0_1_n_n none wc2 p (constant S64x82 .f32 0x00000000#32))
    (broadcastTo S64x82 b2s broadcasts_S64x1_S64x82)

/-- The second pool over the two output phases and the next column, rectified. -/
def zOfR (c : FVec Ideal S64x82 .f32) : FVec Ideal S32x81 .f32 :=
  maximumf (maximumf (maximumf (extractStridedSlice S32x81 ![0, 0] c slices_S64x82_o0_0_S32x81)
      (extractStridedSlice S32x81 ![32, 0] c slices_S64x82_o32_0_S32x81))
      (extractStridedSlice S32x81 ![0, 1] c slices_S64x82_o0_1_S32x81))
    (broadcast S32x81 (Scalar.ofBits .f32 0x00000000#32))

theorem rtail_pay25_eq (wc2 : Vec Ideal S64x64 .f32) (p : Vec Ideal S64x82 .f32) (b2s : Vec Ideal S64x1 .f32) :
    k0_pay25 (F := Ideal) wc2 p b2s = zOfR (c2OfR wc2 p b2s) := rfl

variable (σ : Fin 2 → ℕ → EReal) (W : Cert.Spec.Wts)

/-- The second convolution depends on its row and column through their values only. -/
theorem rtail_c2_congr (r r' : Fin 64) (m m' : ℕ) (hr : r.val = r'.val) (hm : m = m') :
    Cert.Spec.c2 σ W r m = Cert.Spec.c2 σ W r' m' := by
  obtain rfl : r = r' := Fin.ext hr
  rw [hm]

/-- **The second pool** of a table holding the specification's second convolution. -/
theorem rtail_zOfR (c : FVec Ideal S64x82 .f32)
    (hc : ∀ (r : Fin 64) (mm : Fin 82), c (ix2 r mm) = Cert.Spec.c2 σ W r mm.val)
    (ch : Fin 32) (w : Fin 81) : zOfR c (ix2 ch w) = Cert.Spec.z σ W ch w.val := by
  have hw := w.isLt
  have hch := ch.isLt
  unfold zOfR Cert.Spec.z
  rw [maximumf_apply, maximumf_apply, maximumf_apply, broadcast_apply]
  show max _ (Ideal.ofBits .f32 0x00000000#32) = _
  rw [Ideal.ofBits_zero_f32,
    Cert.Read2.slice2 0 0 c _ ch w (by omega) (by omega),
    Cert.Read2.slice2 32 0 c _ ch w (by omega) (by omega),
    Cert.Read2.slice2 0 1 c _ ch w (by omega) (by omega), hc, hc, hc]
  refine congrArg (fun t => max t 0) ?_
  exact congrArg₂ max (congrArg₂ max (rtail_c2_congr σ W _ _ _ _ (by show 0 + ch.val = ch.val; omega) (by show 0 + w.val = w.val; omega))
      (rtail_c2_congr σ W _ _ _ _ rfl (by show 0 + w.val = w.val; omega)))
    (rtail_c2_congr σ W _ _ _ _ (by show 0 + ch.val = ch.val; omega) (by show 1 + w.val = w.val + 1; omega))

section Tail

variable (wc2 : Vec Ideal S64x64 .f32) (p : Vec Ideal S64x82 .f32) (b2s : Vec Ideal S64x1 .f32)
  (hp : ∀ (k : Fin 64) (mm : Fin 82), p (ix2 k mm) = Cert.Spec.p1 σ W k mm.val)
  (hwc2 : ∀ i, wc2 i = W.wc2 i) (hb2 : ∀ i, b2s i = W.b2s i)

include hp hwc2 hb2

/-- **The second convolution** is the specification's, entry by entry. -/
theorem rtail_c2 (r : Fin 64) (mm : Fin 82) : c2OfR wc2 p b2s (ix2 r mm) = Cert.Spec.c2 σ W r mm.val := by
  unfold c2OfR Cert.Spec.c2
  refine (addf_apply _ _ _).trans ?_
  refine congrArg₂ (· + ·) ?_ ?_
  · refine (TileMatmul.matmul_zero_apply dot_S64x64_S64x82_S64x82_1_0_0_1_n_n_wf none _ _ r mm).trans ?_
    exact Finset.sum_congr rfl fun k _ => congrArg₂ (· * ·) (hwc2 _) (hp k mm)
  · exact (rtail_bcast_col _ _ r mm).trans (hb2 _)

/-- The stream's pooled features, as the [32, 81] block the later products read. -/
theorem rtail_z2 (ch : Fin 32) (w : Fin 81) :
    k0_pay25 (F := Ideal) wc2 p b2s (ix2 ch w) = Cert.Spec.z σ W ch w.val := by
  rw [rtail_pay25_eq]
  exact rtail_zOfR σ W _ (rtail_c2 σ W wc2 p b2s hp hwc2 hb2) ch w

/-- **The stream's pooled features** as stored: the [32, 81] block under a leading unit axis. -/
theorem rtail_z (ch : Fin 32) (w : Fin 81) :
    k0_pay26 (F := Ideal) wc2 p b2s (ix3 0 ch w) = Cert.Spec.z σ W ch w.val := by
  unfold k0_pay26
  exact (shapeCast_ab_1ab_apply _ _ 0 ch w).trans (rtail_z2 σ W wc2 p b2s hp hwc2 hb2 ch w)

/-- A stride-3 tap: the pooled features times a selection table, at (ch, wl). -/
theorem rtail_tap (s : Vec Ideal S81x27 .f32) (S : Cert.Spec.A2 81 27) (hs : ∀ i, s i = S i) (ch : Fin 32) (wl : Fin 27) :
    matmul (F := Ideal) (φ₁ := .f32) (φ₂ := .f32) dot_S32x81_S81x27_S32x27_1_0_0_1_n_n none (k0_pay25 (F := Ideal) wc2 p b2s) s
        (constant (F := Ideal) S32x27 .f32 0x00000000#32) (ix2 ch wl)
      = ∑ w : Fin 81, Cert.Spec.z σ W ch w.val * S (ix2 w wl) := by
  refine (TileMatmul.matmul_zero_apply dot_S32x81_S81x27_S32x27_1_0_0_1_n_n_wf none _ _ ch wl).trans ?_
  exact Finset.sum_congr rfl fun w _ => congrArg₂ (· * ·) (rtail_z2 σ W wc2 p b2s hp hwc2 hb2 ch w) (hs _)

/-- The two taps are the specification's. -/
theorem rtail_t0 (s0 : Vec Ideal S81x27 .f32) (hs0 : ∀ i, s0 i = W.s0 i) (ch : Fin 32) (wl : Fin 27) :
    k0_pay27 (F := Ideal) wc2 p b2s s0 (ix2 ch wl) = Cert.Spec.t0 σ W ch wl :=
  rtail_tap σ W wc2 p b2s hp hwc2 hb2 s0 W.s0 hs0 ch wl

theorem rtail_t1 (s1 : Vec Ideal S81x27 .f32) (hs1 : ∀ i, s1 i = W.s1 i) (ch : Fin 32) (wl : Fin 27) :
    k0_pay28 (F := Ideal) wc2 p b2s s1 (ix2 ch wl) = Cert.Spec.t1 σ W ch wl :=
  rtail_tap σ W wc2 p b2s hp hwc2 hb2 s1 W.s1 hs1 ch wl

/-- **The stream's slab of the fusion convolution** as stored: the two fusion products added, the bias column added,
    the rectifier, under a leading unit axis. -/
theorem rtail_x44 (s0 s1 : Vec Ideal S81x27 .f32) (wf0 wf1 : Vec Ideal S32x32 .f32) (bf : Vec Ideal S32x1 .f32)
    (hs0 : ∀ i, s0 i = W.s0 i) (hs1 : ∀ i, s1 i = W.s1 i)
    (hwf0 : ∀ i, wf0 i = W.wf0 i) (hwf1 : ∀ i, wf1 i = W.wf1 i) (hbf : ∀ i, bf i = W.bf i)
    (co : Fin 32) (wl : Fin 27) :
    k0_pay1 (F := Ideal) (k0_pay27 wc2 p b2s s0) (k0_pay28 wc2 p b2s s1) wf0 wf1 bf (ix3 0 co wl)
      = Cert.Spec.x44 σ W co wl := by
  unfold k0_pay1 Cert.Spec.x44
  refine (shapeCast_ab_1ab_apply _ _ 0 co wl).trans ?_
  rw [maximumf_apply, broadcast_apply]
  show max _ (Ideal.ofBits .f32 0x00000000#32) = _
  rw [Ideal.ofBits_zero_f32, addf_apply, addf_apply, rtail_bcast_col, hbf]
  refine congrArg (fun t => max (t + W.bf (ix2 co 0)) 0) ?_
  refine congrArg₂ (· + ·) ?_ ?_
  · refine (TileMatmul.matmul_zero_apply dot_S32x32_S32x27_S32x27_1_0_0_1_n_n_wf none _ _ co wl).trans ?_
    exact Finset.sum_congr rfl fun ch _ =>
      congrArg₂ (· * ·) (hwf0 _) (rtail_t0 σ W wc2 p b2s hp hwc2 hb2 s0 hs0 ch wl)
  · refine (TileMatmul.matmul_zero_apply dot_S32x32_S32x27_S32x27_1_0_0_1_n_n_wf none _ _ co wl).trans ?_
    exact Finset.sum_congr rfl fun ch _ =>
      congrArg₂ (· * ·) (hwf1 _) (rtail_t1 σ W wc2 p b2s hp hwc2 hb2 s1 hs1 ch wl)

end Tail

end Cert.ReferenceIdeal.RV

end
-- ==== Proof.RV.ConvRead.lean ====
/- The reference's first convolution read at an index: three K = 240 products, one per shift tap, over column slices of the
   phase-split signal block, summed and biased — the specification's sum over tap, sensor and phase. -/
import proofs.«116650_g2000303023666169_pallasbulk_55_22_alg».proof.Proof.Gen.ReferenceIdeal.Skeleton
import proofs.«116650_g2000303023666169_pallasbulk_55_22_alg».proof.Proof.Spec
import proofs.«116650_g2000303023666169_pallasbulk_55_22_alg».proof.Proof.LibTileMatmul
import proofs.«116650_g2000303023666169_pallasbulk_55_22_alg».proof.Proof.LibRead2
import Idealize.ShloMosaic.Lib.ValueLayout
import Idealize.ShloMosaic.Lib.Pipeline.Value

set_option maxRecDepth 16384

noncomputable section
namespace Cert.ReferenceIdeal.RV
open Idealize.ShloMosaic Idealize.ShloMosaic.ValueIdx Cert.ReferenceIdeal Cert.ReferenceIdeal.Gen
open scoped BigOperators

/-- A column [a, 1] broadcast along the rows' axis reads the column's entry of the same row. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the 240 signal rows, sensor by sensor. -/
theorem sum_rows240 {M : Type} [AddCommMonoid M] (f : Fin 240 → M) :
    ∑ k : Fin 240, f k = ∑ c : Fin 2, ∑ ph : Fin 120, f (Cert.Spec.k240 c ph) := by
  rw [← Finset.sum_product', Finset.univ_product_univ]
  refine (Fintype.sum_equiv (finProdFinEquiv (m := 2) (n := 120)) _ _ fun ij => ?_).symm
  refine congrArg f (Fin.ext ?_)
  show ij.1.val * 120 + ij.2.val = ij.2.val + 120 * ij.1.val
  omega

variable (σ : Fin 2 → ℕ → EReal) (W : Cert.Spec.Wts)

/-- One shift tap's product at (row n, column mcol). -/
theorem rtap (x : Vec Ideal S1x240x87 .f32) (wq : Vec Ideal S1x384x240 .f32) (q : ℕ) (Q : Fin 3) (hQ : Q.val = q)
    (hs : S240x87.Slices ![0, q] S240x85)
    (hx : ∀ (cc : Fin 2) (ph : Fin 120) (m' : Fin 87) (k : Fin 240), k.val = cc.val * 120 + ph.val → x (ix3 0 k m') = σ cc (m'.val * 120 + ph.val))
    (hwq : ∀ (n : Fin 384) (k : Fin 240), wq (ix3 0 n k) = W.w1q (ix3 Q n k)) (n : Fin 384) (mcol : Fin 85) :
    matmul dot_S384x240_S240x85_S384x85_1_0_0_1_n_n none (shapeCast S384x240 wq shapeCasts_S1x384x240_S384x240 : FVec Ideal S384x240 .f32)
      (extractStridedSlice S240x85 ![0, q] (shapeCast S240x87 x shapeCasts_S1x240x87_S240x87 : FVec Ideal S240x87 .f32) hs)
      (constant S384x85 .f32 0x00000000#32) (ix2 n mcol)
    = ∑ c : Fin 2, ∑ ph : Fin 120, σ c ((mcol.val + Q.val) * 120 + ph.val) * W.w1q (ix3 Q n (Cert.Spec.k240 c ph)) := by
  have hq3 : q < 3 := hQ ▸ Q.isLt
  refine (Idealize.ShloMosaic.TileMatmul.matmul_zero_apply dot_S384x240_S240x85_S384x85_1_0_0_1_n_n.wf none _ _ n mcol).trans ?_
  rw [sum_rows240]
  refine Finset.sum_congr rfl fun c _ => Finset.sum_congr rfl fun ph _ => ?_
  rw [shapeCast_1ab_ab_apply, hwq, Cert.Read2.slice2 0 q _ hs (Cert.Spec.k240 c ph) mcol (by have := (Cert.Spec.k240 c ph).isLt; omega) (by have := mcol.isLt; omega),
    shapeCast_1ab_ab_apply, hx c ph _ _ (by show 0 + (Cert.Spec.k240 c ph).val = c.val * 120 + ph.val; unfold Cert.Spec.k240; simp), mul_comm]
  refine congrArg (· * _) (congrArg (σ c) ?_)
  show (q + mcol.val) * 120 + ph.val = (mcol.val + Q.val) * 120 + ph.val
  omega

/-- The reference's first convolution, as stored into its scratch, is the specification's. -/
theorem rconv_apply (x : Vec Ideal S1x240x87 .f32) (wa wb wc : Vec Ideal S1x384x240 .f32) (b1 : Vec Ideal S384x1 .f32)
    (hx : ∀ (cc : Fin 2) (ph : Fin 120) (m' : Fin 87) (k : Fin 240), k.val = cc.val * 120 + ph.val → x (ix3 0 k m') = σ cc (m'.val * 120 + ph.val))
    (ha : ∀ (n : Fin 384) (k : Fin 240), wa (ix3 0 n k) = W.w1q (ix3 0 n k))
    (hb : ∀ (n : Fin 384) (k : Fin 240), wb (ix3 0 n k) = W.w1q (ix3 1 n k))
    (hc : ∀ (n : Fin 384) (k : Fin 240), wc (ix3 0 n k) = W.w1q (ix3 2 n k))
    (hb1 : ∀ n : Fin 384, b1 (ix2 n 0) = W.b1s (ix2 n 0)) (n : Fin 384) (mcol : Fin 85) :
    k0_pay2 (F := Ideal) x wa wb wc b1 (ix2 n mcol) = Cert.Spec.c1 σ W n mcol.val := by
  unfold k0_pay2 Cert.Spec.c1
  rw [shapeCast_self, addf_apply, addf_apply, addf_apply, bcol_apply, hb1,
    rtap σ W x wa 0 0 rfl _ hx ha n mcol, rtap σ W x wb 1 1 rfl _ hx hb n mcol, rtap σ W x wc 2 2 rfl _ hx hc n mcol,
    Fin.sum_univ_three]

end Cert.ReferenceIdeal.RV
end
-- ==== Proof.RV.StreamSpec.lean ====
/-
  The reference's per-stream body against the specification. The first scratch buffer holds the first convolution;
  the body's 4 x 64 window loads are that convolution at output positions 24·mm + 3·v + j (v the pool phase 0, 1, 4, 5,
  j the tap); each stored 16-row band is the rectified running maximum of its phase's 64 taps, so the second scratch
  buffer, loaded whole, is the first pool; the printed tail on it gives the two blocks the body writes out.
-/
import proofs.«116650_g2000303023666169_pallasbulk_55_22_alg».proof.Proof.RV.StreamRun
import proofs.«116650_g2000303023666169_pallasbulk_55_22_alg».proof.Proof.RV.TapsRead
import proofs.«116650_g2000303023666169_pallasbulk_55_22_alg».proof.Proof.RV.PooledRead
import proofs.«116650_g2000303023666169_pallasbulk_55_22_alg».proof.Proof.RV.TailRead
import proofs.«116650_g2000303023666169_pallasbulk_55_22_alg».proof.Proof.RV.ConvRead

set_option maxRecDepth 16384

noncomputable section

namespace Cert.ReferenceIdeal.RV

open Idealize.ShloMosaic Idealize.ShloMosaic.TcCoe Idealize.ShloMosaic.Tactic Idealize.ShloMosaic.ValueIdx
open Idealize.SL Idealize.SL.Sem
open Idealize.ShloMosaic.Pipeline (Dat)
open Cert.ReferenceIdeal Cert.ReferenceIdeal.Gen Cert.ReferenceIdeal.Hand

/-- Sixty-four consecutive values of a sequence, as a sequence. -/
theorem seq64_fun {α : Type} (f : ℕ → α) (o j : ℕ) (hj : j < 64) :
    seq64 (f o) (f (o + 1)) (f (o + 2)) (f (o + 3)) (f (o + 4)) (f (o + 5)) (f (o + 6)) (f (o + 7)) (f (o + 8)) (f (o + 9)) (f (o + 10)) (f (o + 11)) (f (o + 12)) (f (o + 13)) (f (o + 14)) (f (o + 15)) (f (o + 16)) (f (o + 17)) (f (o + 18)) (f (o + 19)) (f (o + 20)) (f (o + 21)) (f (o + 22)) (f (o + 23)) (f (o + 24)) (f (o + 25)) (f (o + 26)) (f (o + 27)) (f (o + 28)) (f (o + 29)) (f (o + 30)) (f (o + 31)) (f (o + 32)) (f (o + 33)) (f (o + 34)) (f (o + 35)) (f (o + 36)) (f (o + 37)) (f (o + 38)) (f (o + 39)) (f (o + 40)) (f (o + 41)) (f (o + 42)) (f (o + 43)) (f (o + 44)) (f (o + 45)) (f (o + 46)) (f (o + 47)) (f (o + 48)) (f (o + 49)) (f (o + 50)) (f (o + 51)) (f (o + 52)) (f (o + 53)) (f (o + 54)) (f (o + 55)) (f (o + 56)) (f (o + 57)) (f (o + 58)) (f (o + 59)) (f (o + 60)) (f (o + 61)) (f (o + 62)) (f (o + 63)) j = f (o + j) := by
  interval_cases j <;> rfl

/-- A slab of the first weight array read at an index. -/
theorem slab_read (X : Vec Ideal S3x384x240 .f32) (q : ℕ) (inb : ∀ a, (![q, 0, 0] : Fin 3 → ℕ) a + S1x384x240.size a ≤ S3x384x240.size a)
    (Q : Fin 3) (hq : Q.val = q) (n : Fin 384) (k : Fin 240) :
    View.ld X (Rect.unit (s := S3x384x240) ![q, 0, 0] S1x384x240.size inb) (ix3 0 n k) = X (ix3 Q n k) := by
  show X _ = X _
  refine congrArg X (funext fun a => Fin.ext ?_)
  match a with
  | ⟨0, _⟩ => show q + 1 * 0 = Q.val; omega
  | ⟨1, _⟩ => show 0 + 1 * n.val = n.val; omega
  | ⟨2, _⟩ => show 0 + 1 * k.val = k.val; omega

section Stream

variable (σ : Fin 2 → ℕ → EReal) (W : Cert.Spec.Wts)

/-- The rectified maximum of the 64 taps of pool phase `e` at channel `co` is the first pool at row `e·16 + co`. -/
theorem p1_band (e : ℕ) (he : e < 4) (o : ℕ) (ho : o = 3 * Cert.Spec.phase ⟨e, he⟩) (co : Fin 16) (k : Fin 64) (hk : k.val = e * 16 + co.val) (mm : ℕ) :
    max ((Finset.range 64).sup fun j => Cert.Spec.cpos σ W co (24 * mm + (o + j))) 0 = Cert.Spec.p1 σ W k mm := by
  unfold Cert.Spec.p1
  refine congrArg (fun s => max s 0) (Finset.sup_congr rfl fun j _ => ?_)
  refine congrArg₂ (Cert.Spec.cpos σ W) (Fin.ext ?_) ?_
  · show co.val = k.val % 16; omega
  · have hh : (⟨k.val / 16, by omega⟩ : Fin 4) = ⟨e, he⟩ := Fin.ext (by show k.val / 16 = e; omega)
    rw [hh, ← ho]; omega

variable (c : Dev nD) (i : grid0.Coords) (arg1 : Memref sig .tc .vmem S1x240x87 .f32) (harg1 : arg1.IsWhole) (arg2 : Memref sig .tc .vmem S3x384x240 .f32) (harg2 : arg2.IsWhole) (arg3 : Memref sig .tc .vmem S384x1 .f32) (harg3 : arg3.IsWhole) (arg4 : Memref sig .tc .vmem S64x64 .f32) (harg4 : arg4.IsWhole) (arg5 : Memref sig .tc .vmem S64x1 .f32) (harg5 : arg5.IsWhole) (arg6 : Memref sig .tc .vmem S32x32 .f32) (harg6 : arg6.IsWhole) (arg7 : Memref sig .tc .vmem S32x32 .f32) (harg7 : arg7.IsWhole) (arg8 : Memref sig .tc .vmem S32x1 .f32) (harg8 : arg8.IsWhole) (arg9 : Memref sig .tc .vmem S81x27 .f32) (harg9 : arg9.IsWhole) (arg10 : Memref sig .tc .vmem S81x27 .f32) (harg10 : arg10.IsWhole) (arg11 : Memref sig .tc .vmem S1x32x81 .f32) (harg11 : arg11.IsWhole) (arg12 : Memref sig .tc .vmem S1x32x27 .f32) (harg12 : arg12.IsWhole) (arg13 : Memref sig .tc .vmem S384x85 .f32) (harg13 : arg13.IsWhole) (arg14 : Memref sig .tc .vmem S64x82 .f32) (harg14 : arg14.IsWhole)
variable (x0 : Vec Ideal S1x240x87 .f32) (x1 : Vec Ideal S3x384x240 .f32) (x2 : Vec Ideal S384x1 .f32) (x3 : Vec Ideal S64x64 .f32) (x4 : Vec Ideal S64x1 .f32) (x5 : Vec Ideal S32x32 .f32) (x6 : Vec Ideal S32x32 .f32) (x7 : Vec Ideal S32x1 .f32) (x8 : Vec Ideal S81x27 .f32) (x9 : Vec Ideal S81x27 .f32)

/-- The first scratch buffer holds the specification's first convolution. -/
theorem conv0_spec
    (hx : ∀ (cc : Fin 2) (ph : Fin 120) (m' : Fin 87) (k : Fin 240), k.val = cc.val * 120 + ph.val → x0 (ix3 0 k m') = σ cc (m'.val * 120 + ph.val))
    (h1 : ∀ j, x1 j = W.w1q j) (h2 : ∀ j, x2 j = W.b1s j) (n : Fin 384) (mcol : Fin 85) :
    conv0 x0 x1 x2 (ix2 n mcol) = Cert.Spec.c1 σ W n mcol.val := by
  unfold conv0
  exact rconv_apply σ W x0 _ _ _ x2 hx
    (fun n k => (slab_read x1 0 _ 0 rfl n k).trans (h1 _)) (fun n k => (slab_read x1 1 _ 1 rfl n k).trans (h1 _))
    (fun n k => (slab_read x1 2 _ 2 rfl n k).trans (h1 _)) (fun n => h2 _) n mcol

variable (hconv : ∀ (n : Fin 384) (mcol : Fin 85), conv0 x0 x1 x2 (ix2 n mcol) = Cert.Spec.c1 σ W n mcol.val)
include hconv

/-- Band 0 of the second scratch buffer: pool phase 0. -/
theorem band0 (co : Fin 16) (mm : Fin 82) :
    (k0_pay9 (F := Ideal) (kernelRun0_A.sl.r_4 (F := Ideal) c arg1 harg1 arg2 harg2 arg3 harg3 arg13 x0 x1 x2) (k0_pay8 (F := Ideal))) (ix2 co mm) = Cert.Spec.p1 σ W ⟨co.val, by omega⟩ mm.val :=
  (phase0_apply_of (T c arg1 harg1 arg2 harg2 arg3 harg3 arg13 x0 x1 x2 0) (T c arg1 harg1 arg2 harg2 arg3 harg3 arg13 x0 x1 x2 (0 + 1)) (T c arg1 harg1 arg2 harg2 arg3 harg3 arg13 x0 x1 x2 (0 + 2)) (T c arg1 harg1 arg2 harg2 arg3 harg3 arg13 x0 x1 x2 (0 + 3)) (T c arg1 harg1 arg2 harg2 arg3 harg3 arg13 x0 x1 x2 (0 + 4)) (T c arg1 harg1 arg2 harg2 arg3 harg3 arg13 x0 x1 x2 (0 + 5)) (T c arg1 harg1 arg2 harg2 arg3 harg3 arg13 x0 x1 x2 (0 + 6)) (T c arg1 harg1 arg2 harg2 arg3 harg3 arg13 x0 x1 x2 (0 + 7)) (T c arg1 harg1 arg2 harg2 arg3 harg3 arg13 x0 x1 x2 (0 + 8)) (T c arg1 harg1 arg2 harg2 arg3 harg3 arg13 x0 x1 x2 (0 + 9)) (T c arg1 harg1 arg2 harg2 arg3 harg3 arg13 x0 x1 x2 (0 + 10)) (T c arg1 harg1 arg2 harg2 arg3 harg3 arg13 x0 x1 x2 (0 + 11)) (T c arg1 harg1 arg2 harg2 arg3 harg3 arg13 x0 x1 x2 (0 + 12)) (T c arg1 harg1 arg2 harg2 arg3 harg3 arg13 x0 x1 x2 (0 + 13)) (T c arg1 harg1 arg2 harg2 arg3 harg3 arg13 x0 x1 x2 (0 + 14)) (T c arg1 harg1 arg2 harg2 arg3 harg3 arg13 x0 x1 x2 (0 + 15)) (T c arg1 harg1 arg2 harg2 arg3 harg3 arg13 x0 x1 x2 (0 + 16)) (T c arg1 harg1 arg2 harg2 arg3 harg3 arg13 x0 x1 x2 (0 + 17)) (T c arg1 harg1 arg2 harg2 arg3 harg3 arg13 x0 x1 x2 (0 + 18)) (T c arg1 harg1 arg2 harg2 arg3 harg3 arg13 x0 x1 x2 (0 + 19)) (T c arg1 harg1 arg2 harg2 arg3 harg3 arg13 x0 x1 x2 (0 + 20)) (T c arg1 harg1 arg2 harg2 arg3 harg3 arg13 x0 x1 x2 (0 + 21)) (T c arg1 harg1 arg2 harg2 arg3 harg3 arg13 x0 x1 x2 (0 + 22)) (T c arg1 harg1 arg2 harg2 arg3 harg3 arg13 x0 x1 x2 (0 + 23)) (T c arg1 harg1 arg2 harg2 arg3 harg3 arg13 x0 x1 x2 (0 + 24)) (T c arg1 harg1 arg2 harg2 arg3 harg3 arg13 x0 x1 x2 (0 + 25)) (T c arg1 harg1 arg2 harg2 arg3 harg3 arg13 x0 x1 x2 (0 + 26)) (T c arg1 harg1 arg2 harg2 arg3 harg3 arg13 x0 x1 x2 (0 + 27)) (T c arg1 harg1 arg2 harg2 arg3 harg3 arg13 x0 x1 x2 (0 + 28)) (T c arg1 harg1 arg2 harg2 arg3 harg3 arg13 x0 x1 x2 (0 + 29)) (T c arg1 harg1 arg2 harg2 arg3 harg3 arg13 x0 x1 x2 (0 + 30)) (T c arg1 harg1 arg2 harg2 arg3 harg3 arg13 x0 x1 x2 (0 + 31)) (T c arg1 harg1 arg2 harg2 arg3 harg3 arg13 x0 x1 x2 (0 + 32)) (T c arg1 harg1 arg2 harg2 arg3 harg3 arg13 x0 x1 x2 (0 + 33)) (T c arg1 harg1 arg2 harg2 arg3 harg3 arg13 x0 x1 x2 (0 + 34)) (T c arg1 harg1 arg2 harg2 arg3 harg3 arg13 x0 x1 x2 (0 + 35)) (T c arg1 harg1 arg2 harg2 arg3 harg3 arg13 x0 x1 x2 (0 + 36)) (T c arg1 harg1 arg2 harg2 arg3 harg3 arg13 x0 x1 x2 (0 + 37)) (T c arg1 harg1 arg2 harg2 arg3 harg3 arg13 x0 x1 x2 (0 + 38)) (T c arg1 harg1 arg2 harg2 arg3 harg3 arg13 x0 x1 x2 (0 + 39)) (T c arg1 harg1 arg2 harg2 arg3 harg3 arg13 x0 x1 x2 (0 + 40)) (T c arg1 harg1 arg2 harg2 arg3 harg3 arg13 x0 x1 x2 (0 + 41)) (T c arg1 harg1 arg2 harg2 arg3 harg3 arg13 x0 x1 x2 (0 + 42)) (T c arg1 harg1 arg2 harg2 arg3 harg3 arg13 x0 x1 x2 (0 + 43)) (T c arg1 harg1 arg2 harg2 arg3 harg3 arg13 x0 x1 x2 (0 + 44)) (T c arg1 harg1 arg2 harg2 arg3 harg3 arg13 x0 x1 x2 (0 + 45)) (T c arg1 harg1 arg2 harg2 arg3 harg3 arg13 x0 x1 x2 (0 + 46)) (T c arg1 harg1 arg2 harg2 arg3 harg3 arg13 x0 x1 x2 (0 + 47)) (T c arg1 harg1 arg2 harg2 arg3 harg3 arg13 x0 x1 x2 (0 + 48)) (T c arg1 harg1 arg2 harg2 arg3 harg3 arg13 x0 x1 x2 (0 + 49)) (T c arg1 harg1 arg2 harg2 arg3 harg3 arg13 x0 x1 x2 (0 + 50)) (T c arg1 harg1 arg2 harg2 arg3 harg3 arg13 x0 x1 x2 (0 + 51)) (T c arg1 harg1 arg2 harg2 arg3 harg3 arg13 x0 x1 x2 (0 + 52)) (T c arg1 harg1 arg2 harg2 arg3 harg3 arg13 x0 x1 x2 (0 + 53)) (T c arg1 harg1 arg2 harg2 arg3 harg3 arg13 x0 x1 x2 (0 + 54)) (T c arg1 harg1 arg2 harg2 arg3 harg3 arg13 x0 x1 x2 (0 + 55)) (T c arg1 harg1 arg2 harg2 arg3 harg3 arg13 x0 x1 x2 (0 + 56)) (T c arg1 harg1 arg2 harg2 arg3 harg3 arg13 x0 x1 x2 (0 + 57)) (T c arg1 harg1 arg2 harg2 arg3 harg3 arg13 x0 x1 x2 (0 + 58)) (T c arg1 harg1 arg2 harg2 arg3 harg3 arg13 x0 x1 x2 (0 + 59)) (T c arg1 harg1 arg2 harg2 arg3 harg3 arg13 x0 x1 x2 (0 + 60)) (T c arg1 harg1 arg2 harg2 arg3 harg3 arg13 x0 x1 x2 (0 + 61)) (T c arg1 harg1 arg2 harg2 arg3 harg3 arg13 x0 x1 x2 (0 + 62)) (T c arg1 harg1 arg2 harg2 arg3 harg3 arg13 x0 x1 x2 (0 + 63)) co mm
    (fun j => Cert.Spec.cpos σ W co (24 * mm.val + (0 + j)))
    (fun j hj => by rw [seq64_fun (T c arg1 harg1 arg2 harg2 arg3 harg3 arg13 x0 x1 x2) 0 j hj]; exact T_cpos c arg1 harg1 arg2 harg2 arg3 harg3 arg13 x0 x1 x2 σ W hconv (0 + j) (by omega) co mm)).trans
    (p1_band σ W 0 (by omega) 0 rfl co _ (by show co.val = 0 * 16 + co.val; omega) mm.val)

/-- Band 1 of the second scratch buffer: pool phase 1. -/
theorem band1 (co : Fin 16) (mm : Fin 82) :
    (k0_pay14 (F := Ideal) (kernelRun0_A.sl.r_8 (F := Ideal) c arg1 harg1 arg2 harg2 arg3 harg3 arg13 x0 x1 x2) (kernelRun0_A.sl.v143 (F := Ideal) c arg1 harg1 arg2 harg2 arg3 harg3 arg13 x0 x1 x2) (kernelRun0_A.sl.v145 (F := Ideal) c arg1 harg1 arg2 harg2 arg3 harg3 arg13 x0 x1 x2) (kernelRun0_A.sl.v147 (F := Ideal) c arg1 harg1 arg2 harg2 arg3 harg3 arg13 x0 x1 x2) (kernelRun0_A.sl.v275 (F := Ideal) c arg1 harg1 arg2 harg2 arg3 harg3 arg13 x0 x1 x2) (kernelRun0_A.sl.v277 (F := Ideal) c arg1 harg1 arg2 harg2 arg3 harg3 arg13 x0 x1 x2) (kernelRun0_A.sl.v279 (F := Ideal) c arg1 harg1 arg2 harg2 arg3 harg3 arg13 x0 x1 x2)) (ix2 co mm) = Cert.Spec.p1 σ W ⟨16 + co.val, by omega⟩ mm.val :=
  (phase1_apply_of (T c arg1 harg1 arg2 harg2 arg3 harg3 arg13 x0 x1 x2 3) (T c arg1 harg1 arg2 harg2 arg3 harg3 arg13 x0 x1 x2 (3 + 1)) (T c arg1 harg1 arg2 harg2 arg3 harg3 arg13 x0 x1 x2 (3 + 2)) (T c arg1 harg1 arg2 harg2 arg3 harg3 arg13 x0 x1 x2 (3 + 3)) (T c arg1 harg1 arg2 harg2 arg3 harg3 arg13 x0 x1 x2 (3 + 4)) (T c arg1 harg1 arg2 harg2 arg3 harg3 arg13 x0 x1 x2 (3 + 5)) (T c arg1 harg1 arg2 harg2 arg3 harg3 arg13 x0 x1 x2 (3 + 6)) (T c arg1 harg1 arg2 harg2 arg3 harg3 arg13 x0 x1 x2 (3 + 7)) (T c arg1 harg1 arg2 harg2 arg3 harg3 arg13 x0 x1 x2 (3 + 8)) (T c arg1 harg1 arg2 harg2 arg3 harg3 arg13 x0 x1 x2 (3 + 9)) (T c arg1 harg1 arg2 harg2 arg3 harg3 arg13 x0 x1 x2 (3 + 10)) (T c arg1 harg1 arg2 harg2 arg3 harg3 arg13 x0 x1 x2 (3 + 11)) (T c arg1 harg1 arg2 harg2 arg3 harg3 arg13 x0 x1 x2 (3 + 12)) (T c arg1 harg1 arg2 harg2 arg3 harg3 arg13 x0 x1 x2 (3 + 13)) (T c arg1 harg1 arg2 harg2 arg3 harg3 arg13 x0 x1 x2 (3 + 14)) (T c arg1 harg1 arg2 harg2 arg3 harg3 arg13 x0 x1 x2 (3 + 15)) (T c arg1 harg1 arg2 harg2 arg3 harg3 arg13 x0 x1 x2 (3 + 16)) (T c arg1 harg1 arg2 harg2 arg3 harg3 arg13 x0 x1 x2 (3 + 17)) (T c arg1 harg1 arg2 harg2 arg3 harg3 arg13 x0 x1 x2 (3 + 18)) (T c arg1 harg1 arg2 harg2 arg3 harg3 arg13 x0 x1 x2 (3 + 19)) (T c arg1 harg1 arg2 harg2 arg3 harg3 arg13 x0 x1 x2 (3 + 20)) (T c arg1 harg1 arg2 harg2 arg3 harg3 arg13 x0 x1 x2 (3 + 21)) (T c arg1 harg1 arg2 harg2 arg3 harg3 arg13 x0 x1 x2 (3 + 22)) (T c arg1 harg1 arg2 harg2 arg3 harg3 arg13 x0 x1 x2 (3 + 23)) (T c arg1 harg1 arg2 harg2 arg3 harg3 arg13 x0 x1 x2 (3 + 24)) (T c arg1 harg1 arg2 harg2 arg3 harg3 arg13 x0 x1 x2 (3 + 25)) (T c arg1 harg1 arg2 harg2 arg3 harg3 arg13 x0 x1 x2 (3 + 26)) (T c arg1 harg1 arg2 harg2 arg3 harg3 arg13 x0 x1 x2 (3 + 27)) (T c arg1 harg1 arg2 harg2 arg3 harg3 arg13 x0 x1 x2 (3 + 28)) (T c arg1 harg1 arg2 harg2 arg3 harg3 arg13 x0 x1 x2 (3 + 29)) (T c arg1 harg1 arg2 harg2 arg3 harg3 arg13 x0 x1 x2 (3 + 30)) (T c arg1 harg1 arg2 harg2 arg3 harg3 arg13 x0 x1 x2 (3 + 31)) (T c arg1 harg1 arg2 harg2 arg3 harg3 arg13 x0 x1 x2 (3 + 32)) (T c arg1 harg1 arg2 harg2 arg3 harg3 arg13 x0 x1 x2 (3 + 33)) (T c arg1 harg1 arg2 harg2 arg3 harg3 arg13 x0 x1 x2 (3 + 34)) (T c arg1 harg1 arg2 harg2 arg3 harg3 arg13 x0 x1 x2 (3 + 35)) (T c arg1 harg1 arg2 harg2 arg3 harg3 arg13 x0 x1 x2 (3 + 36)) (T c arg1 harg1 arg2 harg2 arg3 harg3 arg13 x0 x1 x2 (3 + 37)) (T c arg1 harg1 arg2 harg2 arg3 harg3 arg13 x0 x1 x2 (3 + 38)) (T c arg1 harg1 arg2 harg2 arg3 harg3 arg13 x0 x1 x2 (3 + 39)) (T c arg1 harg1 arg2 harg2 arg3 harg3 arg13 x0 x1 x2 (3 + 40)) (T c arg1 harg1 arg2 harg2 arg3 harg3 arg13 x0 x1 x2 (3 + 41)) (T c arg1 harg1 arg2 harg2 arg3 harg3 arg13 x0 x1 x2 (3 + 42)) (T c arg1 harg1 arg2 harg2 arg3 harg3 arg13 x0 x1 x2 (3 + 43)) (T c arg1 harg1 arg2 harg2 arg3 harg3 arg13 x0 x1 x2 (3 + 44)) (T c arg1 harg1 arg2 harg2 arg3 harg3 arg13 x0 x1 x2 (3 + 45)) (T c arg1 harg1 arg2 harg2 arg3 harg3 arg13 x0 x1 x2 (3 + 46)) (T c arg1 harg1 arg2 harg2 arg3 harg3 arg13 x0 x1 x2 (3 + 47)) (T c arg1 harg1 arg2 harg2 arg3 harg3 arg13 x0 x1 x2 (3 + 48)) (T c arg1 harg1 arg2 harg2 arg3 harg3 arg13 x0 x1 x2 (3 + 49)) (T c arg1 harg1 arg2 harg2 arg3 harg3 arg13 x0 x1 x2 (3 + 50)) (T c arg1 harg1 arg2 harg2 arg3 harg3 arg13 x0 x1 x2 (3 + 51)) (T c arg1 harg1 arg2 harg2 arg3 harg3 arg13 x0 x1 x2 (3 + 52)) (T c arg1 harg1 arg2 harg2 arg3 harg3 arg13 x0 x1 x2 (3 + 53)) (T c arg1 harg1 arg2 harg2 arg3 harg3 arg13 x0 x1 x2 (3 + 54)) (T c arg1 harg1 arg2 harg2 arg3 harg3 arg13 x0 x1 x2 (3 + 55)) (T c arg1 harg1 arg2 harg2 arg3 harg3 arg13 x0 x1 x2 (3 + 56)) (T c arg1 harg1 arg2 harg2 arg3 harg3 arg13 x0 x1 x2 (3 + 57)) (T c arg1 harg1 arg2 harg2 arg3 harg3 arg13 x0 x1 x2 (3 + 58)) (T c arg1 harg1 arg2 harg2 arg3 harg3 arg13 x0 x1 x2 (3 + 59)) (T c arg1 harg1 arg2 harg2 arg3 harg3 arg13 x0 x1 x2 (3 + 60)) (T c arg1 harg1 arg2 harg2 arg3 harg3 arg13 x0 x1 x2 (3 + 61)) (T c arg1 harg1 arg2 harg2 arg3 harg3 arg13 x0 x1 x2 (3 + 62)) (T c arg1 harg1 arg2 harg2 arg3 harg3 arg13 x0 x1 x2 (3 + 63)) co mm
    (fun j => Cert.Spec.cpos σ W co (24 * mm.val + (3 + j)))
    (fun j hj => by rw [seq64_fun (T c arg1 harg1 arg2 harg2 arg3 harg3 arg13 x0 x1 x2) 3 j hj]; exact T_cpos c arg1 harg1 arg2 harg2 arg3 harg3 arg13 x0 x1 x2 σ W hconv (3 + j) (by omega) co mm)).trans
    (p1_band σ W 1 (by omega) 3 rfl co _ (by show 16 + co.val = 1 * 16 + co.val; omega) mm.val)

/-- Band 2 of the second scratch buffer: pool phase 2. -/
theorem band2 (co : Fin 16) (mm : Fin 82) :
    (k0_pay19 (F := Ideal) (kernelRun0_A.sl.r_12 (F := Ideal) c arg1 harg1 arg2 harg2 arg3 harg3 arg13 x0 x1 x2) (kernelRun0_A.sl.v275 (F := Ideal) c arg1 harg1 arg2 harg2 arg3 harg3 arg13 x0 x1 x2) (kernelRun0_A.sl.v277 (F := Ideal) c arg1 harg1 arg2 harg2 arg3 harg3 arg13 x0 x1 x2) (kernelRun0_A.sl.v279 (F := Ideal) c arg1 harg1 arg2 harg2 arg3 harg3 arg13 x0 x1 x2) (kernelRun0_A.sl.v395 (F := Ideal) c arg1 harg1 arg2 harg2 arg3 harg3 arg13 x0 x1 x2) (kernelRun0_A.sl.v397 (F := Ideal) c arg1 harg1 arg2 harg2 arg3 harg3 arg13 x0 x1 x2) (kernelRun0_A.sl.v399 (F := Ideal) c arg1 harg1 arg2 harg2 arg3 harg3 arg13 x0 x1 x2) (kernelRun0_A.sl.v401 (F := Ideal) c arg1 harg1 arg2 harg2 arg3 harg3 arg13 x0 x1 x2) (kernelRun0_A.sl.v403 (F := Ideal) c arg1 harg1 arg2 harg2 arg3 harg3 arg13 x0 x1 x2) (kernelRun0_A.sl.v405 (F := Ideal) c arg1 harg1 arg2 harg2 arg3 harg3 arg13 x0 x1 x2) (kernelRun0_A.sl.v407 (F := Ideal) c arg1 harg1 arg2 harg2 arg3 harg3 arg13 x0 x1 x2) (kernelRun0_A.sl.v409 (F := Ideal) c arg1 harg1 arg2 harg2 arg3 harg3 arg13 x0 x1 x2) (kernelRun0_A.sl.v411 (F := Ideal) c arg1 harg1 arg2 harg2 arg3 harg3 arg13 x0 x1 x2)) (ix2 co mm) = Cert.Spec.p1 σ W ⟨32 + co.val, by omega⟩ mm.val :=
  (phase2_apply_of (T c arg1 harg1 arg2 harg2 arg3 harg3 arg13 x0 x1 x2 12) (T c arg1 harg1 arg2 harg2 arg3 harg3 arg13 x0 x1 x2 (12 + 1)) (T c arg1 harg1 arg2 harg2 arg3 harg3 arg13 x0 x1 x2 (12 + 2)) (T c arg1 harg1 arg2 harg2 arg3 harg3 arg13 x0 x1 x2 (12 + 3)) (T c arg1 harg1 arg2 harg2 arg3 harg3 arg13 x0 x1 x2 (12 + 4)) (T c arg1 harg1 arg2 harg2 arg3 harg3 arg13 x0 x1 x2 (12 + 5)) (T c arg1 harg1 arg2 harg2 arg3 harg3 arg13 x0 x1 x2 (12 + 6)) (T c arg1 harg1 arg2 harg2 arg3 harg3 arg13 x0 x1 x2 (12 + 7)) (T c arg1 harg1 arg2 harg2 arg3 harg3 arg13 x0 x1 x2 (12 + 8)) (T c arg1 harg1 arg2 harg2 arg3 harg3 arg13 x0 x1 x2 (12 + 9)) (T c arg1 harg1 arg2 harg2 arg3 harg3 arg13 x0 x1 x2 (12 + 10)) (T c arg1 harg1 arg2 harg2 arg3 harg3 arg13 x0 x1 x2 (12 + 11)) (T c arg1 harg1 arg2 harg2 arg3 harg3 arg13 x0 x1 x2 (12 + 12)) (T c arg1 harg1 arg2 harg2 arg3 harg3 arg13 x0 x1 x2 (12 + 13)) (T c arg1 harg1 arg2 harg2 arg3 harg3 arg13 x0 x1 x2 (12 + 14)) (T c arg1 harg1 arg2 harg2 arg3 harg3 arg13 x0 x1 x2 (12 + 15)) (T c arg1 harg1 arg2 harg2 arg3 harg3 arg13 x0 x1 x2 (12 + 16)) (T c arg1 harg1 arg2 harg2 arg3 harg3 arg13 x0 x1 x2 (12 + 17)) (T c arg1 harg1 arg2 harg2 arg3 harg3 arg13 x0 x1 x2 (12 + 18)) (T c arg1 harg1 arg2 harg2 arg3 harg3 arg13 x0 x1 x2 (12 + 19)) (T c arg1 harg1 arg2 harg2 arg3 harg3 arg13 x0 x1 x2 (12 + 20)) (T c arg1 harg1 arg2 harg2 arg3 harg3 arg13 x0 x1 x2 (12 + 21)) (T c arg1 harg1 arg2 harg2 arg3 harg3 arg13 x0 x1 x2 (12 + 22)) (T c arg1 harg1 arg2 harg2 arg3 harg3 arg13 x0 x1 x2 (12 + 23)) (T c arg1 harg1 arg2 harg2 arg3 harg3 arg13 x0 x1 x2 (12 + 24)) (T c arg1 harg1 arg2 harg2 arg3 harg3 arg13 x0 x1 x2 (12 + 25)) (T c arg1 harg1 arg2 harg2 arg3 harg3 arg13 x0 x1 x2 (12 + 26)) (T c arg1 harg1 arg2 harg2 arg3 harg3 arg13 x0 x1 x2 (12 + 27)) (T c arg1 harg1 arg2 harg2 arg3 harg3 arg13 x0 x1 x2 (12 + 28)) (T c arg1 harg1 arg2 harg2 arg3 harg3 arg13 x0 x1 x2 (12 + 29)) (T c arg1 harg1 arg2 harg2 arg3 harg3 arg13 x0 x1 x2 (12 + 30)) (T c arg1 harg1 arg2 harg2 arg3 harg3 arg13 x0 x1 x2 (12 + 31)) (T c arg1 harg1 arg2 harg2 arg3 harg3 arg13 x0 x1 x2 (12 + 32)) (T c arg1 harg1 arg2 harg2 arg3 harg3 arg13 x0 x1 x2 (12 + 33)) (T c arg1 harg1 arg2 harg2 arg3 harg3 arg13 x0 x1 x2 (12 + 34)) (T c arg1 harg1 arg2 harg2 arg3 harg3 arg13 x0 x1 x2 (12 + 35)) (T c arg1 harg1 arg2 harg2 arg3 harg3 arg13 x0 x1 x2 (12 + 36)) (T c arg1 harg1 arg2 harg2 arg3 harg3 arg13 x0 x1 x2 (12 + 37)) (T c arg1 harg1 arg2 harg2 arg3 harg3 arg13 x0 x1 x2 (12 + 38)) (T c arg1 harg1 arg2 harg2 arg3 harg3 arg13 x0 x1 x2 (12 + 39)) (T c arg1 harg1 arg2 harg2 arg3 harg3 arg13 x0 x1 x2 (12 + 40)) (T c arg1 harg1 arg2 harg2 arg3 harg3 arg13 x0 x1 x2 (12 + 41)) (T c arg1 harg1 arg2 harg2 arg3 harg3 arg13 x0 x1 x2 (12 + 42)) (T c arg1 harg1 arg2 harg2 arg3 harg3 arg13 x0 x1 x2 (12 + 43)) (T c arg1 harg1 arg2 harg2 arg3 harg3 arg13 x0 x1 x2 (12 + 44)) (T c arg1 harg1 arg2 harg2 arg3 harg3 arg13 x0 x1 x2 (12 + 45)) (T c arg1 harg1 arg2 harg2 arg3 harg3 arg13 x0 x1 x2 (12 + 46)) (T c arg1 harg1 arg2 harg2 arg3 harg3 arg13 x0 x1 x2 (12 + 47)) (T c arg1 harg1 arg2 harg2 arg3 harg3 arg13 x0 x1 x2 (12 + 48)) (T c arg1 harg1 arg2 harg2 arg3 harg3 arg13 x0 x1 x2 (12 + 49)) (T c arg1 harg1 arg2 harg2 arg3 harg3 arg13 x0 x1 x2 (12 + 50)) (T c arg1 harg1 arg2 harg2 arg3 harg3 arg13 x0 x1 x2 (12 + 51)) (T c arg1 harg1 arg2 harg2 arg3 harg3 arg13 x0 x1 x2 (12 + 52)) (T c arg1 harg1 arg2 harg2 arg3 harg3 arg13 x0 x1 x2 (12 + 53)) (T c arg1 harg1 arg2 harg2 arg3 harg3 arg13 x0 x1 x2 (12 + 54)) (T c arg1 harg1 arg2 harg2 arg3 harg3 arg13 x0 x1 x2 (12 + 55)) (T c arg1 harg1 arg2 harg2 arg3 harg3 arg13 x0 x1 x2 (12 + 56)) (T c arg1 harg1 arg2 harg2 arg3 harg3 arg13 x0 x1 x2 (12 + 57)) (T c arg1 harg1 arg2 harg2 arg3 harg3 arg13 x0 x1 x2 (12 + 58)) (T c arg1 harg1 arg2 harg2 arg3 harg3 arg13 x0 x1 x2 (12 + 59)) (T c arg1 harg1 arg2 harg2 arg3 harg3 arg13 x0 x1 x2 (12 + 60)) (T c arg1 harg1 arg2 harg2 arg3 harg3 arg13 x0 x1 x2 (12 + 61)) (T c arg1 harg1 arg2 harg2 arg3 harg3 arg13 x0 x1 x2 (12 + 62)) (T c arg1 harg1 arg2 harg2 arg3 harg3 arg13 x0 x1 x2 (12 + 63)) co mm
    (fun j => Cert.Spec.cpos σ W co (24 * mm.val + (12 + j)))
    (fun j hj => by rw [seq64_fun (T c arg1 harg1 arg2 harg2 arg3 harg3 arg13 x0 x1 x2) 12 j hj]; exact T_cpos c arg1 harg1 arg2 harg2 arg3 harg3 arg13 x0 x1 x2 σ W hconv (12 + j) (by omega) co mm)).trans
    (p1_band σ W 2 (by omega) 12 rfl co _ (by show 32 + co.val = 2 * 16 + co.val; omega) mm.val)

/-- Band 3 of the second scratch buffer: pool phase 3. -/
theorem band3 (co : Fin 16) (mm : Fin 82) :
    (k0_pay24 (F := Ideal) (kernelRun0_A.sl.r_16 (F := Ideal) c arg1 harg1 arg2 harg2 arg3 harg3 arg13 x0 x1 x2) (kernelRun0_A.sl.v539 (F := Ideal) c arg1 harg1 arg2 harg2 arg3 harg3 arg13 x0 x1 x2) (kernelRun0_A.sl.v541 (F := Ideal) c arg1 harg1 arg2 harg2 arg3 harg3 arg13 x0 x1 x2) (kernelRun0_A.sl.v543 (F := Ideal) c arg1 harg1 arg2 harg2 arg3 harg3 arg13 x0 x1 x2)) (ix2 co mm) = Cert.Spec.p1 σ W ⟨48 + co.val, by omega⟩ mm.val :=
  (phase3_apply_of (T c arg1 harg1 arg2 harg2 arg3 harg3 arg13 x0 x1 x2 15) (T c arg1 harg1 arg2 harg2 arg3 harg3 arg13 x0 x1 x2 (15 + 1)) (T c arg1 harg1 arg2 harg2 arg3 harg3 arg13 x0 x1 x2 (15 + 2)) (T c arg1 harg1 arg2 harg2 arg3 harg3 arg13 x0 x1 x2 (15 + 3)) (T c arg1 harg1 arg2 harg2 arg3 harg3 arg13 x0 x1 x2 (15 + 4)) (T c arg1 harg1 arg2 harg2 arg3 harg3 arg13 x0 x1 x2 (15 + 5)) (T c arg1 harg1 arg2 harg2 arg3 harg3 arg13 x0 x1 x2 (15 + 6)) (T c arg1 harg1 arg2 harg2 arg3 harg3 arg13 x0 x1 x2 (15 + 7)) (T c arg1 harg1 arg2 harg2 arg3 harg3 arg13 x0 x1 x2 (15 + 8)) (T c arg1 harg1 arg2 harg2 arg3 harg3 arg13 x0 x1 x2 (15 + 9)) (T c arg1 harg1 arg2 harg2 arg3 harg3 arg13 x0 x1 x2 (15 + 10)) (T c arg1 harg1 arg2 harg2 arg3 harg3 arg13 x0 x1 x2 (15 + 11)) (T c arg1 harg1 arg2 harg2 arg3 harg3 arg13 x0 x1 x2 (15 + 12)) (T c arg1 harg1 arg2 harg2 arg3 harg3 arg13 x0 x1 x2 (15 + 13)) (T c arg1 harg1 arg2 harg2 arg3 harg3 arg13 x0 x1 x2 (15 + 14)) (T c arg1 harg1 arg2 harg2 arg3 harg3 arg13 x0 x1 x2 (15 + 15)) (T c arg1 harg1 arg2 harg2 arg3 harg3 arg13 x0 x1 x2 (15 + 16)) (T c arg1 harg1 arg2 harg2 arg3 harg3 arg13 x0 x1 x2 (15 + 17)) (T c arg1 harg1 arg2 harg2 arg3 harg3 arg13 x0 x1 x2 (15 + 18)) (T c arg1 harg1 arg2 harg2 arg3 harg3 arg13 x0 x1 x2 (15 + 19)) (T c arg1 harg1 arg2 harg2 arg3 harg3 arg13 x0 x1 x2 (15 + 20)) (T c arg1 harg1 arg2 harg2 arg3 harg3 arg13 x0 x1 x2 (15 + 21)) (T c arg1 harg1 arg2 harg2 arg3 harg3 arg13 x0 x1 x2 (15 + 22)) (T c arg1 harg1 arg2 harg2 arg3 harg3 arg13 x0 x1 x2 (15 + 23)) (T c arg1 harg1 arg2 harg2 arg3 harg3 arg13 x0 x1 x2 (15 + 24)) (T c arg1 harg1 arg2 harg2 arg3 harg3 arg13 x0 x1 x2 (15 + 25)) (T c arg1 harg1 arg2 harg2 arg3 harg3 arg13 x0 x1 x2 (15 + 26)) (T c arg1 harg1 arg2 harg2 arg3 harg3 arg13 x0 x1 x2 (15 + 27)) (T c arg1 harg1 arg2 harg2 arg3 harg3 arg13 x0 x1 x2 (15 + 28)) (T c arg1 harg1 arg2 harg2 arg3 harg3 arg13 x0 x1 x2 (15 + 29)) (T c arg1 harg1 arg2 harg2 arg3 harg3 arg13 x0 x1 x2 (15 + 30)) (T c arg1 harg1 arg2 harg2 arg3 harg3 arg13 x0 x1 x2 (15 + 31)) (T c arg1 harg1 arg2 harg2 arg3 harg3 arg13 x0 x1 x2 (15 + 32)) (T c arg1 harg1 arg2 harg2 arg3 harg3 arg13 x0 x1 x2 (15 + 33)) (T c arg1 harg1 arg2 harg2 arg3 harg3 arg13 x0 x1 x2 (15 + 34)) (T c arg1 harg1 arg2 harg2 arg3 harg3 arg13 x0 x1 x2 (15 + 35)) (T c arg1 harg1 arg2 harg2 arg3 harg3 arg13 x0 x1 x2 (15 + 36)) (T c arg1 harg1 arg2 harg2 arg3 harg3 arg13 x0 x1 x2 (15 + 37)) (T c arg1 harg1 arg2 harg2 arg3 harg3 arg13 x0 x1 x2 (15 + 38)) (T c arg1 harg1 arg2 harg2 arg3 harg3 arg13 x0 x1 x2 (15 + 39)) (T c arg1 harg1 arg2 harg2 arg3 harg3 arg13 x0 x1 x2 (15 + 40)) (T c arg1 harg1 arg2 harg2 arg3 harg3 arg13 x0 x1 x2 (15 + 41)) (T c arg1 harg1 arg2 harg2 arg3 harg3 arg13 x0 x1 x2 (15 + 42)) (T c arg1 harg1 arg2 harg2 arg3 harg3 arg13 x0 x1 x2 (15 + 43)) (T c arg1 harg1 arg2 harg2 arg3 harg3 arg13 x0 x1 x2 (15 + 44)) (T c arg1 harg1 arg2 harg2 arg3 harg3 arg13 x0 x1 x2 (15 + 45)) (T c arg1 harg1 arg2 harg2 arg3 harg3 arg13 x0 x1 x2 (15 + 46)) (T c arg1 harg1 arg2 harg2 arg3 harg3 arg13 x0 x1 x2 (15 + 47)) (T c arg1 harg1 arg2 harg2 arg3 harg3 arg13 x0 x1 x2 (15 + 48)) (T c arg1 harg1 arg2 harg2 arg3 harg3 arg13 x0 x1 x2 (15 + 49)) (T c arg1 harg1 arg2 harg2 arg3 harg3 arg13 x0 x1 x2 (15 + 50)) (T c arg1 harg1 arg2 harg2 arg3 harg3 arg13 x0 x1 x2 (15 + 51)) (T c arg1 harg1 arg2 harg2 arg3 harg3 arg13 x0 x1 x2 (15 + 52)) (T c arg1 harg1 arg2 harg2 arg3 harg3 arg13 x0 x1 x2 (15 + 53)) (T c arg1 harg1 arg2 harg2 arg3 harg3 arg13 x0 x1 x2 (15 + 54)) (T c arg1 harg1 arg2 harg2 arg3 harg3 arg13 x0 x1 x2 (15 + 55)) (T c arg1 harg1 arg2 harg2 arg3 harg3 arg13 x0 x1 x2 (15 + 56)) (T c arg1 harg1 arg2 harg2 arg3 harg3 arg13 x0 x1 x2 (15 + 57)) (T c arg1 harg1 arg2 harg2 arg3 harg3 arg13 x0 x1 x2 (15 + 58)) (T c arg1 harg1 arg2 harg2 arg3 harg3 arg13 x0 x1 x2 (15 + 59)) (T c arg1 harg1 arg2 harg2 arg3 harg3 arg13 x0 x1 x2 (15 + 60)) (T c arg1 harg1 arg2 harg2 arg3 harg3 arg13 x0 x1 x2 (15 + 61)) (T c arg1 harg1 arg2 harg2 arg3 harg3 arg13 x0 x1 x2 (15 + 62)) (T c arg1 harg1 arg2 harg2 arg3 harg3 arg13 x0 x1 x2 (15 + 63)) co mm
    (fun j => Cert.Spec.cpos σ W co (24 * mm.val + (15 + j)))
    (fun j hj => by rw [seq64_fun (T c arg1 harg1 arg2 harg2 arg3 harg3 arg13 x0 x1 x2) 15 j hj]; exact T_cpos c arg1 harg1 arg2 harg2 arg3 harg3 arg13 x0 x1 x2 σ W hconv (15 + j) (by omega) co mm)).trans
    (p1_band σ W 3 (by omega) 15 rfl co _ (by show 48 + co.val = 3 * 16 + co.val; omega) mm.val)

/-- The second scratch buffer, loaded whole, is the first pool. -/
theorem v551_at (k : Fin 64) (mm : Fin 82) :
    kernelRun0_A.sl.v551 (F := Ideal) c arg1 harg1 arg2 harg2 arg3 harg3 arg13 arg14 x0 x1 x2 (ix2 k mm) = Cert.Spec.p1 σ W k mm.val := by
  unfold kernelRun0_A.sl.v551 kernelRun0_A.sl.HS1_4
  exact pooled_read _ _ _ _ _ (fun k mm => Cert.Spec.p1 σ W k mm.val)
    (band0 σ W c arg1 harg1 arg2 harg2 arg3 harg3 arg13 x0 x1 x2 hconv) (band1 σ W c arg1 harg1 arg2 harg2 arg3 harg3 arg13 x0 x1 x2 hconv) (band2 σ W c arg1 harg1 arg2 harg2 arg3 harg3 arg13 x0 x1 x2 hconv) (band3 σ W c arg1 harg1 arg2 harg2 arg3 harg3 arg13 x0 x1 x2 hconv) k mm

end Stream

/-! ## The two blocks a grid point writes out -/

/-- **The feature block**: what grid point `t` leaves in output window 10's buffer is the specification's second pool
    of the stream the point's input block holds. -/
theorem stream_z (σ : Fin 2 → ℕ → EReal) (W : Cert.Spec.Wts)
    (V : (c : Dev nD) → (b : Ref sig .tc) → Buf (Elt Ideal) ((c : Thread nD τ).loc b)) (c : Dev nD) (t : Fin cfg0.N)
    (hx : ∀ (cc : Fin 2) (ph : Fin 120) (m' : Fin 87) (k : Fin 240), k.val = cc.val * 120 + ph.val → (iblk0 V c 0 t : S1x240x87.Idx → EReal) (ix3 0 k m') = σ cc (m'.val * 120 + ph.val))
    (h1 : (iblk0 V c 1 t : S3x384x240.Idx → EReal) = W.w1q) (h2 : (iblk0 V c 2 t : S384x1.Idx → EReal) = W.b1s) (h3 : (iblk0 V c 3 t : S64x64.Idx → EReal) = W.wc2) (h4 : (iblk0 V c 4 t : S64x1.Idx → EReal) = W.b2s)
    (h5 : (iblk0 V c 5 t : S32x32.Idx → EReal) = W.wf0) (h6 : (iblk0 V c 6 t : S32x32.Idx → EReal) = W.wf1) (h7 : (iblk0 V c 7 t : S32x1.Idx → EReal) = W.bf) (h8 : (iblk0 V c 8 t : S81x27.Idx → EReal) = W.s0) (h9 : (iblk0 V c 9 t : S81x27.Idx → EReal) = W.s1)
    (ch : Fin 32) (w : Fin 81) : outsAt0_10 V c t (ix3 0 ch w) = Cert.Spec.z σ W ch w.val := by
  have hconv := conv0_spec σ W (iblk0 V c 0 t) (iblk0 V c 1 t) (iblk0 V c 2 t) hx (fun j => congrFun h1 j) (fun j => congrFun h2 j)
  unfold outsAt0_10
  rw [out10_eq]
  exact rtail_z σ W _ _ _ (fun k mm => v551_at σ W _ _ _ _ _ _ _ _ _ _ _ _ hconv k mm) (fun j => congrFun h3 j) (fun j => congrFun h4 j) ch w

/-- **The pooled block**: what grid point `t` leaves in output window 11's buffer is the specification's slab of the
    fusion convolution for that stream. -/
theorem stream_x44 (σ : Fin 2 → ℕ → EReal) (W : Cert.Spec.Wts)
    (V : (c : Dev nD) → (b : Ref sig .tc) → Buf (Elt Ideal) ((c : Thread nD τ).loc b)) (c : Dev nD) (t : Fin cfg0.N)
    (hx : ∀ (cc : Fin 2) (ph : Fin 120) (m' : Fin 87) (k : Fin 240), k.val = cc.val * 120 + ph.val → (iblk0 V c 0 t : S1x240x87.Idx → EReal) (ix3 0 k m') = σ cc (m'.val * 120 + ph.val))
    (h1 : (iblk0 V c 1 t : S3x384x240.Idx → EReal) = W.w1q) (h2 : (iblk0 V c 2 t : S384x1.Idx → EReal) = W.b1s) (h3 : (iblk0 V c 3 t : S64x64.Idx → EReal) = W.wc2) (h4 : (iblk0 V c 4 t : S64x1.Idx → EReal) = W.b2s)
    (h5 : (iblk0 V c 5 t : S32x32.Idx → EReal) = W.wf0) (h6 : (iblk0 V c 6 t : S32x32.Idx → EReal) = W.wf1) (h7 : (iblk0 V c 7 t : S32x1.Idx → EReal) = W.bf) (h8 : (iblk0 V c 8 t : S81x27.Idx → EReal) = W.s0) (h9 : (iblk0 V c 9 t : S81x27.Idx → EReal) = W.s1)
    (co : Fin 32) (wl : Fin 27) : outsAt0_11 V c t (ix3 0 co wl) = Cert.Spec.x44 σ W co wl := by
  have hconv := conv0_spec σ W (iblk0 V c 0 t) (iblk0 V c 1 t) (iblk0 V c 2 t) hx (fun j => congrFun h1 j) (fun j => congrFun h2 j)
  unfold outsAt0_11
  rw [out11_eq]
  exact rtail_x44 σ W _ _ _ (fun k mm => v551_at σ W _ _ _ _ _ _ _ _ _ _ _ _ hconv k mm) (fun j => congrFun h3 j) (fun j => congrFun h4 j)
    _ _ _ _ _ (fun j => congrFun h8 j) (fun j => congrFun h9 j) (fun j => congrFun h5 j) (fun j => congrFun h6 j) (fun j => congrFun h7 j) co wl

end Cert.ReferenceIdeal.RV

end
-- ==== Proof.RV.Region0Value.lean ====
/- The first launch's two output arrays over the program's arguments: row `g` of the feature array is the specification's
   pooled features of stream `g` (batch element g mod 128, sensor pair g div 128, zero beyond the signal's samples), and
   row `g` of the slab array its fusion slab. Each follows from the array's rows as what the body leaves at the stream's
   grid point, the launch's input blocks there as the phase-split signal and the weight arguments, and the per-stream
   function against the specification. -/
import proofs.«116650_g2000303023666169_pallasbulk_55_22_alg».proof.Proof.RI.Frame
import proofs.«116650_g2000303023666169_pallasbulk_55_22_alg».proof.Proof.RV.Blocks
import proofs.«116650_g2000303023666169_pallasbulk_55_22_alg».proof.Proof.RV.HostPre
import proofs.«116650_g2000303023666169_pallasbulk_55_22_alg».proof.Proof.RV.StreamSpec
import proofs.«116650_g2000303023666169_pallasbulk_55_22_alg».proof.Proof.Spec

noncomputable section

namespace Cert.ReferenceIdeal.RV

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Hand

variable (m : (ℓ : Loc nD τ sig) → Buf (Elt Ideal) ℓ)

theorem row_lt (cc : Fin 2) (ph : Fin 120) : cc.val * 120 + ph.val < 240 := by
  have := cc.isLt; have := ph.isLt; omega

/-- The signal block of stream `g`'s grid point: sample `m'·120 + ph` of the stream's sensor `c'`. -/
theorem blk_sig (c : Dev nD) (g : Fin 384) (cc : Fin 2) (ph : Fin 120) (m' : Fin 87) (k : Fin 240) (hk : k.val = cc.val * 120 + ph.val) :
    (iblk0 (Vin0 m) c 0 (pt g) : S1x240x87.Idx → EReal) (ix3 0 k m') = Cert.Spec.sig (sigX m c) g cc (m'.val * 120 + ph.val) := by
  obtain rfl : k = ⟨cc.val * 120 + ph.val, row_lt cc ph⟩ := Fin.ext hk
  exact (iblk0_0_apply (Vin0 m) c (pt g) (ix3 0 _ m')).trans (sig_block m c g cc ph m')

/-- The nine weight blocks at every grid point are the weight arguments. -/
theorem blk_w1 (c : Dev nD) (t : Fin cfg0.N) : (iblk0 (Vin0 m) c 1 t : S3x384x240.Idx → EReal) = (wts m c).w1q :=
  funext fun x => (iblk0_1_apply (Vin0 m) c t x).trans (congrFun (V3_arg1 m c) x)
theorem blk_w2 (c : Dev nD) (t : Fin cfg0.N) : (iblk0 (Vin0 m) c 2 t : S384x1.Idx → EReal) = (wts m c).b1s :=
  funext fun x => (iblk0_2_apply (Vin0 m) c t x).trans (congrFun (V3_arg2 m c) x)
theorem blk_w3 (c : Dev nD) (t : Fin cfg0.N) : (iblk0 (Vin0 m) c 3 t : S64x64.Idx → EReal) = (wts m c).wc2 :=
  funext fun x => (iblk0_3_apply (Vin0 m) c t x).trans (congrFun (V3_arg3 m c) x)
theorem blk_w4 (c : Dev nD) (t : Fin cfg0.N) : (iblk0 (Vin0 m) c 4 t : S64x1.Idx → EReal) = (wts m c).b2s :=
  funext fun x => (iblk0_4_apply (Vin0 m) c t x).trans (congrFun (V3_arg4 m c) x)
theorem blk_w5 (c : Dev nD) (t : Fin cfg0.N) : (iblk0 (Vin0 m) c 5 t : S32x32.Idx → EReal) = (wts m c).wf0 :=
  funext fun x => (iblk0_5_apply (Vin0 m) c t x).trans (congrFun (V3_arg5 m c) x)
theorem blk_w6 (c : Dev nD) (t : Fin cfg0.N) : (iblk0 (Vin0 m) c 6 t : S32x32.Idx → EReal) = (wts m c).wf1 :=
  funext fun x => (iblk0_6_apply (Vin0 m) c t x).trans (congrFun (V3_arg6 m c) x)
theorem blk_w7 (c : Dev nD) (t : Fin cfg0.N) : (iblk0 (Vin0 m) c 7 t : S32x1.Idx → EReal) = (wts m c).bf :=
  funext fun x => (iblk0_7_apply (Vin0 m) c t x).trans (congrFun (V3_arg7 m c) x)
theorem blk_w8 (c : Dev nD) (t : Fin cfg0.N) : (iblk0 (Vin0 m) c 8 t : S81x27.Idx → EReal) = (wts m c).s0 :=
  funext fun x => (iblk0_8_apply (Vin0 m) c t x).trans (congrFun (V3_arg8 m c) x)
theorem blk_w9 (c : Dev nD) (t : Fin cfg0.N) : (iblk0 (Vin0 m) c 9 t : S81x27.Idx → EReal) = (wts m c).s1 :=
  funext fun x => (iblk0_9_apply (Vin0 m) c t x).trans (congrFun (V3_arg9 m c) x)

/-- Row `g` of the feature array after the first launch is the specification's pooled features of stream `g`. -/
theorem arr10_spec (c : Dev nD) (g : Fin 384) (ch : Fin 32) (w : Fin 81) :
    ((dat0 (Vin0 m) c).arrAt 10 cfg0.N : S384x32x81.Idx → EReal) (ix3 g ch w)
      = Cert.Spec.z (Cert.Spec.sig (sigX m c) g) (wts m c) ch w.val := by
  refine (arr10_apply (Vin0 m) c g ch w).trans ?_
  exact stream_z (Cert.Spec.sig (sigX m c) g) (wts m c) (Vin0 m) c (pt g) (fun cc ph m' k hk => blk_sig m c g cc ph m' k hk)
    (blk_w1 m c (pt g)) (blk_w2 m c (pt g)) (blk_w3 m c (pt g)) (blk_w4 m c (pt g)) (blk_w5 m c (pt g)) (blk_w6 m c (pt g)) (blk_w7 m c (pt g)) (blk_w8 m c (pt g)) (blk_w9 m c (pt g)) ch w

/-- Row `g` of the slab array after the first launch is the specification's fusion slab of stream `g`. -/
theorem arr11_spec (c : Dev nD) (g : Fin 384) (co : Fin 32) (wl : Fin 27) :
    ((dat0 (Vin0 m) c).arrAt 11 cfg0.N : S384x32x27.Idx → EReal) (ix3 g co wl)
      = Cert.Spec.x44 (Cert.Spec.sig (sigX m c) g) (wts m c) co wl := by
  refine (arr11_apply (Vin0 m) c g co wl).trans ?_
  exact stream_x44 (Cert.Spec.sig (sigX m c) g) (wts m c) (Vin0 m) c (pt g) (fun cc ph m' k hk => blk_sig m c g cc ph m' k hk)
    (blk_w1 m c (pt g)) (blk_w2 m c (pt g)) (blk_w3 m c (pt g)) (blk_w4 m c (pt g)) (blk_w5 m c (pt g)) (blk_w6 m c (pt g)) (blk_w7 m c (pt g)) (blk_w8 m c (pt g)) (blk_w9 m c (pt g)) co wl

end Cert.ReferenceIdeal.RV

end
-- ==== Proof.RV.Region1Value.lean ====
/- The reference program's second launch: its two output arrays after the run, as functions of its input arrays when
   the launch is entered.

   The launch's grid has one point, and at that point every window's block index is (0, 0) with the block as large as
   the array: the block an input window fetches is the array itself, and the block an output window writes back covers
   its whole array. The body's one store to each output buffer is a whole-buffer store of a pure function of the loaded
   input blocks, so each output array ends holding that function of the input arrays. -/
import proofs.«116650_g2000303023666169_pallasbulk_55_22_alg».proof.Proof.RI.Region1
import Idealize.ShloMosaic.Lib.Pipeline.Value
import Idealize.ShloMosaic.Lib.ValueIdx

set_option maxRecDepth 16384

noncomputable section

namespace Cert.ReferenceIdeal.RV

open Cert.ReferenceIdeal Cert.ReferenceIdeal.Gen Cert.ReferenceIdeal.Hand Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem r1_hz : (![0, 0] : Fin 2 → Nat) = fun _ => 0 := funext fun a => by fin_cases a <;> rfl

/-! ## The one point's blocks are the whole arrays -/

theorem r1_idx0 : ∀ t : Fin cfg1.N, win1_0.index t (0 : Fin 2) = 0 ∧ win1_0.index t (1 : Fin 2) = 0 :=
  (by decide +kernel : ∀ t : Fin grid1.N, _)
theorem r1_idx1 : ∀ t : Fin cfg1.N, win1_1.index t (0 : Fin 2) = 0 ∧ win1_1.index t (1 : Fin 2) = 0 :=
  (by decide +kernel : ∀ t : Fin grid1.N, _)
theorem r1_idx2 : ∀ t : Fin cfg1.N, win1_2.index t (0 : Fin 2) = 0 ∧ win1_2.index t (1 : Fin 2) = 0 :=
  (by decide +kernel : ∀ t : Fin grid1.N, _)
theorem r1_idx3 : ∀ t : Fin cfg1.N, win1_3.index t (0 : Fin 2) = 0 ∧ win1_3.index t (1 : Fin 2) = 0 :=
  (by decide +kernel : ∀ t : Fin grid1.N, _)
theorem r1_idx4 : ∀ t : Fin cfg1.N, win1_4.index t (0 : Fin 2) = 0 ∧ win1_4.index t (1 : Fin 2) = 0 :=
  (by decide +kernel : ∀ t : Fin grid1.N, _)
theorem r1_idx5 : ∀ t : Fin cfg1.N, win1_5.index t (0 : Fin 2) = 0 ∧ win1_5.index t (1 : Fin 2) = 0 :=
  (by decide +kernel : ∀ t : Fin grid1.N, _)
theorem r1_idx6 : ∀ t : Fin cfg1.N, win1_6.index t (0 : Fin 2) = 0 ∧ win1_6.index t (1 : Fin 2) = 0 :=
  (by decide +kernel : ∀ t : Fin grid1.N, _)
theorem r1_idx7 : ∀ t : Fin cfg1.N, win1_7.index t (0 : Fin 2) = 0 ∧ win1_7.index t (1 : Fin 2) = 0 :=
  (by decide +kernel : ∀ t : Fin grid1.N, _)
theorem r1_idx8 : ∀ t : Fin cfg1.N, win1_8.index t (0 : Fin 2) = 0 ∧ win1_8.index t (1 : Fin 2) = 0 :=
  (by decide +kernel : ∀ t : Fin grid1.N, _)
theorem r1_idx9 : ∀ t : Fin cfg1.N, win1_9.index t (0 : Fin 2) = 0 ∧ win1_9.index t (1 : Fin 2) = 0 :=
  (by decide +kernel : ∀ t : Fin grid1.N, _)

/-- Window 0's block at the point is its whole array: a block index is the array index. -/
theorem r1_emb0 (t : Fin cfg1.N) (j : S384x2592.Idx) : ((cfg1.win 0).blk t).view.emb j = j := by
  obtain ⟨e0, e1⟩ := r1_idx0 t
  funext a; apply Fin.ext
  match a with
  | ⟨0, _⟩ => show win1_0.index t (0 : Fin 2) * 384 + 1 * (j 0).val = (j 0).val; omega
  | ⟨1, _⟩ => show win1_0.index t (1 : Fin 2) * 2592 + 1 * (j 1).val = (j 1).val; omega

/-- Window 1's block at the point is its whole array: a block index is the array index. -/
theorem r1_emb1 (t : Fin cfg1.N) (j : S128x2592.Idx) : ((cfg1.win 1).blk t).view.emb j = j := by
  obtain ⟨e0, e1⟩ := r1_idx1 t
  funext a; apply Fin.ext
  match a with
  | ⟨0, _⟩ => show win1_1.index t (0 : Fin 2) * 128 + 1 * (j 0).val = (j 0).val; omega
  | ⟨1, _⟩ => show win1_1.index t (1 : Fin 2) * 2592 + 1 * (j 1).val = (j 1).val; omega

/-- Window 2's block at the point is its whole array: a block index is the array index. -/
theorem r1_emb2 (t : Fin cfg1.N) (j : S2592x32.Idx) : ((cfg1.win 2).blk t).view.emb j = j := by
  obtain ⟨e0, e1⟩ := r1_idx2 t
  funext a; apply Fin.ext
  match a with
  | ⟨0, _⟩ => show win1_2.index t (0 : Fin 2) * 2592 + 1 * (j 0).val = (j 0).val; omega
  | ⟨1, _⟩ => show win1_2.index t (1 : Fin 2) * 32 + 1 * (j 1).val = (j 1).val; omega

/-- Window 3's block at the point is its whole array: a block index is the array index. -/
theorem r1_emb3 (t : Fin cfg1.N) (j : S1x32.Idx) : ((cfg1.win 3).blk t).view.emb j = j := by
  obtain ⟨e0, e1⟩ := r1_idx3 t
  funext a; apply Fin.ext
  match a with
  | ⟨0, _⟩ => show win1_3.index t (0 : Fin 2) * 1 + 1 * (j 0).val = (j 0).val; omega
  | ⟨1, _⟩ => show win1_3.index t (1 : Fin 2) * 32 + 1 * (j 1).val = (j 1).val; omega

/-- Window 4's block at the point is its whole array: a block index is the array index. -/
theorem r1_emb4 (t : Fin cfg1.N) (j : S2592x32.Idx) : ((cfg1.win 4).blk t).view.emb j = j := by
  obtain ⟨e0, e1⟩ := r1_idx4 t
  funext a; apply Fin.ext
  match a with
  | ⟨0, _⟩ => show win1_4.index t (0 : Fin 2) * 2592 + 1 * (j 0).val = (j 0).val; omega
  | ⟨1, _⟩ => show win1_4.index t (1 : Fin 2) * 32 + 1 * (j 1).val = (j 1).val; omega

/-- Window 5's block at the point is its whole array: a block index is the array index. -/
theorem r1_emb5 (t : Fin cfg1.N) (j : S1x32.Idx) : ((cfg1.win 5).blk t).view.emb j = j := by
  obtain ⟨e0, e1⟩ := r1_idx5 t
  funext a; apply Fin.ext
  match a with
  | ⟨0, _⟩ => show win1_5.index t (0 : Fin 2) * 1 + 1 * (j 0).val = (j 0).val; omega
  | ⟨1, _⟩ => show win1_5.index t (1 : Fin 2) * 32 + 1 * (j 1).val = (j 1).val; omega

/-- Window 6's block at the point is its whole array: a block index is the array index. -/
theorem r1_emb6 (t : Fin cfg1.N) (j : S128x10.Idx) : ((cfg1.win 6).blk t).view.emb j = j := by
  obtain ⟨e0, e1⟩ := r1_idx6 t
  funext a; apply Fin.ext
  match a with
  | ⟨0, _⟩ => show win1_6.index t (0 : Fin 2) * 128 + 1 * (j 0).val = (j 0).val; omega
  | ⟨1, _⟩ => show win1_6.index t (1 : Fin 2) * 10 + 1 * (j 1).val = (j 1).val; omega

/-- Window 7's block at the point is its whole array: a block index is the array index. -/
theorem r1_emb7 (t : Fin cfg1.N) (j : S1x10.Idx) : ((cfg1.win 7).blk t).view.emb j = j := by
  obtain ⟨e0, e1⟩ := r1_idx7 t
  funext a; apply Fin.ext
  match a with
  | ⟨0, _⟩ => show win1_7.index t (0 : Fin 2) * 1 + 1 * (j 0).val = (j 0).val; omega
  | ⟨1, _⟩ => show win1_7.index t (1 : Fin 2) * 10 + 1 * (j 1).val = (j 1).val; omega

/-- Window 8's block at the point is its whole array: a block index is the array index. -/
theorem r1_emb8 (t : Fin cfg1.N) (j : S128x10.Idx) : ((cfg1.win 8).blk t).view.emb j = j := by
  obtain ⟨e0, e1⟩ := r1_idx8 t
  funext a; apply Fin.ext
  match a with
  | ⟨0, _⟩ => show win1_8.index t (0 : Fin 2) * 128 + 1 * (j 0).val = (j 0).val; omega
  | ⟨1, _⟩ => show win1_8.index t (1 : Fin 2) * 10 + 1 * (j 1).val = (j 1).val; omega

/-- Window 9's block at the point is its whole array: a block index is the array index. -/
theorem r1_emb9 (t : Fin cfg1.N) (j : S128x128.Idx) : ((cfg1.win 9).blk t).view.emb j = j := by
  obtain ⟨e0, e1⟩ := r1_idx9 t
  funext a; apply Fin.ext
  match a with
  | ⟨0, _⟩ => show win1_9.index t (0 : Fin 2) * 128 + 1 * (j 0).val = (j 0).val; omega
  | ⟨1, _⟩ => show win1_9.index t (1 : Fin 2) * 128 + 1 * (j 1).val = (j 1).val; omega

/-- Input window 0's block at the point is the array as the region finds it. -/
theorem r1_iblk0 (c : Dev nD) (t : Fin cfg1.N) :
    iblk1 V c 0 t = (V c (Pipeline.arrRef spec1 0) : Vec F S384x2592 .f32) := by
  funext j
  show V c (Pipeline.arrRef spec1 0) (((cfg1.win 0).blk t).view.emb j) = _
  rw [r1_emb0]

/-- Input window 1's block at the point is the array as the region finds it. -/
theorem r1_iblk1 (c : Dev nD) (t : Fin cfg1.N) :
    iblk1 V c 1 t = (V c (Pipeline.arrRef spec1 1) : Vec F S128x2592 .f32) := by
  funext j
  show V c (Pipeline.arrRef spec1 1) (((cfg1.win 1).blk t).view.emb j) = _
  rw [r1_emb1]

/-- Input window 2's block at the point is the array as the region finds it. -/
theorem r1_iblk2 (c : Dev nD) (t : Fin cfg1.N) :
    iblk1 V c 2 t = (V c (Pipeline.arrRef spec1 2) : Vec F S2592x32 .f32) := by
  funext j
  show V c (Pipeline.arrRef spec1 2) (((cfg1.win 2).blk t).view.emb j) = _
  rw [r1_emb2]

/-- Input window 3's block at the point is the array as the region finds it. -/
theorem r1_iblk3 (c : Dev nD) (t : Fin cfg1.N) :
    iblk1 V c 3 t = (V c (Pipeline.arrRef spec1 3) : Vec F S1x32 .f32) := by
  funext j
  show V c (Pipeline.arrRef spec1 3) (((cfg1.win 3).blk t).view.emb j) = _
  rw [r1_emb3]

/-- Input window 4's block at the point is the array as the region finds it. -/
theorem r1_iblk4 (c : Dev nD) (t : Fin cfg1.N) :
    iblk1 V c 4 t = (V c (Pipeline.arrRef spec1 4) : Vec F S2592x32 .f32) := by
  funext j
  show V c (Pipeline.arrRef spec1 4) (((cfg1.win 4).blk t).view.emb j) = _
  rw [r1_emb4]

/-- Input window 5's block at the point is the array as the region finds it. -/
theorem r1_iblk5 (c : Dev nD) (t : Fin cfg1.N) :
    iblk1 V c 5 t = (V c (Pipeline.arrRef spec1 5) : Vec F S1x32 .f32) := by
  funext j
  show V c (Pipeline.arrRef spec1 5) (((cfg1.win 5).blk t).view.emb j) = _
  rw [r1_emb5]

/-- Input window 6's block at the point is the array as the region finds it. -/
theorem r1_iblk6 (c : Dev nD) (t : Fin cfg1.N) :
    iblk1 V c 6 t = (V c (Pipeline.arrRef spec1 6) : Vec F S128x10 .f32) := by
  funext j
  show V c (Pipeline.arrRef spec1 6) (((cfg1.win 6).blk t).view.emb j) = _
  rw [r1_emb6]

/-- Input window 7's block at the point is the array as the region finds it. -/
theorem r1_iblk7 (c : Dev nD) (t : Fin cfg1.N) :
    iblk1 V c 7 t = (V c (Pipeline.arrRef spec1 7) : Vec F S1x10 .f32) := by
  funext j
  show V c (Pipeline.arrRef spec1 7) (((cfg1.win 7).blk t).view.emb j) = _
  rw [r1_emb7]

/-! ## The output arrays after the run -/

/-- Every index of window 8's array lies in the block the one point writes back. -/
theorem r1_mem8 (t : Fin cfg1.N) (i : S128x10.Idx) : i ∈ ((cfg1.win 8).blk t).view.set := by
  obtain ⟨e0, e1⟩ := r1_idx8 t
  have h0 := ValueIdx.idx2_lt0 i
  have h1 := ValueIdx.idx2_lt1 i
  show i ∈ ((View.whole main_v18_0).slice (win1_8.rect t)).set
  rw [View.set_slice_whole, Rect.mem_set_unit]
  intro a
  match a with
  | ⟨0, _⟩ => show win1_8.index t (0 : Fin 2) * 128 ≤ (i 0).val ∧ (i 0).val < win1_8.index t (0 : Fin 2) * 128 + 128; omega
  | ⟨1, _⟩ => show win1_8.index t (1 : Fin 2) * 10 ≤ (i 1).val ∧ (i 1).val < win1_8.index t (1 : Fin 2) * 10 + 10; omega

/-- Window 8's block is not cut at the array's end: what is written back of a buffer's contents is all of them. -/
theorem r1_cut8 {α : Type} (t : Fin cfg1.N) (X : S128x10.Idx → α) : (cfg1.win 8).cut (grid1.coords t) X = X := rfl

/-- Reading an array through window 8's block at the point gives the array. -/
theorem r1_read8 (t : Fin cfg1.N) (G : S128x10.Idx → Elt F .f32) :
    ((cfg1.win 8).blk t).view.read (Elt F) G = G := by
  funext j
  show G (((cfg1.win 8).blk t).view.emb j) = _
  rw [r1_emb8]

/-- Every index of window 9's array lies in the block the one point writes back. -/
theorem r1_mem9 (t : Fin cfg1.N) (i : S128x128.Idx) : i ∈ ((cfg1.win 9).blk t).view.set := by
  obtain ⟨e0, e1⟩ := r1_idx9 t
  have h0 := ValueIdx.idx2_lt0 i
  have h1 := ValueIdx.idx2_lt1 i
  show i ∈ ((View.whole main_v18_1).slice (win1_9.rect t)).set
  rw [View.set_slice_whole, Rect.mem_set_unit]
  intro a
  match a with
  | ⟨0, _⟩ => show win1_9.index t (0 : Fin 2) * 128 ≤ (i 0).val ∧ (i 0).val < win1_9.index t (0 : Fin 2) * 128 + 128; omega
  | ⟨1, _⟩ => show win1_9.index t (1 : Fin 2) * 128 ≤ (i 1).val ∧ (i 1).val < win1_9.index t (1 : Fin 2) * 128 + 128; omega

/-- Window 9's block is not cut at the array's end: what is written back of a buffer's contents is all of them. -/
theorem r1_cut9 {α : Type} (t : Fin cfg1.N) (X : S128x128.Idx → α) : (cfg1.win 9).cut (grid1.coords t) X = X := rfl

/-- Reading an array through window 9's block at the point gives the array. -/
theorem r1_read9 (t : Fin cfg1.N) (G : S128x128.Idx → Elt F .f32) :
    ((cfg1.win 9).blk t).view.read (Elt F) G = G := by
  funext j
  show G (((cfg1.win 9).blk t).view.emb j) = _
  rw [r1_emb9]

/-- The body's whole-buffer store to window 9, of whole-block loads, is the first payload of the loaded blocks. -/
theorem r1_out9_eq (x0 : Vec F S384x2592 .f32) (x1 : Vec F S128x2592 .f32) (x2 : Vec F S2592x32 .f32) (x3 : Vec F S1x32 .f32) (x4 : Vec F S2592x32 .f32) (x5 : Vec F S1x32 .f32) :
    out1_9 x0 x1 x2 x3 x4 x5 = k1_pay1 x0 x2 x3 x1 x4 x5 := by
  unfold out1_9
  rw [View.canon_unit_zero r1_hz]
  simp only [View.ld_unit_zero (S := S384x2592) r1_hz, View.ld_unit_zero (S := S128x2592) r1_hz, View.ld_unit_zero (S := S2592x32) r1_hz, View.ld_unit_zero (S := S1x32) r1_hz, View.ld_unit_zero (S := S128x10) r1_hz, View.ld_unit_zero (S := S1x10) r1_hz]

/-- The body's whole-buffer store to window 8, of whole-block loads, is the second payload of the loaded blocks. -/
theorem r1_out8_eq (x0 : Vec F S384x2592 .f32) (x1 : Vec F S128x2592 .f32) (x2 : Vec F S2592x32 .f32) (x3 : Vec F S1x32 .f32) (x4 : Vec F S2592x32 .f32) (x5 : Vec F S1x32 .f32) (x6 : Vec F S128x10 .f32) (x7 : Vec F S1x10 .f32) :
    out1_8 x0 x1 x2 x3 x4 x5 x6 x7 = k1_pay2 x0 x2 x3 x1 x4 x5 x6 x7 := by
  unfold out1_8
  rw [View.canon_unit_zero r1_hz]
  simp only [View.ld_unit_zero (S := S384x2592) r1_hz, View.ld_unit_zero (S := S128x2592) r1_hz, View.ld_unit_zero (S := S2592x32) r1_hz, View.ld_unit_zero (S := S1x32) r1_hz, View.ld_unit_zero (S := S128x10) r1_hz, View.ld_unit_zero (S := S1x10) r1_hz]

/-- The payloads of equal blocks are equal. -/
theorem r1_pay1_congr {x0 y0 : Vec F S384x2592 .f32} {x1 y1 : Vec F S128x2592 .f32} {x2 y2 : Vec F S2592x32 .f32} {x3 y3 : Vec F S1x32 .f32} {x4 y4 : Vec F S2592x32 .f32} {x5 y5 : Vec F S1x32 .f32} (h0 : x0 = y0) (h1 : x1 = y1) (h2 : x2 = y2) (h3 : x3 = y3) (h4 : x4 = y4) (h5 : x5 = y5) :
    k1_pay1 x0 x2 x3 x1 x4 x5 = k1_pay1 y0 y2 y3 y1 y4 y5 := by
  subst h0 h1 h2 h3 h4 h5; rfl
theorem r1_pay2_congr {x0 y0 : Vec F S384x2592 .f32} {x1 y1 : Vec F S128x2592 .f32} {x2 y2 : Vec F S2592x32 .f32} {x3 y3 : Vec F S1x32 .f32} {x4 y4 : Vec F S2592x32 .f32} {x5 y5 : Vec F S1x32 .f32} {x6 y6 : Vec F S128x10 .f32} {x7 y7 : Vec F S1x10 .f32} (h0 : x0 = y0) (h1 : x1 = y1) (h2 : x2 = y2) (h3 : x3 = y3) (h4 : x4 = y4) (h5 : x5 = y5) (h6 : x6 = y6) (h7 : x7 = y7) :
    k1_pay2 x0 x2 x3 x1 x4 x5 x6 x7 = k1_pay2 y0 y2 y3 y1 y4 y5 y6 y7 := by
  subst h0 h1 h2 h3 h4 h5 h6 h7; rfl

/-- What the point writes back to window 9's array is the 128x128 feature block of the input arrays. -/
theorem r1_flushed9 (c : Dev nD) (t : Fin cfg1.N) :
    (dat1 V c).flushed 9 t = k1_pay1 (V c (Pipeline.arrRef spec1 0) : Vec F S384x2592 .f32) (V c (Pipeline.arrRef spec1 2) : Vec F S2592x32 .f32) (V c (Pipeline.arrRef spec1 3) : Vec F S1x32 .f32) (V c (Pipeline.arrRef spec1 1) : Vec F S128x2592 .f32) (V c (Pipeline.arrRef spec1 4) : Vec F S2592x32 .f32) (V c (Pipeline.arrRef spec1 5) : Vec F S1x32 .f32) := by
  show (cfg1.win 9).cut (grid1.coords t) ((dat1 V c).after 9 t) = _
  rw [after1_9, r1_cut9, r1_out9_eq]
  exact r1_pay1_congr (r1_iblk0 V c t) (r1_iblk1 V c t) (r1_iblk2 V c t) (r1_iblk3 V c t) (r1_iblk4 V c t) (r1_iblk5 V c t)

/-- What the point writes back to window 8's array is the output block of the input arrays. -/
theorem r1_flushed8 (c : Dev nD) (t : Fin cfg1.N) :
    (dat1 V c).flushed 8 t = k1_pay2 (V c (Pipeline.arrRef spec1 0) : Vec F S384x2592 .f32) (V c (Pipeline.arrRef spec1 2) : Vec F S2592x32 .f32) (V c (Pipeline.arrRef spec1 3) : Vec F S1x32 .f32) (V c (Pipeline.arrRef spec1 1) : Vec F S128x2592 .f32) (V c (Pipeline.arrRef spec1 4) : Vec F S2592x32 .f32) (V c (Pipeline.arrRef spec1 5) : Vec F S1x32 .f32) (V c (Pipeline.arrRef spec1 6) : Vec F S128x10 .f32) (V c (Pipeline.arrRef spec1 7) : Vec F S1x10 .f32) := by
  show (cfg1.win 8).cut (grid1.coords t) ((dat1 V c).after 8 t) = _
  rw [after1_8, r1_cut8, r1_out8_eq]
  exact r1_pay2_congr (r1_iblk0 V c t) (r1_iblk1 V c t) (r1_iblk2 V c t) (r1_iblk3 V c t) (r1_iblk4 V c t) (r1_iblk5 V c t)
    (r1_iblk6 V c t) (r1_iblk7 V c t)

/-- **Window 9's array after the region**: the 128x128 feature block, as the head's first payload of the input arrays
    (windows 0, 2, 3, 1, 4, 5 in the payload's parameter order). -/
theorem region1_out9 (c : Dev nD) :
    (dat1 V c).arrAt 9 cfg1.N = k1_pay1 (V c (Pipeline.arrRef spec1 0) : Vec F S384x2592 .f32) (V c (Pipeline.arrRef spec1 2) : Vec F S2592x32 .f32) (V c (Pipeline.arrRef spec1 3) : Vec F S1x32 .f32) (V c (Pipeline.arrRef spec1 1) : Vec F S128x2592 .f32) (V c (Pipeline.arrRef spec1 4) : Vec F S2592x32 .f32) (V c (Pipeline.arrRef spec1 5) : Vec F S1x32 .f32) :=
  (dat1 V c).arrAt_eq_of_cover 9 _ (fun t _ => (r1_flushed9 V c t).trans (r1_read9 t _).symm)
    (fun i => ⟨t1_0, flush1_9 t1_0, r1_mem9 t1_0 i⟩)

/-- **Window 8's array after the region**: the output block, as the head's second payload of the input arrays (windows
    0, 2, 3, 1, 4, 5, 6, 7 in the payload's parameter order). -/
theorem region1_out8 (c : Dev nD) :
    (dat1 V c).arrAt 8 cfg1.N = k1_pay2 (V c (Pipeline.arrRef spec1 0) : Vec F S384x2592 .f32) (V c (Pipeline.arrRef spec1 2) : Vec F S2592x32 .f32) (V c (Pipeline.arrRef spec1 3) : Vec F S1x32 .f32) (V c (Pipeline.arrRef spec1 1) : Vec F S128x2592 .f32) (V c (Pipeline.arrRef spec1 4) : Vec F S2592x32 .f32) (V c (Pipeline.arrRef spec1 5) : Vec F S1x32 .f32) (V c (Pipeline.arrRef spec1 6) : Vec F S128x10 .f32) (V c (Pipeline.arrRef spec1 7) : Vec F S1x10 .f32) :=
  (dat1 V c).arrAt_eq_of_cover 8 _ (fun t _ => (r1_flushed8 V c t).trans (r1_read8 t _).symm)
    (fun i => ⟨t1_0, flush1_8 t1_0, r1_mem8 t1_0 i⟩)

end Cert.ReferenceIdeal.RV

end
-- ==== Proof.RV.RefValue.lean ====
/- The reference program's run with its two results named by the specification: every weakly fair execution ends with
   the output array at the specification's output layer and the feature array at its concatenated features, as functions
   of the argument arrays, and with the arguments unchanged. The second launch's two output arrays are the head's two
   stored values of its eight input arrays; its first two inputs are the first launch's output arrays flattened and
   regrouped, index by index; those arrays are the specification's pooled features and fusion slabs, stream by stream;
   its six other inputs are the head's weight arguments; and the head's stored values of such operands are the
   specification's head. -/
import proofs.«116650_g2000303023666169_pallasbulk_55_22_alg».proof.Proof.RI.Frame
import proofs.«116650_g2000303023666169_pallasbulk_55_22_alg».proof.Proof.RV.HostMid
import proofs.«116650_g2000303023666169_pallasbulk_55_22_alg».proof.Proof.RV.Head
import proofs.«116650_g2000303023666169_pallasbulk_55_22_alg».proof.Proof.RI.FrameNamed
import proofs.«116650_g2000303023666169_pallasbulk_55_22_alg».proof.Proof.RV.Region0Value
import proofs.«116650_g2000303023666169_pallasbulk_55_22_alg».proof.Proof.RV.Region1Value
import proofs.«116650_g2000303023666169_pallasbulk_55_22_alg».proof.Proof.SpecArr

noncomputable section

namespace Cert.ReferenceIdeal.RV

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Hand

variable (m : (ℓ : Loc nD τ sig) → Buf (Elt Ideal) ℓ)

/-- The flattened features the head reads are the specification's pooled features. -/
theorem head_hz (c : Dev nD) (g : Fin 384) (ch : Fin 32) (w : Fin 81) :
    (Vin1 m c main_v14 : S384x2592.Idx → EReal) (ix2 g ⟨ch.val * 81 + w.val, by omega⟩)
      = Cert.Spec.z (Cert.Spec.sig (sigX m c) g) (wts m c) ch w.val :=
  (zflat_block m (outsH m) c g ch w).trans ((congrFun (V4_res0 m c) (ix3 g ch w)).trans (arr10_spec m c g ch w))

/-- The regrouped slabs the head reads are the specification's fusion slabs. -/
theorem head_hx (c : Dev nD) (b : Fin 128) (co : Fin 32) (s : Fin 3) (wl : Fin 27) :
    (Vin1 m c main_v17 : S128x2592.Idx → EReal) (ix2 b ⟨co.val * 81 + s.val * 27 + wl.val, by omega⟩)
      = Cert.Spec.x44 (Cert.Spec.sig (sigX m c) ⟨s.val * 128 + b.val, by omega⟩) (wts m c) co wl :=
  (x44flat_block m (outsH m) c b co s wl).trans
    ((congrFun (V4_res1 m c) (ix3 ⟨s.val * 128 + b.val, by omega⟩ co wl)).trans (arr11_spec m c ⟨s.val * 128 + b.val, by omega⟩ co wl))

/-- The head's six weight inputs are the weight arguments. -/
theorem head_wcon (c : Dev nD) : (Vin1 m c (Pipeline.arrRef spec1 2) : Vec Ideal S2592x32 .f32) = (hwts m c).wcon := V5_arg10 m (outsH m) c
theorem head_bcon (c : Dev nD) : (Vin1 m c (Pipeline.arrRef spec1 3) : Vec Ideal S1x32 .f32) = (hwts m c).bcon := V5_arg11 m (outsH m) c
theorem head_wfl (c : Dev nD) : (Vin1 m c (Pipeline.arrRef spec1 4) : Vec Ideal S2592x32 .f32) = (hwts m c).wfl := V5_arg12 m (outsH m) c
theorem head_bfl (c : Dev nD) : (Vin1 m c (Pipeline.arrRef spec1 5) : Vec Ideal S1x32 .f32) = (hwts m c).bfl := V5_arg13 m (outsH m) c
theorem head_wout (c : Dev nD) : (Vin1 m c (Pipeline.arrRef spec1 6) : Vec Ideal S128x10 .f32) = (hwts m c).wout := V5_arg14 m (outsH m) c
theorem head_bout (c : Dev nD) : (Vin1 m c (Pipeline.arrRef spec1 7) : Vec Ideal S1x10 .f32) = (hwts m c).bout := V5_arg15 m (outsH m) c

/-- The second launch's output array is the specification's output layer. -/
theorem out8_spec (c : Dev nD) : (dat1 (Vin1 m) c).arrAt 8 cfg1.N = Cert.Spec.outArr (sigX m c) (wts m c) (hwts m c) := by
  refine (region1_out8 (Vin1 m) c).trans ?_
  rw [head_wcon, head_bcon, head_wfl, head_bfl, head_wout, head_bout]
  funext i
  obtain ⟨b, k, rfl⟩ : ∃ (b : Fin 128) (k : Fin 10), i = ix2 b k := ⟨i 0, i 1, eq_ix2 i⟩
  show _ = Cert.Spec.out (sigX m c) (wts m c) (hwts m c) b k
  exact pay2_eq_out (sigX m c) (wts m c) (hwts m c) (Vin1 m c main_v14) (Vin1 m c main_v17)
    (fun g ch w => head_hz m c g ch w) (fun b co s wl => head_hx m c b co s wl) b k

/-- The second launch's feature array is the specification's concatenated features. -/
theorem out9_spec (c : Dev nD) : (dat1 (Vin1 m) c).arrAt 9 cfg1.N = Cert.Spec.x6Arr (sigX m c) (wts m c) (hwts m c) := by
  refine (region1_out9 (Vin1 m) c).trans ?_
  rw [head_wcon, head_bcon, head_wfl, head_bfl]
  funext i
  obtain ⟨b, n, rfl⟩ : ∃ (b : Fin 128) (n : Fin 128), i = ix2 b n := ⟨i 0, i 1, eq_ix2 i⟩
  show _ = Cert.Spec.x6 (sigX m c) (wts m c) (hwts m c) b n
  exact pay1_eq_x6 (sigX m c) (wts m c) (hwts m c) (Vin1 m c main_v14) (Vin1 m c main_v17)
    (fun g ch w => head_hz m c g ch w) (fun b co s wl => head_hx m c b co s wl) b n

/-- The reference program's run, its two results at the specification's arrays of the arguments, the arguments unchanged. -/
theorem ref_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18_0) = Cert.Spec.outArr (sigX m c) (wts m c) (hwts m c)
      ∧ r.2.mem ((c.tc : Thread nD τ).loc main_v18_1) = Cert.Spec.x6Arr (sigX m c) (wts m c) (hwts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (out8_spec m c), (h c).2.1.trans (out9_spec m c), (h c).2.2⟩)
    (run_named m ρ)

end Cert.ReferenceIdeal.RV

end
-- ==== Proof.lean ====
/- The five claims of this certificate.
   Each program runs @main as host stretches around two kernel regions; its frame is assembled from one segment record
   per region (the region's body run at every grid point). The two idealized programs are then each shown to end with the
   results of ONE specification over the extended reals (a strided convolution, a 64-wide max pool, a two-tap convolution,
   a 3-wide max pool, the stride-3 fusion taps and the dense head): the kernel's width-major arrangement with its doubling
   max tree and the reference's channels-major arrangement with its 64-tap running maximum are the same finite sums and
   lattice joins in another order, so the results agree index by index once the arguments agree. -/
import proofs.«116650_g2000303023666169_pallasbulk_55_22_alg».proof.Defs
import proofs.«116650_g2000303023666169_pallasbulk_55_22_alg».proof.Proof.Gen.Kernel
import proofs.«116650_g2000303023666169_pallasbulk_55_22_alg».proof.Proof.Gen.KernelIdeal
import proofs.«116650_g2000303023666169_pallasbulk_55_22_alg».proof.Proof.Gen.ReferenceIdeal
import proofs.«116650_g2000303023666169_pallasbulk_55_22_alg».proof.Proof.Gen.Pre_finite_inputs
import proofs.«116650_g2000303023666169_pallasbulk_55_22_alg».proof.Proof.K.Frame
import proofs.«116650_g2000303023666169_pallasbulk_55_22_alg».proof.Proof.KI.Frame
import proofs.«116650_g2000303023666169_pallasbulk_55_22_alg».proof.Proof.RI.Frame
import proofs.«116650_g2000303023666169_pallasbulk_55_22_alg».proof.Proof.KV.KernelValue
import proofs.«116650_g2000303023666169_pallasbulk_55_22_alg».proof.Proof.RV.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => Cert.ReferenceIdeal.Hand.frame m ρ

/-- Both idealized programs end at the specification's results of their own arguments; arguments that agree give the
    same specification. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.outArr (Cert.KernelIdeal.KV.sigX m c) (Cert.KernelIdeal.KV.wts m c) (Cert.KernelIdeal.KV.hwts m c),
    fun c => Cert.Spec.x6Arr (Cert.KernelIdeal.KV.sigX m c) (Cert.KernelIdeal.KV.wts m c) (Cert.KernelIdeal.KV.hwts m c),
    Cert.KernelIdeal.KV.kernel_value m ρ, ?_⟩
  refine (θ_run Cert.ReferenceIdeal.defs _ _).mono (fun r h c => ?_) (Cert.ReferenceIdeal.RV.ref_value m' ρ')
  obtain ⟨h0, h1, hargs⟩ := h c
  obtain ⟨e0, e1, e2, e3, e4, e5, e6, e7, e8, e9, e10, e11, e12, e13, e14, e15⟩ := hagree c
  have hX : Cert.ReferenceIdeal.RV.sigX m' c = Cert.KernelIdeal.KV.sigX m c := e0
  have hW : Cert.ReferenceIdeal.RV.wts m' c = Cert.KernelIdeal.KV.wts m c := by
    unfold Cert.ReferenceIdeal.RV.wts Cert.KernelIdeal.KV.wts
    rw [e1, e2, e3, e4, e5, e6, e7, e8, e9]
  have hH : Cert.ReferenceIdeal.RV.hwts m' c = Cert.KernelIdeal.KV.hwts m c := by
    unfold Cert.ReferenceIdeal.RV.hwts Cert.KernelIdeal.KV.hwts
    rw [e10, e11, e12, e13, e14, e15]
  exact ⟨h0.trans (by rw [hX, hW, hH]), h1.trans (by rw [hX, hW, hH]), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
